-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v389)) (v1 : (c : Dev Cert.KernelIdeal.nD) → Buf (Elt Ideal) ((c.tc : Thread Cert.KernelIdeal.nD Cert.KernelIdeal.τ).loc Cert.KernelIdeal.main_v391)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v389) = v0 c
          ∧ r.2.mem ((c.tc : Thread Cert.KernelIdeal.nD Cert.KernelIdeal.τ).loc Cert.KernelIdeal.main_v391) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v414) = v0 c
          ∧ r.2.mem ((c.tc : Thread Cert.ReferenceIdeal.nD Cert.ReferenceIdeal.τ).loc Cert.ReferenceIdeal.main_v415) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S10000x64 : Shape := ⟨2, ![10000, 64]⟩
abbrev S2x1600000 : Shape := ⟨2, ![2, 1600000]⟩
abbrev S2x320000 : Shape := ⟨2, ![2, 320000]⟩
abbrev S2x500000 : Shape := ⟨2, ![2, 500000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S10000x64 : S_.BroadcastsInDim S10000x64 (![] : Fin 0 → Fin S10000x64.rank)
  reducesTo_S10000x64_S_d0_1 : S10000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part5 {F : FTy → Type} [FloatOps F] (main_v83 : IVec S_ 1) (main_v84 : FVec F S32 .f32) (main_cst_32 : FVec F S_ .f32) : IVec S_ 1 :=
  let main_v85 : FVec F S32 .f32 := broadcastInDim S32 ![] bcast_S_S32 main_cst_32
  let main_v86 : IVec S32 1 := cmpf .olt main_v84 main_v85
  let main_c_33 : IVec S_ 1 := constantI S_ 1 1#1
  let main_v87 : IVec S_ 1 := (fun x v => Host.reduce IntOp.andi x v reducesTo_S32_S_d0 h_S_) main_v86 main_c_33
  let main_v88 : IVec S_ 1 := andi main_v83 main_v87
  main_v88

def fn_part4 {F : FTy → Type} [FloatOps F] (main_arg18 : FVec F S64x32 .f32) (main_arg19 : FVec F S32 .f32) (main_arg20 : FVec F S64x32 .f32) (main_arg21 : FVec F S32 .f32) (main_v63 : IVec S_ 1) (main_v67 : IVec S_ 1) : IVec S_ 1 :=
  let main_v68 : IVec S_ 1 := andi main_v63 main_v67
  let main_v69 : FVec F S64x32 .f32 := Host.absf main_arg18
  let main_cst_26 : FVec F S_ .f32 := constant S_ .f32 0x7F800000#32
  let main_v70 : FVec F S64x32 .f32 := broadcastInDim S64x32 ![] bcast_S_S64x32 main_cst_26
  let main_v71 : IVec S64x32 1 := cmpf .olt main_v69 main_v70
  let main_c_27 : IVec S_ 1 := constantI S_ 1 1#1
  let main_v72 : IVec S_ 1 := (fun x v => Host.reduce IntOp.andi x v reducesTo_S64x32_S_d0_1 h_S_) main_v71 main_c_27
  let main_v73 : IVec S_ 1 := andi main_v68 main_v72
  let main_v74 : FVec F S32 .f32 := Host.absf main_arg19
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  let main_v79 : FVec F S64x32 .f32 := Host.absf main_arg20
  let main_cst_30 : FVec F S_ .f32 := constant S_ .f32 0x7F800000#32
  let main_v80 : FVec F S64x32 .f32 := broadcastInDim S64x32 ![] bcast_S_S64x32 main_cst_30
  let main_v81 : IVec S64x32 1 := cmpf .olt main_v79 main_v80
  let main_c_31 : IVec S_ 1 := constantI S_ 1 1#1
  let main_v82 : IVec S_ 1 := (fun x v => Host.reduce IntOp.andi x v reducesTo_S64x32_S_d0_1 h_S_) main_v81 main_c_31
  let main_v83 : IVec S_ 1 := andi main_v78 main_v82
  let main_v84 : FVec F S32 .f32 := Host.absf main_arg21
  let main_cst_32 : FVec F S_ .f32 := constant S_ .f32 0x7F800000#32
  fn_part5 (F := F) main_v83 main_v84 main_cst_32

def fn_part3 {F : FTy → Type} [FloatOps F] (main_arg15 : FVec F S32 .f32) (main_arg16 : FVec F S64x32 .f32) (main_arg17 : FVec F S32 .f32) (main_arg18 : FVec F S64x32 .f32) (main_arg19 : FVec F S32 .f32) (main_arg20 : FVec F S64x32 .f32) (main_arg21 : FVec F S32 .f32) (main_v48 : IVec S_ 1) (main_v49 : FVec F S64x32 .f32) (main_v50 : FVec F S64x32 .f32) : IVec S_ 1 :=
  let main_v51 : IVec S64x32 1 := cmpf .olt main_v49 main_v50
  let main_c_19 : IVec S_ 1 := constantI S_ 1 1#1
  let main_v52 : IVec S_ 1 := (fun x v => Host.reduce IntOp.andi x v reducesTo_S64x32_S_d0_1 h_S_) main_v51 main_c_19
  let main_v53 : IVec S_ 1 := andi main_v48 main_v52
  let main_v54 : FVec F S32 .f32 := Host.absf main_arg15
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S64x32 .f32 := Host.absf main_arg16
  let main_cst_22 : FVec F S_ .f32 := constant S_ .f32 0x7F800000#32
  let main_v60 : FVec F S64x32 .f32 := broadcastInDim S64x32 ![] bcast_S_S64x32 main_cst_22
  let main_v61 : IVec S64x32 1 := cmpf .olt main_v59 main_v60
  let main_c_23 : IVec S_ 1 := constantI S_ 1 1#1
  let main_v62 : IVec S_ 1 := (fun x v => Host.reduce IntOp.andi x v reducesTo_S64x32_S_d0_1 h_S_) main_v61 main_c_23
  let main_v63 : IVec S_ 1 := andi main_v58 main_v62
  let main_v64 : FVec F S32 .f32 := Host.absf main_arg17
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg18 main_arg19 main_arg20 main_arg21 main_v63 main_v67

def fn_part2 {F : FTy → Type} [FloatOps F] (main_arg11 : FVec F S64 .f32) (main_arg12 : FVec F S64x64 .f32) (main_arg13 : FVec F S64 .f32) (main_arg14 : FVec F S64x32 .f32) (main_arg15 : FVec F S32 .f32) (main_arg16 : FVec F S64x32 .f32) (main_arg17 : FVec F S32 .f32) (main_arg18 : FVec F S64x32 .f32) (main_arg19 : FVec F S32 .f32) (main_arg20 : FVec F S64x32 .f32) (main_arg21 : FVec F S32 .f32) (main_v33 : IVec S_ 1) : IVec S_ 1 :=
  let main_v34 : FVec F S64 .f32 := Host.absf main_arg11
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg12
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg13
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x32 .f32 := Host.absf main_arg14
  let main_cst_18 : FVec F S_ .f32 := constant S_ .f32 0x7F800000#32
  let main_v50 : FVec F S64x32 .f32 := broadcastInDim S64x32 ![] bcast_S_S64x32 main_cst_18
  fn_part3 (F := F) main_arg15 main_arg16 main_arg17 main_arg18 main_arg19 main_arg20 main_arg21 main_v48 main_v49 main_v50

def fn_part1 {F : FTy → Type} [FloatOps F] (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64x32 .f32) (main_arg15 : FVec F S32 .f32) (main_arg16 : FVec F S64x32 .f32) (main_arg17 : FVec F S32 .f32) (main_arg18 : FVec F S64x32 .f32) (main_arg19 : FVec F S32 .f32) (main_arg20 : FVec F S64x32 .f32) (main_arg21 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg8
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg9
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg10
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg11 main_arg12 main_arg13 main_arg14 main_arg15 main_arg16 main_arg17 main_arg18 main_arg19 main_arg20 main_arg21 main_v33

def fn {F : FTy → Type} [FloatOps F] (main_arg0 : FVec F S50000x64 .f32) (main_arg1 : FVec F S10000x64 .f32) (main_arg2 : IVec S2x1600000 32) (main_arg3 : IVec S2x320000 32) (main_arg4 : IVec S2x500000 32) (main_arg5 : IVec S2x500000 32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64x32 .f32) (main_arg15 : FVec F S32 .f32) (main_arg16 : FVec F S64x32 .f32) (main_arg17 : FVec F S32 .f32) (main_arg18 : FVec F S64x32 .f32) (main_arg19 : FVec F S32 .f32) (main_arg20 : FVec F S64x32 .f32) (main_arg21 : FVec F S32 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S10000x64 .f32 := Host.absf main_arg1
  let main_cst_0 : FVec F S_ .f32 := constant S_ .f32 0x7F800000#32
  let main_v5 : FVec F S10000x64 .f32 := broadcastInDim S10000x64 ![] bcast_S_S10000x64 main_cst_0
  let main_v6 : IVec S10000x64 1 := cmpf .olt main_v4 main_v5
  let main_c_1 : IVec S_ 1 := constantI S_ 1 1#1
  let main_v7 : IVec S_ 1 := (fun x v => Host.reduce IntOp.andi x v reducesTo_S10000x64_S_d0_1 h_S_) main_v6 main_c_1
  let main_v8 : IVec S_ 1 := andi main_v3 main_v7
  let main_v9 : FVec F S64x64 .f32 := Host.absf main_arg6
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg7
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg8 main_arg9 main_arg10 main_arg11 main_arg12 main_arg13 main_arg14 main_arg15 main_arg16 main_arg17 main_arg18 main_arg19 main_arg20 main_arg21 main_v13 main_v16
-- ==== Kernel.lean ====
abbrev S50000x64 : Shape := ⟨2, ![50000, 64]⟩
abbrev S10000x64 : Shape := ⟨2, ![10000, 64]⟩
abbrev S2x1600000 : Shape := ⟨2, ![2, 1600000]⟩
abbrev S2x320000 : Shape := ⟨2, ![2, 320000]⟩
abbrev S2x500000 : Shape := ⟨2, ![2, 500000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S2000x64 : Shape := ⟨2, ![2000, 64]⟩
abbrev S1x1600000 : Shape := ⟨2, ![1, 1600000]⟩
abbrev S1600000 : Shape := ⟨1, ![1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S1650000x64 : Shape := ⟨2, ![1650000, 64]⟩
abbrev S1x500000 : Shape := ⟨2, ![1, 500000]⟩
abbrev S500000 : Shape := ⟨1, ![500000]⟩
abbrev S10000 : Shape := ⟨1, ![10000]⟩
abbrev S500000x1 : Shape := ⟨2, ![500000, 1]⟩
abbrev S500000x64 : Shape := ⟨2, ![500000, 64]⟩
abbrev S1x320000 : Shape := ⟨2, ![1, 320000]⟩
abbrev S320000 : Shape := ⟨1, ![320000]⟩
abbrev S330000 : Shape := ⟨1, ![330000]⟩
abbrev S330000x1 : Shape := ⟨2, ![330000, 1]⟩
abbrev S330000x64 : Shape := ⟨2, ![330000, 64]⟩
abbrev S1x64 : Shape := ⟨2, ![1, 64]⟩
abbrev S50000x32 : Shape := ⟨2, ![50000, 32]⟩
abbrev S2000x32 : Shape := ⟨2, ![2000, 32]⟩
abbrev S1650000x32 : Shape := ⟨2, ![1650000, 32]⟩
abbrev S10000x32 : Shape := ⟨2, ![10000, 32]⟩
abbrev S500000x32 : Shape := ⟨2, ![500000, 32]⟩
abbrev S330000x32 : Shape := ⟨2, ![330000, 32]⟩
abbrev S1x32 : Shape := ⟨2, ![1, 32]⟩

abbrev nBuf : Space → Nat
  | .hbm => 550
  | .vmem => 68
  | .smem => 0
  | _ => 0

abbrev hbmTy0_0 (i : Nat) : BufTy := match i % 128 with
  | 0 => ⟨S50000x64, .f32⟩
  | 1 => ⟨S10000x64, .f32⟩
  | 2 => ⟨S2x1600000, .i32⟩
  | 3 => ⟨S2x320000, .i32⟩
  | 4 => ⟨S2x500000, .i32⟩
  | 5 => ⟨S2x500000, .i32⟩
  | 6 => ⟨S64x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64x64, .f32⟩
  | 13 => ⟨S64, .f32⟩
  | 14 => ⟨S64x32, .f32⟩
  | 15 => ⟨S32, .f32⟩
  | 16 => ⟨S64x32, .f32⟩
  | 17 => ⟨S32, .f32⟩
  | 18 => ⟨S64x32, .f32⟩
  | 19 => ⟨S32, .f32⟩
  | 20 => ⟨S64x32, .f32⟩
  | 21 => ⟨S32, .f32⟩
  | 22 => ⟨S50000x64, .f32⟩
  | 23 => ⟨S1x1600000, .i32⟩
  | 24 => ⟨S1600000, .i32⟩
  | 25 => ⟨S1x1600000, .i32⟩
  | 26 => ⟨S1600000, .i32⟩
  | 27 => ⟨S50000, .i32⟩
  | 28 => ⟨S1650000, .i32⟩
  | 29 => ⟨S1650000, .i32⟩
  | 30 => ⟨S_, .f32⟩
  | 31 => ⟨S1650000, .f32⟩
  | 32 => ⟨S_, .f32⟩
  | 33 => ⟨S50000, .f32⟩
  | 34 => ⟨S1650000x1, .i32⟩
  | 35 => ⟨S50000, .f32⟩
  | 36 => ⟨S_, .f32⟩
  | 37 => ⟨S50000, .f32⟩
  | 38 => ⟨S50000, .i1⟩
  | 39 => ⟨S_, .f32⟩
  | 40 => ⟨S50000, .f32⟩
  | 41 => ⟨S50000, .f32⟩
  | 42 => ⟨S_, .f32⟩
  | 43 => ⟨S_, .f32⟩
  | 44 => ⟨S50000, .f32⟩
  | 45 => ⟨S50000, .f32⟩
  | 46 => ⟨S_, .i32⟩
  | 47 => ⟨S1650000, .i32⟩
  | 48 => ⟨S1650000, .i1⟩
  | 49 => ⟨S_, .i32⟩
  | 50 => ⟨S1650000, .i32⟩
  | 51 => ⟨S1650000, .i32⟩
  | 52 => ⟨S1650000, .i32⟩
  | 53 => ⟨S1650000x1, .i32⟩
  | 54 => ⟨S1650000, .f32⟩
  | 55 => ⟨S_, .i32⟩
  | 56 => ⟨S1650000, .i32⟩
  | 57 => ⟨S1650000, .i1⟩
  | 58 => ⟨S_, .i32⟩
  | 59 => ⟨S1650000, .i32⟩
  | 60 => ⟨S1650000, .i32⟩
  | 61 => ⟨S1650000, .i32⟩
  | 62 => ⟨S1650000x1, .i32⟩
  | 63 => ⟨S1650000, .f32⟩
  | 64 => ⟨S1650000, .f32⟩
  | 65 => ⟨S_, .i32⟩
  | 66 => ⟨S1650000, .i32⟩
  | 67 => ⟨S1650000, .i1⟩
  | 68 => ⟨S_, .i32⟩
  | 69 => ⟨S1650000, .i32⟩
  | 70 => ⟨S1650000, .i32⟩
  | 71 => ⟨S1650000, .i32⟩
  | 72 => ⟨S1650000x1, .i32⟩
  | 73 => ⟨S1650000x64, .f32⟩
  | 74 => ⟨S1650000x1, .f32⟩
  | 75 => ⟨S1650000x64, .f32⟩
  | 76 => ⟨S1650000x64, .f32⟩
  | 77 => ⟨S_, .f32⟩
  | 78 => ⟨S50000x64, .f32⟩
  | 79 => ⟨S1650000x1, .i32⟩
  | 80 => ⟨S50000x64, .f32⟩
  | 81 => ⟨S10000x64, .f32⟩
  | 82 => ⟨S1x500000, .i32⟩
  | 83 => ⟨S500000, .i32⟩
  | 84 => ⟨S1x500000, .i32⟩
  | 85 => ⟨S500000, .i32⟩
  | 86 => ⟨S_, .f32⟩
  | 87 => ⟨S500000, .f32⟩
  | 88 => ⟨S_, .f32⟩
  | 89 => ⟨S10000, .f32⟩
  | 90 => ⟨S500000x1, .i32⟩
  | 91 => ⟨S10000, .f32⟩
  | 92 => ⟨S_, .f32⟩
  | 93 => ⟨S50000, .f32⟩
  | 94 => ⟨S500000x1, .i32⟩
  | 95 => ⟨S50000, .f32⟩
  | 96 => ⟨S_, .f32⟩
  | 97 => ⟨S10000, .f32⟩
  | 98 => ⟨S10000, .i1⟩
  | 99 => ⟨S_, .f32⟩
  | 100 => ⟨S10000, .f32⟩
  | 101 => ⟨S10000, .f32⟩
  | 102 => ⟨S_, .f32⟩
  | 103 => ⟨S_, .f32⟩
  | 104 => ⟨S10000, .f32⟩
  | 105 => ⟨S10000, .f32⟩
  | 106 => ⟨S_, .f32⟩
  | 107 => ⟨S50000, .f32⟩
  | 108 => ⟨S50000, .i1⟩
  | 109 => ⟨S_, .f32⟩
  | 110 => ⟨S50000, .f32⟩
  | 111 => ⟨S50000, .f32⟩
  | 112 => ⟨S_, .f32⟩
  | 113 => ⟨S_, .f32⟩
  | 114 => ⟨S50000, .f32⟩
  | 115 => ⟨S50000, .f32⟩
  | 116 => ⟨S_, .i32⟩
  | 117 => ⟨S500000, .i32⟩
  | 118 => ⟨S500000, .i1⟩
  | 119 => ⟨S_, .i32⟩
  | 120 => ⟨S500000, .i32⟩
  | 121 => ⟨S500000, .i32⟩
  | 122 => ⟨S500000, .i32⟩
  | 123 => ⟨S500000x1, .i32⟩
  | 124 => ⟨S500000, .f32⟩
  | 125 => ⟨S_, .i32⟩
  | 126 => ⟨S500000, .i32⟩
  | 127 => ⟨S500000, .i1⟩
  | _ => ⟨S50000x64, .f32⟩

abbrev hbmTy0_1 (i : Nat) : BufTy := match i % 128 with
  | 0 => ⟨S_, .i32⟩
  | 1 => ⟨S500000, .i32⟩
  | 2 => ⟨S500000, .i32⟩
  | 3 => ⟨S500000, .i32⟩
  | 4 => ⟨S500000x1, .i32⟩
  | 5 => ⟨S500000, .f32⟩
  | 6 => ⟨S500000, .f32⟩
  | 7 => ⟨S_, .i32⟩
  | 8 => ⟨S500000, .i32⟩
  | 9 => ⟨S500000, .i1⟩
  | 10 => ⟨S_, .i32⟩
  | 11 => ⟨S500000, .i32⟩
  | 12 => ⟨S500000, .i32⟩
  | 13 => ⟨S500000, .i32⟩
  | 14 => ⟨S500000x1, .i32⟩
  | 15 => ⟨S500000x64, .f32⟩
  | 16 => ⟨S500000x1, .f32⟩
  | 17 => ⟨S500000x64, .f32⟩
  | 18 => ⟨S500000x64, .f32⟩
  | 19 => ⟨S_, .f32⟩
  | 20 => ⟨S50000x64, .f32⟩
  | 21 => ⟨S500000x1, .i32⟩
  | 22 => ⟨S50000x64, .f32⟩
  | 23 => ⟨S10000x64, .f32⟩
  | 24 => ⟨S1x320000, .i32⟩
  | 25 => ⟨S320000, .i32⟩
  | 26 => ⟨S1x320000, .i32⟩
  | 27 => ⟨S320000, .i32⟩
  | 28 => ⟨S10000, .i32⟩
  | 29 => ⟨S330000, .i32⟩
  | 30 => ⟨S330000, .i32⟩
  | 31 => ⟨S_, .f32⟩
  | 32 => ⟨S330000, .f32⟩
  | 33 => ⟨S_, .f32⟩
  | 34 => ⟨S10000, .f32⟩
  | 35 => ⟨S330000x1, .i32⟩
  | 36 => ⟨S10000, .f32⟩
  | 37 => ⟨S_, .f32⟩
  | 38 => ⟨S10000, .f32⟩
  | 39 => ⟨S10000, .i1⟩
  | 40 => ⟨S_, .f32⟩
  | 41 => ⟨S10000, .f32⟩
  | 42 => ⟨S10000, .f32⟩
  | 43 => ⟨S_, .f32⟩
  | 44 => ⟨S_, .f32⟩
  | 45 => ⟨S10000, .f32⟩
  | 46 => ⟨S10000, .f32⟩
  | 47 => ⟨S_, .i32⟩
  | 48 => ⟨S330000, .i32⟩
  | 49 => ⟨S330000, .i1⟩
  | 50 => ⟨S_, .i32⟩
  | 51 => ⟨S330000, .i32⟩
  | 52 => ⟨S330000, .i32⟩
  | 53 => ⟨S330000, .i32⟩
  | 54 => ⟨S330000x1, .i32⟩
  | 55 => ⟨S330000, .f32⟩
  | 56 => ⟨S_, .i32⟩
  | 57 => ⟨S330000, .i32⟩
  | 58 => ⟨S330000, .i1⟩
  | 59 => ⟨S_, .i32⟩
  | 60 => ⟨S330000, .i32⟩
  | 61 => ⟨S330000, .i32⟩
  | 62 => ⟨S330000, .i32⟩
  | 63 => ⟨S330000x1, .i32⟩
  | 64 => ⟨S330000, .f32⟩
  | 65 => ⟨S330000, .f32⟩
  | 66 => ⟨S_, .i32⟩
  | 67 => ⟨S330000, .i32⟩
  | 68 => ⟨S330000, .i1⟩
  | 69 => ⟨S_, .i32⟩
  | 70 => ⟨S330000, .i32⟩
  | 71 => ⟨S330000, .i32⟩
  | 72 => ⟨S330000, .i32⟩
  | 73 => ⟨S330000x1, .i32⟩
  | 74 => ⟨S330000x64, .f32⟩
  | 75 => ⟨S330000x1, .f32⟩
  | 76 => ⟨S330000x64, .f32⟩
  | 77 => ⟨S330000x64, .f32⟩
  | 78 => ⟨S_, .f32⟩
  | 79 => ⟨S10000x64, .f32⟩
  | 80 => ⟨S330000x1, .i32⟩
  | 81 => ⟨S10000x64, .f32⟩
  | 82 => ⟨S50000x64, .f32⟩
  | 83 => ⟨S1x500000, .i32⟩
  | 84 => ⟨S500000, .i32⟩
  | 85 => ⟨S1x500000, .i32⟩
  | 86 => ⟨S500000, .i32⟩
  | 87 => ⟨S_, .f32⟩
  | 88 => ⟨S500000, .f32⟩
  | 89 => ⟨S_, .f32⟩
  | 90 => ⟨S50000, .f32⟩
  | 91 => ⟨S500000x1, .i32⟩
  | 92 => ⟨S50000, .f32⟩
  | 93 => ⟨S_, .f32⟩
  | 94 => ⟨S10000, .f32⟩
  | 95 => ⟨S500000x1, .i32⟩
  | 96 => ⟨S10000, .f32⟩
  | 97 => ⟨S_, .f32⟩
  | 98 => ⟨S50000, .f32⟩
  | 99 => ⟨S50000, .i1⟩
  | 100 => ⟨S_, .f32⟩
  | 101 => ⟨S50000, .f32⟩
  | 102 => ⟨S50000, .f32⟩
  | 103 => ⟨S_, .f32⟩
  | 104 => ⟨S_, .f32⟩
  | 105 => ⟨S50000, .f32⟩
  | 106 => ⟨S50000, .f32⟩
  | 107 => ⟨S_, .f32⟩
  | 108 => ⟨S10000, .f32⟩
  | 109 => ⟨S10000, .i1⟩
  | 110 => ⟨S_, .f32⟩
  | 111 => ⟨S10000, .f32⟩
  | 112 => ⟨S10000, .f32⟩
  | 113 => ⟨S_, .f32⟩
  | 114 => ⟨S_, .f32⟩
  | 115 => ⟨S10000, .f32⟩
  | 116 => ⟨S10000, .f32⟩
  | 117 => ⟨S_, .i32⟩
  | 118 => ⟨S500000, .i32⟩
  | 119 => ⟨S500000, .i1⟩
  | 120 => ⟨S_, .i32⟩
  | 121 => ⟨S500000, .i32⟩
  | 122 => ⟨S500000, .i32⟩
  | 123 => ⟨S500000, .i32⟩
  | 124 => ⟨S500000x1, .i32⟩
  | 125 => ⟨S500000, .f32⟩
  | 126 => ⟨S_, .i32⟩
  | 127 => ⟨S500000, .i32⟩
  | _ => ⟨S50000x64, .f32⟩

abbrev hbmTy0_2 (i : Nat) : BufTy := match i % 128 with
  | 0 => ⟨S500000, .i1⟩
  | 1 => ⟨S_, .i32⟩
  | 2 => ⟨S500000, .i32⟩
  | 3 => ⟨S500000, .i32⟩
  | 4 => ⟨S500000, .i32⟩
  | 5 => ⟨S500000x1, .i32⟩
  | 6 => ⟨S500000, .f32⟩
  | 7 => ⟨S500000, .f32⟩
  | 8 => ⟨S_, .i32⟩
  | 9 => ⟨S500000, .i32⟩
  | 10 => ⟨S500000, .i1⟩
  | 11 => ⟨S_, .i32⟩
  | 12 => ⟨S500000, .i32⟩
  | 13 => ⟨S500000, .i32⟩
  | 14 => ⟨S500000, .i32⟩
  | 15 => ⟨S500000x1, .i32⟩
  | 16 => ⟨S500000x64, .f32⟩
  | 17 => ⟨S500000x1, .f32⟩
  | 18 => ⟨S500000x64, .f32⟩
  | 19 => ⟨S500000x64, .f32⟩
  | 20 => ⟨S_, .f32⟩
  | 21 => ⟨S10000x64, .f32⟩
  | 22 => ⟨S500000x1, .i32⟩
  | 23 => ⟨S10000x64, .f32⟩
  | 24 => ⟨S64, .f32⟩
  | 25 => ⟨S64, .f32⟩
  | 26 => ⟨S1x64, .f32⟩
  | 27 => ⟨S50000x64, .f32⟩
  | 28 => ⟨S1x64, .f32⟩
  | 29 => ⟨S10000x64, .f32⟩
  | 30 => ⟨S50000x32, .f32⟩
  | 31 => ⟨S1x1600000, .i32⟩
  | 32 => ⟨S1600000, .i32⟩
  | 33 => ⟨S1x1600000, .i32⟩
  | 34 => ⟨S1600000, .i32⟩
  | 35 => ⟨S50000, .i32⟩
  | 36 => ⟨S1650000, .i32⟩
  | 37 => ⟨S1650000, .i32⟩
  | 38 => ⟨S_, .f32⟩
  | 39 => ⟨S1650000, .f32⟩
  | 40 => ⟨S_, .f32⟩
  | 41 => ⟨S50000, .f32⟩
  | 42 => ⟨S1650000x1, .i32⟩
  | 43 => ⟨S50000, .f32⟩
  | 44 => ⟨S_, .f32⟩
  | 45 => ⟨S50000, .f32⟩
  | 46 => ⟨S50000, .i1⟩
  | 47 => ⟨S_, .f32⟩
  | 48 => ⟨S50000, .f32⟩
  | 49 => ⟨S50000, .f32⟩
  | 50 => ⟨S_, .f32⟩
  | 51 => ⟨S_, .f32⟩
  | 52 => ⟨S50000, .f32⟩
  | 53 => ⟨S50000, .f32⟩
  | 54 => ⟨S_, .i32⟩
  | 55 => ⟨S1650000, .i32⟩
  | 56 => ⟨S1650000, .i1⟩
  | 57 => ⟨S_, .i32⟩
  | 58 => ⟨S1650000, .i32⟩
  | 59 => ⟨S1650000, .i32⟩
  | 60 => ⟨S1650000, .i32⟩
  | 61 => ⟨S1650000x1, .i32⟩
  | 62 => ⟨S1650000, .f32⟩
  | 63 => ⟨S_, .i32⟩
  | 64 => ⟨S1650000, .i32⟩
  | 65 => ⟨S1650000, .i1⟩
  | 66 => ⟨S_, .i32⟩
  | 67 => ⟨S1650000, .i32⟩
  | 68 => ⟨S1650000, .i32⟩
  | 69 => ⟨S1650000, .i32⟩
  | 70 => ⟨S1650000x1, .i32⟩
  | 71 => ⟨S1650000, .f32⟩
  | 72 => ⟨S1650000, .f32⟩
  | 73 => ⟨S_, .i32⟩
  | 74 => ⟨S1650000, .i32⟩
  | 75 => ⟨S1650000, .i1⟩
  | 76 => ⟨S_, .i32⟩
  | 77 => ⟨S1650000, .i32⟩
  | 78 => ⟨S1650000, .i32⟩
  | 79 => ⟨S1650000, .i32⟩
  | 80 => ⟨S1650000x1, .i32⟩
  | 81 => ⟨S1650000x32, .f32⟩
  | 82 => ⟨S1650000x1, .f32⟩
  | 83 => ⟨S1650000x32, .f32⟩
  | 84 => ⟨S1650000x32, .f32⟩
  | 85 => ⟨S_, .f32⟩
  | 86 => ⟨S50000x32, .f32⟩
  | 87 => ⟨S1650000x1, .i32⟩
  | 88 => ⟨S50000x32, .f32⟩
  | 89 => ⟨S10000x32, .f32⟩
  | 90 => ⟨S1x500000, .i32⟩
  | 91 => ⟨S500000, .i32⟩
  | 92 => ⟨S1x500000, .i32⟩
  | 93 => ⟨S500000, .i32⟩
  | 94 => ⟨S_, .f32⟩
  | 95 => ⟨S500000, .f32⟩
  | 96 => ⟨S_, .f32⟩
  | 97 => ⟨S10000, .f32⟩
  | 98 => ⟨S500000x1, .i32⟩
  | 99 => ⟨S10000, .f32⟩
  | 100 => ⟨S_, .f32⟩
  | 101 => ⟨S50000, .f32⟩
  | 102 => ⟨S500000x1, .i32⟩
  | 103 => ⟨S50000, .f32⟩
  | 104 => ⟨S_, .f32⟩
  | 105 => ⟨S10000, .f32⟩
  | 106 => ⟨S10000, .i1⟩
  | 107 => ⟨S_, .f32⟩
  | 108 => ⟨S10000, .f32⟩
  | 109 => ⟨S10000, .f32⟩
  | 110 => ⟨S_, .f32⟩
  | 111 => ⟨S_, .f32⟩
  | 112 => ⟨S10000, .f32⟩
  | 113 => ⟨S10000, .f32⟩
  | 114 => ⟨S_, .f32⟩
  | 115 => ⟨S50000, .f32⟩
  | 116 => ⟨S50000, .i1⟩
  | 117 => ⟨S_, .f32⟩
  | 118 => ⟨S50000, .f32⟩
  | 119 => ⟨S50000, .f32⟩
  | 120 => ⟨S_, .f32⟩
  | 121 => ⟨S_, .f32⟩
  | 122 => ⟨S50000, .f32⟩
  | 123 => ⟨S50000, .f32⟩
  | 124 => ⟨S_, .i32⟩
  | 125 => ⟨S500000, .i32⟩
  | 126 => ⟨S500000, .i1⟩
  | 127 => ⟨S_, .i32⟩
  | _ => ⟨S50000x64, .f32⟩

abbrev hbmTy0_3 (i : Nat) : BufTy := match i % 128 with
  | 0 => ⟨S500000, .i32⟩
  | 1 => ⟨S500000, .i32⟩
  | 2 => ⟨S500000, .i32⟩
  | 3 => ⟨S500000x1, .i32⟩
  | 4 => ⟨S500000, .f32⟩
  | 5 => ⟨S_, .i32⟩
  | 6 => ⟨S500000, .i32⟩
  | 7 => ⟨S500000, .i1⟩
  | 8 => ⟨S_, .i32⟩
  | 9 => ⟨S500000, .i32⟩
  | 10 => ⟨S500000, .i32⟩
  | 11 => ⟨S500000, .i32⟩
  | 12 => ⟨S500000x1, .i32⟩
  | 13 => ⟨S500000, .f32⟩
  | 14 => ⟨S500000, .f32⟩
  | 15 => ⟨S_, .i32⟩
  | 16 => ⟨S500000, .i32⟩
  | 17 => ⟨S500000, .i1⟩
  | 18 => ⟨S_, .i32⟩
  | 19 => ⟨S500000, .i32⟩
  | 20 => ⟨S500000, .i32⟩
  | 21 => ⟨S500000, .i32⟩
  | 22 => ⟨S500000x1, .i32⟩
  | 23 => ⟨S500000x32, .f32⟩
  | 24 => ⟨S500000x1, .f32⟩
  | 25 => ⟨S500000x32, .f32⟩
  | 26 => ⟨S500000x32, .f32⟩
  | 27 => ⟨S_, .f32⟩
  | 28 => ⟨S50000x32, .f32⟩
  | 29 => ⟨S500000x1, .i32⟩
  | 30 => ⟨S50000x32, .f32⟩
  | 31 => ⟨S10000x32, .f32⟩
  | 32 => ⟨S1x320000, .i32⟩
  | 33 => ⟨S320000, .i32⟩
  | 34 => ⟨S1x320000, .i32⟩
  | 35 => ⟨S320000, .i32⟩
  | 36 => ⟨S10000, .i32⟩
  | 37 => ⟨S330000, .i32⟩
  | 38 => ⟨S330000, .i32⟩
  | 39 => ⟨S_, .f32⟩
  | 40 => ⟨S330000, .f32⟩
  | 41 => ⟨S_, .f32⟩
  | 42 => ⟨S10000, .f32⟩
  | 43 => ⟨S330000x1, .i32⟩
  | 44 => ⟨S10000, .f32⟩
  | 45 => ⟨S_, .f32⟩
  | 46 => ⟨S10000, .f32⟩
  | 47 => ⟨S10000, .i1⟩
  | 48 => ⟨S_, .f32⟩
  | 49 => ⟨S10000, .f32⟩
  | 50 => ⟨S10000, .f32⟩
  | 51 => ⟨S_, .f32⟩
  | 52 => ⟨S_, .f32⟩
  | 53 => ⟨S10000, .f32⟩
  | 54 => ⟨S10000, .f32⟩
  | 55 => ⟨S_, .i32⟩
  | 56 => ⟨S330000, .i32⟩
  | 57 => ⟨S330000, .i1⟩
  | 58 => ⟨S_, .i32⟩
  | 59 => ⟨S330000, .i32⟩
  | 60 => ⟨S330000, .i32⟩
  | 61 => ⟨S330000, .i32⟩
  | 62 => ⟨S330000x1, .i32⟩
  | 63 => ⟨S330000, .f32⟩
  | 64 => ⟨S_, .i32⟩
  | 65 => ⟨S330000, .i32⟩
  | 66 => ⟨S330000, .i1⟩
  | 67 => ⟨S_, .i32⟩
  | 68 => ⟨S330000, .i32⟩
  | 69 => ⟨S330000, .i32⟩
  | 70 => ⟨S330000, .i32⟩
  | 71 => ⟨S330000x1, .i32⟩
  | 72 => ⟨S330000, .f32⟩
  | 73 => ⟨S330000, .f32⟩
  | 74 => ⟨S_, .i32⟩
  | 75 => ⟨S330000, .i32⟩
  | 76 => ⟨S330000, .i1⟩
  | 77 => ⟨S_, .i32⟩
  | 78 => ⟨S330000, .i32⟩
  | 79 => ⟨S330000, .i32⟩
  | 80 => ⟨S330000, .i32⟩
  | 81 => ⟨S330000x1, .i32⟩
  | 82 => ⟨S330000x32, .f32⟩
  | 83 => ⟨S330000x1, .f32⟩
  | 84 => ⟨S330000x32, .f32⟩
  | 85 => ⟨S330000x32, .f32⟩
  | 86 => ⟨S_, .f32⟩
  | 87 => ⟨S10000x32, .f32⟩
  | 88 => ⟨S330000x1, .i32⟩
  | 89 => ⟨S10000x32, .f32⟩
  | 90 => ⟨S50000x32, .f32⟩
  | 91 => ⟨S1x500000, .i32⟩
  | 92 => ⟨S500000, .i32⟩
  | 93 => ⟨S1x500000, .i32⟩
  | 94 => ⟨S500000, .i32⟩
  | 95 => ⟨S_, .f32⟩
  | 96 => ⟨S500000, .f32⟩
  | 97 => ⟨S_, .f32⟩
  | 98 => ⟨S50000, .f32⟩
  | 99 => ⟨S500000x1, .i32⟩
  | 100 => ⟨S50000, .f32⟩
  | 101 => ⟨S_, .f32⟩
  | 102 => ⟨S10000, .f32⟩
  | 103 => ⟨S500000x1, .i32⟩
  | 104 => ⟨S10000, .f32⟩
  | 105 => ⟨S_, .f32⟩
  | 106 => ⟨S50000, .f32⟩
  | 107 => ⟨S50000, .i1⟩
  | 108 => ⟨S_, .f32⟩
  | 109 => ⟨S50000, .f32⟩
  | 110 => ⟨S50000, .f32⟩
  | 111 => ⟨S_, .f32⟩
  | 112 => ⟨S_, .f32⟩
  | 113 => ⟨S50000, .f32⟩
  | 114 => ⟨S50000, .f32⟩
  | 115 => ⟨S_, .f32⟩
  | 116 => ⟨S10000, .f32⟩
  | 117 => ⟨S10000, .i1⟩
  | 118 => ⟨S_, .f32⟩
  | 119 => ⟨S10000, .f32⟩
  | 120 => ⟨S10000, .f32⟩
  | 121 => ⟨S_, .f32⟩
  | 122 => ⟨S_, .f32⟩
  | 123 => ⟨S10000, .f32⟩
  | 124 => ⟨S10000, .f32⟩
  | 125 => ⟨S_, .i32⟩
  | 126 => ⟨S500000, .i32⟩
  | 127 => ⟨S500000, .i1⟩
  | _ => ⟨S50000x64, .f32⟩

abbrev hbmTy0_4 (i : Nat) : BufTy := match i % 128 with
  | 0 => ⟨S_, .i32⟩
  | 1 => ⟨S500000, .i32⟩
  | 2 => ⟨S500000, .i32⟩
  | 3 => ⟨S500000, .i32⟩
  | 4 => ⟨S500000x1, .i32⟩
  | 5 => ⟨S500000, .f32⟩
  | 6 => ⟨S_, .i32⟩
  | 7 => ⟨S500000, .i32⟩
  | 8 => ⟨S500000, .i1⟩
  | 9 => ⟨S_, .i32⟩
  | 10 => ⟨S500000, .i32⟩
  | 11 => ⟨S500000, .i32⟩
  | 12 => ⟨S500000, .i32⟩
  | 13 => ⟨S500000x1, .i32⟩
  | 14 => ⟨S500000, .f32⟩
  | 15 => ⟨S500000, .f32⟩
  | 16 => ⟨S_, .i32⟩
  | 17 => ⟨S500000, .i32⟩
  | 18 => ⟨S500000, .i1⟩
  | 19 => ⟨S_, .i32⟩
  | 20 => ⟨S500000, .i32⟩
  | 21 => ⟨S500000, .i32⟩
  | 22 => ⟨S500000, .i32⟩
  | 23 => ⟨S500000x1, .i32⟩
  | 24 => ⟨S500000x32, .f32⟩
  | 25 => ⟨S500000x1, .f32⟩
  | 26 => ⟨S500000x32, .f32⟩
  | 27 => ⟨S500000x32, .f32⟩
  | 28 => ⟨S_, .f32⟩
  | 29 => ⟨S10000x32, .f32⟩
  | 30 => ⟨S500000x1, .i32⟩
  | 31 => ⟨S10000x32, .f32⟩
  | 32 => ⟨S32, .f32⟩
  | 33 => ⟨S32, .f32⟩
  | 34 => ⟨S1x32, .f32⟩
  | 35 => ⟨S50000x32, .f32⟩
  | 36 => ⟨S1x32, .f32⟩
  | 37 => ⟨S10000x32, .f32⟩
  | _ => ⟨S50000x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S50000x64, .f32⟩

abbrev bufTy : (tb : Table) → Fin (tcTables nBuf tb) → BufTy
  | .hbm, ⟨i, _⟩ => hbmTy i
  | .local _ .vmem, ⟨0, _⟩ => ⟨S2000x64, .f32⟩
  | .local _ .vmem, ⟨1, _⟩ => ⟨S2000x64, .f32⟩
  | .local _ .vmem, ⟨2, _⟩ => ⟨S64x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S64x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S64x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S64x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | .local _ .vmem, ⟨24, _⟩ => ⟨S1x64, .f32⟩
  | .local _ .vmem, ⟨25, _⟩ => ⟨S2000x64, .f32⟩
  | .local _ .vmem, ⟨26, _⟩ => ⟨S2000x64, .f32⟩
  | .local _ .vmem, ⟨27, _⟩ => ⟨S2000x64, .f32⟩
  | .local _ .vmem, ⟨28, _⟩ => ⟨S2000x64, .f32⟩
  | .local _ .vmem, ⟨29, _⟩ => ⟨S2000x64, .f32⟩
  | .local _ .vmem, ⟨30, _⟩ => ⟨S2000x64, .f32⟩
  | .local _ .vmem, ⟨31, _⟩ => ⟨S1x64, .f32⟩
  | .local _ .vmem, ⟨32, _⟩ => ⟨S2000x64, .f32⟩
  | .local _ .vmem, ⟨33, _⟩ => ⟨S2000x64, .f32⟩
  | .local _ .vmem, ⟨34, _⟩ => ⟨S2000x64, .f32⟩
  | .local _ .vmem, ⟨35, _⟩ => ⟨S2000x64, .f32⟩
  | .local _ .vmem, ⟨36, _⟩ => ⟨S64x32, .f32⟩
  | .local _ .vmem, ⟨37, _⟩ => ⟨S2000x32, .f32⟩
  | .local _ .vmem, ⟨38, _⟩ => ⟨S2000x32, .f32⟩
  | .local _ .vmem, ⟨39, _⟩ => ⟨S2000x64, .f32⟩
  | .local _ .vmem, ⟨40, _⟩ => ⟨S2000x64, .f32⟩
  | .local _ .vmem, ⟨41, _⟩ => ⟨S64x32, .f32⟩
  | .local _ .vmem, ⟨42, _⟩ => ⟨S2000x32, .f32⟩
  | .local _ .vmem, ⟨43, _⟩ => ⟨S2000x32, .f32⟩
  | .local _ .vmem, ⟨44, _⟩ => ⟨S2000x64, .f32⟩
  | .local _ .vmem, ⟨45, _⟩ => ⟨S2000x64, .f32⟩
  | .local _ .vmem, ⟨46, _⟩ => ⟨S64x32, .f32⟩
  | .local _ .vmem, ⟨47, _⟩ => ⟨S2000x32, .f32⟩
  | .local _ .vmem, ⟨48, _⟩ => ⟨S2000x32, .f32⟩
  | .local _ .vmem, ⟨49, _⟩ => ⟨S2000x64, .f32⟩
  | .local _ .vmem, ⟨50, _⟩ => ⟨S2000x64, .f32⟩
  | .local _ .vmem, ⟨51, _⟩ => ⟨S64x32, .f32⟩
  | .local _ .vmem, ⟨52, _⟩ => ⟨S2000x32, .f32⟩
  | .local _ .vmem, ⟨53, _⟩ => ⟨S2000x32, .f32⟩
  | .local _ .vmem, ⟨54, _⟩ => ⟨S2000x32, .f32⟩
  | .local _ .vmem, ⟨55, _⟩ => ⟨S2000x32, .f32⟩
  | .local _ .vmem, ⟨56, _⟩ => ⟨S2000x32, .f32⟩
  | .local _ .vmem, ⟨57, _⟩ => ⟨S2000x32, .f32⟩
  | .local _ .vmem, ⟨58, _⟩ => ⟨S1x32, .f32⟩
  | .local _ .vmem, ⟨59, _⟩ => ⟨S2000x32, .f32⟩
  | .local _ .vmem, ⟨60, _⟩ => ⟨S2000x32, .f32⟩
  | .local _ .vmem, ⟨61, _⟩ => ⟨S2000x32, .f32⟩
  | .local _ .vmem, ⟨62, _⟩ => ⟨S2000x32, .f32⟩
  | .local _ .vmem, ⟨63, _⟩ => ⟨S2000x32, .f32⟩
  | .local _ .vmem, ⟨64, _⟩ => ⟨S2000x32, .f32⟩
  | .local _ .vmem, ⟨65, _⟩ => ⟨S1x32, .f32⟩
  | .local _ .vmem, ⟨66, _⟩ => ⟨S2000x32, .f32⟩
  | .local _ .vmem, ⟨67, _⟩ => ⟨S2000x32, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_cst_0 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_cst_1 : Ref sig .tc := ⟨.hbm, 36, rfl⟩
abbrev main_v12 : Ref sig .tc := ⟨.hbm, 37, rfl⟩
abbrev main_v13 : Ref sig .tc := ⟨.hbm, 38, rfl⟩
abbrev main_cst_2 : Ref sig .tc := ⟨.hbm, 39, rfl⟩
abbrev main_v14 : Ref sig .tc := ⟨.hbm, 40, rfl⟩
abbrev main_v15 : Ref sig .tc := ⟨.hbm, 41, rfl⟩
abbrev main_cst_3 : Ref sig .tc := ⟨.hbm, 42, rfl⟩
abbrev main_call0_v0 : Ref sig .tc := ⟨.hbm, 43, rfl⟩
abbrev main_call0_v1 : Ref sig .tc := ⟨.hbm, 44, rfl⟩
abbrev main_v16 : Ref sig .tc := ⟨.hbm, 45, rfl⟩
abbrev main_c : Ref sig .tc := ⟨.hbm, 46, rfl⟩
abbrev main_v17 : Ref sig .tc := ⟨.hbm, 47, rfl⟩
abbrev main_v18 : Ref sig .tc := ⟨.hbm, 48, rfl⟩
abbrev main_c_4 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_c_5 : Ref sig .tc := ⟨.hbm, 55, rfl⟩
abbrev main_v24 : Ref sig .tc := ⟨.hbm, 56, rfl⟩
abbrev main_v25 : Ref sig .tc := ⟨.hbm, 57, rfl⟩
abbrev main_c_6 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_c_7 : Ref sig .tc := ⟨.hbm, 65, rfl⟩
abbrev main_v32 : Ref sig .tc := ⟨.hbm, 66, rfl⟩
abbrev main_v33 : Ref sig .tc := ⟨.hbm, 67, rfl⟩
abbrev main_c_8 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_cst_9 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_cst_10 : Ref sig .tc := ⟨.hbm, 86, rfl⟩
abbrev main_v50 : Ref sig .tc := ⟨.hbm, 87, rfl⟩
abbrev main_cst_11 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_cst_12 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_13 : Ref sig .tc := ⟨.hbm, 96, rfl⟩
abbrev main_v57 : Ref sig .tc := ⟨.hbm, 97, rfl⟩
abbrev main_v58 : Ref sig .tc := ⟨.hbm, 98, rfl⟩
abbrev main_cst_14 : Ref sig .tc := ⟨.hbm, 99, rfl⟩
abbrev main_v59 : Ref sig .tc := ⟨.hbm, 100, rfl⟩
abbrev main_v60 : Ref sig .tc := ⟨.hbm, 101, rfl⟩
abbrev main_cst_15 : Ref sig .tc := ⟨.hbm, 102, rfl⟩
abbrev main_call1_v0 : Ref sig .tc := ⟨.hbm, 103, rfl⟩
abbrev main_call1_v1 : Ref sig .tc := ⟨.hbm, 104, rfl⟩
abbrev main_v61 : Ref sig .tc := ⟨.hbm, 105, rfl⟩
abbrev main_cst_16 : Ref sig .tc := ⟨.hbm, 106, rfl⟩
abbrev main_v62 : Ref sig .tc := ⟨.hbm, 107, rfl⟩
abbrev main_v63 : Ref sig .tc := ⟨.hbm, 108, rfl⟩
abbrev main_cst_17 : Ref sig .tc := ⟨.hbm, 109, rfl⟩
abbrev main_v64 : Ref sig .tc := ⟨.hbm, 110, rfl⟩
abbrev main_v65 : Ref sig .tc := ⟨.hbm, 111, rfl⟩
abbrev main_cst_18 : Ref sig .tc := ⟨.hbm, 112, rfl⟩
abbrev main_call2_v0 : Ref sig .tc := ⟨.hbm, 113, rfl⟩
abbrev main_call2_v1 : Ref sig .tc := ⟨.hbm, 114, rfl⟩
abbrev main_v66 : Ref sig .tc := ⟨.hbm, 115, rfl⟩
abbrev main_c_19 : Ref sig .tc := ⟨.hbm, 116, rfl⟩
abbrev main_v67 : Ref sig .tc := ⟨.hbm, 117, rfl⟩
abbrev main_v68 : Ref sig .tc := ⟨.hbm, 118, rfl⟩
abbrev main_c_20 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_c_21 : Ref sig .tc := ⟨.hbm, 125, rfl⟩
abbrev main_v74 : Ref sig .tc := ⟨.hbm, 126, rfl⟩
abbrev main_v75 : Ref sig .tc := ⟨.hbm, 127, rfl⟩
abbrev main_c_22 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_c_23 : Ref sig .tc := ⟨.hbm, 135, rfl⟩
abbrev main_v82 : Ref sig .tc := ⟨.hbm, 136, rfl⟩
abbrev main_v83 : Ref sig .tc := ⟨.hbm, 137, rfl⟩
abbrev main_c_24 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_cst_25 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_cst_26 : Ref sig .tc := ⟨.hbm, 159, rfl⟩
abbrev main_v103 : Ref sig .tc := ⟨.hbm, 160, rfl⟩
abbrev main_cst_27 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_cst_28 : Ref sig .tc := ⟨.hbm, 165, rfl⟩
abbrev main_v107 : Ref sig .tc := ⟨.hbm, 166, rfl⟩
abbrev main_v108 : Ref sig .tc := ⟨.hbm, 167, rfl⟩
abbrev main_cst_29 : Ref sig .tc := ⟨.hbm, 168, rfl⟩
abbrev main_v109 : Ref sig .tc := ⟨.hbm, 169, rfl⟩
abbrev main_v110 : Ref sig .tc := ⟨.hbm, 170, rfl⟩
abbrev main_cst_30 : Ref sig .tc := ⟨.hbm, 171, rfl⟩
abbrev main_call3_v0 : Ref sig .tc := ⟨.hbm, 172, rfl⟩
abbrev main_call3_v1 : Ref sig .tc := ⟨.hbm, 173, rfl⟩
abbrev main_v111 : Ref sig .tc := ⟨.hbm, 174, rfl⟩
abbrev main_c_31 : Ref sig .tc := ⟨.hbm, 175, rfl⟩
abbrev main_v112 : Ref sig .tc := ⟨.hbm, 176, rfl⟩
abbrev main_v113 : Ref sig .tc := ⟨.hbm, 177, rfl⟩
abbrev main_c_32 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_c_33 : Ref sig .tc := ⟨.hbm, 184, rfl⟩
abbrev main_v119 : Ref sig .tc := ⟨.hbm, 185, rfl⟩
abbrev main_v120 : Ref sig .tc := ⟨.hbm, 186, rfl⟩
abbrev main_c_34 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_c_35 : Ref sig .tc := ⟨.hbm, 194, rfl⟩
abbrev main_v127 : Ref sig .tc := ⟨.hbm, 195, rfl⟩
abbrev main_v128 : Ref sig .tc := ⟨.hbm, 196, rfl⟩
abbrev main_c_36 : Ref sig .tc := ⟨.hbm, 197, rfl⟩
abbrev main_v129 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩
abbrev main_v134 : Ref sig .tc := ⟨.hbm, 203, rfl⟩
abbrev main_v135 : Ref sig .tc := ⟨.hbm, 204, rfl⟩
abbrev main_v136 : Ref sig .tc := ⟨.hbm, 205, rfl⟩
abbrev main_cst_37 : Ref sig .tc := ⟨.hbm, 206, rfl⟩
abbrev main_v137 : Ref sig .tc := ⟨.hbm, 207, rfl⟩
abbrev main_v138 : Ref sig .tc := ⟨.hbm, 208, rfl⟩
abbrev main_v139 : Ref sig .tc := ⟨.hbm, 209, rfl⟩
abbrev main_v140 : Ref sig .tc := ⟨.hbm, 210, rfl⟩
abbrev main_v141 : Ref sig .tc := ⟨.hbm, 211, rfl⟩
abbrev main_v142 : Ref sig .tc := ⟨.hbm, 212, rfl⟩
abbrev main_v143 : Ref sig .tc := ⟨.hbm, 213, rfl⟩
abbrev main_v144 : Ref sig .tc := ⟨.hbm, 214, rfl⟩
abbrev main_cst_38 : Ref sig .tc := ⟨.hbm, 215, rfl⟩
abbrev main_v145 : Ref sig .tc := ⟨.hbm, 216, rfl⟩
abbrev main_cst_39 : Ref sig .tc := ⟨.hbm, 217, rfl⟩
abbrev main_v146 : Ref sig .tc := ⟨.hbm, 218, rfl⟩
abbrev main_v147 : Ref sig .tc := ⟨.hbm, 219, rfl⟩
abbrev main_v148 : Ref sig .tc := ⟨.hbm, 220, rfl⟩
abbrev main_cst_40 : Ref sig .tc := ⟨.hbm, 221, rfl⟩
abbrev main_v149 : Ref sig .tc := ⟨.hbm, 222, rfl⟩
abbrev main_v150 : Ref sig .tc := ⟨.hbm, 223, rfl⟩
abbrev main_v151 : Ref sig .tc := ⟨.hbm, 224, rfl⟩
abbrev main_cst_41 : Ref sig .tc := ⟨.hbm, 225, rfl⟩
abbrev main_v152 : Ref sig .tc := ⟨.hbm, 226, rfl⟩
abbrev main_v153 : Ref sig .tc := ⟨.hbm, 227, rfl⟩
abbrev main_cst_42 : Ref sig .tc := ⟨.hbm, 228, rfl⟩
abbrev main_v154 : Ref sig .tc := ⟨.hbm, 229, rfl⟩
abbrev main_v155 : Ref sig .tc := ⟨.hbm, 230, rfl⟩
abbrev main_cst_43 : Ref sig .tc := ⟨.hbm, 231, rfl⟩
abbrev main_call4_v0 : Ref sig .tc := ⟨.hbm, 232, rfl⟩
abbrev main_call4_v1 : Ref sig .tc := ⟨.hbm, 233, rfl⟩
abbrev main_v156 : Ref sig .tc := ⟨.hbm, 234, rfl⟩
abbrev main_cst_44 : Ref sig .tc := ⟨.hbm, 235, rfl⟩
abbrev main_v157 : Ref sig .tc := ⟨.hbm, 236, rfl⟩
abbrev main_v158 : Ref sig .tc := ⟨.hbm, 237, rfl⟩
abbrev main_cst_45 : Ref sig .tc := ⟨.hbm, 238, rfl⟩
abbrev main_v159 : Ref sig .tc := ⟨.hbm, 239, rfl⟩
abbrev main_v160 : Ref sig .tc := ⟨.hbm, 240, rfl⟩
abbrev main_cst_46 : Ref sig .tc := ⟨.hbm, 241, rfl⟩
abbrev main_call5_v0 : Ref sig .tc := ⟨.hbm, 242, rfl⟩
abbrev main_call5_v1 : Ref sig .tc := ⟨.hbm, 243, rfl⟩
abbrev main_v161 : Ref sig .tc := ⟨.hbm, 244, rfl⟩
abbrev main_c_47 : Ref sig .tc := ⟨.hbm, 245, rfl⟩
abbrev main_v162 : Ref sig .tc := ⟨.hbm, 246, rfl⟩
abbrev main_v163 : Ref sig .tc := ⟨.hbm, 247, rfl⟩
abbrev main_c_48 : Ref sig .tc := ⟨.hbm, 248, rfl⟩
abbrev main_v164 : Ref sig .tc := ⟨.hbm, 249, rfl⟩
abbrev main_v165 : Ref sig .tc := ⟨.hbm, 250, rfl⟩
abbrev main_v166 : Ref sig .tc := ⟨.hbm, 251, rfl⟩
abbrev main_v167 : Ref sig .tc := ⟨.hbm, 252, rfl⟩
abbrev main_v168 : Ref sig .tc := ⟨.hbm, 253, rfl⟩
abbrev main_c_49 : Ref sig .tc := ⟨.hbm, 254, rfl⟩
abbrev main_v169 : Ref sig .tc := ⟨.hbm, 255, rfl⟩
abbrev main_v170 : Ref sig .tc := ⟨.hbm, 256, rfl⟩
abbrev main_c_50 : Ref sig .tc := ⟨.hbm, 257, rfl⟩
abbrev main_v171 : Ref sig .tc := ⟨.hbm, 258, rfl⟩
abbrev main_v172 : Ref sig .tc := ⟨.hbm, 259, rfl⟩
abbrev main_v173 : Ref sig .tc := ⟨.hbm, 260, rfl⟩
abbrev main_v174 : Ref sig .tc := ⟨.hbm, 261, rfl⟩
abbrev main_v175 : Ref sig .tc := ⟨.hbm, 262, rfl⟩
abbrev main_v176 : Ref sig .tc := ⟨.hbm, 263, rfl⟩
abbrev main_c_51 : Ref sig .tc := ⟨.hbm, 264, rfl⟩
abbrev main_v177 : Ref sig .tc := ⟨.hbm, 265, rfl⟩
abbrev main_v178 : Ref sig .tc := ⟨.hbm, 266, rfl⟩
abbrev main_c_52 : Ref sig .tc := ⟨.hbm, 267, rfl⟩
abbrev main_v179 : Ref sig .tc := ⟨.hbm, 268, rfl⟩
abbrev main_v180 : Ref sig .tc := ⟨.hbm, 269, rfl⟩
abbrev main_v181 : Ref sig .tc := ⟨.hbm, 270, rfl⟩
abbrev main_v182 : Ref sig .tc := ⟨.hbm, 271, rfl⟩
abbrev main_v183 : Ref sig .tc := ⟨.hbm, 272, rfl⟩
abbrev main_v184 : Ref sig .tc := ⟨.hbm, 273, rfl⟩
abbrev main_v185 : Ref sig .tc := ⟨.hbm, 274, rfl⟩
abbrev main_v186 : Ref sig .tc := ⟨.hbm, 275, rfl⟩
abbrev main_cst_53 : Ref sig .tc := ⟨.hbm, 276, rfl⟩
abbrev main_v187 : Ref sig .tc := ⟨.hbm, 277, rfl⟩
abbrev main_v188 : Ref sig .tc := ⟨.hbm, 278, rfl⟩
abbrev main_v189 : Ref sig .tc := ⟨.hbm, 279, rfl⟩
abbrev main_v190 : Ref sig .tc := ⟨.hbm, 280, rfl⟩
abbrev main_v191 : Ref sig .tc := ⟨.hbm, 281, rfl⟩
abbrev main_v192 : Ref sig .tc := ⟨.hbm, 282, rfl⟩
abbrev main_v193 : Ref sig .tc := ⟨.hbm, 283, rfl⟩
abbrev main_v194 : Ref sig .tc := ⟨.hbm, 284, rfl⟩
abbrev main_v195 : Ref sig .tc := ⟨.hbm, 285, rfl⟩
abbrev main_v196 : Ref sig .tc := ⟨.hbm, 286, rfl⟩
abbrev main_v197 : Ref sig .tc := ⟨.hbm, 287, rfl⟩
abbrev main_v198 : Ref sig .tc := ⟨.hbm, 288, rfl⟩
abbrev main_v199 : Ref sig .tc := ⟨.hbm, 289, rfl⟩
abbrev main_v200 : Ref sig .tc := ⟨.hbm, 290, rfl⟩
abbrev main_v201 : Ref sig .tc := ⟨.hbm, 291, rfl⟩
abbrev main_v202 : Ref sig .tc := ⟨.hbm, 292, rfl⟩
abbrev main_v203 : Ref sig .tc := ⟨.hbm, 293, rfl⟩
abbrev main_cst_54 : Ref sig .tc := ⟨.hbm, 294, rfl⟩
abbrev main_v204 : Ref sig .tc := ⟨.hbm, 295, rfl⟩
abbrev main_cst_55 : Ref sig .tc := ⟨.hbm, 296, rfl⟩
abbrev main_v205 : Ref sig .tc := ⟨.hbm, 297, rfl⟩
abbrev main_v206 : Ref sig .tc := ⟨.hbm, 298, rfl⟩
abbrev main_v207 : Ref sig .tc := ⟨.hbm, 299, rfl⟩
abbrev main_cst_56 : Ref sig .tc := ⟨.hbm, 300, rfl⟩
abbrev main_v208 : Ref sig .tc := ⟨.hbm, 301, rfl⟩
abbrev main_v209 : Ref sig .tc := ⟨.hbm, 302, rfl⟩
abbrev main_cst_57 : Ref sig .tc := ⟨.hbm, 303, rfl⟩
abbrev main_v210 : Ref sig .tc := ⟨.hbm, 304, rfl⟩
abbrev main_v211 : Ref sig .tc := ⟨.hbm, 305, rfl⟩
abbrev main_cst_58 : Ref sig .tc := ⟨.hbm, 306, rfl⟩
abbrev main_call6_v0 : Ref sig .tc := ⟨.hbm, 307, rfl⟩
abbrev main_call6_v1 : Ref sig .tc := ⟨.hbm, 308, rfl⟩
abbrev main_v212 : Ref sig .tc := ⟨.hbm, 309, rfl⟩
abbrev main_c_59 : Ref sig .tc := ⟨.hbm, 310, rfl⟩
abbrev main_v213 : Ref sig .tc := ⟨.hbm, 311, rfl⟩
abbrev main_v214 : Ref sig .tc := ⟨.hbm, 312, rfl⟩
abbrev main_c_60 : Ref sig .tc := ⟨.hbm, 313, rfl⟩
abbrev main_v215 : Ref sig .tc := ⟨.hbm, 314, rfl⟩
abbrev main_v216 : Ref sig .tc := ⟨.hbm, 315, rfl⟩
abbrev main_v217 : Ref sig .tc := ⟨.hbm, 316, rfl⟩
abbrev main_v218 : Ref sig .tc := ⟨.hbm, 317, rfl⟩
abbrev main_v219 : Ref sig .tc := ⟨.hbm, 318, rfl⟩
abbrev main_c_61 : Ref sig .tc := ⟨.hbm, 319, rfl⟩
abbrev main_v220 : Ref sig .tc := ⟨.hbm, 320, rfl⟩
abbrev main_v221 : Ref sig .tc := ⟨.hbm, 321, rfl⟩
abbrev main_c_62 : Ref sig .tc := ⟨.hbm, 322, rfl⟩
abbrev main_v222 : Ref sig .tc := ⟨.hbm, 323, rfl⟩
abbrev main_v223 : Ref sig .tc := ⟨.hbm, 324, rfl⟩
abbrev main_v224 : Ref sig .tc := ⟨.hbm, 325, rfl⟩
abbrev main_v225 : Ref sig .tc := ⟨.hbm, 326, rfl⟩
abbrev main_v226 : Ref sig .tc := ⟨.hbm, 327, rfl⟩
abbrev main_v227 : Ref sig .tc := ⟨.hbm, 328, rfl⟩
abbrev main_c_63 : Ref sig .tc := ⟨.hbm, 329, rfl⟩
abbrev main_v228 : Ref sig .tc := ⟨.hbm, 330, rfl⟩
abbrev main_v229 : Ref sig .tc := ⟨.hbm, 331, rfl⟩
abbrev main_c_64 : Ref sig .tc := ⟨.hbm, 332, rfl⟩
abbrev main_v230 : Ref sig .tc := ⟨.hbm, 333, rfl⟩
abbrev main_v231 : Ref sig .tc := ⟨.hbm, 334, rfl⟩
abbrev main_v232 : Ref sig .tc := ⟨.hbm, 335, rfl⟩
abbrev main_v233 : Ref sig .tc := ⟨.hbm, 336, rfl⟩
abbrev main_v234 : Ref sig .tc := ⟨.hbm, 337, rfl⟩
abbrev main_v235 : Ref sig .tc := ⟨.hbm, 338, rfl⟩
abbrev main_v236 : Ref sig .tc := ⟨.hbm, 339, rfl⟩
abbrev main_v237 : Ref sig .tc := ⟨.hbm, 340, rfl⟩
abbrev main_cst_65 : Ref sig .tc := ⟨.hbm, 341, rfl⟩
abbrev main_v238 : Ref sig .tc := ⟨.hbm, 342, rfl⟩
abbrev main_v239 : Ref sig .tc := ⟨.hbm, 343, rfl⟩
abbrev main_v240 : Ref sig .tc := ⟨.hbm, 344, rfl⟩
abbrev main_v241 : Ref sig .tc := ⟨.hbm, 345, rfl⟩
abbrev main_v242 : Ref sig .tc := ⟨.hbm, 346, rfl⟩
abbrev main_v243 : Ref sig .tc := ⟨.hbm, 347, rfl⟩
abbrev main_v244 : Ref sig .tc := ⟨.hbm, 348, rfl⟩
abbrev main_v245 : Ref sig .tc := ⟨.hbm, 349, rfl⟩
abbrev main_cst_66 : Ref sig .tc := ⟨.hbm, 350, rfl⟩
abbrev main_v246 : Ref sig .tc := ⟨.hbm, 351, rfl⟩
abbrev main_cst_67 : Ref sig .tc := ⟨.hbm, 352, rfl⟩
abbrev main_v247 : Ref sig .tc := ⟨.hbm, 353, rfl⟩
abbrev main_v248 : Ref sig .tc := ⟨.hbm, 354, rfl⟩
abbrev main_v249 : Ref sig .tc := ⟨.hbm, 355, rfl⟩
abbrev main_cst_68 : Ref sig .tc := ⟨.hbm, 356, rfl⟩
abbrev main_v250 : Ref sig .tc := ⟨.hbm, 357, rfl⟩
abbrev main_v251 : Ref sig .tc := ⟨.hbm, 358, rfl⟩
abbrev main_v252 : Ref sig .tc := ⟨.hbm, 359, rfl⟩
abbrev main_cst_69 : Ref sig .tc := ⟨.hbm, 360, rfl⟩
abbrev main_v253 : Ref sig .tc := ⟨.hbm, 361, rfl⟩
abbrev main_v254 : Ref sig .tc := ⟨.hbm, 362, rfl⟩
abbrev main_cst_70 : Ref sig .tc := ⟨.hbm, 363, rfl⟩
abbrev main_v255 : Ref sig .tc := ⟨.hbm, 364, rfl⟩
abbrev main_v256 : Ref sig .tc := ⟨.hbm, 365, rfl⟩
abbrev main_cst_71 : Ref sig .tc := ⟨.hbm, 366, rfl⟩
abbrev main_call7_v0 : Ref sig .tc := ⟨.hbm, 367, rfl⟩
abbrev main_call7_v1 : Ref sig .tc := ⟨.hbm, 368, rfl⟩
abbrev main_v257 : Ref sig .tc := ⟨.hbm, 369, rfl⟩
abbrev main_cst_72 : Ref sig .tc := ⟨.hbm, 370, rfl⟩
abbrev main_v258 : Ref sig .tc := ⟨.hbm, 371, rfl⟩
abbrev main_v259 : Ref sig .tc := ⟨.hbm, 372, rfl⟩
abbrev main_cst_73 : Ref sig .tc := ⟨.hbm, 373, rfl⟩
abbrev main_v260 : Ref sig .tc := ⟨.hbm, 374, rfl⟩
abbrev main_v261 : Ref sig .tc := ⟨.hbm, 375, rfl⟩
abbrev main_cst_74 : Ref sig .tc := ⟨.hbm, 376, rfl⟩
abbrev main_call8_v0 : Ref sig .tc := ⟨.hbm, 377, rfl⟩
abbrev main_call8_v1 : Ref sig .tc := ⟨.hbm, 378, rfl⟩
abbrev main_v262 : Ref sig .tc := ⟨.hbm, 379, rfl⟩
abbrev main_c_75 : Ref sig .tc := ⟨.hbm, 380, rfl⟩
abbrev main_v263 : Ref sig .tc := ⟨.hbm, 381, rfl⟩
abbrev main_v264 : Ref sig .tc := ⟨.hbm, 382, rfl⟩
abbrev main_c_76 : Ref sig .tc := ⟨.hbm, 383, rfl⟩
abbrev main_v265 : Ref sig .tc := ⟨.hbm, 384, rfl⟩
abbrev main_v266 : Ref sig .tc := ⟨.hbm, 385, rfl⟩
abbrev main_v267 : Ref sig .tc := ⟨.hbm, 386, rfl⟩
abbrev main_v268 : Ref sig .tc := ⟨.hbm, 387, rfl⟩
abbrev main_v269 : Ref sig .tc := ⟨.hbm, 388, rfl⟩
abbrev main_c_77 : Ref sig .tc := ⟨.hbm, 389, rfl⟩
abbrev main_v270 : Ref sig .tc := ⟨.hbm, 390, rfl⟩
abbrev main_v271 : Ref sig .tc := ⟨.hbm, 391, rfl⟩
abbrev main_c_78 : Ref sig .tc := ⟨.hbm, 392, rfl⟩
abbrev main_v272 : Ref sig .tc := ⟨.hbm, 393, rfl⟩
abbrev main_v273 : Ref sig .tc := ⟨.hbm, 394, rfl⟩
abbrev main_v274 : Ref sig .tc := ⟨.hbm, 395, rfl⟩
abbrev main_v275 : Ref sig .tc := ⟨.hbm, 396, rfl⟩
abbrev main_v276 : Ref sig .tc := ⟨.hbm, 397, rfl⟩
abbrev main_v277 : Ref sig .tc := ⟨.hbm, 398, rfl⟩
abbrev main_c_79 : Ref sig .tc := ⟨.hbm, 399, rfl⟩
abbrev main_v278 : Ref sig .tc := ⟨.hbm, 400, rfl⟩
abbrev main_v279 : Ref sig .tc := ⟨.hbm, 401, rfl⟩
abbrev main_c_80 : Ref sig .tc := ⟨.hbm, 402, rfl⟩
abbrev main_v280 : Ref sig .tc := ⟨.hbm, 403, rfl⟩
abbrev main_v281 : Ref sig .tc := ⟨.hbm, 404, rfl⟩
abbrev main_v282 : Ref sig .tc := ⟨.hbm, 405, rfl⟩
abbrev main_v283 : Ref sig .tc := ⟨.hbm, 406, rfl⟩
abbrev main_v284 : Ref sig .tc := ⟨.hbm, 407, rfl⟩
abbrev main_v285 : Ref sig .tc := ⟨.hbm, 408, rfl⟩
abbrev main_v286 : Ref sig .tc := ⟨.hbm, 409, rfl⟩
abbrev main_v287 : Ref sig .tc := ⟨.hbm, 410, rfl⟩
abbrev main_cst_81 : Ref sig .tc := ⟨.hbm, 411, rfl⟩
abbrev main_v288 : Ref sig .tc := ⟨.hbm, 412, rfl⟩
abbrev main_v289 : Ref sig .tc := ⟨.hbm, 413, rfl⟩
abbrev main_v290 : Ref sig .tc := ⟨.hbm, 414, rfl⟩
abbrev main_v291 : Ref sig .tc := ⟨.hbm, 415, rfl⟩
abbrev main_v292 : Ref sig .tc := ⟨.hbm, 416, rfl⟩
abbrev main_v293 : Ref sig .tc := ⟨.hbm, 417, rfl⟩
abbrev main_v294 : Ref sig .tc := ⟨.hbm, 418, rfl⟩
abbrev main_v295 : Ref sig .tc := ⟨.hbm, 419, rfl⟩
abbrev main_v296 : Ref sig .tc := ⟨.hbm, 420, rfl⟩
abbrev main_v297 : Ref sig .tc := ⟨.hbm, 421, rfl⟩
abbrev main_v298 : Ref sig .tc := ⟨.hbm, 422, rfl⟩
abbrev main_cst_82 : Ref sig .tc := ⟨.hbm, 423, rfl⟩
abbrev main_v299 : Ref sig .tc := ⟨.hbm, 424, rfl⟩
abbrev main_cst_83 : Ref sig .tc := ⟨.hbm, 425, rfl⟩
abbrev main_v300 : Ref sig .tc := ⟨.hbm, 426, rfl⟩
abbrev main_v301 : Ref sig .tc := ⟨.hbm, 427, rfl⟩
abbrev main_v302 : Ref sig .tc := ⟨.hbm, 428, rfl⟩
abbrev main_cst_84 : Ref sig .tc := ⟨.hbm, 429, rfl⟩
abbrev main_v303 : Ref sig .tc := ⟨.hbm, 430, rfl⟩
abbrev main_v304 : Ref sig .tc := ⟨.hbm, 431, rfl⟩
abbrev main_cst_85 : Ref sig .tc := ⟨.hbm, 432, rfl⟩
abbrev main_v305 : Ref sig .tc := ⟨.hbm, 433, rfl⟩
abbrev main_v306 : Ref sig .tc := ⟨.hbm, 434, rfl⟩
abbrev main_cst_86 : Ref sig .tc := ⟨.hbm, 435, rfl⟩
abbrev main_call9_v0 : Ref sig .tc := ⟨.hbm, 436, rfl⟩
abbrev main_call9_v1 : Ref sig .tc := ⟨.hbm, 437, rfl⟩
abbrev main_v307 : Ref sig .tc := ⟨.hbm, 438, rfl⟩
abbrev main_c_87 : Ref sig .tc := ⟨.hbm, 439, rfl⟩
abbrev main_v308 : Ref sig .tc := ⟨.hbm, 440, rfl⟩
abbrev main_v309 : Ref sig .tc := ⟨.hbm, 441, rfl⟩
abbrev main_c_88 : Ref sig .tc := ⟨.hbm, 442, rfl⟩
abbrev main_v310 : Ref sig .tc := ⟨.hbm, 443, rfl⟩
abbrev main_v311 : Ref sig .tc := ⟨.hbm, 444, rfl⟩
abbrev main_v312 : Ref sig .tc := ⟨.hbm, 445, rfl⟩
abbrev main_v313 : Ref sig .tc := ⟨.hbm, 446, rfl⟩
abbrev main_v314 : Ref sig .tc := ⟨.hbm, 447, rfl⟩
abbrev main_c_89 : Ref sig .tc := ⟨.hbm, 448, rfl⟩
abbrev main_v315 : Ref sig .tc := ⟨.hbm, 449, rfl⟩
abbrev main_v316 : Ref sig .tc := ⟨.hbm, 450, rfl⟩
abbrev main_c_90 : Ref sig .tc := ⟨.hbm, 451, rfl⟩
abbrev main_v317 : Ref sig .tc := ⟨.hbm, 452, rfl⟩
abbrev main_v318 : Ref sig .tc := ⟨.hbm, 453, rfl⟩
abbrev main_v319 : Ref sig .tc := ⟨.hbm, 454, rfl⟩
abbrev main_v320 : Ref sig .tc := ⟨.hbm, 455, rfl⟩
abbrev main_v321 : Ref sig .tc := ⟨.hbm, 456, rfl⟩
abbrev main_v322 : Ref sig .tc := ⟨.hbm, 457, rfl⟩
abbrev main_c_91 : Ref sig .tc := ⟨.hbm, 458, rfl⟩
abbrev main_v323 : Ref sig .tc := ⟨.hbm, 459, rfl⟩
abbrev main_v324 : Ref sig .tc := ⟨.hbm, 460, rfl⟩
abbrev main_c_92 : Ref sig .tc := ⟨.hbm, 461, rfl⟩
abbrev main_v325 : Ref sig .tc := ⟨.hbm, 462, rfl⟩
abbrev main_v326 : Ref sig .tc := ⟨.hbm, 463, rfl⟩
abbrev main_v327 : Ref sig .tc := ⟨.hbm, 464, rfl⟩
abbrev main_v328 : Ref sig .tc := ⟨.hbm, 465, rfl⟩
abbrev main_v329 : Ref sig .tc := ⟨.hbm, 466, rfl⟩
abbrev main_v330 : Ref sig .tc := ⟨.hbm, 467, rfl⟩
abbrev main_v331 : Ref sig .tc := ⟨.hbm, 468, rfl⟩
abbrev main_v332 : Ref sig .tc := ⟨.hbm, 469, rfl⟩
abbrev main_cst_93 : Ref sig .tc := ⟨.hbm, 470, rfl⟩
abbrev main_v333 : Ref sig .tc := ⟨.hbm, 471, rfl⟩
abbrev main_v334 : Ref sig .tc := ⟨.hbm, 472, rfl⟩
abbrev main_v335 : Ref sig .tc := ⟨.hbm, 473, rfl⟩
abbrev main_v336 : Ref sig .tc := ⟨.hbm, 474, rfl⟩
abbrev main_v337 : Ref sig .tc := ⟨.hbm, 475, rfl⟩
abbrev main_v338 : Ref sig .tc := ⟨.hbm, 476, rfl⟩
abbrev main_v339 : Ref sig .tc := ⟨.hbm, 477, rfl⟩
abbrev main_v340 : Ref sig .tc := ⟨.hbm, 478, rfl⟩
abbrev main_cst_94 : Ref sig .tc := ⟨.hbm, 479, rfl⟩
abbrev main_v341 : Ref sig .tc := ⟨.hbm, 480, rfl⟩
abbrev main_cst_95 : Ref sig .tc := ⟨.hbm, 481, rfl⟩
abbrev main_v342 : Ref sig .tc := ⟨.hbm, 482, rfl⟩
abbrev main_v343 : Ref sig .tc := ⟨.hbm, 483, rfl⟩
abbrev main_v344 : Ref sig .tc := ⟨.hbm, 484, rfl⟩
abbrev main_cst_96 : Ref sig .tc := ⟨.hbm, 485, rfl⟩
abbrev main_v345 : Ref sig .tc := ⟨.hbm, 486, rfl⟩
abbrev main_v346 : Ref sig .tc := ⟨.hbm, 487, rfl⟩
abbrev main_v347 : Ref sig .tc := ⟨.hbm, 488, rfl⟩
abbrev main_cst_97 : Ref sig .tc := ⟨.hbm, 489, rfl⟩
abbrev main_v348 : Ref sig .tc := ⟨.hbm, 490, rfl⟩
abbrev main_v349 : Ref sig .tc := ⟨.hbm, 491, rfl⟩
abbrev main_cst_98 : Ref sig .tc := ⟨.hbm, 492, rfl⟩
abbrev main_v350 : Ref sig .tc := ⟨.hbm, 493, rfl⟩
abbrev main_v351 : Ref sig .tc := ⟨.hbm, 494, rfl⟩
abbrev main_cst_99 : Ref sig .tc := ⟨.hbm, 495, rfl⟩
abbrev main_call10_v0 : Ref sig .tc := ⟨.hbm, 496, rfl⟩
abbrev main_call10_v1 : Ref sig .tc := ⟨.hbm, 497, rfl⟩
abbrev main_v352 : Ref sig .tc := ⟨.hbm, 498, rfl⟩
abbrev main_cst_100 : Ref sig .tc := ⟨.hbm, 499, rfl⟩
abbrev main_v353 : Ref sig .tc := ⟨.hbm, 500, rfl⟩
abbrev main_v354 : Ref sig .tc := ⟨.hbm, 501, rfl⟩
abbrev main_cst_101 : Ref sig .tc := ⟨.hbm, 502, rfl⟩
abbrev main_v355 : Ref sig .tc := ⟨.hbm, 503, rfl⟩
abbrev main_v356 : Ref sig .tc := ⟨.hbm, 504, rfl⟩
abbrev main_cst_102 : Ref sig .tc := ⟨.hbm, 505, rfl⟩
abbrev main_call11_v0 : Ref sig .tc := ⟨.hbm, 506, rfl⟩
abbrev main_call11_v1 : Ref sig .tc := ⟨.hbm, 507, rfl⟩
abbrev main_v357 : Ref sig .tc := ⟨.hbm, 508, rfl⟩
abbrev main_c_103 : Ref sig .tc := ⟨.hbm, 509, rfl⟩
abbrev main_v358 : Ref sig .tc := ⟨.hbm, 510, rfl⟩
abbrev main_v359 : Ref sig .tc := ⟨.hbm, 511, rfl⟩
abbrev main_c_104 : Ref sig .tc := ⟨.hbm, 512, rfl⟩
abbrev main_v360 : Ref sig .tc := ⟨.hbm, 513, rfl⟩
abbrev main_v361 : Ref sig .tc := ⟨.hbm, 514, rfl⟩
abbrev main_v362 : Ref sig .tc := ⟨.hbm, 515, rfl⟩
abbrev main_v363 : Ref sig .tc := ⟨.hbm, 516, rfl⟩
abbrev main_v364 : Ref sig .tc := ⟨.hbm, 517, rfl⟩
abbrev main_c_105 : Ref sig .tc := ⟨.hbm, 518, rfl⟩
abbrev main_v365 : Ref sig .tc := ⟨.hbm, 519, rfl⟩
abbrev main_v366 : Ref sig .tc := ⟨.hbm, 520, rfl⟩
abbrev main_c_106 : Ref sig .tc := ⟨.hbm, 521, rfl⟩
abbrev main_v367 : Ref sig .tc := ⟨.hbm, 522, rfl⟩
abbrev main_v368 : Ref sig .tc := ⟨.hbm, 523, rfl⟩
abbrev main_v369 : Ref sig .tc := ⟨.hbm, 524, rfl⟩
abbrev main_v370 : Ref sig .tc := ⟨.hbm, 525, rfl⟩
abbrev main_v371 : Ref sig .tc := ⟨.hbm, 526, rfl⟩
abbrev main_v372 : Ref sig .tc := ⟨.hbm, 527, rfl⟩
abbrev main_c_107 : Ref sig .tc := ⟨.hbm, 528, rfl⟩
abbrev main_v373 : Ref sig .tc := ⟨.hbm, 529, rfl⟩
abbrev main_v374 : Ref sig .tc := ⟨.hbm, 530, rfl⟩
abbrev main_c_108 : Ref sig .tc := ⟨.hbm, 531, rfl⟩
abbrev main_v375 : Ref sig .tc := ⟨.hbm, 532, rfl⟩
abbrev main_v376 : Ref sig .tc := ⟨.hbm, 533, rfl⟩
abbrev main_v377 : Ref sig .tc := ⟨.hbm, 534, rfl⟩
abbrev main_v378 : Ref sig .tc := ⟨.hbm, 535, rfl⟩
abbrev main_v379 : Ref sig .tc := ⟨.hbm, 536, rfl⟩
abbrev main_v380 : Ref sig .tc := ⟨.hbm, 537, rfl⟩
abbrev main_v381 : Ref sig .tc := ⟨.hbm, 538, rfl⟩
abbrev main_v382 : Ref sig .tc := ⟨.hbm, 539, rfl⟩
abbrev main_cst_109 : Ref sig .tc := ⟨.hbm, 540, rfl⟩
abbrev main_v383 : Ref sig .tc := ⟨.hbm, 541, rfl⟩
abbrev main_v384 : Ref sig .tc := ⟨.hbm, 542, rfl⟩
abbrev main_v385 : Ref sig .tc := ⟨.hbm, 543, rfl⟩
abbrev main_v386 : Ref sig .tc := ⟨.hbm, 544, rfl⟩
abbrev main_v387 : Ref sig .tc := ⟨.hbm, 545, rfl⟩
abbrev main_v388 : Ref sig .tc := ⟨.hbm, 546, rfl⟩
abbrev main_v389 : Ref sig .tc := ⟨.hbm, 547, rfl⟩
abbrev main_v390 : Ref sig .tc := ⟨.hbm, 548, rfl⟩
abbrev main_v391 : Ref sig .tc := ⟨.hbm, 549, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg3_0 : Ref sig .tc := ⟨.vmem, 25, rfl⟩
abbrev cc4_stg3_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg1_1 : Ref sig .tc := ⟨.vmem, 30, rfl⟩
abbrev cc5_stg2_0 : Ref sig .tc := ⟨.vmem, 31, rfl⟩
abbrev cc5_stg3_0 : Ref sig .tc := ⟨.vmem, 32, rfl⟩
abbrev cc5_stg3_1 : Ref sig .tc := ⟨.vmem, 33, rfl⟩
abbrev cc6_stg0_0 : Ref sig .tc := ⟨.vmem, 34, rfl⟩
abbrev cc6_stg0_1 : Ref sig .tc := ⟨.vmem, 35, rfl⟩
abbrev cc6_stg1_0 : Ref sig .tc := ⟨.vmem, 36, rfl⟩
abbrev cc6_stg2_0 : Ref sig .tc := ⟨.vmem, 37, rfl⟩
abbrev cc6_stg2_1 : Ref sig .tc := ⟨.vmem, 38, rfl⟩
abbrev cc7_stg0_0 : Ref sig .tc := ⟨.vmem, 39, rfl⟩
abbrev cc7_stg0_1 : Ref sig .tc := ⟨.vmem, 40, rfl⟩
abbrev cc7_stg1_0 : Ref sig .tc := ⟨.vmem, 41, rfl⟩
abbrev cc7_stg2_0 : Ref sig .tc := ⟨.vmem, 42, rfl⟩
abbrev cc7_stg2_1 : Ref sig .tc := ⟨.vmem, 43, rfl⟩
abbrev cc8_stg0_0 : Ref sig .tc := ⟨.vmem, 44, rfl⟩
abbrev cc8_stg0_1 : Ref sig .tc := ⟨.vmem, 45, rfl⟩
abbrev cc8_stg1_0 : Ref sig .tc := ⟨.vmem, 46, rfl⟩
abbrev cc8_stg2_0 : Ref sig .tc := ⟨.vmem, 47, rfl⟩
abbrev cc8_stg2_1 : Ref sig .tc := ⟨.vmem, 48, rfl⟩
abbrev cc9_stg0_0 : Ref sig .tc := ⟨.vmem, 49, rfl⟩
abbrev cc9_stg0_1 : Ref sig .tc := ⟨.vmem, 50, rfl⟩
abbrev cc9_stg1_0 : Ref sig .tc := ⟨.vmem, 51, rfl⟩
abbrev cc9_stg2_0 : Ref sig .tc := ⟨.vmem, 52, rfl⟩
abbrev cc9_stg2_1 : Ref sig .tc := ⟨.vmem, 53, rfl⟩
abbrev cc10_stg0_0 : Ref sig .tc := ⟨.vmem, 54, rfl⟩
abbrev cc10_stg0_1 : Ref sig .tc := ⟨.vmem, 55, rfl⟩
abbrev cc10_stg1_0 : Ref sig .tc := ⟨.vmem, 56, rfl⟩
abbrev cc10_stg1_1 : Ref sig .tc := ⟨.vmem, 57, rfl⟩
abbrev cc10_stg2_0 : Ref sig .tc := ⟨.vmem, 58, rfl⟩
abbrev cc10_stg3_0 : Ref sig .tc := ⟨.vmem, 59, rfl⟩
abbrev cc10_stg3_1 : Ref sig .tc := ⟨.vmem, 60, rfl⟩
abbrev cc11_stg0_0 : Ref sig .tc := ⟨.vmem, 61, rfl⟩
abbrev cc11_stg0_1 : Ref sig .tc := ⟨.vmem, 62, rfl⟩
abbrev cc11_stg1_0 : Ref sig .tc := ⟨.vmem, 63, rfl⟩
abbrev cc11_stg1_1 : Ref sig .tc := ⟨.vmem, 64, rfl⟩
abbrev cc11_stg2_0 : Ref sig .tc := ⟨.vmem, 65, rfl⟩
abbrev cc11_stg3_0 : Ref sig .tc := ⟨.vmem, 66, rfl⟩
abbrev cc11_stg3_1 : Ref sig .tc := ⟨.vmem, 67, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc4_sem3_0 : DmaSem sig := 25
abbrev cc4_sem3_1 : DmaSem sig := 26
abbrev cc5_sem0_0 : DmaSem sig := 27
abbrev cc5_sem0_1 : DmaSem sig := 28
abbrev cc5_sem1_0 : DmaSem sig := 29
abbrev cc5_sem1_1 : DmaSem sig := 30
abbrev cc5_sem2_0 : DmaSem sig := 31
abbrev cc5_sem3_0 : DmaSem sig := 32
abbrev cc5_sem3_1 : DmaSem sig := 33
abbrev cc6_sem0_0 : DmaSem sig := 34
abbrev cc6_sem0_1 : DmaSem sig := 35
abbrev cc6_sem1_0 : DmaSem sig := 36
abbrev cc6_sem2_0 : DmaSem sig := 37
abbrev cc6_sem2_1 : DmaSem sig := 38
abbrev cc7_sem0_0 : DmaSem sig := 39
abbrev cc7_sem0_1 : DmaSem sig := 40
abbrev cc7_sem1_0 : DmaSem sig := 41
abbrev cc7_sem2_0 : DmaSem sig := 42
abbrev cc7_sem2_1 : DmaSem sig := 43
abbrev cc8_sem0_0 : DmaSem sig := 44
abbrev cc8_sem0_1 : DmaSem sig := 45
abbrev cc8_sem1_0 : DmaSem sig := 46
abbrev cc8_sem2_0 : DmaSem sig := 47
abbrev cc8_sem2_1 : DmaSem sig := 48
abbrev cc9_sem0_0 : DmaSem sig := 49
abbrev cc9_sem0_1 : DmaSem sig := 50
abbrev cc9_sem1_0 : DmaSem sig := 51
abbrev cc9_sem2_0 : DmaSem sig := 52
abbrev cc9_sem2_1 : DmaSem sig := 53
abbrev cc10_sem0_0 : DmaSem sig := 54
abbrev cc10_sem0_1 : DmaSem sig := 55
abbrev cc10_sem1_0 : DmaSem sig := 56
abbrev cc10_sem1_1 : DmaSem sig := 57
abbrev cc10_sem2_0 : DmaSem sig := 58
abbrev cc10_sem3_0 : DmaSem sig := 59
abbrev cc10_sem3_1 : DmaSem sig := 60
abbrev cc11_sem0_0 : DmaSem sig := 61
abbrev cc11_sem0_1 : DmaSem sig := 62
abbrev cc11_sem1_0 : DmaSem sig := 63
abbrev cc11_sem1_1 : DmaSem sig := 64
abbrev cc11_sem2_0 : DmaSem sig := 65
abbrev cc11_sem3_0 : DmaSem sig := 66
abbrev cc11_sem3_1 : DmaSem sig := 67

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x32 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x32 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S2000x32 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![5], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64x32 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S2000x32 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S64x32 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S2000x32 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![25], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x32 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S2000x32 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S1x32 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S2000x32 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![5], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S2000x32 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S2000x32 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S1x32 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S2000x32 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

class Facts₀ : Prop where
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S_S10000 : S_.BroadcastsInDim S10000 (![] : Fin 0 → Fin S10000.rank)
  bcast_S500000_S500000x1_0 : S500000.BroadcastsInDim S500000x1 (![0] : Fin 1 → Fin S500000x1.rank)
  bcast_S500000x1_S500000x64_0_1 : S500000x1.BroadcastsInDim S500000x64 (![0, 1] : Fin 2 → Fin S500000x64.rank)
  slices_S2x320000_S1x320000_0_0 : S2x320000.Slices ![0, 0] S1x320000
  shapeCasts_S1x320000_S320000 : S1x320000.ShapeCasts S320000
  slices_S2x320000_S1x320000_1_0 : S2x320000.Slices ![1, 0] S1x320000
  concatenates_S320000_S10000_S330000_d0 : Shape.Concatenates [S320000, S10000] S330000 0
  bcast_S_S330000 : S_.BroadcastsInDim S330000 (![] : Fin 0 → Fin S330000.rank)
  bcast_S330000_S330000x1_0 : S330000.BroadcastsInDim S330000x1 (![0] : Fin 1 → Fin S330000x1.rank)
  bcast_S330000x1_S330000x64_0_1 : S330000x1.BroadcastsInDim S330000x64 (![0, 1] : Fin 2 → Fin S330000x64.rank)
  bcast_S_S10000x64 : S_.BroadcastsInDim S10000x64 (![] : Fin 0 → Fin S10000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x32_S64x32_0_0 : ∀ a, (![0, 0] : Fin 2 → Nat) a + S64x32.size a ≤ S64x32.size a
  h_S64x32 : 0 < S64x32.numel
  inb_S2000x32_S2000x32_0_0 : ∀ a, (![0, 0] : Fin 2 → Nat) a + S2000x32.size a ≤ S2000x32.size a
  h_S2000x32 : 0 < S2000x32.numel
  bcast_S1650000x1_S1650000x32_0_1 : S1650000x1.BroadcastsInDim S1650000x32 (![0, 1] : Fin 2 → Fin S1650000x32.rank)
  bcast_S_S50000x32 : S_.BroadcastsInDim S50000x32 (![] : Fin 0 → Fin S50000x32.rank)
  bcast_S500000x1_S500000x32_0_1 : S500000x1.BroadcastsInDim S500000x32 (![0, 1] : Fin 2 → Fin S500000x32.rank)
  bcast_S330000x1_S330000x32_0_1 : S330000x1.BroadcastsInDim S330000x32 (![0, 1] : Fin 2 → Fin S330000x32.rank)
  bcast_S_S10000x32 : S_.BroadcastsInDim S10000x32 (![] : Fin 0 → Fin S10000x32.rank)
  shapeCasts_S32_S1x32 : S32.ShapeCasts S1x32
  shapeCasts_S2000x32_S2000x32 : S2000x32.ShapeCasts S2000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  dot_S2000x64_S64x64_S2000x64_1_0_0_1_n_n_wf : DotDims.WF S2000x64 S64x64 S2000x64 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  scatter_S10000_S500000x1_S500000_n_0_0_1_wf : ScatterDims.WF S10000 S500000x1 S500000 [] [0] [0] 1
  scatter_S50000_S500000x1_S500000_n_0_0_1_wf : ScatterDims.WF S50000 S500000x1 S500000 [] [0] [0] 1
  gather_S10000_S500000x1_S500000_n_0_n_n_0_1_1_wf : GatherDims.WF S10000 S500000x1 S500000 [] [0] [] [0] [] 1 ![1]
  gather_S50000_S500000x1_S500000_n_0_n_n_0_1_1_wf : GatherDims.WF S50000 S500000x1 S500000 [] [0] [] [0] [] 1 ![1]
  gather_S10000x64_S500000x1_S500000x64_1_0_n_n_0_1_164_wf : GatherDims.WF S10000x64 S500000x1 S500000x64 [1] [0] [] [0] [] 1 ![1, 64]
  scatter_S50000x64_S500000x1_S500000x64_1_0_0_1_wf : ScatterDims.WF S50000x64 S500000x1 S500000x64 [1] [0] [0] 1
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  gather_S10000x64_S330000x1_S330000x64_1_0_n_n_0_1_164_wf : GatherDims.WF S10000x64 S330000x1 S330000x64 [1] [0] [] [0] [] 1 ![1, 64]
  scatter_S10000x64_S330000x1_S330000x64_1_0_0_1_wf : ScatterDims.WF S10000x64 S330000x1 S330000x64 [1] [0] [0] 1
  gather_S50000x64_S500000x1_S500000x64_1_0_n_n_0_1_164_wf : GatherDims.WF S50000x64 S500000x1 S500000x64 [1] [0] [] [0] [] 1 ![1, 64]
  scatter_S10000x64_S500000x1_S500000x64_1_0_0_1_wf : ScatterDims.WF S10000x64 S500000x1 S500000x64 [1] [0] [0] 1
  dot_S2000x64_S64x32_S2000x32_1_0_0_1_n_n_wf : DotDims.WF S2000x64 S64x32 S2000x32 [1] [0] [0] [1] [] []
  gather_S50000x32_S1650000x1_S1650000x32_1_0_n_n_0_1_132_wf : GatherDims.WF S50000x32 S1650000x1 S1650000x32 [1] [0] [] [0] [] 1 ![1, 32]
  scatter_S50000x32_S1650000x1_S1650000x32_1_0_0_1_wf : ScatterDims.WF S50000x32 S1650000x1 S1650000x32 [1] [0] [0] 1
  gather_S10000x32_S500000x1_S500000x32_1_0_n_n_0_1_132_wf : GatherDims.WF S10000x32 S500000x1 S500000x32 [1] [0] [] [0] [] 1 ![1, 32]
  scatter_S50000x32_S500000x1_S500000x32_1_0_0_1_wf : ScatterDims.WF S50000x32 S500000x1 S500000x32 [1] [0] [0] 1
  gather_S10000x32_S330000x1_S330000x32_1_0_n_n_0_1_132_wf : GatherDims.WF S10000x32 S330000x1 S330000x32 [1] [0] [] [0] [] 1 ![1, 32]
  scatter_S10000x32_S330000x1_S330000x32_1_0_0_1_wf : ScatterDims.WF S10000x32 S330000x1 S330000x32 [1] [0] [0] 1
  gather_S50000x32_S500000x1_S500000x32_1_0_n_n_0_1_132_wf : GatherDims.WF S50000x32 S500000x1 S500000x32 [1] [0] [] [0] [] 1 ![1, 32]
  scatter_S10000x32_S500000x1_S500000x32_1_0_0_1_wf : ScatterDims.WF S10000x32 S500000x1 S500000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .f32 = 32 ∨ (Rect.block (s := S50000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S10000x64.size a
  hwx1_0 : ∀ i : grid1.Coords, EltTy.bits .f32 = 32 ∨ (Rect.block (s := S10000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S10000x64.size a
  hwx1_2 : ∀ i : grid1.Coords, EltTy.bits .f32 = 32 ∨ (Rect.block (s := S10000x64) S2000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S10000x64.size a
  hwx2_0 : ∀ i : grid2.Coords, EltTy.bits .f32 = 32 ∨ (Rect.block (s := S10000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S10000x64.size a
  hwx2_2 : ∀ i : grid2.Coords, EltTy.bits .f32 = 32 ∨ (Rect.block (s := S10000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S50000x64.size a
  hwx3_2 : ∀ i : grid3.Coords, EltTy.bits .f32 = 32 ∨ (Rect.block (s := S50000x64) S2000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S50000x64.size a
  hwx4_0 : ∀ i : grid4.Coords, EltTy.bits .f32 = 32 ∨ (Rect.block (s := S50000x64) S2000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x64.size a ≤ S50000x64.size a
  hwx4_1 : ∀ i : grid4.Coords, EltTy.bits .f32 = 32 ∨ (Rect.block (s := S50000x64) S2000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x64.size a ≤ S50000x64.size a
  hwx4_3 : ∀ i : grid4.Coords, EltTy.bits .f32 = 32 ∨ (Rect.block (s := S50000x64) S2000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S10000x64.size a
  hwx5_0 : ∀ i : grid5.Coords, EltTy.bits .f32 = 32 ∨ (Rect.block (s := S10000x64) S2000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x64.size a ≤ S10000x64.size a
  hwx5_1 : ∀ i : grid5.Coords, EltTy.bits .f32 = 32 ∨ (Rect.block (s := S10000x64) S2000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x64.size a ≤ S10000x64.size a
  hwx5_3 : ∀ i : grid5.Coords, EltTy.bits .f32 = 32 ∨ (Rect.block (s := S10000x64) S2000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S50000x64.size a
  hwx6_0 : ∀ i : grid6.Coords, EltTy.bits .f32 = 32 ∨ (Rect.block (s := S50000x64) S2000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x32.size a ≤ S64x32.size a
  hwx6_1 : ∀ i : grid6.Coords, EltTy.bits .f32 = 32 ∨ (Rect.block (s := S64x32) S64x32.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x32.size a ≤ S50000x32.size a
  hwx6_2 : ∀ i : grid6.Coords, EltTy.bits .f32 = 32 ∨ (Rect.block (s := S50000x32) S2000x32.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x64.size a ≤ S10000x64.size a
  hwx7_0 : ∀ i : grid7.Coords, EltTy.bits .f32 = 32 ∨ (Rect.block (s := S10000x64) S2000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x32.size a ≤ S64x32.size a
  hwx7_1 : ∀ i : grid7.Coords, EltTy.bits .f32 = 32 ∨ (Rect.block (s := S64x32) S64x32.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x32.size a ≤ S10000x32.size a
  hwx7_2 : ∀ i : grid7.Coords, EltTy.bits .f32 = 32 ∨ (Rect.block (s := S10000x32) S2000x32.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x64.size a ≤ S10000x64.size a
  hwx8_0 : ∀ i : grid8.Coords, EltTy.bits .f32 = 32 ∨ (Rect.block (s := S10000x64) S2000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x32.size a ≤ S64x32.size a
  hwx8_1 : ∀ i : grid8.Coords, EltTy.bits .f32 = 32 ∨ (Rect.block (s := S64x32) S64x32.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2000x32.size a ≤ S10000x32.size a
  hwx8_2 : ∀ i : grid8.Coords, EltTy.bits .f32 = 32 ∨ (Rect.block (s := S10000x32) S2000x32.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x64.size a ≤ S50000x64.size a
  hwx9_0 : ∀ i : grid9.Coords, EltTy.bits .f32 = 32 ∨ (Rect.block (s := S50000x64) S2000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x32.size a ≤ S64x32.size a
  hwx9_1 : ∀ i : grid9.Coords, EltTy.bits .f32 = 32 ∨ (Rect.block (s := S64x32) S64x32.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S2000x32.size a ≤ S50000x32.size a
  hwx9_2 : ∀ i : grid9.Coords, EltTy.bits .f32 = 32 ∨ (Rect.block (s := S50000x32) S2000x32.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x32.size a ≤ S50000x32.size a
  hwx10_0 : ∀ i : grid10.Coords, EltTy.bits .f32 = 32 ∨ (Rect.block (s := S50000x32) S2000x32.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S2000x32.size a ≤ S50000x32.size a
  hwx10_1 : ∀ i : grid10.Coords, EltTy.bits .f32 = 32 ∨ (Rect.block (s := S50000x32) S2000x32.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x32.size a ≤ S1x32.size a
  hwx10_2 : ∀ i : grid10.Coords, EltTy.bits .f32 = 32 ∨ (Rect.block (s := S1x32) S1x32.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S2000x32.size a ≤ S50000x32.size a
  hwx10_3 : ∀ i : grid10.Coords, EltTy.bits .f32 = 32 ∨ (Rect.block (s := S50000x32) S2000x32.size (cc10_transform_3 i) (hinb10_3 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x32.size a ≤ S10000x32.size a
  hwx11_0 : ∀ i : grid11.Coords, EltTy.bits .f32 = 32 ∨ (Rect.block (s := S10000x32) S2000x32.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S2000x32.size a ≤ S10000x32.size a
  hwx11_1 : ∀ i : grid11.Coords, EltTy.bits .f32 = 32 ∨ (Rect.block (s := S10000x32) S2000x32.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x32.size a ≤ S1x32.size a
  hwx11_2 : ∀ i : grid11.Coords, EltTy.bits .f32 = 32 ∨ (Rect.block (s := S1x32) S1x32.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S2000x32.size a ≤ S10000x32.size a
  hwx11_3 : ∀ i : grid11.Coords, EltTy.bits .f32 = 32 ∨ (Rect.block (s := S10000x32) S2000x32.size (cc11_transform_3 i) (hinb11_3 i)).WholeWords (EltTy.packing .f32)

variable [Facts₀]

def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def scatter_S10000_S500000x1_S500000_n_0_0_1 : ScatterDims S10000 S500000x1 S500000 where
  updateWindowDims := []
  insertedWindowDims := [0]
  scatterDimsToOperandDims := [0]
  indexVectorDim := 1
  wf := scatter_S10000_S500000x1_S500000_n_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S10000_S500000x1_S500000_n_0_n_n_0_1_1 : GatherDims S10000 S500000x1 S500000 where
  offsetDims := []
  collapsedSliceDims := [0]
  operandBatchingDims := []
  startIndicesBatchingDims := []
  startIndexMap := [0]
  indexVectorDim := 1
  sliceSizes := ![1]
  wf := gather_S10000_S500000x1_S500000_n_0_n_n_0_1_1_wf
def gather_S50000_S500000x1_S500000_n_0_n_n_0_1_1 : GatherDims S50000 S500000x1 S500000 where
  offsetDims := []
  collapsedSliceDims := [0]
  operandBatchingDims := []
  startIndicesBatchingDims := []
  startIndexMap := [0]
  indexVectorDim := 1
  sliceSizes := ![1]
  wf := gather_S50000_S500000x1_S500000_n_0_n_n_0_1_1_wf
def gather_S10000x64_S500000x1_S500000x64_1_0_n_n_0_1_164 : GatherDims S10000x64 S500000x1 S500000x64 where
  offsetDims := [1]
  collapsedSliceDims := [0]
  operandBatchingDims := []
  startIndicesBatchingDims := []
  startIndexMap := [0]
  indexVectorDim := 1
  sliceSizes := ![1, 64]
  wf := gather_S10000x64_S500000x1_S500000x64_1_0_n_n_0_1_164_wf
def scatter_S50000x64_S500000x1_S500000x64_1_0_0_1 : ScatterDims S50000x64 S500000x1 S500000x64 where
  updateWindowDims := [1]
  insertedWindowDims := [0]
  scatterDimsToOperandDims := [0]
  indexVectorDim := 1
  wf := scatter_S50000x64_S500000x1_S500000x64_1_0_0_1_wf
def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def gather_S10000x64_S330000x1_S330000x64_1_0_n_n_0_1_164 : GatherDims S10000x64 S330000x1 S330000x64 where
  offsetDims := [1]
  collapsedSliceDims := [0]
  operandBatchingDims := []
  startIndicesBatchingDims := []
  startIndexMap := [0]
  indexVectorDim := 1
  sliceSizes := ![1, 64]
  wf := gather_S10000x64_S330000x1_S330000x64_1_0_n_n_0_1_164_wf
def scatter_S10000x64_S330000x1_S330000x64_1_0_0_1 : ScatterDims S10000x64 S330000x1 S330000x64 where
  updateWindowDims := [1]
  insertedWindowDims := [0]
  scatterDimsToOperandDims := [0]
  indexVectorDim := 1
  wf := scatter_S10000x64_S330000x1_S330000x64_1_0_0_1_wf
def gather_S50000x64_S500000x1_S500000x64_1_0_n_n_0_1_164 : GatherDims S50000x64 S500000x1 S500000x64 where
  offsetDims := [1]
  collapsedSliceDims := [0]
  operandBatchingDims := []
  startIndicesBatchingDims := []
  startIndexMap := [0]
  indexVectorDim := 1
  sliceSizes := ![1, 64]
  wf := gather_S50000x64_S500000x1_S500000x64_1_0_n_n_0_1_164_wf
def scatter_S10000x64_S500000x1_S500000x64_1_0_0_1 : ScatterDims S10000x64 S500000x1 S500000x64 where
  updateWindowDims := [1]
  insertedWindowDims := [0]
  scatterDimsToOperandDims := [0]
  indexVectorDim := 1
  wf := scatter_S10000x64_S500000x1_S500000x64_1_0_0_1_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf
def gather_S50000x32_S1650000x1_S1650000x32_1_0_n_n_0_1_132 : GatherDims S50000x32 S1650000x1 S1650000x32 where
  offsetDims := [1]
  collapsedSliceDims := [0]
  operandBatchingDims := []
  startIndicesBatchingDims := []
  startIndexMap := [0]
  indexVectorDim := 1
  sliceSizes := ![1, 32]
  wf := gather_S50000x32_S1650000x1_S1650000x32_1_0_n_n_0_1_132_wf
def scatter_S50000x32_S1650000x1_S1650000x32_1_0_0_1 : ScatterDims S50000x32 S1650000x1 S1650000x32 where
  updateWindowDims := [1]
  insertedWindowDims := [0]
  scatterDimsToOperandDims := [0]
  indexVectorDim := 1
  wf := scatter_S50000x32_S1650000x1_S1650000x32_1_0_0_1_wf
def gather_S10000x32_S500000x1_S500000x32_1_0_n_n_0_1_132 : GatherDims S10000x32 S500000x1 S500000x32 where
  offsetDims := [1]
  collapsedSliceDims := [0]
  operandBatchingDims := []
  startIndicesBatchingDims := []
  startIndexMap := [0]
  indexVectorDim := 1
  sliceSizes := ![1, 32]
  wf := gather_S10000x32_S500000x1_S500000x32_1_0_n_n_0_1_132_wf
def scatter_S50000x32_S500000x1_S500000x32_1_0_0_1 : ScatterDims S50000x32 S500000x1 S500000x32 where
  updateWindowDims := [1]
  insertedWindowDims := [0]
  scatterDimsToOperandDims := [0]
  indexVectorDim := 1
  wf := scatter_S50000x32_S500000x1_S500000x32_1_0_0_1_wf
def gather_S10000x32_S330000x1_S330000x32_1_0_n_n_0_1_132 : GatherDims S10000x32 S330000x1 S330000x32 where
  offsetDims := [1]
  collapsedSliceDims := [0]
  operandBatchingDims := []
  startIndicesBatchingDims := []
  startIndexMap := [0]
  indexVectorDim := 1
  sliceSizes := ![1, 32]
  wf := gather_S10000x32_S330000x1_S330000x32_1_0_n_n_0_1_132_wf
def scatter_S10000x32_S330000x1_S330000x32_1_0_0_1 : ScatterDims S10000x32 S330000x1 S330000x32 where
  updateWindowDims := [1]
  insertedWindowDims := [0]
  scatterDimsToOperandDims := [0]
  indexVectorDim := 1
  wf := scatter_S10000x32_S330000x1_S330000x32_1_0_0_1_wf
def gather_S50000x32_S500000x1_S500000x32_1_0_n_n_0_1_132 : GatherDims S50000x32 S500000x1 S500000x32 where
  offsetDims := [1]
  collapsedSliceDims := [0]
  operandBatchingDims := []
  startIndicesBatchingDims := []
  startIndexMap := [0]
  indexVectorDim := 1
  sliceSizes := ![1, 32]
  wf := gather_S50000x32_S500000x1_S500000x32_1_0_n_n_0_1_132_wf
def scatter_S10000x32_S500000x1_S500000x32_1_0_0_1 : ScatterDims S10000x32 S500000x1 S500000x32 where
  updateWindowDims := [1]
  insertedWindowDims := [0]
  scatterDimsToOperandDims := [0]
  indexVectorDim := 1
  wf := scatter_S10000x32_S500000x1_S500000x32_1_0_0_1_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg12) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg1) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v95) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg0) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg10) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v140) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v44) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v94) S2000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v192) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v193) S2000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v139) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v189) S2000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v194) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v195) S2000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v193) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg14) S64x32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v196) S2000x32.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v195) S2000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg20) S64x32.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v241) S2000x32.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v195) S2000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg16) S64x32.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v291) S2000x32.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v193) S2000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg18) S64x32.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v336) S2000x32.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v240) S2000x32.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v290) S2000x32.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v388) S1x32.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v389) S2000x32.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v335) S2000x32.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v385) S2000x32.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v390) S1x32.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v391) S2000x32.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

class Facts : Prop extends Facts₀ where

variable [Facts]
-- ==== ReferenceIdeal.lean ====
abbrev S50000x64 : Shape := ⟨2, ![50000, 64]⟩
abbrev S10000x64 : Shape := ⟨2, ![10000, 64]⟩
abbrev S2x1600000 : Shape := ⟨2, ![2, 1600000]⟩
abbrev S2x320000 : Shape := ⟨2, ![2, 320000]⟩
abbrev S2x500000 : Shape := ⟨2, ![2, 500000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1650000 : Shape := ⟨1, ![1650000]⟩
abbrev S1650000x1 : Shape := ⟨2, ![1650000, 1]⟩
abbrev S1650000x64 : Shape := ⟨2, ![1650000, 64]⟩
abbrev S1x64 : Shape := ⟨2, ![1, 64]⟩
abbrev S1x500000 : Shape := ⟨2, ![1, 500000]⟩
abbrev S500000 : Shape := ⟨1, ![500000]⟩
abbrev S10000 : Shape := ⟨1, ![10000]⟩
abbrev S500000x1 : Shape := ⟨2, ![500000, 1]⟩
abbrev S500000x64 : Shape := ⟨2, ![500000, 64]⟩
abbrev S1x320000 : Shape := ⟨2, ![1, 320000]⟩
abbrev S320000 : Shape := ⟨1, ![320000]⟩
abbrev S330000 : Shape := ⟨1, ![330000]⟩
abbrev S330000x1 : Shape := ⟨2, ![330000, 1]⟩
abbrev S330000x64 : Shape := ⟨2, ![330000, 64]⟩
abbrev S50000x32 : Shape := ⟨2, ![50000, 32]⟩
abbrev S1650000x32 : Shape := ⟨2, ![1650000, 32]⟩
abbrev S1x32 : Shape := ⟨2, ![1, 32]⟩
abbrev S10000x32 : Shape := ⟨2, ![10000, 32]⟩
abbrev S500000x32 : Shape := ⟨2, ![500000, 32]⟩
abbrev S330000x32 : Shape := ⟨2, ![330000, 32]⟩

abbrev nBuf : Space → Nat
  | .hbm => 586
  | .vmem => 0
  | .smem => 0
  | _ => 0

abbrev hbmTy0_0 (i : Nat) : BufTy := match i % 128 with
  | 0 => ⟨S50000x64, .f32⟩
  | 1 => ⟨S10000x64, .f32⟩
  | 2 => ⟨S2x1600000, .i32⟩
  | 3 => ⟨S2x320000, .i32⟩
  | 4 => ⟨S2x500000, .i32⟩
  | 5 => ⟨S2x500000, .i32⟩
  | 6 => ⟨S64x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64x64, .f32⟩
  | 13 => ⟨S64, .f32⟩
  | 14 => ⟨S64x32, .f32⟩
  | 15 => ⟨S32, .f32⟩
  | 16 => ⟨S64x32, .f32⟩
  | 17 => ⟨S32, .f32⟩
  | 18 => ⟨S64x32, .f32⟩
  | 19 => ⟨S32, .f32⟩
  | 20 => ⟨S64x32, .f32⟩
  | 21 => ⟨S32, .f32⟩
  | 22 => ⟨S50000x64, .f32⟩
  | 23 => ⟨S1x1600000, .i32⟩
  | 24 => ⟨S1600000, .i32⟩
  | 25 => ⟨S1x1600000, .i32⟩
  | 26 => ⟨S1600000, .i32⟩
  | 27 => ⟨S_, .f32⟩
  | 28 => ⟨S1600000, .f32⟩
  | 29 => ⟨S50000, .i32⟩
  | 30 => ⟨S1650000, .i32⟩
  | 31 => ⟨S1650000, .i32⟩
  | 32 => ⟨S_, .f32⟩
  | 33 => ⟨S1650000, .f32⟩
  | 34 => ⟨S_, .f32⟩
  | 35 => ⟨S50000, .f32⟩
  | 36 => ⟨S1650000x1, .i32⟩
  | 37 => ⟨S50000, .f32⟩
  | 38 => ⟨S_, .f32⟩
  | 39 => ⟨S50000, .f32⟩
  | 40 => ⟨S50000, .i1⟩
  | 41 => ⟨S_, .f32⟩
  | 42 => ⟨S50000, .f32⟩
  | 43 => ⟨S50000, .f32⟩
  | 44 => ⟨S_, .f32⟩
  | 45 => ⟨S_, .f32⟩
  | 46 => ⟨S50000, .f32⟩
  | 47 => ⟨S50000, .f32⟩
  | 48 => ⟨S_, .i32⟩
  | 49 => ⟨S1650000, .i32⟩
  | 50 => ⟨S1650000, .i1⟩
  | 51 => ⟨S_, .i32⟩
  | 52 => ⟨S1650000, .i32⟩
  | 53 => ⟨S1650000, .i32⟩
  | 54 => ⟨S1650000, .i32⟩
  | 55 => ⟨S1650000x1, .i32⟩
  | 56 => ⟨S1650000, .f32⟩
  | 57 => ⟨S_, .i32⟩
  | 58 => ⟨S1650000, .i32⟩
  | 59 => ⟨S1650000, .i1⟩
  | 60 => ⟨S_, .i32⟩
  | 61 => ⟨S1650000, .i32⟩
  | 62 => ⟨S1650000, .i32⟩
  | 63 => ⟨S1650000, .i32⟩
  | 64 => ⟨S1650000x1, .i32⟩
  | 65 => ⟨S1650000, .f32⟩
  | 66 => ⟨S1650000, .f32⟩
  | 67 => ⟨S_, .i32⟩
  | 68 => ⟨S1650000, .i32⟩
  | 69 => ⟨S1650000, .i1⟩
  | 70 => ⟨S_, .i32⟩
  | 71 => ⟨S1650000, .i32⟩
  | 72 => ⟨S1650000, .i32⟩
  | 73 => ⟨S1650000, .i32⟩
  | 74 => ⟨S1650000x1, .i32⟩
  | 75 => ⟨S1650000x64, .f32⟩
  | 76 => ⟨S1650000x1, .f32⟩
  | 77 => ⟨S1650000x64, .f32⟩
  | 78 => ⟨S1650000x64, .f32⟩
  | 79 => ⟨S_, .f32⟩
  | 80 => ⟨S50000x64, .f32⟩
  | 81 => ⟨S1650000x1, .i32⟩
  | 82 => ⟨S50000x64, .f32⟩
  | 83 => ⟨S1x64, .f32⟩
  | 84 => ⟨S50000x64, .f32⟩
  | 85 => ⟨S50000x64, .f32⟩
  | 86 => ⟨S10000x64, .f32⟩
  | 87 => ⟨S1x500000, .i32⟩
  | 88 => ⟨S500000, .i32⟩
  | 89 => ⟨S1x500000, .i32⟩
  | 90 => ⟨S500000, .i32⟩
  | 91 => ⟨S_, .f32⟩
  | 92 => ⟨S500000, .f32⟩
  | 93 => ⟨S_, .f32⟩
  | 94 => ⟨S10000, .f32⟩
  | 95 => ⟨S500000x1, .i32⟩
  | 96 => ⟨S10000, .f32⟩
  | 97 => ⟨S_, .f32⟩
  | 98 => ⟨S50000, .f32⟩
  | 99 => ⟨S500000x1, .i32⟩
  | 100 => ⟨S50000, .f32⟩
  | 101 => ⟨S_, .f32⟩
  | 102 => ⟨S10000, .f32⟩
  | 103 => ⟨S10000, .i1⟩
  | 104 => ⟨S_, .f32⟩
  | 105 => ⟨S10000, .f32⟩
  | 106 => ⟨S10000, .f32⟩
  | 107 => ⟨S_, .f32⟩
  | 108 => ⟨S_, .f32⟩
  | 109 => ⟨S10000, .f32⟩
  | 110 => ⟨S10000, .f32⟩
  | 111 => ⟨S_, .f32⟩
  | 112 => ⟨S50000, .f32⟩
  | 113 => ⟨S50000, .i1⟩
  | 114 => ⟨S_, .f32⟩
  | 115 => ⟨S50000, .f32⟩
  | 116 => ⟨S50000, .f32⟩
  | 117 => ⟨S_, .f32⟩
  | 118 => ⟨S_, .f32⟩
  | 119 => ⟨S50000, .f32⟩
  | 120 => ⟨S50000, .f32⟩
  | 121 => ⟨S_, .i32⟩
  | 122 => ⟨S500000, .i32⟩
  | 123 => ⟨S500000, .i1⟩
  | 124 => ⟨S_, .i32⟩
  | 125 => ⟨S500000, .i32⟩
  | 126 => ⟨S500000, .i32⟩
  | 127 => ⟨S500000, .i32⟩
  | _ => ⟨S50000x64, .f32⟩

abbrev hbmTy0_1 (i : Nat) : BufTy := match i % 128 with
  | 0 => ⟨S500000x1, .i32⟩
  | 1 => ⟨S500000, .f32⟩
  | 2 => ⟨S_, .i32⟩
  | 3 => ⟨S500000, .i32⟩
  | 4 => ⟨S500000, .i1⟩
  | 5 => ⟨S_, .i32⟩
  | 6 => ⟨S500000, .i32⟩
  | 7 => ⟨S500000, .i32⟩
  | 8 => ⟨S500000, .i32⟩
  | 9 => ⟨S500000x1, .i32⟩
  | 10 => ⟨S500000, .f32⟩
  | 11 => ⟨S500000, .f32⟩
  | 12 => ⟨S_, .i32⟩
  | 13 => ⟨S500000, .i32⟩
  | 14 => ⟨S500000, .i1⟩
  | 15 => ⟨S_, .i32⟩
  | 16 => ⟨S500000, .i32⟩
  | 17 => ⟨S500000, .i32⟩
  | 18 => ⟨S500000, .i32⟩
  | 19 => ⟨S500000x1, .i32⟩
  | 20 => ⟨S500000x64, .f32⟩
  | 21 => ⟨S500000x1, .f32⟩
  | 22 => ⟨S500000x64, .f32⟩
  | 23 => ⟨S500000x64, .f32⟩
  | 24 => ⟨S_, .f32⟩
  | 25 => ⟨S50000x64, .f32⟩
  | 26 => ⟨S500000x1, .i32⟩
  | 27 => ⟨S50000x64, .f32⟩
  | 28 => ⟨S1x64, .f32⟩
  | 29 => ⟨S50000x64, .f32⟩
  | 30 => ⟨S50000x64, .f32⟩
  | 31 => ⟨S50000x64, .f32⟩
  | 32 => ⟨S10000x64, .f32⟩
  | 33 => ⟨S1x320000, .i32⟩
  | 34 => ⟨S320000, .i32⟩
  | 35 => ⟨S1x320000, .i32⟩
  | 36 => ⟨S320000, .i32⟩
  | 37 => ⟨S_, .f32⟩
  | 38 => ⟨S320000, .f32⟩
  | 39 => ⟨S10000, .i32⟩
  | 40 => ⟨S330000, .i32⟩
  | 41 => ⟨S330000, .i32⟩
  | 42 => ⟨S_, .f32⟩
  | 43 => ⟨S330000, .f32⟩
  | 44 => ⟨S_, .f32⟩
  | 45 => ⟨S10000, .f32⟩
  | 46 => ⟨S330000x1, .i32⟩
  | 47 => ⟨S10000, .f32⟩
  | 48 => ⟨S_, .f32⟩
  | 49 => ⟨S10000, .f32⟩
  | 50 => ⟨S10000, .i1⟩
  | 51 => ⟨S_, .f32⟩
  | 52 => ⟨S10000, .f32⟩
  | 53 => ⟨S10000, .f32⟩
  | 54 => ⟨S_, .f32⟩
  | 55 => ⟨S_, .f32⟩
  | 56 => ⟨S10000, .f32⟩
  | 57 => ⟨S10000, .f32⟩
  | 58 => ⟨S_, .i32⟩
  | 59 => ⟨S330000, .i32⟩
  | 60 => ⟨S330000, .i1⟩
  | 61 => ⟨S_, .i32⟩
  | 62 => ⟨S330000, .i32⟩
  | 63 => ⟨S330000, .i32⟩
  | 64 => ⟨S330000, .i32⟩
  | 65 => ⟨S330000x1, .i32⟩
  | 66 => ⟨S330000, .f32⟩
  | 67 => ⟨S_, .i32⟩
  | 68 => ⟨S330000, .i32⟩
  | 69 => ⟨S330000, .i1⟩
  | 70 => ⟨S_, .i32⟩
  | 71 => ⟨S330000, .i32⟩
  | 72 => ⟨S330000, .i32⟩
  | 73 => ⟨S330000, .i32⟩
  | 74 => ⟨S330000x1, .i32⟩
  | 75 => ⟨S330000, .f32⟩
  | 76 => ⟨S330000, .f32⟩
  | 77 => ⟨S_, .i32⟩
  | 78 => ⟨S330000, .i32⟩
  | 79 => ⟨S330000, .i1⟩
  | 80 => ⟨S_, .i32⟩
  | 81 => ⟨S330000, .i32⟩
  | 82 => ⟨S330000, .i32⟩
  | 83 => ⟨S330000, .i32⟩
  | 84 => ⟨S330000x1, .i32⟩
  | 85 => ⟨S330000x64, .f32⟩
  | 86 => ⟨S330000x1, .f32⟩
  | 87 => ⟨S330000x64, .f32⟩
  | 88 => ⟨S330000x64, .f32⟩
  | 89 => ⟨S_, .f32⟩
  | 90 => ⟨S10000x64, .f32⟩
  | 91 => ⟨S330000x1, .i32⟩
  | 92 => ⟨S10000x64, .f32⟩
  | 93 => ⟨S1x64, .f32⟩
  | 94 => ⟨S10000x64, .f32⟩
  | 95 => ⟨S10000x64, .f32⟩
  | 96 => ⟨S50000x64, .f32⟩
  | 97 => ⟨S1x500000, .i32⟩
  | 98 => ⟨S500000, .i32⟩
  | 99 => ⟨S1x500000, .i32⟩
  | 100 => ⟨S500000, .i32⟩
  | 101 => ⟨S_, .f32⟩
  | 102 => ⟨S500000, .f32⟩
  | 103 => ⟨S_, .f32⟩
  | 104 => ⟨S50000, .f32⟩
  | 105 => ⟨S500000x1, .i32⟩
  | 106 => ⟨S50000, .f32⟩
  | 107 => ⟨S_, .f32⟩
  | 108 => ⟨S10000, .f32⟩
  | 109 => ⟨S500000x1, .i32⟩
  | 110 => ⟨S10000, .f32⟩
  | 111 => ⟨S_, .f32⟩
  | 112 => ⟨S50000, .f32⟩
  | 113 => ⟨S50000, .i1⟩
  | 114 => ⟨S_, .f32⟩
  | 115 => ⟨S50000, .f32⟩
  | 116 => ⟨S50000, .f32⟩
  | 117 => ⟨S_, .f32⟩
  | 118 => ⟨S_, .f32⟩
  | 119 => ⟨S50000, .f32⟩
  | 120 => ⟨S50000, .f32⟩
  | 121 => ⟨S_, .f32⟩
  | 122 => ⟨S10000, .f32⟩
  | 123 => ⟨S10000, .i1⟩
  | 124 => ⟨S_, .f32⟩
  | 125 => ⟨S10000, .f32⟩
  | 126 => ⟨S10000, .f32⟩
  | 127 => ⟨S_, .f32⟩
  | _ => ⟨S50000x64, .f32⟩

abbrev hbmTy0_2 (i : Nat) : BufTy := match i % 128 with
  | 0 => ⟨S_, .f32⟩
  | 1 => ⟨S10000, .f32⟩
  | 2 => ⟨S10000, .f32⟩
  | 3 => ⟨S_, .i32⟩
  | 4 => ⟨S500000, .i32⟩
  | 5 => ⟨S500000, .i1⟩
  | 6 => ⟨S_, .i32⟩
  | 7 => ⟨S500000, .i32⟩
  | 8 => ⟨S500000, .i32⟩
  | 9 => ⟨S500000, .i32⟩
  | 10 => ⟨S500000x1, .i32⟩
  | 11 => ⟨S500000, .f32⟩
  | 12 => ⟨S_, .i32⟩
  | 13 => ⟨S500000, .i32⟩
  | 14 => ⟨S500000, .i1⟩
  | 15 => ⟨S_, .i32⟩
  | 16 => ⟨S500000, .i32⟩
  | 17 => ⟨S500000, .i32⟩
  | 18 => ⟨S500000, .i32⟩
  | 19 => ⟨S500000x1, .i32⟩
  | 20 => ⟨S500000, .f32⟩
  | 21 => ⟨S500000, .f32⟩
  | 22 => ⟨S_, .i32⟩
  | 23 => ⟨S500000, .i32⟩
  | 24 => ⟨S500000, .i1⟩
  | 25 => ⟨S_, .i32⟩
  | 26 => ⟨S500000, .i32⟩
  | 27 => ⟨S500000, .i32⟩
  | 28 => ⟨S500000, .i32⟩
  | 29 => ⟨S500000x1, .i32⟩
  | 30 => ⟨S500000x64, .f32⟩
  | 31 => ⟨S500000x1, .f32⟩
  | 32 => ⟨S500000x64, .f32⟩
  | 33 => ⟨S500000x64, .f32⟩
  | 34 => ⟨S_, .f32⟩
  | 35 => ⟨S10000x64, .f32⟩
  | 36 => ⟨S500000x1, .i32⟩
  | 37 => ⟨S10000x64, .f32⟩
  | 38 => ⟨S1x64, .f32⟩
  | 39 => ⟨S10000x64, .f32⟩
  | 40 => ⟨S10000x64, .f32⟩
  | 41 => ⟨S10000x64, .f32⟩
  | 42 => ⟨S_, .f32⟩
  | 43 => ⟨S50000x64, .f32⟩
  | 44 => ⟨S50000x64, .f32⟩
  | 45 => ⟨S_, .f32⟩
  | 46 => ⟨S10000x64, .f32⟩
  | 47 => ⟨S10000x64, .f32⟩
  | 48 => ⟨S50000x32, .f32⟩
  | 49 => ⟨S1x1600000, .i32⟩
  | 50 => ⟨S1600000, .i32⟩
  | 51 => ⟨S1x1600000, .i32⟩
  | 52 => ⟨S1600000, .i32⟩
  | 53 => ⟨S_, .f32⟩
  | 54 => ⟨S1600000, .f32⟩
  | 55 => ⟨S50000, .i32⟩
  | 56 => ⟨S1650000, .i32⟩
  | 57 => ⟨S1650000, .i32⟩
  | 58 => ⟨S_, .f32⟩
  | 59 => ⟨S1650000, .f32⟩
  | 60 => ⟨S_, .f32⟩
  | 61 => ⟨S50000, .f32⟩
  | 62 => ⟨S1650000x1, .i32⟩
  | 63 => ⟨S50000, .f32⟩
  | 64 => ⟨S_, .f32⟩
  | 65 => ⟨S50000, .f32⟩
  | 66 => ⟨S50000, .i1⟩
  | 67 => ⟨S_, .f32⟩
  | 68 => ⟨S50000, .f32⟩
  | 69 => ⟨S50000, .f32⟩
  | 70 => ⟨S_, .f32⟩
  | 71 => ⟨S_, .f32⟩
  | 72 => ⟨S50000, .f32⟩
  | 73 => ⟨S50000, .f32⟩
  | 74 => ⟨S_, .i32⟩
  | 75 => ⟨S1650000, .i32⟩
  | 76 => ⟨S1650000, .i1⟩
  | 77 => ⟨S_, .i32⟩
  | 78 => ⟨S1650000, .i32⟩
  | 79 => ⟨S1650000, .i32⟩
  | 80 => ⟨S1650000, .i32⟩
  | 81 => ⟨S1650000x1, .i32⟩
  | 82 => ⟨S1650000, .f32⟩
  | 83 => ⟨S_, .i32⟩
  | 84 => ⟨S1650000, .i32⟩
  | 85 => ⟨S1650000, .i1⟩
  | 86 => ⟨S_, .i32⟩
  | 87 => ⟨S1650000, .i32⟩
  | 88 => ⟨S1650000, .i32⟩
  | 89 => ⟨S1650000, .i32⟩
  | 90 => ⟨S1650000x1, .i32⟩
  | 91 => ⟨S1650000, .f32⟩
  | 92 => ⟨S1650000, .f32⟩
  | 93 => ⟨S_, .i32⟩
  | 94 => ⟨S1650000, .i32⟩
  | 95 => ⟨S1650000, .i1⟩
  | 96 => ⟨S_, .i32⟩
  | 97 => ⟨S1650000, .i32⟩
  | 98 => ⟨S1650000, .i32⟩
  | 99 => ⟨S1650000, .i32⟩
  | 100 => ⟨S1650000x1, .i32⟩
  | 101 => ⟨S1650000x32, .f32⟩
  | 102 => ⟨S1650000x1, .f32⟩
  | 103 => ⟨S1650000x32, .f32⟩
  | 104 => ⟨S1650000x32, .f32⟩
  | 105 => ⟨S_, .f32⟩
  | 106 => ⟨S50000x32, .f32⟩
  | 107 => ⟨S1650000x1, .i32⟩
  | 108 => ⟨S50000x32, .f32⟩
  | 109 => ⟨S1x32, .f32⟩
  | 110 => ⟨S50000x32, .f32⟩
  | 111 => ⟨S50000x32, .f32⟩
  | 112 => ⟨S10000x32, .f32⟩
  | 113 => ⟨S1x500000, .i32⟩
  | 114 => ⟨S500000, .i32⟩
  | 115 => ⟨S1x500000, .i32⟩
  | 116 => ⟨S500000, .i32⟩
  | 117 => ⟨S_, .f32⟩
  | 118 => ⟨S500000, .f32⟩
  | 119 => ⟨S_, .f32⟩
  | 120 => ⟨S10000, .f32⟩
  | 121 => ⟨S500000x1, .i32⟩
  | 122 => ⟨S10000, .f32⟩
  | 123 => ⟨S_, .f32⟩
  | 124 => ⟨S50000, .f32⟩
  | 125 => ⟨S500000x1, .i32⟩
  | 126 => ⟨S50000, .f32⟩
  | 127 => ⟨S_, .f32⟩
  | _ => ⟨S50000x64, .f32⟩

abbrev hbmTy0_3 (i : Nat) : BufTy := match i % 128 with
  | 0 => ⟨S10000, .f32⟩
  | 1 => ⟨S10000, .i1⟩
  | 2 => ⟨S_, .f32⟩
  | 3 => ⟨S10000, .f32⟩
  | 4 => ⟨S10000, .f32⟩
  | 5 => ⟨S_, .f32⟩
  | 6 => ⟨S_, .f32⟩
  | 7 => ⟨S10000, .f32⟩
  | 8 => ⟨S10000, .f32⟩
  | 9 => ⟨S_, .f32⟩
  | 10 => ⟨S50000, .f32⟩
  | 11 => ⟨S50000, .i1⟩
  | 12 => ⟨S_, .f32⟩
  | 13 => ⟨S50000, .f32⟩
  | 14 => ⟨S50000, .f32⟩
  | 15 => ⟨S_, .f32⟩
  | 16 => ⟨S_, .f32⟩
  | 17 => ⟨S50000, .f32⟩
  | 18 => ⟨S50000, .f32⟩
  | 19 => ⟨S_, .i32⟩
  | 20 => ⟨S500000, .i32⟩
  | 21 => ⟨S500000, .i1⟩
  | 22 => ⟨S_, .i32⟩
  | 23 => ⟨S500000, .i32⟩
  | 24 => ⟨S500000, .i32⟩
  | 25 => ⟨S500000, .i32⟩
  | 26 => ⟨S500000x1, .i32⟩
  | 27 => ⟨S500000, .f32⟩
  | 28 => ⟨S_, .i32⟩
  | 29 => ⟨S500000, .i32⟩
  | 30 => ⟨S500000, .i1⟩
  | 31 => ⟨S_, .i32⟩
  | 32 => ⟨S500000, .i32⟩
  | 33 => ⟨S500000, .i32⟩
  | 34 => ⟨S500000, .i32⟩
  | 35 => ⟨S500000x1, .i32⟩
  | 36 => ⟨S500000, .f32⟩
  | 37 => ⟨S500000, .f32⟩
  | 38 => ⟨S_, .i32⟩
  | 39 => ⟨S500000, .i32⟩
  | 40 => ⟨S500000, .i1⟩
  | 41 => ⟨S_, .i32⟩
  | 42 => ⟨S500000, .i32⟩
  | 43 => ⟨S500000, .i32⟩
  | 44 => ⟨S500000, .i32⟩
  | 45 => ⟨S500000x1, .i32⟩
  | 46 => ⟨S500000x32, .f32⟩
  | 47 => ⟨S500000x1, .f32⟩
  | 48 => ⟨S500000x32, .f32⟩
  | 49 => ⟨S500000x32, .f32⟩
  | 50 => ⟨S_, .f32⟩
  | 51 => ⟨S50000x32, .f32⟩
  | 52 => ⟨S500000x1, .i32⟩
  | 53 => ⟨S50000x32, .f32⟩
  | 54 => ⟨S1x32, .f32⟩
  | 55 => ⟨S50000x32, .f32⟩
  | 56 => ⟨S50000x32, .f32⟩
  | 57 => ⟨S50000x32, .f32⟩
  | 58 => ⟨S10000x32, .f32⟩
  | 59 => ⟨S1x320000, .i32⟩
  | 60 => ⟨S320000, .i32⟩
  | 61 => ⟨S1x320000, .i32⟩
  | 62 => ⟨S320000, .i32⟩
  | 63 => ⟨S_, .f32⟩
  | 64 => ⟨S320000, .f32⟩
  | 65 => ⟨S10000, .i32⟩
  | 66 => ⟨S330000, .i32⟩
  | 67 => ⟨S330000, .i32⟩
  | 68 => ⟨S_, .f32⟩
  | 69 => ⟨S330000, .f32⟩
  | 70 => ⟨S_, .f32⟩
  | 71 => ⟨S10000, .f32⟩
  | 72 => ⟨S330000x1, .i32⟩
  | 73 => ⟨S10000, .f32⟩
  | 74 => ⟨S_, .f32⟩
  | 75 => ⟨S10000, .f32⟩
  | 76 => ⟨S10000, .i1⟩
  | 77 => ⟨S_, .f32⟩
  | 78 => ⟨S10000, .f32⟩
  | 79 => ⟨S10000, .f32⟩
  | 80 => ⟨S_, .f32⟩
  | 81 => ⟨S_, .f32⟩
  | 82 => ⟨S10000, .f32⟩
  | 83 => ⟨S10000, .f32⟩
  | 84 => ⟨S_, .i32⟩
  | 85 => ⟨S330000, .i32⟩
  | 86 => ⟨S330000, .i1⟩
  | 87 => ⟨S_, .i32⟩
  | 88 => ⟨S330000, .i32⟩
  | 89 => ⟨S330000, .i32⟩
  | 90 => ⟨S330000, .i32⟩
  | 91 => ⟨S330000x1, .i32⟩
  | 92 => ⟨S330000, .f32⟩
  | 93 => ⟨S_, .i32⟩
  | 94 => ⟨S330000, .i32⟩
  | 95 => ⟨S330000, .i1⟩
  | 96 => ⟨S_, .i32⟩
  | 97 => ⟨S330000, .i32⟩
  | 98 => ⟨S330000, .i32⟩
  | 99 => ⟨S330000, .i32⟩
  | 100 => ⟨S330000x1, .i32⟩
  | 101 => ⟨S330000, .f32⟩
  | 102 => ⟨S330000, .f32⟩
  | 103 => ⟨S_, .i32⟩
  | 104 => ⟨S330000, .i32⟩
  | 105 => ⟨S330000, .i1⟩
  | 106 => ⟨S_, .i32⟩
  | 107 => ⟨S330000, .i32⟩
  | 108 => ⟨S330000, .i32⟩
  | 109 => ⟨S330000, .i32⟩
  | 110 => ⟨S330000x1, .i32⟩
  | 111 => ⟨S330000x32, .f32⟩
  | 112 => ⟨S330000x1, .f32⟩
  | 113 => ⟨S330000x32, .f32⟩
  | 114 => ⟨S330000x32, .f32⟩
  | 115 => ⟨S_, .f32⟩
  | 116 => ⟨S10000x32, .f32⟩
  | 117 => ⟨S330000x1, .i32⟩
  | 118 => ⟨S10000x32, .f32⟩
  | 119 => ⟨S1x32, .f32⟩
  | 120 => ⟨S10000x32, .f32⟩
  | 121 => ⟨S10000x32, .f32⟩
  | 122 => ⟨S50000x32, .f32⟩
  | 123 => ⟨S1x500000, .i32⟩
  | 124 => ⟨S500000, .i32⟩
  | 125 => ⟨S1x500000, .i32⟩
  | 126 => ⟨S500000, .i32⟩
  | 127 => ⟨S_, .f32⟩
  | _ => ⟨S50000x64, .f32⟩

abbrev hbmTy0_4 (i : Nat) : BufTy := match i % 128 with
  | 0 => ⟨S500000, .f32⟩
  | 1 => ⟨S_, .f32⟩
  | 2 => ⟨S50000, .f32⟩
  | 3 => ⟨S500000x1, .i32⟩
  | 4 => ⟨S50000, .f32⟩
  | 5 => ⟨S_, .f32⟩
  | 6 => ⟨S10000, .f32⟩
  | 7 => ⟨S500000x1, .i32⟩
  | 8 => ⟨S10000, .f32⟩
  | 9 => ⟨S_, .f32⟩
  | 10 => ⟨S50000, .f32⟩
  | 11 => ⟨S50000, .i1⟩
  | 12 => ⟨S_, .f32⟩
  | 13 => ⟨S50000, .f32⟩
  | 14 => ⟨S50000, .f32⟩
  | 15 => ⟨S_, .f32⟩
  | 16 => ⟨S_, .f32⟩
  | 17 => ⟨S50000, .f32⟩
  | 18 => ⟨S50000, .f32⟩
  | 19 => ⟨S_, .f32⟩
  | 20 => ⟨S10000, .f32⟩
  | 21 => ⟨S10000, .i1⟩
  | 22 => ⟨S_, .f32⟩
  | 23 => ⟨S10000, .f32⟩
  | 24 => ⟨S10000, .f32⟩
  | 25 => ⟨S_, .f32⟩
  | 26 => ⟨S_, .f32⟩
  | 27 => ⟨S10000, .f32⟩
  | 28 => ⟨S10000, .f32⟩
  | 29 => ⟨S_, .i32⟩
  | 30 => ⟨S500000, .i32⟩
  | 31 => ⟨S500000, .i1⟩
  | 32 => ⟨S_, .i32⟩
  | 33 => ⟨S500000, .i32⟩
  | 34 => ⟨S500000, .i32⟩
  | 35 => ⟨S500000, .i32⟩
  | 36 => ⟨S500000x1, .i32⟩
  | 37 => ⟨S500000, .f32⟩
  | 38 => ⟨S_, .i32⟩
  | 39 => ⟨S500000, .i32⟩
  | 40 => ⟨S500000, .i1⟩
  | 41 => ⟨S_, .i32⟩
  | 42 => ⟨S500000, .i32⟩
  | 43 => ⟨S500000, .i32⟩
  | 44 => ⟨S500000, .i32⟩
  | 45 => ⟨S500000x1, .i32⟩
  | 46 => ⟨S500000, .f32⟩
  | 47 => ⟨S500000, .f32⟩
  | 48 => ⟨S_, .i32⟩
  | 49 => ⟨S500000, .i32⟩
  | 50 => ⟨S500000, .i1⟩
  | 51 => ⟨S_, .i32⟩
  | 52 => ⟨S500000, .i32⟩
  | 53 => ⟨S500000, .i32⟩
  | 54 => ⟨S500000, .i32⟩
  | 55 => ⟨S500000x1, .i32⟩
  | 56 => ⟨S500000x32, .f32⟩
  | 57 => ⟨S500000x1, .f32⟩
  | 58 => ⟨S500000x32, .f32⟩
  | 59 => ⟨S500000x32, .f32⟩
  | 60 => ⟨S_, .f32⟩
  | 61 => ⟨S10000x32, .f32⟩
  | 62 => ⟨S500000x1, .i32⟩
  | 63 => ⟨S10000x32, .f32⟩
  | 64 => ⟨S1x32, .f32⟩
  | 65 => ⟨S10000x32, .f32⟩
  | 66 => ⟨S10000x32, .f32⟩
  | 67 => ⟨S10000x32, .f32⟩
  | 68 => ⟨S_, .f32⟩
  | 69 => ⟨S50000x32, .f32⟩
  | 70 => ⟨S50000x32, .f32⟩
  | 71 => ⟨S_, .f32⟩
  | 72 => ⟨S10000x32, .f32⟩
  | 73 => ⟨S10000x32, .f32⟩
  | _ => ⟨S50000x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_cst : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_cst_0 : Ref sig .tc := ⟨.hbm, 32, rfl⟩
abbrev main_v9 : Ref sig .tc := ⟨.hbm, 33, rfl⟩
abbrev main_cst_1 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_cst_2 : Ref sig .tc := ⟨.hbm, 38, rfl⟩
abbrev main_v13 : Ref sig .tc := ⟨.hbm, 39, rfl⟩
abbrev main_v14 : Ref sig .tc := ⟨.hbm, 40, rfl⟩
abbrev main_cst_3 : Ref sig .tc := ⟨.hbm, 41, rfl⟩
abbrev main_v15 : Ref sig .tc := ⟨.hbm, 42, rfl⟩
abbrev main_v16 : Ref sig .tc := ⟨.hbm, 43, rfl⟩
abbrev main_cst_4 : Ref sig .tc := ⟨.hbm, 44, rfl⟩
abbrev main_call0_v0 : Ref sig .tc := ⟨.hbm, 45, rfl⟩
abbrev main_call0_v1 : Ref sig .tc := ⟨.hbm, 46, rfl⟩
abbrev main_v17 : Ref sig .tc := ⟨.hbm, 47, rfl⟩
abbrev main_c : Ref sig .tc := ⟨.hbm, 48, rfl⟩
abbrev main_v18 : Ref sig .tc := ⟨.hbm, 49, rfl⟩
abbrev main_v19 : Ref sig .tc := ⟨.hbm, 50, rfl⟩
abbrev main_c_5 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_c_6 : Ref sig .tc := ⟨.hbm, 57, rfl⟩
abbrev main_v25 : Ref sig .tc := ⟨.hbm, 58, rfl⟩
abbrev main_v26 : Ref sig .tc := ⟨.hbm, 59, rfl⟩
abbrev main_c_7 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_c_8 : Ref sig .tc := ⟨.hbm, 67, rfl⟩
abbrev main_v33 : Ref sig .tc := ⟨.hbm, 68, rfl⟩
abbrev main_v34 : Ref sig .tc := ⟨.hbm, 69, rfl⟩
abbrev main_c_9 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_cst_10 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_cst_11 : Ref sig .tc := ⟨.hbm, 91, rfl⟩
abbrev main_v54 : Ref sig .tc := ⟨.hbm, 92, rfl⟩
abbrev main_cst_12 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_cst_13 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_cst_14 : Ref sig .tc := ⟨.hbm, 101, rfl⟩
abbrev main_v61 : Ref sig .tc := ⟨.hbm, 102, rfl⟩
abbrev main_v62 : Ref sig .tc := ⟨.hbm, 103, rfl⟩
abbrev main_cst_15 : Ref sig .tc := ⟨.hbm, 104, rfl⟩
abbrev main_v63 : Ref sig .tc := ⟨.hbm, 105, rfl⟩
abbrev main_v64 : Ref sig .tc := ⟨.hbm, 106, rfl⟩
abbrev main_cst_16 : Ref sig .tc := ⟨.hbm, 107, rfl⟩
abbrev main_call1_v0 : Ref sig .tc := ⟨.hbm, 108, rfl⟩
abbrev main_call1_v1 : Ref sig .tc := ⟨.hbm, 109, rfl⟩
abbrev main_v65 : Ref sig .tc := ⟨.hbm, 110, rfl⟩
abbrev main_cst_17 : Ref sig .tc := ⟨.hbm, 111, rfl⟩
abbrev main_v66 : Ref sig .tc := ⟨.hbm, 112, rfl⟩
abbrev main_v67 : Ref sig .tc := ⟨.hbm, 113, rfl⟩
abbrev main_cst_18 : Ref sig .tc := ⟨.hbm, 114, rfl⟩
abbrev main_v68 : Ref sig .tc := ⟨.hbm, 115, rfl⟩
abbrev main_v69 : Ref sig .tc := ⟨.hbm, 116, rfl⟩
abbrev main_cst_19 : Ref sig .tc := ⟨.hbm, 117, rfl⟩
abbrev main_call2_v0 : Ref sig .tc := ⟨.hbm, 118, rfl⟩
abbrev main_call2_v1 : Ref sig .tc := ⟨.hbm, 119, rfl⟩
abbrev main_v70 : Ref sig .tc := ⟨.hbm, 120, rfl⟩
abbrev main_c_20 : Ref sig .tc := ⟨.hbm, 121, rfl⟩
abbrev main_v71 : Ref sig .tc := ⟨.hbm, 122, rfl⟩
abbrev main_v72 : Ref sig .tc := ⟨.hbm, 123, rfl⟩
abbrev main_c_21 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_c_22 : Ref sig .tc := ⟨.hbm, 130, rfl⟩
abbrev main_v78 : Ref sig .tc := ⟨.hbm, 131, rfl⟩
abbrev main_v79 : Ref sig .tc := ⟨.hbm, 132, rfl⟩
abbrev main_c_23 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_c_24 : Ref sig .tc := ⟨.hbm, 140, rfl⟩
abbrev main_v86 : Ref sig .tc := ⟨.hbm, 141, rfl⟩
abbrev main_v87 : Ref sig .tc := ⟨.hbm, 142, rfl⟩
abbrev main_c_25 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_cst_26 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_cst_27 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_cst_28 : Ref sig .tc := ⟨.hbm, 170, rfl⟩
abbrev main_v112 : Ref sig .tc := ⟨.hbm, 171, rfl⟩
abbrev main_cst_29 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_cst_30 : Ref sig .tc := ⟨.hbm, 176, rfl⟩
abbrev main_v116 : Ref sig .tc := ⟨.hbm, 177, rfl⟩
abbrev main_v117 : Ref sig .tc := ⟨.hbm, 178, rfl⟩
abbrev main_cst_31 : Ref sig .tc := ⟨.hbm, 179, rfl⟩
abbrev main_v118 : Ref sig .tc := ⟨.hbm, 180, rfl⟩
abbrev main_v119 : Ref sig .tc := ⟨.hbm, 181, rfl⟩
abbrev main_cst_32 : Ref sig .tc := ⟨.hbm, 182, rfl⟩
abbrev main_call3_v0 : Ref sig .tc := ⟨.hbm, 183, rfl⟩
abbrev main_call3_v1 : Ref sig .tc := ⟨.hbm, 184, rfl⟩
abbrev main_v120 : Ref sig .tc := ⟨.hbm, 185, rfl⟩
abbrev main_c_33 : Ref sig .tc := ⟨.hbm, 186, rfl⟩
abbrev main_v121 : Ref sig .tc := ⟨.hbm, 187, rfl⟩
abbrev main_v122 : Ref sig .tc := ⟨.hbm, 188, rfl⟩
abbrev main_c_34 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_c_35 : Ref sig .tc := ⟨.hbm, 195, rfl⟩
abbrev main_v128 : Ref sig .tc := ⟨.hbm, 196, rfl⟩
abbrev main_v129 : Ref sig .tc := ⟨.hbm, 197, rfl⟩
abbrev main_c_36 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩
abbrev main_v134 : Ref sig .tc := ⟨.hbm, 203, rfl⟩
abbrev main_v135 : Ref sig .tc := ⟨.hbm, 204, rfl⟩
abbrev main_c_37 : Ref sig .tc := ⟨.hbm, 205, rfl⟩
abbrev main_v136 : Ref sig .tc := ⟨.hbm, 206, rfl⟩
abbrev main_v137 : Ref sig .tc := ⟨.hbm, 207, rfl⟩
abbrev main_c_38 : Ref sig .tc := ⟨.hbm, 208, rfl⟩
abbrev main_v138 : Ref sig .tc := ⟨.hbm, 209, rfl⟩
abbrev main_v139 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_cst_39 : Ref sig .tc := ⟨.hbm, 217, rfl⟩
abbrev main_v146 : Ref sig .tc := ⟨.hbm, 218, rfl⟩
abbrev main_v147 : Ref sig .tc := ⟨.hbm, 219, rfl⟩
abbrev main_v148 : Ref sig .tc := ⟨.hbm, 220, rfl⟩
abbrev main_v149 : Ref sig .tc := ⟨.hbm, 221, rfl⟩
abbrev main_v150 : Ref sig .tc := ⟨.hbm, 222, rfl⟩
abbrev main_v151 : Ref sig .tc := ⟨.hbm, 223, rfl⟩
abbrev main_v152 : Ref sig .tc := ⟨.hbm, 224, rfl⟩
abbrev main_v153 : Ref sig .tc := ⟨.hbm, 225, rfl⟩
abbrev main_v154 : Ref sig .tc := ⟨.hbm, 226, rfl⟩
abbrev main_v155 : Ref sig .tc := ⟨.hbm, 227, rfl⟩
abbrev main_v156 : Ref sig .tc := ⟨.hbm, 228, rfl⟩
abbrev main_cst_40 : Ref sig .tc := ⟨.hbm, 229, rfl⟩
abbrev main_v157 : Ref sig .tc := ⟨.hbm, 230, rfl⟩
abbrev main_cst_41 : Ref sig .tc := ⟨.hbm, 231, rfl⟩
abbrev main_v158 : Ref sig .tc := ⟨.hbm, 232, rfl⟩
abbrev main_v159 : Ref sig .tc := ⟨.hbm, 233, rfl⟩
abbrev main_v160 : Ref sig .tc := ⟨.hbm, 234, rfl⟩
abbrev main_cst_42 : Ref sig .tc := ⟨.hbm, 235, rfl⟩
abbrev main_v161 : Ref sig .tc := ⟨.hbm, 236, rfl⟩
abbrev main_v162 : Ref sig .tc := ⟨.hbm, 237, rfl⟩
abbrev main_v163 : Ref sig .tc := ⟨.hbm, 238, rfl⟩
abbrev main_cst_43 : Ref sig .tc := ⟨.hbm, 239, rfl⟩
abbrev main_v164 : Ref sig .tc := ⟨.hbm, 240, rfl⟩
abbrev main_v165 : Ref sig .tc := ⟨.hbm, 241, rfl⟩
abbrev main_cst_44 : Ref sig .tc := ⟨.hbm, 242, rfl⟩
abbrev main_v166 : Ref sig .tc := ⟨.hbm, 243, rfl⟩
abbrev main_v167 : Ref sig .tc := ⟨.hbm, 244, rfl⟩
abbrev main_cst_45 : Ref sig .tc := ⟨.hbm, 245, rfl⟩
abbrev main_call4_v0 : Ref sig .tc := ⟨.hbm, 246, rfl⟩
abbrev main_call4_v1 : Ref sig .tc := ⟨.hbm, 247, rfl⟩
abbrev main_v168 : Ref sig .tc := ⟨.hbm, 248, rfl⟩
abbrev main_cst_46 : Ref sig .tc := ⟨.hbm, 249, rfl⟩
abbrev main_v169 : Ref sig .tc := ⟨.hbm, 250, rfl⟩
abbrev main_v170 : Ref sig .tc := ⟨.hbm, 251, rfl⟩
abbrev main_cst_47 : Ref sig .tc := ⟨.hbm, 252, rfl⟩
abbrev main_v171 : Ref sig .tc := ⟨.hbm, 253, rfl⟩
abbrev main_v172 : Ref sig .tc := ⟨.hbm, 254, rfl⟩
abbrev main_cst_48 : Ref sig .tc := ⟨.hbm, 255, rfl⟩
abbrev main_call5_v0 : Ref sig .tc := ⟨.hbm, 256, rfl⟩
abbrev main_call5_v1 : Ref sig .tc := ⟨.hbm, 257, rfl⟩
abbrev main_v173 : Ref sig .tc := ⟨.hbm, 258, rfl⟩
abbrev main_c_49 : Ref sig .tc := ⟨.hbm, 259, rfl⟩
abbrev main_v174 : Ref sig .tc := ⟨.hbm, 260, rfl⟩
abbrev main_v175 : Ref sig .tc := ⟨.hbm, 261, rfl⟩
abbrev main_c_50 : Ref sig .tc := ⟨.hbm, 262, rfl⟩
abbrev main_v176 : Ref sig .tc := ⟨.hbm, 263, rfl⟩
abbrev main_v177 : Ref sig .tc := ⟨.hbm, 264, rfl⟩
abbrev main_v178 : Ref sig .tc := ⟨.hbm, 265, rfl⟩
abbrev main_v179 : Ref sig .tc := ⟨.hbm, 266, rfl⟩
abbrev main_v180 : Ref sig .tc := ⟨.hbm, 267, rfl⟩
abbrev main_c_51 : Ref sig .tc := ⟨.hbm, 268, rfl⟩
abbrev main_v181 : Ref sig .tc := ⟨.hbm, 269, rfl⟩
abbrev main_v182 : Ref sig .tc := ⟨.hbm, 270, rfl⟩
abbrev main_c_52 : Ref sig .tc := ⟨.hbm, 271, rfl⟩
abbrev main_v183 : Ref sig .tc := ⟨.hbm, 272, rfl⟩
abbrev main_v184 : Ref sig .tc := ⟨.hbm, 273, rfl⟩
abbrev main_v185 : Ref sig .tc := ⟨.hbm, 274, rfl⟩
abbrev main_v186 : Ref sig .tc := ⟨.hbm, 275, rfl⟩
abbrev main_v187 : Ref sig .tc := ⟨.hbm, 276, rfl⟩
abbrev main_v188 : Ref sig .tc := ⟨.hbm, 277, rfl⟩
abbrev main_c_53 : Ref sig .tc := ⟨.hbm, 278, rfl⟩
abbrev main_v189 : Ref sig .tc := ⟨.hbm, 279, rfl⟩
abbrev main_v190 : Ref sig .tc := ⟨.hbm, 280, rfl⟩
abbrev main_c_54 : Ref sig .tc := ⟨.hbm, 281, rfl⟩
abbrev main_v191 : Ref sig .tc := ⟨.hbm, 282, rfl⟩
abbrev main_v192 : Ref sig .tc := ⟨.hbm, 283, rfl⟩
abbrev main_v193 : Ref sig .tc := ⟨.hbm, 284, rfl⟩
abbrev main_v194 : Ref sig .tc := ⟨.hbm, 285, rfl⟩
abbrev main_v195 : Ref sig .tc := ⟨.hbm, 286, rfl⟩
abbrev main_v196 : Ref sig .tc := ⟨.hbm, 287, rfl⟩
abbrev main_v197 : Ref sig .tc := ⟨.hbm, 288, rfl⟩
abbrev main_v198 : Ref sig .tc := ⟨.hbm, 289, rfl⟩
abbrev main_cst_55 : Ref sig .tc := ⟨.hbm, 290, rfl⟩
abbrev main_v199 : Ref sig .tc := ⟨.hbm, 291, rfl⟩
abbrev main_v200 : Ref sig .tc := ⟨.hbm, 292, rfl⟩
abbrev main_v201 : Ref sig .tc := ⟨.hbm, 293, rfl⟩
abbrev main_v202 : Ref sig .tc := ⟨.hbm, 294, rfl⟩
abbrev main_v203 : Ref sig .tc := ⟨.hbm, 295, rfl⟩
abbrev main_v204 : Ref sig .tc := ⟨.hbm, 296, rfl⟩
abbrev main_v205 : Ref sig .tc := ⟨.hbm, 297, rfl⟩
abbrev main_call6_cst : Ref sig .tc := ⟨.hbm, 298, rfl⟩
abbrev main_call6_v0 : Ref sig .tc := ⟨.hbm, 299, rfl⟩
abbrev main_v206 : Ref sig .tc := ⟨.hbm, 300, rfl⟩
abbrev main_call7_cst : Ref sig .tc := ⟨.hbm, 301, rfl⟩
abbrev main_call7_v0 : Ref sig .tc := ⟨.hbm, 302, rfl⟩
abbrev main_v207 : Ref sig .tc := ⟨.hbm, 303, rfl⟩
abbrev main_v208 : Ref sig .tc := ⟨.hbm, 304, rfl⟩
abbrev main_v209 : Ref sig .tc := ⟨.hbm, 305, rfl⟩
abbrev main_v210 : Ref sig .tc := ⟨.hbm, 306, rfl⟩
abbrev main_v211 : Ref sig .tc := ⟨.hbm, 307, rfl⟩
abbrev main_v212 : Ref sig .tc := ⟨.hbm, 308, rfl⟩
abbrev main_cst_56 : Ref sig .tc := ⟨.hbm, 309, rfl⟩
abbrev main_v213 : Ref sig .tc := ⟨.hbm, 310, rfl⟩
abbrev main_v214 : Ref sig .tc := ⟨.hbm, 311, rfl⟩
abbrev main_v215 : Ref sig .tc := ⟨.hbm, 312, rfl⟩
abbrev main_v216 : Ref sig .tc := ⟨.hbm, 313, rfl⟩
abbrev main_cst_57 : Ref sig .tc := ⟨.hbm, 314, rfl⟩
abbrev main_v217 : Ref sig .tc := ⟨.hbm, 315, rfl⟩
abbrev main_cst_58 : Ref sig .tc := ⟨.hbm, 316, rfl⟩
abbrev main_v218 : Ref sig .tc := ⟨.hbm, 317, rfl⟩
abbrev main_v219 : Ref sig .tc := ⟨.hbm, 318, rfl⟩
abbrev main_v220 : Ref sig .tc := ⟨.hbm, 319, rfl⟩
abbrev main_cst_59 : Ref sig .tc := ⟨.hbm, 320, rfl⟩
abbrev main_v221 : Ref sig .tc := ⟨.hbm, 321, rfl⟩
abbrev main_v222 : Ref sig .tc := ⟨.hbm, 322, rfl⟩
abbrev main_cst_60 : Ref sig .tc := ⟨.hbm, 323, rfl⟩
abbrev main_v223 : Ref sig .tc := ⟨.hbm, 324, rfl⟩
abbrev main_v224 : Ref sig .tc := ⟨.hbm, 325, rfl⟩
abbrev main_cst_61 : Ref sig .tc := ⟨.hbm, 326, rfl⟩
abbrev main_call8_v0 : Ref sig .tc := ⟨.hbm, 327, rfl⟩
abbrev main_call8_v1 : Ref sig .tc := ⟨.hbm, 328, rfl⟩
abbrev main_v225 : Ref sig .tc := ⟨.hbm, 329, rfl⟩
abbrev main_c_62 : Ref sig .tc := ⟨.hbm, 330, rfl⟩
abbrev main_v226 : Ref sig .tc := ⟨.hbm, 331, rfl⟩
abbrev main_v227 : Ref sig .tc := ⟨.hbm, 332, rfl⟩
abbrev main_c_63 : Ref sig .tc := ⟨.hbm, 333, rfl⟩
abbrev main_v228 : Ref sig .tc := ⟨.hbm, 334, rfl⟩
abbrev main_v229 : Ref sig .tc := ⟨.hbm, 335, rfl⟩
abbrev main_v230 : Ref sig .tc := ⟨.hbm, 336, rfl⟩
abbrev main_v231 : Ref sig .tc := ⟨.hbm, 337, rfl⟩
abbrev main_v232 : Ref sig .tc := ⟨.hbm, 338, rfl⟩
abbrev main_c_64 : Ref sig .tc := ⟨.hbm, 339, rfl⟩
abbrev main_v233 : Ref sig .tc := ⟨.hbm, 340, rfl⟩
abbrev main_v234 : Ref sig .tc := ⟨.hbm, 341, rfl⟩
abbrev main_c_65 : Ref sig .tc := ⟨.hbm, 342, rfl⟩
abbrev main_v235 : Ref sig .tc := ⟨.hbm, 343, rfl⟩
abbrev main_v236 : Ref sig .tc := ⟨.hbm, 344, rfl⟩
abbrev main_v237 : Ref sig .tc := ⟨.hbm, 345, rfl⟩
abbrev main_v238 : Ref sig .tc := ⟨.hbm, 346, rfl⟩
abbrev main_v239 : Ref sig .tc := ⟨.hbm, 347, rfl⟩
abbrev main_v240 : Ref sig .tc := ⟨.hbm, 348, rfl⟩
abbrev main_c_66 : Ref sig .tc := ⟨.hbm, 349, rfl⟩
abbrev main_v241 : Ref sig .tc := ⟨.hbm, 350, rfl⟩
abbrev main_v242 : Ref sig .tc := ⟨.hbm, 351, rfl⟩
abbrev main_c_67 : Ref sig .tc := ⟨.hbm, 352, rfl⟩
abbrev main_v243 : Ref sig .tc := ⟨.hbm, 353, rfl⟩
abbrev main_v244 : Ref sig .tc := ⟨.hbm, 354, rfl⟩
abbrev main_v245 : Ref sig .tc := ⟨.hbm, 355, rfl⟩
abbrev main_v246 : Ref sig .tc := ⟨.hbm, 356, rfl⟩
abbrev main_v247 : Ref sig .tc := ⟨.hbm, 357, rfl⟩
abbrev main_v248 : Ref sig .tc := ⟨.hbm, 358, rfl⟩
abbrev main_v249 : Ref sig .tc := ⟨.hbm, 359, rfl⟩
abbrev main_v250 : Ref sig .tc := ⟨.hbm, 360, rfl⟩
abbrev main_cst_68 : Ref sig .tc := ⟨.hbm, 361, rfl⟩
abbrev main_v251 : Ref sig .tc := ⟨.hbm, 362, rfl⟩
abbrev main_v252 : Ref sig .tc := ⟨.hbm, 363, rfl⟩
abbrev main_v253 : Ref sig .tc := ⟨.hbm, 364, rfl⟩
abbrev main_v254 : Ref sig .tc := ⟨.hbm, 365, rfl⟩
abbrev main_v255 : Ref sig .tc := ⟨.hbm, 366, rfl⟩
abbrev main_v256 : Ref sig .tc := ⟨.hbm, 367, rfl⟩
abbrev main_v257 : Ref sig .tc := ⟨.hbm, 368, rfl⟩
abbrev main_v258 : Ref sig .tc := ⟨.hbm, 369, rfl⟩
abbrev main_v259 : Ref sig .tc := ⟨.hbm, 370, rfl⟩
abbrev main_v260 : Ref sig .tc := ⟨.hbm, 371, rfl⟩
abbrev main_v261 : Ref sig .tc := ⟨.hbm, 372, rfl⟩
abbrev main_cst_69 : Ref sig .tc := ⟨.hbm, 373, rfl⟩
abbrev main_v262 : Ref sig .tc := ⟨.hbm, 374, rfl⟩
abbrev main_cst_70 : Ref sig .tc := ⟨.hbm, 375, rfl⟩
abbrev main_v263 : Ref sig .tc := ⟨.hbm, 376, rfl⟩
abbrev main_v264 : Ref sig .tc := ⟨.hbm, 377, rfl⟩
abbrev main_v265 : Ref sig .tc := ⟨.hbm, 378, rfl⟩
abbrev main_cst_71 : Ref sig .tc := ⟨.hbm, 379, rfl⟩
abbrev main_v266 : Ref sig .tc := ⟨.hbm, 380, rfl⟩
abbrev main_v267 : Ref sig .tc := ⟨.hbm, 381, rfl⟩
abbrev main_v268 : Ref sig .tc := ⟨.hbm, 382, rfl⟩
abbrev main_cst_72 : Ref sig .tc := ⟨.hbm, 383, rfl⟩
abbrev main_v269 : Ref sig .tc := ⟨.hbm, 384, rfl⟩
abbrev main_v270 : Ref sig .tc := ⟨.hbm, 385, rfl⟩
abbrev main_cst_73 : Ref sig .tc := ⟨.hbm, 386, rfl⟩
abbrev main_v271 : Ref sig .tc := ⟨.hbm, 387, rfl⟩
abbrev main_v272 : Ref sig .tc := ⟨.hbm, 388, rfl⟩
abbrev main_cst_74 : Ref sig .tc := ⟨.hbm, 389, rfl⟩
abbrev main_call9_v0 : Ref sig .tc := ⟨.hbm, 390, rfl⟩
abbrev main_call9_v1 : Ref sig .tc := ⟨.hbm, 391, rfl⟩
abbrev main_v273 : Ref sig .tc := ⟨.hbm, 392, rfl⟩
abbrev main_cst_75 : Ref sig .tc := ⟨.hbm, 393, rfl⟩
abbrev main_v274 : Ref sig .tc := ⟨.hbm, 394, rfl⟩
abbrev main_v275 : Ref sig .tc := ⟨.hbm, 395, rfl⟩
abbrev main_cst_76 : Ref sig .tc := ⟨.hbm, 396, rfl⟩
abbrev main_v276 : Ref sig .tc := ⟨.hbm, 397, rfl⟩
abbrev main_v277 : Ref sig .tc := ⟨.hbm, 398, rfl⟩
abbrev main_cst_77 : Ref sig .tc := ⟨.hbm, 399, rfl⟩
abbrev main_call10_v0 : Ref sig .tc := ⟨.hbm, 400, rfl⟩
abbrev main_call10_v1 : Ref sig .tc := ⟨.hbm, 401, rfl⟩
abbrev main_v278 : Ref sig .tc := ⟨.hbm, 402, rfl⟩
abbrev main_c_78 : Ref sig .tc := ⟨.hbm, 403, rfl⟩
abbrev main_v279 : Ref sig .tc := ⟨.hbm, 404, rfl⟩
abbrev main_v280 : Ref sig .tc := ⟨.hbm, 405, rfl⟩
abbrev main_c_79 : Ref sig .tc := ⟨.hbm, 406, rfl⟩
abbrev main_v281 : Ref sig .tc := ⟨.hbm, 407, rfl⟩
abbrev main_v282 : Ref sig .tc := ⟨.hbm, 408, rfl⟩
abbrev main_v283 : Ref sig .tc := ⟨.hbm, 409, rfl⟩
abbrev main_v284 : Ref sig .tc := ⟨.hbm, 410, rfl⟩
abbrev main_v285 : Ref sig .tc := ⟨.hbm, 411, rfl⟩
abbrev main_c_80 : Ref sig .tc := ⟨.hbm, 412, rfl⟩
abbrev main_v286 : Ref sig .tc := ⟨.hbm, 413, rfl⟩
abbrev main_v287 : Ref sig .tc := ⟨.hbm, 414, rfl⟩
abbrev main_c_81 : Ref sig .tc := ⟨.hbm, 415, rfl⟩
abbrev main_v288 : Ref sig .tc := ⟨.hbm, 416, rfl⟩
abbrev main_v289 : Ref sig .tc := ⟨.hbm, 417, rfl⟩
abbrev main_v290 : Ref sig .tc := ⟨.hbm, 418, rfl⟩
abbrev main_v291 : Ref sig .tc := ⟨.hbm, 419, rfl⟩
abbrev main_v292 : Ref sig .tc := ⟨.hbm, 420, rfl⟩
abbrev main_v293 : Ref sig .tc := ⟨.hbm, 421, rfl⟩
abbrev main_c_82 : Ref sig .tc := ⟨.hbm, 422, rfl⟩
abbrev main_v294 : Ref sig .tc := ⟨.hbm, 423, rfl⟩
abbrev main_v295 : Ref sig .tc := ⟨.hbm, 424, rfl⟩
abbrev main_c_83 : Ref sig .tc := ⟨.hbm, 425, rfl⟩
abbrev main_v296 : Ref sig .tc := ⟨.hbm, 426, rfl⟩
abbrev main_v297 : Ref sig .tc := ⟨.hbm, 427, rfl⟩
abbrev main_v298 : Ref sig .tc := ⟨.hbm, 428, rfl⟩
abbrev main_v299 : Ref sig .tc := ⟨.hbm, 429, rfl⟩
abbrev main_v300 : Ref sig .tc := ⟨.hbm, 430, rfl⟩
abbrev main_v301 : Ref sig .tc := ⟨.hbm, 431, rfl⟩
abbrev main_v302 : Ref sig .tc := ⟨.hbm, 432, rfl⟩
abbrev main_v303 : Ref sig .tc := ⟨.hbm, 433, rfl⟩
abbrev main_cst_84 : Ref sig .tc := ⟨.hbm, 434, rfl⟩
abbrev main_v304 : Ref sig .tc := ⟨.hbm, 435, rfl⟩
abbrev main_v305 : Ref sig .tc := ⟨.hbm, 436, rfl⟩
abbrev main_v306 : Ref sig .tc := ⟨.hbm, 437, rfl⟩
abbrev main_v307 : Ref sig .tc := ⟨.hbm, 438, rfl⟩
abbrev main_v308 : Ref sig .tc := ⟨.hbm, 439, rfl⟩
abbrev main_v309 : Ref sig .tc := ⟨.hbm, 440, rfl⟩
abbrev main_v310 : Ref sig .tc := ⟨.hbm, 441, rfl⟩
abbrev main_v311 : Ref sig .tc := ⟨.hbm, 442, rfl⟩
abbrev main_v312 : Ref sig .tc := ⟨.hbm, 443, rfl⟩
abbrev main_v313 : Ref sig .tc := ⟨.hbm, 444, rfl⟩
abbrev main_v314 : Ref sig .tc := ⟨.hbm, 445, rfl⟩
abbrev main_v315 : Ref sig .tc := ⟨.hbm, 446, rfl⟩
abbrev main_cst_85 : Ref sig .tc := ⟨.hbm, 447, rfl⟩
abbrev main_v316 : Ref sig .tc := ⟨.hbm, 448, rfl⟩
abbrev main_v317 : Ref sig .tc := ⟨.hbm, 449, rfl⟩
abbrev main_v318 : Ref sig .tc := ⟨.hbm, 450, rfl⟩
abbrev main_v319 : Ref sig .tc := ⟨.hbm, 451, rfl⟩
abbrev main_cst_86 : Ref sig .tc := ⟨.hbm, 452, rfl⟩
abbrev main_v320 : Ref sig .tc := ⟨.hbm, 453, rfl⟩
abbrev main_cst_87 : Ref sig .tc := ⟨.hbm, 454, rfl⟩
abbrev main_v321 : Ref sig .tc := ⟨.hbm, 455, rfl⟩
abbrev main_v322 : Ref sig .tc := ⟨.hbm, 456, rfl⟩
abbrev main_v323 : Ref sig .tc := ⟨.hbm, 457, rfl⟩
abbrev main_cst_88 : Ref sig .tc := ⟨.hbm, 458, rfl⟩
abbrev main_v324 : Ref sig .tc := ⟨.hbm, 459, rfl⟩
abbrev main_v325 : Ref sig .tc := ⟨.hbm, 460, rfl⟩
abbrev main_cst_89 : Ref sig .tc := ⟨.hbm, 461, rfl⟩
abbrev main_v326 : Ref sig .tc := ⟨.hbm, 462, rfl⟩
abbrev main_v327 : Ref sig .tc := ⟨.hbm, 463, rfl⟩
abbrev main_cst_90 : Ref sig .tc := ⟨.hbm, 464, rfl⟩
abbrev main_call11_v0 : Ref sig .tc := ⟨.hbm, 465, rfl⟩
abbrev main_call11_v1 : Ref sig .tc := ⟨.hbm, 466, rfl⟩
abbrev main_v328 : Ref sig .tc := ⟨.hbm, 467, rfl⟩
abbrev main_c_91 : Ref sig .tc := ⟨.hbm, 468, rfl⟩
abbrev main_v329 : Ref sig .tc := ⟨.hbm, 469, rfl⟩
abbrev main_v330 : Ref sig .tc := ⟨.hbm, 470, rfl⟩
abbrev main_c_92 : Ref sig .tc := ⟨.hbm, 471, rfl⟩
abbrev main_v331 : Ref sig .tc := ⟨.hbm, 472, rfl⟩
abbrev main_v332 : Ref sig .tc := ⟨.hbm, 473, rfl⟩
abbrev main_v333 : Ref sig .tc := ⟨.hbm, 474, rfl⟩
abbrev main_v334 : Ref sig .tc := ⟨.hbm, 475, rfl⟩
abbrev main_v335 : Ref sig .tc := ⟨.hbm, 476, rfl⟩
abbrev main_c_93 : Ref sig .tc := ⟨.hbm, 477, rfl⟩
abbrev main_v336 : Ref sig .tc := ⟨.hbm, 478, rfl⟩
abbrev main_v337 : Ref sig .tc := ⟨.hbm, 479, rfl⟩
abbrev main_c_94 : Ref sig .tc := ⟨.hbm, 480, rfl⟩
abbrev main_v338 : Ref sig .tc := ⟨.hbm, 481, rfl⟩
abbrev main_v339 : Ref sig .tc := ⟨.hbm, 482, rfl⟩
abbrev main_v340 : Ref sig .tc := ⟨.hbm, 483, rfl⟩
abbrev main_v341 : Ref sig .tc := ⟨.hbm, 484, rfl⟩
abbrev main_v342 : Ref sig .tc := ⟨.hbm, 485, rfl⟩
abbrev main_v343 : Ref sig .tc := ⟨.hbm, 486, rfl⟩
abbrev main_c_95 : Ref sig .tc := ⟨.hbm, 487, rfl⟩
abbrev main_v344 : Ref sig .tc := ⟨.hbm, 488, rfl⟩
abbrev main_v345 : Ref sig .tc := ⟨.hbm, 489, rfl⟩
abbrev main_c_96 : Ref sig .tc := ⟨.hbm, 490, rfl⟩
abbrev main_v346 : Ref sig .tc := ⟨.hbm, 491, rfl⟩
abbrev main_v347 : Ref sig .tc := ⟨.hbm, 492, rfl⟩
abbrev main_v348 : Ref sig .tc := ⟨.hbm, 493, rfl⟩
abbrev main_v349 : Ref sig .tc := ⟨.hbm, 494, rfl⟩
abbrev main_v350 : Ref sig .tc := ⟨.hbm, 495, rfl⟩
abbrev main_v351 : Ref sig .tc := ⟨.hbm, 496, rfl⟩
abbrev main_v352 : Ref sig .tc := ⟨.hbm, 497, rfl⟩
abbrev main_v353 : Ref sig .tc := ⟨.hbm, 498, rfl⟩
abbrev main_cst_97 : Ref sig .tc := ⟨.hbm, 499, rfl⟩
abbrev main_v354 : Ref sig .tc := ⟨.hbm, 500, rfl⟩
abbrev main_v355 : Ref sig .tc := ⟨.hbm, 501, rfl⟩
abbrev main_v356 : Ref sig .tc := ⟨.hbm, 502, rfl⟩
abbrev main_v357 : Ref sig .tc := ⟨.hbm, 503, rfl⟩
abbrev main_v358 : Ref sig .tc := ⟨.hbm, 504, rfl⟩
abbrev main_v359 : Ref sig .tc := ⟨.hbm, 505, rfl⟩
abbrev main_v360 : Ref sig .tc := ⟨.hbm, 506, rfl⟩
abbrev main_v361 : Ref sig .tc := ⟨.hbm, 507, rfl⟩
abbrev main_v362 : Ref sig .tc := ⟨.hbm, 508, rfl⟩
abbrev main_v363 : Ref sig .tc := ⟨.hbm, 509, rfl⟩
abbrev main_v364 : Ref sig .tc := ⟨.hbm, 510, rfl⟩
abbrev main_cst_98 : Ref sig .tc := ⟨.hbm, 511, rfl⟩
abbrev main_v365 : Ref sig .tc := ⟨.hbm, 512, rfl⟩
abbrev main_cst_99 : Ref sig .tc := ⟨.hbm, 513, rfl⟩
abbrev main_v366 : Ref sig .tc := ⟨.hbm, 514, rfl⟩
abbrev main_v367 : Ref sig .tc := ⟨.hbm, 515, rfl⟩
abbrev main_v368 : Ref sig .tc := ⟨.hbm, 516, rfl⟩
abbrev main_cst_100 : Ref sig .tc := ⟨.hbm, 517, rfl⟩
abbrev main_v369 : Ref sig .tc := ⟨.hbm, 518, rfl⟩
abbrev main_v370 : Ref sig .tc := ⟨.hbm, 519, rfl⟩
abbrev main_v371 : Ref sig .tc := ⟨.hbm, 520, rfl⟩
abbrev main_cst_101 : Ref sig .tc := ⟨.hbm, 521, rfl⟩
abbrev main_v372 : Ref sig .tc := ⟨.hbm, 522, rfl⟩
abbrev main_v373 : Ref sig .tc := ⟨.hbm, 523, rfl⟩
abbrev main_cst_102 : Ref sig .tc := ⟨.hbm, 524, rfl⟩
abbrev main_v374 : Ref sig .tc := ⟨.hbm, 525, rfl⟩
abbrev main_v375 : Ref sig .tc := ⟨.hbm, 526, rfl⟩
abbrev main_cst_103 : Ref sig .tc := ⟨.hbm, 527, rfl⟩
abbrev main_call12_v0 : Ref sig .tc := ⟨.hbm, 528, rfl⟩
abbrev main_call12_v1 : Ref sig .tc := ⟨.hbm, 529, rfl⟩
abbrev main_v376 : Ref sig .tc := ⟨.hbm, 530, rfl⟩
abbrev main_cst_104 : Ref sig .tc := ⟨.hbm, 531, rfl⟩
abbrev main_v377 : Ref sig .tc := ⟨.hbm, 532, rfl⟩
abbrev main_v378 : Ref sig .tc := ⟨.hbm, 533, rfl⟩
abbrev main_cst_105 : Ref sig .tc := ⟨.hbm, 534, rfl⟩
abbrev main_v379 : Ref sig .tc := ⟨.hbm, 535, rfl⟩
abbrev main_v380 : Ref sig .tc := ⟨.hbm, 536, rfl⟩
abbrev main_cst_106 : Ref sig .tc := ⟨.hbm, 537, rfl⟩
abbrev main_call13_v0 : Ref sig .tc := ⟨.hbm, 538, rfl⟩
abbrev main_call13_v1 : Ref sig .tc := ⟨.hbm, 539, rfl⟩
abbrev main_v381 : Ref sig .tc := ⟨.hbm, 540, rfl⟩
abbrev main_c_107 : Ref sig .tc := ⟨.hbm, 541, rfl⟩
abbrev main_v382 : Ref sig .tc := ⟨.hbm, 542, rfl⟩
abbrev main_v383 : Ref sig .tc := ⟨.hbm, 543, rfl⟩
abbrev main_c_108 : Ref sig .tc := ⟨.hbm, 544, rfl⟩
abbrev main_v384 : Ref sig .tc := ⟨.hbm, 545, rfl⟩
abbrev main_v385 : Ref sig .tc := ⟨.hbm, 546, rfl⟩
abbrev main_v386 : Ref sig .tc := ⟨.hbm, 547, rfl⟩
abbrev main_v387 : Ref sig .tc := ⟨.hbm, 548, rfl⟩
abbrev main_v388 : Ref sig .tc := ⟨.hbm, 549, rfl⟩
abbrev main_c_109 : Ref sig .tc := ⟨.hbm, 550, rfl⟩
abbrev main_v389 : Ref sig .tc := ⟨.hbm, 551, rfl⟩
abbrev main_v390 : Ref sig .tc := ⟨.hbm, 552, rfl⟩
abbrev main_c_110 : Ref sig .tc := ⟨.hbm, 553, rfl⟩
abbrev main_v391 : Ref sig .tc := ⟨.hbm, 554, rfl⟩
abbrev main_v392 : Ref sig .tc := ⟨.hbm, 555, rfl⟩
abbrev main_v393 : Ref sig .tc := ⟨.hbm, 556, rfl⟩
abbrev main_v394 : Ref sig .tc := ⟨.hbm, 557, rfl⟩
abbrev main_v395 : Ref sig .tc := ⟨.hbm, 558, rfl⟩
abbrev main_v396 : Ref sig .tc := ⟨.hbm, 559, rfl⟩
abbrev main_c_111 : Ref sig .tc := ⟨.hbm, 560, rfl⟩
abbrev main_v397 : Ref sig .tc := ⟨.hbm, 561, rfl⟩
abbrev main_v398 : Ref sig .tc := ⟨.hbm, 562, rfl⟩
abbrev main_c_112 : Ref sig .tc := ⟨.hbm, 563, rfl⟩
abbrev main_v399 : Ref sig .tc := ⟨.hbm, 564, rfl⟩
abbrev main_v400 : Ref sig .tc := ⟨.hbm, 565, rfl⟩
abbrev main_v401 : Ref sig .tc := ⟨.hbm, 566, rfl⟩
abbrev main_v402 : Ref sig .tc := ⟨.hbm, 567, rfl⟩
abbrev main_v403 : Ref sig .tc := ⟨.hbm, 568, rfl⟩
abbrev main_v404 : Ref sig .tc := ⟨.hbm, 569, rfl⟩
abbrev main_v405 : Ref sig .tc := ⟨.hbm, 570, rfl⟩
abbrev main_v406 : Ref sig .tc := ⟨.hbm, 571, rfl⟩
abbrev main_cst_113 : Ref sig .tc := ⟨.hbm, 572, rfl⟩
abbrev main_v407 : Ref sig .tc := ⟨.hbm, 573, rfl⟩
abbrev main_v408 : Ref sig .tc := ⟨.hbm, 574, rfl⟩
abbrev main_v409 : Ref sig .tc := ⟨.hbm, 575, rfl⟩
abbrev main_v410 : Ref sig .tc := ⟨.hbm, 576, rfl⟩
abbrev main_v411 : Ref sig .tc := ⟨.hbm, 577, rfl⟩
abbrev main_v412 : Ref sig .tc := ⟨.hbm, 578, rfl⟩
abbrev main_v413 : Ref sig .tc := ⟨.hbm, 579, rfl⟩
abbrev main_call14_cst : Ref sig .tc := ⟨.hbm, 580, rfl⟩
abbrev main_call14_v0 : Ref sig .tc := ⟨.hbm, 581, rfl⟩
abbrev main_v414 : Ref sig .tc := ⟨.hbm, 582, rfl⟩
abbrev main_call15_cst : Ref sig .tc := ⟨.hbm, 583, rfl⟩
abbrev main_call15_v0 : Ref sig .tc := ⟨.hbm, 584, rfl⟩
abbrev main_v415 : Ref sig .tc := ⟨.hbm, 585, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S_S10000 : S_.BroadcastsInDim S10000 (![] : Fin 0 → Fin S10000.rank)
  bcast_S500000_S500000x1_0 : S500000.BroadcastsInDim S500000x1 (![0] : Fin 1 → Fin S500000x1.rank)
  bcast_S500000x1_S500000x64_0_1 : S500000x1.BroadcastsInDim S500000x64 (![0, 1] : Fin 2 → Fin S500000x64.rank)
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  concatenates_S320000_S10000_S330000_d0 : Shape.Concatenates [S320000, S10000] S330000 0
  bcast_S_S330000 : S_.BroadcastsInDim S330000 (![] : Fin 0 → Fin S330000.rank)
  bcast_S330000_S330000x1_0 : S330000.BroadcastsInDim S330000x1 (![0] : Fin 1 → Fin S330000x1.rank)
  bcast_S330000x1_S330000x64_0_1 : S330000x1.BroadcastsInDim S330000x64 (![0, 1] : Fin 2 → Fin S330000x64.rank)
  bcast_S_S10000x64 : S_.BroadcastsInDim S10000x64 (![] : Fin 0 → Fin S10000x64.rank)
  bcast_S1x64_S10000x64_0_1 : S1x64.BroadcastsInDim S10000x64 (![0, 1] : Fin 2 → Fin S10000x64.rank)
  bcast_S1650000x1_S1650000x32_0_1 : S1650000x1.BroadcastsInDim S1650000x32 (![0, 1] : Fin 2 → Fin S1650000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S500000x1_S500000x32_0_1 : S500000x1.BroadcastsInDim S500000x32 (![0, 1] : Fin 2 → Fin S500000x32.rank)
  bcast_S330000x1_S330000x32_0_1 : S330000x1.BroadcastsInDim S330000x32 (![0, 1] : Fin 2 → Fin S330000x32.rank)
  bcast_S_S10000x32 : S_.BroadcastsInDim S10000x32 (![] : Fin 0 → Fin S10000x32.rank)
  bcast_S1x32_S10000x32_0_1 : S1x32.BroadcastsInDim S10000x32 (![0, 1] : Fin 2 → Fin S10000x32.rank)
  dot_S50000x64_S64x64_S50000x64_1_0_0_1_n_n_wf : DotDims.WF S50000x64 S64x64 S50000x64 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S10000x64_S64x64_S10000x64_1_0_0_1_n_n_wf : DotDims.WF S10000x64 S64x64 S10000x64 [1] [0] [0] [1] [] []
  scatter_S10000_S500000x1_S500000_n_0_0_1_wf : ScatterDims.WF S10000 S500000x1 S500000 [] [0] [0] 1
  scatter_S50000_S500000x1_S500000_n_0_0_1_wf : ScatterDims.WF S50000 S500000x1 S500000 [] [0] [0] 1
  gather_S10000_S500000x1_S500000_n_0_n_n_0_1_1_wf : GatherDims.WF S10000 S500000x1 S500000 [] [0] [] [0] [] 1 ![1]
  gather_S50000_S500000x1_S500000_n_0_n_n_0_1_1_wf : GatherDims.WF S50000 S500000x1 S500000 [] [0] [] [0] [] 1 ![1]
  gather_S10000x64_S500000x1_S500000x64_1_0_n_n_0_1_164_wf : GatherDims.WF S10000x64 S500000x1 S500000x64 [1] [0] [] [0] [] 1 ![1, 64]
  scatter_S50000x64_S500000x1_S500000x64_1_0_0_1_wf : ScatterDims.WF S50000x64 S500000x1 S500000x64 [1] [0] [0] 1
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  gather_S10000x64_S330000x1_S330000x64_1_0_n_n_0_1_164_wf : GatherDims.WF S10000x64 S330000x1 S330000x64 [1] [0] [] [0] [] 1 ![1, 64]
  scatter_S10000x64_S330000x1_S330000x64_1_0_0_1_wf : ScatterDims.WF S10000x64 S330000x1 S330000x64 [1] [0] [0] 1
  gather_S50000x64_S500000x1_S500000x64_1_0_n_n_0_1_164_wf : GatherDims.WF S50000x64 S500000x1 S500000x64 [1] [0] [] [0] [] 1 ![1, 64]
  scatter_S10000x64_S500000x1_S500000x64_1_0_0_1_wf : ScatterDims.WF S10000x64 S500000x1 S500000x64 [1] [0] [0] 1
  dot_S50000x64_S64x32_S50000x32_1_0_0_1_n_n_wf : DotDims.WF S50000x64 S64x32 S50000x32 [1] [0] [0] [1] [] []
  gather_S50000x32_S1650000x1_S1650000x32_1_0_n_n_0_1_132_wf : GatherDims.WF S50000x32 S1650000x1 S1650000x32 [1] [0] [] [0] [] 1 ![1, 32]
  scatter_S50000x32_S1650000x1_S1650000x32_1_0_0_1_wf : ScatterDims.WF S50000x32 S1650000x1 S1650000x32 [1] [0] [0] 1
  dot_S10000x64_S64x32_S10000x32_1_0_0_1_n_n_wf : DotDims.WF S10000x64 S64x32 S10000x32 [1] [0] [0] [1] [] []
  gather_S10000x32_S500000x1_S500000x32_1_0_n_n_0_1_132_wf : GatherDims.WF S10000x32 S500000x1 S500000x32 [1] [0] [] [0] [] 1 ![1, 32]
  scatter_S50000x32_S500000x1_S500000x32_1_0_0_1_wf : ScatterDims.WF S50000x32 S500000x1 S500000x32 [1] [0] [0] 1
  gather_S10000x32_S330000x1_S330000x32_1_0_n_n_0_1_132_wf : GatherDims.WF S10000x32 S330000x1 S330000x32 [1] [0] [] [0] [] 1 ![1, 32]
  scatter_S10000x32_S330000x1_S330000x32_1_0_0_1_wf : ScatterDims.WF S10000x32 S330000x1 S330000x32 [1] [0] [0] 1
  gather_S50000x32_S500000x1_S500000x32_1_0_n_n_0_1_132_wf : GatherDims.WF S50000x32 S500000x1 S500000x32 [1] [0] [] [0] [] 1 ![1, 32]
  scatter_S10000x32_S500000x1_S500000x32_1_0_0_1_wf : ScatterDims.WF S10000x32 S500000x1 S500000x32 [1] [0] [0] 1

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S10000_S500000x1_S500000_n_0_0_1 : ScatterDims S10000 S500000x1 S500000 where
  updateWindowDims := []
  insertedWindowDims := [0]
  scatterDimsToOperandDims := [0]
  indexVectorDim := 1
  wf := scatter_S10000_S500000x1_S500000_n_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S10000_S500000x1_S500000_n_0_n_n_0_1_1 : GatherDims S10000 S500000x1 S500000 where
  offsetDims := []
  collapsedSliceDims := [0]
  operandBatchingDims := []
  startIndicesBatchingDims := []
  startIndexMap := [0]
  indexVectorDim := 1
  sliceSizes := ![1]
  wf := gather_S10000_S500000x1_S500000_n_0_n_n_0_1_1_wf
def gather_S50000_S500000x1_S500000_n_0_n_n_0_1_1 : GatherDims S50000 S500000x1 S500000 where
  offsetDims := []
  collapsedSliceDims := [0]
  operandBatchingDims := []
  startIndicesBatchingDims := []
  startIndexMap := [0]
  indexVectorDim := 1
  sliceSizes := ![1]
  wf := gather_S50000_S500000x1_S500000_n_0_n_n_0_1_1_wf
def gather_S10000x64_S500000x1_S500000x64_1_0_n_n_0_1_164 : GatherDims S10000x64 S500000x1 S500000x64 where
  offsetDims := [1]
  collapsedSliceDims := [0]
  operandBatchingDims := []
  startIndicesBatchingDims := []
  startIndexMap := [0]
  indexVectorDim := 1
  sliceSizes := ![1, 64]
  wf := gather_S10000x64_S500000x1_S500000x64_1_0_n_n_0_1_164_wf
def scatter_S50000x64_S500000x1_S500000x64_1_0_0_1 : ScatterDims S50000x64 S500000x1 S500000x64 where
  updateWindowDims := [1]
  insertedWindowDims := [0]
  scatterDimsToOperandDims := [0]
  indexVectorDim := 1
  wf := scatter_S50000x64_S500000x1_S500000x64_1_0_0_1_wf
def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def gather_S10000x64_S330000x1_S330000x64_1_0_n_n_0_1_164 : GatherDims S10000x64 S330000x1 S330000x64 where
  offsetDims := [1]
  collapsedSliceDims := [0]
  operandBatchingDims := []
  startIndicesBatchingDims := []
  startIndexMap := [0]
  indexVectorDim := 1
  sliceSizes := ![1, 64]
  wf := gather_S10000x64_S330000x1_S330000x64_1_0_n_n_0_1_164_wf
def scatter_S10000x64_S330000x1_S330000x64_1_0_0_1 : ScatterDims S10000x64 S330000x1 S330000x64 where
  updateWindowDims := [1]
  insertedWindowDims := [0]
  scatterDimsToOperandDims := [0]
  indexVectorDim := 1
  wf := scatter_S10000x64_S330000x1_S330000x64_1_0_0_1_wf
def gather_S50000x64_S500000x1_S500000x64_1_0_n_n_0_1_164 : GatherDims S50000x64 S500000x1 S500000x64 where
  offsetDims := [1]
  collapsedSliceDims := [0]
  operandBatchingDims := []
  startIndicesBatchingDims := []
  startIndexMap := [0]
  indexVectorDim := 1
  sliceSizes := ![1, 64]
  wf := gather_S50000x64_S500000x1_S500000x64_1_0_n_n_0_1_164_wf
def scatter_S10000x64_S500000x1_S500000x64_1_0_0_1 : ScatterDims S10000x64 S500000x1 S500000x64 where
  updateWindowDims := [1]
  insertedWindowDims := [0]
  scatterDimsToOperandDims := [0]
  indexVectorDim := 1
  wf := scatter_S10000x64_S500000x1_S500000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S1650000x1_S1650000x32_1_0_n_n_0_1_132 : GatherDims S50000x32 S1650000x1 S1650000x32 where
  offsetDims := [1]
  collapsedSliceDims := [0]
  operandBatchingDims := []
  startIndicesBatchingDims := []
  startIndexMap := [0]
  indexVectorDim := 1
  sliceSizes := ![1, 32]
  wf := gather_S50000x32_S1650000x1_S1650000x32_1_0_n_n_0_1_132_wf
def scatter_S50000x32_S1650000x1_S1650000x32_1_0_0_1 : ScatterDims S50000x32 S1650000x1 S1650000x32 where
  updateWindowDims := [1]
  insertedWindowDims := [0]
  scatterDimsToOperandDims := [0]
  indexVectorDim := 1
  wf := scatter_S50000x32_S1650000x1_S1650000x32_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S10000x32_S500000x1_S500000x32_1_0_n_n_0_1_132 : GatherDims S10000x32 S500000x1 S500000x32 where
  offsetDims := [1]
  collapsedSliceDims := [0]
  operandBatchingDims := []
  startIndicesBatchingDims := []
  startIndexMap := [0]
  indexVectorDim := 1
  sliceSizes := ![1, 32]
  wf := gather_S10000x32_S500000x1_S500000x32_1_0_n_n_0_1_132_wf
def scatter_S50000x32_S500000x1_S500000x32_1_0_0_1 : ScatterDims S50000x32 S500000x1 S500000x32 where
  updateWindowDims := [1]
  insertedWindowDims := [0]
  scatterDimsToOperandDims := [0]
  indexVectorDim := 1
  wf := scatter_S50000x32_S500000x1_S500000x32_1_0_0_1_wf
def gather_S10000x32_S330000x1_S330000x32_1_0_n_n_0_1_132 : GatherDims S10000x32 S330000x1 S330000x32 where
  offsetDims := [1]
  collapsedSliceDims := [0]
  operandBatchingDims := []
  startIndicesBatchingDims := []
  startIndexMap := [0]
  indexVectorDim := 1
  sliceSizes := ![1, 32]
  wf := gather_S10000x32_S330000x1_S330000x32_1_0_n_n_0_1_132_wf
def scatter_S10000x32_S330000x1_S330000x32_1_0_0_1 : ScatterDims S10000x32 S330000x1 S330000x32 where
  updateWindowDims := [1]
  insertedWindowDims := [0]
  scatterDimsToOperandDims := [0]
  indexVectorDim := 1
  wf := scatter_S10000x32_S330000x1_S330000x32_1_0_0_1_wf
def gather_S50000x32_S500000x1_S500000x32_1_0_n_n_0_1_132 : GatherDims S50000x32 S500000x1 S500000x32 where
  offsetDims := [1]
  collapsedSliceDims := [0]
  operandBatchingDims := []
  startIndicesBatchingDims := []
  startIndexMap := [0]
  indexVectorDim := 1
  sliceSizes := ![1, 32]
  wf := gather_S50000x32_S500000x1_S500000x32_1_0_n_n_0_1_132_wf
def scatter_S10000x32_S500000x1_S500000x32_1_0_0_1 : ScatterDims S10000x32 S500000x1 S500000x32 where
  updateWindowDims := [1]
  insertedWindowDims := [0]
  scatterDimsToOperandDims := [0]
  indexVectorDim := 1
  wf := scatter_S10000x32_S500000x1_S500000x32_1_0_0_1_wf

class Facts : Prop extends Facts₀ where

variable [Facts]
-- ==== Proof.RunResults.lean ====
import proofs.«143428_j3564822855941_1_alg».proof.Proof.KernelIdealFrameP
import Idealize.ShloMosaic.PureOps.Ideal

/-! The run of the idealized kernel with its two results named. The program is a chain of twelve tiled regions
    among stretches of host operations; every weakly fair execution terminates, and at the end every buffer of
    the program holds the value the chain of boundaries computes for it (`W46`), in particular the two
    result buffers; the argument arrays are as launched. -/

set_option maxRecDepth 16384

noncomputable section

namespace Cert.KernelIdeal.Results

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
theorem run_results : θ_run defs (onTc (τ := τ) (main (F := Ideal))) ⟨m, fun _ => 0, ρ⟩ (fun r => ∀ c : Dev nD,
      r.2.mem ((c.tc : Thread nD τ).loc main_v389) = W46 m ρ c (Proc.devRef .tc main_v389)
      ∧ r.2.mem ((c.tc : Thread nD τ).loc main_v391) = W46 m ρ c (Proc.devRef .tc main_v391)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W46 m ρ c b)
    (hfin := fun c s' => by
      iintro ⟨⟨Hh, -⟩, HSI⟩
      unfold StableHlo.held
      imodintro
      iapply (pointsTo_read_all (Pipeline.ucRefs τ sig) (fun b => (((c : Thread nD τ)).1, b)) (W46 m ρ c) s')
      isplitl [Hh] <;> iassumption)
    (hQ := fun s h c =>
      ⟨h c _ (mem_uc main_v389 (by decide)),
       h c _ (mem_uc main_v391 (by decide)),
       (h c _ (mem_uc main_arg0 (by decide))).trans (W46_main_arg0 m ρ c),
       (h c _ (mem_uc main_arg1 (by decide))).trans (W46_main_arg1 m ρ c),
       (h c _ (mem_uc main_arg2 (by decide))).trans (W46_main_arg2 m ρ c),
       (h c _ (mem_uc main_arg3 (by decide))).trans (W46_main_arg3 m ρ c),
       (h c _ (mem_uc main_arg4 (by decide))).trans (W46_main_arg4 m ρ c),
       (h c _ (mem_uc main_arg5 (by decide))).trans (W46_main_arg5 m ρ c),
       (h c _ (mem_uc main_arg6 (by decide))).trans (W46_main_arg6 m ρ c),
       (h c _ (mem_uc main_arg7 (by decide))).trans (W46_main_arg7 m ρ c),
       (h c _ (mem_uc main_arg8 (by decide))).trans (W46_main_arg8 m ρ c),
       (h c _ (mem_uc main_arg9 (by decide))).trans (W46_main_arg9 m ρ c),
       (h c _ (mem_uc main_arg10 (by decide))).trans (W46_main_arg10 m ρ c),
       (h c _ (mem_uc main_arg11 (by decide))).trans (W46_main_arg11 m ρ c),
       (h c _ (mem_uc main_arg12 (by decide))).trans (W46_main_arg12 m ρ c),
       (h c _ (mem_uc main_arg13 (by decide))).trans (W46_main_arg13 m ρ c),
       (h c _ (mem_uc main_arg14 (by decide))).trans (W46_main_arg14 m ρ c),
       (h c _ (mem_uc main_arg15 (by decide))).trans (W46_main_arg15 m ρ c),
       (h c _ (mem_uc main_arg16 (by decide))).trans (W46_main_arg16 m ρ c),
       (h c _ (mem_uc main_arg17 (by decide))).trans (W46_main_arg17 m ρ c),
       (h c _ (mem_uc main_arg18 (by decide))).trans (W46_main_arg18 m ρ c),
       (h c _ (mem_uc main_arg19 (by decide))).trans (W46_main_arg19 m ρ c),
       (h c _ (mem_uc main_arg20 (by decide))).trans (W46_main_arg20 m ρ c),
       (h c _ (mem_uc main_arg21 (by decide))).trans (W46_main_arg21 m ρ c)⟩)

end Cert.KernelIdeal.Results

end
-- ==== Proof.Payloads.lean ====
import proofs.«143428_j3564822855941_1_alg».proof.Proof.Gen.KernelIdeal.Skeleton
import Idealize.ShloMosaic.Lib.ValueIdx
import Idealize.ShloMosaic.Lib.Pipeline.Value
import Idealize.ShloMosaic.PureOps.Ideal.Laws

/-! What each kernel body stores, read at one position of its block, over the extended reals.
    The eight row-tiled matrix products store `∑ k, x (r, k) · w (k, c)`; the four combining kernels store
    `max (a (r, c) + b (r, c) + bias (0, c)) 0`. -/

set_option maxRecDepth 16384

noncomputable section

namespace Cert.KernelIdeal.Pay

open Cert.KernelIdeal Cert.KernelIdeal.Gen Idealize.ShloMosaic Idealize.ShloMosaic.TcCoe

namespace R0

/-- Positions `(r, k)` of the left block and `(k, c)` of the right operand, for the block position `j = (r, c)`. -/
abbrev blpos (j : S2000x64.Idx) (k : Fin 64) : S2000x64.Idx := fun a => match a with
  | ⟨0, _⟩ => ⟨(j 0).val, (j 0).isLt⟩
  | ⟨1, _⟩ => ⟨k.val, k.isLt⟩
abbrev brpos (j : S2000x64.Idx) (k : Fin 64) : S64x64.Idx := fun a => match a with
  | ⟨0, _⟩ => ⟨k.val, k.isLt⟩
  | ⟨1, _⟩ => ⟨(j 1).val, (j 1).isLt⟩

theorem lhs0 (j : S2000x64.Idx) (q : dot_S2000x64_S64x64_S2000x64_1_0_0_1_n_n.contr.Idx) : (dot_S2000x64_S64x64_S2000x64_1_0_0_1_n_n.lhsIdx j q 0).val = (j 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem lhs1 (j : S2000x64.Idx) (q : dot_S2000x64_S64x64_S2000x64_1_0_0_1_n_n.contr.Idx) : (dot_S2000x64_S64x64_S2000x64_1_0_0_1_n_n.lhsIdx j q 1).val = (q ⟨0, by decide⟩).val :=
  dot_S2000x64_S64x64_S2000x64_1_0_0_1_n_n.lhsIdx_val_of_single rfl j q
theorem rhs0 (j : S2000x64.Idx) (q : dot_S2000x64_S64x64_S2000x64_1_0_0_1_n_n.contr.Idx) : (dot_S2000x64_S64x64_S2000x64_1_0_0_1_n_n.rhsIdx j q 0).val = (q ⟨0, by decide⟩).val :=
  dot_S2000x64_S64x64_S2000x64_1_0_0_1_n_n.rhsIdx_val_of_single rfl j q
theorem rhs1 (j : S2000x64.Idx) (q : dot_S2000x64_S64x64_S2000x64_1_0_0_1_n_n.contr.Idx) : (dot_S2000x64_S64x64_S2000x64_1_0_0_1_n_n.rhsIdx j q 1).val = (j 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- One block's product at a position of the block: the change of float format is the identity and the product
    into the zero accumulator is the sum over the 64 contracted positions. -/
theorem pay_apply (x : Vec Ideal S2000x64 .f32) (w : Vec Ideal S64x64 .f32) (j : S2000x64.Idx) :
    k0_pay1 (F := Ideal) x w j = ∑ k : Fin 64, x (blpos j k) * w (brpos j k) := by
  unfold k0_pay1
  simp only [matmul]
  rw [Ideal.matmul_constant_zero_apply, ← Equiv.sum_comp (ValueIdx.contrEquiv1 dot_S2000x64_S64x64_S2000x64_1_0_0_1_n_n 64 rfl rfl).symm]
  refine Finset.sum_congr rfl fun k _ => ?_
  have hk := ValueIdx.contrEquiv1_symm_val dot_S2000x64_S64x64_S2000x64_1_0_0_1_n_n 64 rfl rfl k
  have el : dot_S2000x64_S64x64_S2000x64_1_0_0_1_n_n.lhsIdx j ((ValueIdx.contrEquiv1 dot_S2000x64_S64x64_S2000x64_1_0_0_1_n_n 64 rfl rfl).symm k) = blpos j k := funext fun a => Fin.ext (by
    match a with
    | ⟨0, _⟩ => exact lhs0 _ _
    | ⟨1, _⟩ => exact (lhs1 _ _).trans hk)
  have er : dot_S2000x64_S64x64_S2000x64_1_0_0_1_n_n.rhsIdx j ((ValueIdx.contrEquiv1 dot_S2000x64_S64x64_S2000x64_1_0_0_1_n_n 64 rfl rfl).symm k) = brpos j k := funext fun a => Fin.ext (by
    match a with
    | ⟨0, _⟩ => exact (rhs0 _ _).trans hk
    | ⟨1, _⟩ => exact rhs1 _ _)
  rw [el, er]
  rfl

end R0

namespace R1

/-- Positions `(r, k)` of the left block and `(k, c)` of the right operand, for the block position `j = (r, c)`. -/
abbrev blpos (j : S2000x64.Idx) (k : Fin 64) : S2000x64.Idx := fun a => match a with
  | ⟨0, _⟩ => ⟨(j 0).val, (j 0).isLt⟩
  | ⟨1, _⟩ => ⟨k.val, k.isLt⟩
abbrev brpos (j : S2000x64.Idx) (k : Fin 64) : S64x64.Idx := fun a => match a with
  | ⟨0, _⟩ => ⟨k.val, k.isLt⟩
  | ⟨1, _⟩ => ⟨(j 1).val, (j 1).isLt⟩

theorem lhs0 (j : S2000x64.Idx) (q : dot_S2000x64_S64x64_S2000x64_1_0_0_1_n_n.contr.Idx) : (dot_S2000x64_S64x64_S2000x64_1_0_0_1_n_n.lhsIdx j q 0).val = (j 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem lhs1 (j : S2000x64.Idx) (q : dot_S2000x64_S64x64_S2000x64_1_0_0_1_n_n.contr.Idx) : (dot_S2000x64_S64x64_S2000x64_1_0_0_1_n_n.lhsIdx j q 1).val = (q ⟨0, by decide⟩).val :=
  dot_S2000x64_S64x64_S2000x64_1_0_0_1_n_n.lhsIdx_val_of_single rfl j q
theorem rhs0 (j : S2000x64.Idx) (q : dot_S2000x64_S64x64_S2000x64_1_0_0_1_n_n.contr.Idx) : (dot_S2000x64_S64x64_S2000x64_1_0_0_1_n_n.rhsIdx j q 0).val = (q ⟨0, by decide⟩).val :=
  dot_S2000x64_S64x64_S2000x64_1_0_0_1_n_n.rhsIdx_val_of_single rfl j q
theorem rhs1 (j : S2000x64.Idx) (q : dot_S2000x64_S64x64_S2000x64_1_0_0_1_n_n.contr.Idx) : (dot_S2000x64_S64x64_S2000x64_1_0_0_1_n_n.rhsIdx j q 1).val = (j 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- One block's product at a position of the block: the change of float format is the identity and the product
    into the zero accumulator is the sum over the 64 contracted positions. -/
theorem pay_apply (x : Vec Ideal S2000x64 .f32) (w : Vec Ideal S64x64 .f32) (j : S2000x64.Idx) :
    k1_pay1 (F := Ideal) x w j = ∑ k : Fin 64, x (blpos j k) * w (brpos j k) := by
  unfold k1_pay1
  simp only [matmul]
  rw [Ideal.matmul_constant_zero_apply, ← Equiv.sum_comp (ValueIdx.contrEquiv1 dot_S2000x64_S64x64_S2000x64_1_0_0_1_n_n 64 rfl rfl).symm]
  refine Finset.sum_congr rfl fun k _ => ?_
  have hk := ValueIdx.contrEquiv1_symm_val dot_S2000x64_S64x64_S2000x64_1_0_0_1_n_n 64 rfl rfl k
  have el : dot_S2000x64_S64x64_S2000x64_1_0_0_1_n_n.lhsIdx j ((ValueIdx.contrEquiv1 dot_S2000x64_S64x64_S2000x64_1_0_0_1_n_n 64 rfl rfl).symm k) = blpos j k := funext fun a => Fin.ext (by
    match a with
    | ⟨0, _⟩ => exact lhs0 _ _
    | ⟨1, _⟩ => exact (lhs1 _ _).trans hk)
  have er : dot_S2000x64_S64x64_S2000x64_1_0_0_1_n_n.rhsIdx j ((ValueIdx.contrEquiv1 dot_S2000x64_S64x64_S2000x64_1_0_0_1_n_n 64 rfl rfl).symm k) = brpos j k := funext fun a => Fin.ext (by
    match a with
    | ⟨0, _⟩ => exact (rhs0 _ _).trans hk
    | ⟨1, _⟩ => exact rhs1 _ _)
  rw [el, er]
  rfl

end R1

namespace R2

/-- Positions `(r, k)` of the left block and `(k, c)` of the right operand, for the block position `j = (r, c)`. -/
abbrev blpos (j : S2000x64.Idx) (k : Fin 64) : S2000x64.Idx := fun a => match a with
  | ⟨0, _⟩ => ⟨(j 0).val, (j 0).isLt⟩
  | ⟨1, _⟩ => ⟨k.val, k.isLt⟩
abbrev brpos (j : S2000x64.Idx) (k : Fin 64) : S64x64.Idx := fun a => match a with
  | ⟨0, _⟩ => ⟨k.val, k.isLt⟩
  | ⟨1, _⟩ => ⟨(j 1).val, (j 1).isLt⟩

theorem lhs0 (j : S2000x64.Idx) (q : dot_S2000x64_S64x64_S2000x64_1_0_0_1_n_n.contr.Idx) : (dot_S2000x64_S64x64_S2000x64_1_0_0_1_n_n.lhsIdx j q 0).val = (j 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem lhs1 (j : S2000x64.Idx) (q : dot_S2000x64_S64x64_S2000x64_1_0_0_1_n_n.contr.Idx) : (dot_S2000x64_S64x64_S2000x64_1_0_0_1_n_n.lhsIdx j q 1).val = (q ⟨0, by decide⟩).val :=
  dot_S2000x64_S64x64_S2000x64_1_0_0_1_n_n.lhsIdx_val_of_single rfl j q
theorem rhs0 (j : S2000x64.Idx) (q : dot_S2000x64_S64x64_S2000x64_1_0_0_1_n_n.contr.Idx) : (dot_S2000x64_S64x64_S2000x64_1_0_0_1_n_n.rhsIdx j q 0).val = (q ⟨0, by decide⟩).val :=
  dot_S2000x64_S64x64_S2000x64_1_0_0_1_n_n.rhsIdx_val_of_single rfl j q
theorem rhs1 (j : S2000x64.Idx) (q : dot_S2000x64_S64x64_S2000x64_1_0_0_1_n_n.contr.Idx) : (dot_S2000x64_S64x64_S2000x64_1_0_0_1_n_n.rhsIdx j q 1).val = (j 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- One block's product at a position of the block: the change of float format is the identity and the product
    into the zero accumulator is the sum over the 64 contracted positions. -/
theorem pay_apply (x : Vec Ideal S2000x64 .f32) (w : Vec Ideal S64x64 .f32) (j : S2000x64.Idx) :
    k2_pay1 (F := Ideal) x w j = ∑ k : Fin 64, x (blpos j k) * w (brpos j k) := by
  unfold k2_pay1
  simp only [matmul]
  rw [Ideal.matmul_constant_zero_apply, ← Equiv.sum_comp (ValueIdx.contrEquiv1 dot_S2000x64_S64x64_S2000x64_1_0_0_1_n_n 64 rfl rfl).symm]
  refine Finset.sum_congr rfl fun k _ => ?_
  have hk := ValueIdx.contrEquiv1_symm_val dot_S2000x64_S64x64_S2000x64_1_0_0_1_n_n 64 rfl rfl k
  have el : dot_S2000x64_S64x64_S2000x64_1_0_0_1_n_n.lhsIdx j ((ValueIdx.contrEquiv1 dot_S2000x64_S64x64_S2000x64_1_0_0_1_n_n 64 rfl rfl).symm k) = blpos j k := funext fun a => Fin.ext (by
    match a with
    | ⟨0, _⟩ => exact lhs0 _ _
    | ⟨1, _⟩ => exact (lhs1 _ _).trans hk)
  have er : dot_S2000x64_S64x64_S2000x64_1_0_0_1_n_n.rhsIdx j ((ValueIdx.contrEquiv1 dot_S2000x64_S64x64_S2000x64_1_0_0_1_n_n 64 rfl rfl).symm k) = brpos j k := funext fun a => Fin.ext (by
    match a with
    | ⟨0, _⟩ => exact (rhs0 _ _).trans hk
    | ⟨1, _⟩ => exact rhs1 _ _)
  rw [el, er]
  rfl

end R2

namespace R3

/-- Positions `(r, k)` of the left block and `(k, c)` of the right operand, for the block position `j = (r, c)`. -/
abbrev blpos (j : S2000x64.Idx) (k : Fin 64) : S2000x64.Idx := fun a => match a with
  | ⟨0, _⟩ => ⟨(j 0).val, (j 0).isLt⟩
  | ⟨1, _⟩ => ⟨k.val, k.isLt⟩
abbrev brpos (j : S2000x64.Idx) (k : Fin 64) : S64x64.Idx := fun a => match a with
  | ⟨0, _⟩ => ⟨k.val, k.isLt⟩
  | ⟨1, _⟩ => ⟨(j 1).val, (j 1).isLt⟩

theorem lhs0 (j : S2000x64.Idx) (q : dot_S2000x64_S64x64_S2000x64_1_0_0_1_n_n.contr.Idx) : (dot_S2000x64_S64x64_S2000x64_1_0_0_1_n_n.lhsIdx j q 0).val = (j 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem lhs1 (j : S2000x64.Idx) (q : dot_S2000x64_S64x64_S2000x64_1_0_0_1_n_n.contr.Idx) : (dot_S2000x64_S64x64_S2000x64_1_0_0_1_n_n.lhsIdx j q 1).val = (q ⟨0, by decide⟩).val :=
  dot_S2000x64_S64x64_S2000x64_1_0_0_1_n_n.lhsIdx_val_of_single rfl j q
theorem rhs0 (j : S2000x64.Idx) (q : dot_S2000x64_S64x64_S2000x64_1_0_0_1_n_n.contr.Idx) : (dot_S2000x64_S64x64_S2000x64_1_0_0_1_n_n.rhsIdx j q 0).val = (q ⟨0, by decide⟩).val :=
  dot_S2000x64_S64x64_S2000x64_1_0_0_1_n_n.rhsIdx_val_of_single rfl j q
theorem rhs1 (j : S2000x64.Idx) (q : dot_S2000x64_S64x64_S2000x64_1_0_0_1_n_n.contr.Idx) : (dot_S2000x64_S64x64_S2000x64_1_0_0_1_n_n.rhsIdx j q 1).val = (j 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- One block's product at a position of the block: the change of float format is the identity and the product
    into the zero accumulator is the sum over the 64 contracted positions. -/
theorem pay_apply (x : Vec Ideal S2000x64 .f32) (w : Vec Ideal S64x64 .f32) (j : S2000x64.Idx) :
    k3_pay1 (F := Ideal) x w j = ∑ k : Fin 64, x (blpos j k) * w (brpos j k) := by
  unfold k3_pay1
  simp only [matmul]
  rw [Ideal.matmul_constant_zero_apply, ← Equiv.sum_comp (ValueIdx.contrEquiv1 dot_S2000x64_S64x64_S2000x64_1_0_0_1_n_n 64 rfl rfl).symm]
  refine Finset.sum_congr rfl fun k _ => ?_
  have hk := ValueIdx.contrEquiv1_symm_val dot_S2000x64_S64x64_S2000x64_1_0_0_1_n_n 64 rfl rfl k
  have el : dot_S2000x64_S64x64_S2000x64_1_0_0_1_n_n.lhsIdx j ((ValueIdx.contrEquiv1 dot_S2000x64_S64x64_S2000x64_1_0_0_1_n_n 64 rfl rfl).symm k) = blpos j k := funext fun a => Fin.ext (by
    match a with
    | ⟨0, _⟩ => exact lhs0 _ _
    | ⟨1, _⟩ => exact (lhs1 _ _).trans hk)
  have er : dot_S2000x64_S64x64_S2000x64_1_0_0_1_n_n.rhsIdx j ((ValueIdx.contrEquiv1 dot_S2000x64_S64x64_S2000x64_1_0_0_1_n_n 64 rfl rfl).symm k) = brpos j k := funext fun a => Fin.ext (by
    match a with
    | ⟨0, _⟩ => exact (rhs0 _ _).trans hk
    | ⟨1, _⟩ => exact rhs1 _ _)
  rw [el, er]
  rfl

end R3

namespace R4

/-- The bias row's position `(0, c)` under the block position `(r, c)`. -/
abbrev bbpos (j : S2000x64.Idx) : S1x64.Idx := fun a => match a with
  | ⟨0, _⟩ => ⟨0, Nat.one_pos⟩
  | ⟨1, _⟩ => ⟨(j 1).val, (j 1).isLt⟩

/-- One block's clamped sum at a position of the block: every operation is pointwise, the bias row is read at
    the position's column. -/
theorem pay_apply (x y : Vec Ideal S2000x64 .f32) (bias : Vec Ideal S1x64 .f32) (j : S2000x64.Idx) :
    k4_pay1 (F := Ideal) x y bias j = max (x j + y j + bias (bbpos j)) (FloatOps.ofBits (F := Ideal) .f32 0x00000000#32) := by
  unfold k4_pay1
  simp only [shapeCast_self]
  show max (x j + y j + broadcastTo S2000x64 bias broadcasts_S1x64_S2000x64 j) (FloatOps.ofBits (F := Ideal) .f32 0x00000000#32) = _
  rw [broadcastTo_apply bias broadcasts_S1x64_S2000x64 j (bbpos j) (fun a => by
    match a with
    | ⟨0, _⟩ => rfl
    | ⟨1, _⟩ => rfl)]

end R4

namespace R5

/-- The bias row's position `(0, c)` under the block position `(r, c)`. -/
abbrev bbpos (j : S2000x64.Idx) : S1x64.Idx := fun a => match a with
  | ⟨0, _⟩ => ⟨0, Nat.one_pos⟩
  | ⟨1, _⟩ => ⟨(j 1).val, (j 1).isLt⟩

/-- One block's clamped sum at a position of the block: every operation is pointwise, the bias row is read at
    the position's column. -/
theorem pay_apply (x y : Vec Ideal S2000x64 .f32) (bias : Vec Ideal S1x64 .f32) (j : S2000x64.Idx) :
    k5_pay1 (F := Ideal) x y bias j = max (x j + y j + bias (bbpos j)) (FloatOps.ofBits (F := Ideal) .f32 0x00000000#32) := by
  unfold k5_pay1
  simp only [shapeCast_self]
  show max (x j + y j + broadcastTo S2000x64 bias broadcasts_S1x64_S2000x64 j) (FloatOps.ofBits (F := Ideal) .f32 0x00000000#32) = _
  rw [broadcastTo_apply bias broadcasts_S1x64_S2000x64 j (bbpos j) (fun a => by
    match a with
    | ⟨0, _⟩ => rfl
    | ⟨1, _⟩ => rfl)]

end R5

namespace R6

/-- Positions `(r, k)` of the left block and `(k, c)` of the right operand, for the block position `j = (r, c)`. -/
abbrev blpos (j : S2000x32.Idx) (k : Fin 64) : S2000x64.Idx := fun a => match a with
  | ⟨0, _⟩ => ⟨(j 0).val, (j 0).isLt⟩
  | ⟨1, _⟩ => ⟨k.val, k.isLt⟩
abbrev brpos (j : S2000x32.Idx) (k : Fin 64) : S64x32.Idx := fun a => match a with
  | ⟨0, _⟩ => ⟨k.val, k.isLt⟩
  | ⟨1, _⟩ => ⟨(j 1).val, (j 1).isLt⟩

theorem lhs0 (j : S2000x32.Idx) (q : dot_S2000x64_S64x32_S2000x32_1_0_0_1_n_n.contr.Idx) : (dot_S2000x64_S64x32_S2000x32_1_0_0_1_n_n.lhsIdx j q 0).val = (j 0).val := by
  unfold DotDims.lhsIdx
  rw [dif_neg (show ¬(0 : Fin S2000x64.rank) ∈ dot_S2000x64_S64x32_S2000x32_1_0_0_1_n_n.lhsBatch by decide), dif_pos (show (0 : Fin S2000x64.rank) ∈ dot_S2000x64_S64x32_S2000x32_1_0_0_1_n_n.lhsNonContracting by decide)]
  rfl
theorem lhs1 (j : S2000x32.Idx) (q : dot_S2000x64_S64x32_S2000x32_1_0_0_1_n_n.contr.Idx) : (dot_S2000x64_S64x32_S2000x32_1_0_0_1_n_n.lhsIdx j q 1).val = (q ⟨0, by decide⟩).val :=
  dot_S2000x64_S64x32_S2000x32_1_0_0_1_n_n.lhsIdx_val_of_single rfl j q
theorem rhs0 (j : S2000x32.Idx) (q : dot_S2000x64_S64x32_S2000x32_1_0_0_1_n_n.contr.Idx) : (dot_S2000x64_S64x32_S2000x32_1_0_0_1_n_n.rhsIdx j q 0).val = (q ⟨0, by decide⟩).val :=
  dot_S2000x64_S64x32_S2000x32_1_0_0_1_n_n.rhsIdx_val_of_single rfl j q
theorem rhs1 (j : S2000x32.Idx) (q : dot_S2000x64_S64x32_S2000x32_1_0_0_1_n_n.contr.Idx) : (dot_S2000x64_S64x32_S2000x32_1_0_0_1_n_n.rhsIdx j q 1).val = (j 1).val := by
  unfold DotDims.rhsIdx
  rw [dif_neg (show ¬(1 : Fin S64x32.rank) ∈ dot_S2000x64_S64x32_S2000x32_1_0_0_1_n_n.rhsBatch by decide), dif_pos (show (1 : Fin S64x32.rank) ∈ dot_S2000x64_S64x32_S2000x32_1_0_0_1_n_n.rhsNonContracting by decide)]
  rfl

/-- One block's product at a position of the block: the change of float format is the identity and the product
    into the zero accumulator is the sum over the 64 contracted positions. -/
theorem pay_apply (x : Vec Ideal S2000x64 .f32) (w : Vec Ideal S64x32 .f32) (j : S2000x32.Idx) :
    k6_pay1 (F := Ideal) x w j = ∑ k : Fin 64, x (blpos j k) * w (brpos j k) := by
  unfold k6_pay1
  simp only [matmul, shapeCast_self]
  rw [Ideal.matmul_constant_zero_apply, ← Equiv.sum_comp (ValueIdx.contrEquiv1 dot_S2000x64_S64x32_S2000x32_1_0_0_1_n_n 64 rfl rfl).symm]
  refine Finset.sum_congr rfl fun k _ => ?_
  have hk := ValueIdx.contrEquiv1_symm_val dot_S2000x64_S64x32_S2000x32_1_0_0_1_n_n 64 rfl rfl k
  have el : dot_S2000x64_S64x32_S2000x32_1_0_0_1_n_n.lhsIdx j ((ValueIdx.contrEquiv1 dot_S2000x64_S64x32_S2000x32_1_0_0_1_n_n 64 rfl rfl).symm k) = blpos j k := funext fun a => Fin.ext (by
    match a with
    | ⟨0, _⟩ => exact lhs0 _ _
    | ⟨1, _⟩ => exact (lhs1 _ _).trans hk)
  have er : dot_S2000x64_S64x32_S2000x32_1_0_0_1_n_n.rhsIdx j ((ValueIdx.contrEquiv1 dot_S2000x64_S64x32_S2000x32_1_0_0_1_n_n 64 rfl rfl).symm k) = brpos j k := funext fun a => Fin.ext (by
    match a with
    | ⟨0, _⟩ => exact (rhs0 _ _).trans hk
    | ⟨1, _⟩ => exact rhs1 _ _)
  rw [el, er]
  rfl

end R6

namespace R7

/-- Positions `(r, k)` of the left block and `(k, c)` of the right operand, for the block position `j = (r, c)`. -/
abbrev blpos (j : S2000x32.Idx) (k : Fin 64) : S2000x64.Idx := fun a => match a with
  | ⟨0, _⟩ => ⟨(j 0).val, (j 0).isLt⟩
  | ⟨1, _⟩ => ⟨k.val, k.isLt⟩
abbrev brpos (j : S2000x32.Idx) (k : Fin 64) : S64x32.Idx := fun a => match a with
  | ⟨0, _⟩ => ⟨k.val, k.isLt⟩
  | ⟨1, _⟩ => ⟨(j 1).val, (j 1).isLt⟩

theorem lhs0 (j : S2000x32.Idx) (q : dot_S2000x64_S64x32_S2000x32_1_0_0_1_n_n.contr.Idx) : (dot_S2000x64_S64x32_S2000x32_1_0_0_1_n_n.lhsIdx j q 0).val = (j 0).val := by
  unfold DotDims.lhsIdx
  rw [dif_neg (show ¬(0 : Fin S2000x64.rank) ∈ dot_S2000x64_S64x32_S2000x32_1_0_0_1_n_n.lhsBatch by decide), dif_pos (show (0 : Fin S2000x64.rank) ∈ dot_S2000x64_S64x32_S2000x32_1_0_0_1_n_n.lhsNonContracting by decide)]
  rfl
theorem lhs1 (j : S2000x32.Idx) (q : dot_S2000x64_S64x32_S2000x32_1_0_0_1_n_n.contr.Idx) : (dot_S2000x64_S64x32_S2000x32_1_0_0_1_n_n.lhsIdx j q 1).val = (q ⟨0, by decide⟩).val :=
  dot_S2000x64_S64x32_S2000x32_1_0_0_1_n_n.lhsIdx_val_of_single rfl j q
theorem rhs0 (j : S2000x32.Idx) (q : dot_S2000x64_S64x32_S2000x32_1_0_0_1_n_n.contr.Idx) : (dot_S2000x64_S64x32_S2000x32_1_0_0_1_n_n.rhsIdx j q 0).val = (q ⟨0, by decide⟩).val :=
  dot_S2000x64_S64x32_S2000x32_1_0_0_1_n_n.rhsIdx_val_of_single rfl j q
theorem rhs1 (j : S2000x32.Idx) (q : dot_S2000x64_S64x32_S2000x32_1_0_0_1_n_n.contr.Idx) : (dot_S2000x64_S64x32_S2000x32_1_0_0_1_n_n.rhsIdx j q 1).val = (j 1).val := by
  unfold DotDims.rhsIdx
  rw [dif_neg (show ¬(1 : Fin S64x32.rank) ∈ dot_S2000x64_S64x32_S2000x32_1_0_0_1_n_n.rhsBatch by decide), dif_pos (show (1 : Fin S64x32.rank) ∈ dot_S2000x64_S64x32_S2000x32_1_0_0_1_n_n.rhsNonContracting by decide)]
  rfl

/-- One block's product at a position of the block: the change of float format is the identity and the product
    into the zero accumulator is the sum over the 64 contracted positions. -/
theorem pay_apply (x : Vec Ideal S2000x64 .f32) (w : Vec Ideal S64x32 .f32) (j : S2000x32.Idx) :
    k7_pay1 (F := Ideal) x w j = ∑ k : Fin 64, x (blpos j k) * w (brpos j k) := by
  unfold k7_pay1
  simp only [matmul, shapeCast_self]
  rw [Ideal.matmul_constant_zero_apply, ← Equiv.sum_comp (ValueIdx.contrEquiv1 dot_S2000x64_S64x32_S2000x32_1_0_0_1_n_n 64 rfl rfl).symm]
  refine Finset.sum_congr rfl fun k _ => ?_
  have hk := ValueIdx.contrEquiv1_symm_val dot_S2000x64_S64x32_S2000x32_1_0_0_1_n_n 64 rfl rfl k
  have el : dot_S2000x64_S64x32_S2000x32_1_0_0_1_n_n.lhsIdx j ((ValueIdx.contrEquiv1 dot_S2000x64_S64x32_S2000x32_1_0_0_1_n_n 64 rfl rfl).symm k) = blpos j k := funext fun a => Fin.ext (by
    match a with
    | ⟨0, _⟩ => exact lhs0 _ _
    | ⟨1, _⟩ => exact (lhs1 _ _).trans hk)
  have er : dot_S2000x64_S64x32_S2000x32_1_0_0_1_n_n.rhsIdx j ((ValueIdx.contrEquiv1 dot_S2000x64_S64x32_S2000x32_1_0_0_1_n_n 64 rfl rfl).symm k) = brpos j k := funext fun a => Fin.ext (by
    match a with
    | ⟨0, _⟩ => exact (rhs0 _ _).trans hk
    | ⟨1, _⟩ => exact rhs1 _ _)
  rw [el, er]
  rfl

end R7

namespace R8

/-- Positions `(r, k)` of the left block and `(k, c)` of the right operand, for the block position `j = (r, c)`. -/
abbrev blpos (j : S2000x32.Idx) (k : Fin 64) : S2000x64.Idx := fun a => match a with
  | ⟨0, _⟩ => ⟨(j 0).val, (j 0).isLt⟩
  | ⟨1, _⟩ => ⟨k.val, k.isLt⟩
abbrev brpos (j : S2000x32.Idx) (k : Fin 64) : S64x32.Idx := fun a => match a with
  | ⟨0, _⟩ => ⟨k.val, k.isLt⟩
  | ⟨1, _⟩ => ⟨(j 1).val, (j 1).isLt⟩

theorem lhs0 (j : S2000x32.Idx) (q : dot_S2000x64_S64x32_S2000x32_1_0_0_1_n_n.contr.Idx) : (dot_S2000x64_S64x32_S2000x32_1_0_0_1_n_n.lhsIdx j q 0).val = (j 0).val := by
  unfold DotDims.lhsIdx
  rw [dif_neg (show ¬(0 : Fin S2000x64.rank) ∈ dot_S2000x64_S64x32_S2000x32_1_0_0_1_n_n.lhsBatch by decide), dif_pos (show (0 : Fin S2000x64.rank) ∈ dot_S2000x64_S64x32_S2000x32_1_0_0_1_n_n.lhsNonContracting by decide)]
  rfl
theorem lhs1 (j : S2000x32.Idx) (q : dot_S2000x64_S64x32_S2000x32_1_0_0_1_n_n.contr.Idx) : (dot_S2000x64_S64x32_S2000x32_1_0_0_1_n_n.lhsIdx j q 1).val = (q ⟨0, by decide⟩).val :=
  dot_S2000x64_S64x32_S2000x32_1_0_0_1_n_n.lhsIdx_val_of_single rfl j q
theorem rhs0 (j : S2000x32.Idx) (q : dot_S2000x64_S64x32_S2000x32_1_0_0_1_n_n.contr.Idx) : (dot_S2000x64_S64x32_S2000x32_1_0_0_1_n_n.rhsIdx j q 0).val = (q ⟨0, by decide⟩).val :=
  dot_S2000x64_S64x32_S2000x32_1_0_0_1_n_n.rhsIdx_val_of_single rfl j q
theorem rhs1 (j : S2000x32.Idx) (q : dot_S2000x64_S64x32_S2000x32_1_0_0_1_n_n.contr.Idx) : (dot_S2000x64_S64x32_S2000x32_1_0_0_1_n_n.rhsIdx j q 1).val = (j 1).val := by
  unfold DotDims.rhsIdx
  rw [dif_neg (show ¬(1 : Fin S64x32.rank) ∈ dot_S2000x64_S64x32_S2000x32_1_0_0_1_n_n.rhsBatch by decide), dif_pos (show (1 : Fin S64x32.rank) ∈ dot_S2000x64_S64x32_S2000x32_1_0_0_1_n_n.rhsNonContracting by decide)]
  rfl

/-- One block's product at a position of the block: the change of float format is the identity and the product
    into the zero accumulator is the sum over the 64 contracted positions. -/
theorem pay_apply (x : Vec Ideal S2000x64 .f32) (w : Vec Ideal S64x32 .f32) (j : S2000x32.Idx) :
    k8_pay1 (F := Ideal) x w j = ∑ k : Fin 64, x (blpos j k) * w (brpos j k) := by
  unfold k8_pay1
  simp only [matmul, shapeCast_self]
  rw [Ideal.matmul_constant_zero_apply, ← Equiv.sum_comp (ValueIdx.contrEquiv1 dot_S2000x64_S64x32_S2000x32_1_0_0_1_n_n 64 rfl rfl).symm]
  refine Finset.sum_congr rfl fun k _ => ?_
  have hk := ValueIdx.contrEquiv1_symm_val dot_S2000x64_S64x32_S2000x32_1_0_0_1_n_n 64 rfl rfl k
  have el : dot_S2000x64_S64x32_S2000x32_1_0_0_1_n_n.lhsIdx j ((ValueIdx.contrEquiv1 dot_S2000x64_S64x32_S2000x32_1_0_0_1_n_n 64 rfl rfl).symm k) = blpos j k := funext fun a => Fin.ext (by
    match a with
    | ⟨0, _⟩ => exact lhs0 _ _
    | ⟨1, _⟩ => exact (lhs1 _ _).trans hk)
  have er : dot_S2000x64_S64x32_S2000x32_1_0_0_1_n_n.rhsIdx j ((ValueIdx.contrEquiv1 dot_S2000x64_S64x32_S2000x32_1_0_0_1_n_n 64 rfl rfl).symm k) = brpos j k := funext fun a => Fin.ext (by
    match a with
    | ⟨0, _⟩ => exact (rhs0 _ _).trans hk
    | ⟨1, _⟩ => exact rhs1 _ _)
  rw [el, er]
  rfl

end R8

namespace R9

/-- Positions `(r, k)` of the left block and `(k, c)` of the right operand, for the block position `j = (r, c)`. -/
abbrev blpos (j : S2000x32.Idx) (k : Fin 64) : S2000x64.Idx := fun a => match a with
  | ⟨0, _⟩ => ⟨(j 0).val, (j 0).isLt⟩
  | ⟨1, _⟩ => ⟨k.val, k.isLt⟩
abbrev brpos (j : S2000x32.Idx) (k : Fin 64) : S64x32.Idx := fun a => match a with
  | ⟨0, _⟩ => ⟨k.val, k.isLt⟩
  | ⟨1, _⟩ => ⟨(j 1).val, (j 1).isLt⟩

theorem lhs0 (j : S2000x32.Idx) (q : dot_S2000x64_S64x32_S2000x32_1_0_0_1_n_n.contr.Idx) : (dot_S2000x64_S64x32_S2000x32_1_0_0_1_n_n.lhsIdx j q 0).val = (j 0).val := by
  unfold DotDims.lhsIdx
  rw [dif_neg (show ¬(0 : Fin S2000x64.rank) ∈ dot_S2000x64_S64x32_S2000x32_1_0_0_1_n_n.lhsBatch by decide), dif_pos (show (0 : Fin S2000x64.rank) ∈ dot_S2000x64_S64x32_S2000x32_1_0_0_1_n_n.lhsNonContracting by decide)]
  rfl
theorem lhs1 (j : S2000x32.Idx) (q : dot_S2000x64_S64x32_S2000x32_1_0_0_1_n_n.contr.Idx) : (dot_S2000x64_S64x32_S2000x32_1_0_0_1_n_n.lhsIdx j q 1).val = (q ⟨0, by decide⟩).val :=
  dot_S2000x64_S64x32_S2000x32_1_0_0_1_n_n.lhsIdx_val_of_single rfl j q
theorem rhs0 (j : S2000x32.Idx) (q : dot_S2000x64_S64x32_S2000x32_1_0_0_1_n_n.contr.Idx) : (dot_S2000x64_S64x32_S2000x32_1_0_0_1_n_n.rhsIdx j q 0).val = (q ⟨0, by decide⟩).val :=
  dot_S2000x64_S64x32_S2000x32_1_0_0_1_n_n.rhsIdx_val_of_single rfl j q
theorem rhs1 (j : S2000x32.Idx) (q : dot_S2000x64_S64x32_S2000x32_1_0_0_1_n_n.contr.Idx) : (dot_S2000x64_S64x32_S2000x32_1_0_0_1_n_n.rhsIdx j q 1).val = (j 1).val := by
  unfold DotDims.rhsIdx
  rw [dif_neg (show ¬(1 : Fin S64x32.rank) ∈ dot_S2000x64_S64x32_S2000x32_1_0_0_1_n_n.rhsBatch by decide), dif_pos (show (1 : Fin S64x32.rank) ∈ dot_S2000x64_S64x32_S2000x32_1_0_0_1_n_n.rhsNonContracting by decide)]
  rfl

/-- One block's product at a position of the block: the change of float format is the identity and the product
    into the zero accumulator is the sum over the 64 contracted positions. -/
theorem pay_apply (x : Vec Ideal S2000x64 .f32) (w : Vec Ideal S64x32 .f32) (j : S2000x32.Idx) :
    k9_pay1 (F := Ideal) x w j = ∑ k : Fin 64, x (blpos j k) * w (brpos j k) := by
  unfold k9_pay1
  simp only [matmul, shapeCast_self]
  rw [Ideal.matmul_constant_zero_apply, ← Equiv.sum_comp (ValueIdx.contrEquiv1 dot_S2000x64_S64x32_S2000x32_1_0_0_1_n_n 64 rfl rfl).symm]
  refine Finset.sum_congr rfl fun k _ => ?_
  have hk := ValueIdx.contrEquiv1_symm_val dot_S2000x64_S64x32_S2000x32_1_0_0_1_n_n 64 rfl rfl k
  have el : dot_S2000x64_S64x32_S2000x32_1_0_0_1_n_n.lhsIdx j ((ValueIdx.contrEquiv1 dot_S2000x64_S64x32_S2000x32_1_0_0_1_n_n 64 rfl rfl).symm k) = blpos j k := funext fun a => Fin.ext (by
    match a with
    | ⟨0, _⟩ => exact lhs0 _ _
    | ⟨1, _⟩ => exact (lhs1 _ _).trans hk)
  have er : dot_S2000x64_S64x32_S2000x32_1_0_0_1_n_n.rhsIdx j ((ValueIdx.contrEquiv1 dot_S2000x64_S64x32_S2000x32_1_0_0_1_n_n 64 rfl rfl).symm k) = brpos j k := funext fun a => Fin.ext (by
    match a with
    | ⟨0, _⟩ => exact (rhs0 _ _).trans hk
    | ⟨1, _⟩ => exact rhs1 _ _)
  rw [el, er]
  rfl

end R9

namespace R10

/-- The bias row's position `(0, c)` under the block position `(r, c)`. -/
abbrev bbpos (j : S2000x32.Idx) : S1x32.Idx := fun a => match a with
  | ⟨0, _⟩ => ⟨0, Nat.one_pos⟩
  | ⟨1, _⟩ => ⟨(j 1).val, (j 1).isLt⟩

/-- One block's clamped sum at a position of the block: every operation is pointwise, the bias row is read at
    the position's column. -/
theorem pay_apply (x y : Vec Ideal S2000x32 .f32) (bias : Vec Ideal S1x32 .f32) (j : S2000x32.Idx) :
    k10_pay1 (F := Ideal) x y bias j = max (x j + y j + bias (bbpos j)) (FloatOps.ofBits (F := Ideal) .f32 0x00000000#32) := by
  unfold k10_pay1
  simp only [shapeCast_self]
  show max (x j + y j + broadcastTo S2000x32 bias broadcasts_S1x32_S2000x32 j) (FloatOps.ofBits (F := Ideal) .f32 0x00000000#32) = _
  rw [broadcastTo_apply bias broadcasts_S1x32_S2000x32 j (bbpos j) (fun a => by
    match a with
    | ⟨0, _⟩ => rfl
    | ⟨1, _⟩ => rfl)]

end R10

namespace R11

/-- The bias row's position `(0, c)` under the block position `(r, c)`. -/
abbrev bbpos (j : S2000x32.Idx) : S1x32.Idx := fun a => match a with
  | ⟨0, _⟩ => ⟨0, Nat.one_pos⟩
  | ⟨1, _⟩ => ⟨(j 1).val, (j 1).isLt⟩

/-- One block's clamped sum at a position of the block: every operation is pointwise, the bias row is read at
    the position's column. -/
theorem pay_apply (x y : Vec Ideal S2000x32 .f32) (bias : Vec Ideal S1x32 .f32) (j : S2000x32.Idx) :
    k11_pay1 (F := Ideal) x y bias j = max (x j + y j + bias (bbpos j)) (FloatOps.ofBits (F := Ideal) .f32 0x00000000#32) := by
  unfold k11_pay1
  simp only [shapeCast_self]
  show max (x j + y j + broadcastTo S2000x32 bias broadcasts_S1x32_S2000x32 j) (FloatOps.ofBits (F := Ideal) .f32 0x00000000#32) = _
  rw [broadcastTo_apply bias broadcasts_S1x32_S2000x32 j (bbpos j) (fun a => by
    match a with
    | ⟨0, _⟩ => rfl
    | ⟨1, _⟩ => rfl)]

end R11

end Cert.KernelIdeal.Pay

end
-- ==== Proof.Spec.lean ====
import proofs.«143428_j3564822855941_1_alg».proof.KernelIdeal
import Idealize.ShloMosaic.PureOps.Ideal

/-! The whole-array functions the twelve tiled regions compute over the extended reals: eight matrix products
    `∑ k, x (r, k) · w (k, c)` and four clamped sums `max (a (r, c) + b (r, c) + bias (0, c)) 0`. -/

noncomputable section

namespace Cert.KernelIdeal.Spec

open Cert.KernelIdeal Idealize.ShloMosaic

namespace R0

/-- Position `(r, k)` of the left operand, for the output position `i = (r, c)`. -/
abbrev lpos (i : S50000x64.Idx) (k : Fin 64) : S50000x64.Idx := fun a => match a with
  | ⟨0, _⟩ => ⟨(i 0).val, (i 0).isLt⟩
  | ⟨1, _⟩ => ⟨k.val, k.isLt⟩
/-- Position `(k, c)` of the right operand, for the output position `i = (r, c)`. -/
abbrev rpos (i : S50000x64.Idx) (k : Fin 64) : S64x64.Idx := fun a => match a with
  | ⟨0, _⟩ => ⟨k.val, k.isLt⟩
  | ⟨1, _⟩ => ⟨(i 1).val, (i 1).isLt⟩

/-- The whole matrix product (50000 × 64 by 64 × 64), position by position. -/
def prod (x : (⟨S50000x64, .f32⟩ : BufTy).Contents (Elt Ideal)) (w : (⟨S64x64, .f32⟩ : BufTy).Contents (Elt Ideal)) :
    (⟨S50000x64, .f32⟩ : BufTy).Contents (Elt Ideal) :=
  fun i => ∑ k : Fin 64, x (lpos i k) * w (rpos i k)

end R0

namespace R1

/-- Position `(r, k)` of the left operand, for the output position `i = (r, c)`. -/
abbrev lpos (i : S10000x64.Idx) (k : Fin 64) : S10000x64.Idx := fun a => match a with
  | ⟨0, _⟩ => ⟨(i 0).val, (i 0).isLt⟩
  | ⟨1, _⟩ => ⟨k.val, k.isLt⟩
/-- Position `(k, c)` of the right operand, for the output position `i = (r, c)`. -/
abbrev rpos (i : S10000x64.Idx) (k : Fin 64) : S64x64.Idx := fun a => match a with
  | ⟨0, _⟩ => ⟨k.val, k.isLt⟩
  | ⟨1, _⟩ => ⟨(i 1).val, (i 1).isLt⟩

/-- The whole matrix product (10000 × 64 by 64 × 64), position by position. -/
def prod (x : (⟨S10000x64, .f32⟩ : BufTy).Contents (Elt Ideal)) (w : (⟨S64x64, .f32⟩ : BufTy).Contents (Elt Ideal)) :
    (⟨S10000x64, .f32⟩ : BufTy).Contents (Elt Ideal) :=
  fun i => ∑ k : Fin 64, x (lpos i k) * w (rpos i k)

end R1

namespace R2

/-- Position `(r, k)` of the left operand, for the output position `i = (r, c)`. -/
abbrev lpos (i : S10000x64.Idx) (k : Fin 64) : S10000x64.Idx := fun a => match a with
  | ⟨0, _⟩ => ⟨(i 0).val, (i 0).isLt⟩
  | ⟨1, _⟩ => ⟨k.val, k.isLt⟩
/-- Position `(k, c)` of the right operand, for the output position `i = (r, c)`. -/
abbrev rpos (i : S10000x64.Idx) (k : Fin 64) : S64x64.Idx := fun a => match a with
  | ⟨0, _⟩ => ⟨k.val, k.isLt⟩
  | ⟨1, _⟩ => ⟨(i 1).val, (i 1).isLt⟩

/-- The whole matrix product (10000 × 64 by 64 × 64), position by position. -/
def prod (x : (⟨S10000x64, .f32⟩ : BufTy).Contents (Elt Ideal)) (w : (⟨S64x64, .f32⟩ : BufTy).Contents (Elt Ideal)) :
    (⟨S10000x64, .f32⟩ : BufTy).Contents (Elt Ideal) :=
  fun i => ∑ k : Fin 64, x (lpos i k) * w (rpos i k)

end R2

namespace R3

/-- Position `(r, k)` of the left operand, for the output position `i = (r, c)`. -/
abbrev lpos (i : S50000x64.Idx) (k : Fin 64) : S50000x64.Idx := fun a => match a with
  | ⟨0, _⟩ => ⟨(i 0).val, (i 0).isLt⟩
  | ⟨1, _⟩ => ⟨k.val, k.isLt⟩
/-- Position `(k, c)` of the right operand, for the output position `i = (r, c)`. -/
abbrev rpos (i : S50000x64.Idx) (k : Fin 64) : S64x64.Idx := fun a => match a with
  | ⟨0, _⟩ => ⟨k.val, k.isLt⟩
  | ⟨1, _⟩ => ⟨(i 1).val, (i 1).isLt⟩

/-- The whole matrix product (50000 × 64 by 64 × 64), position by position. -/
def prod (x : (⟨S50000x64, .f32⟩ : BufTy).Contents (Elt Ideal)) (w : (⟨S64x64, .f32⟩ : BufTy).Contents (Elt Ideal)) :
    (⟨S50000x64, .f32⟩ : BufTy).Contents (Elt Ideal) :=
  fun i => ∑ k : Fin 64, x (lpos i k) * w (rpos i k)

end R3

namespace R4

/-- The bias row's position `(0, c)` under the array position `(r, c)`. -/
abbrev bpos (i : S50000x64.Idx) : S1x64.Idx := fun a => match a with
  | ⟨0, _⟩ => ⟨0, Nat.one_pos⟩
  | ⟨1, _⟩ => ⟨(i 1).val, (i 1).isLt⟩

/-- The sum of two 50000 × 64 arrays and a bias row, clamped below at zero, position by position. -/
def comb (a b : (⟨S50000x64, .f32⟩ : BufTy).Contents (Elt Ideal)) (bias : (⟨S1x64, .f32⟩ : BufTy).Contents (Elt Ideal)) :
    (⟨S50000x64, .f32⟩ : BufTy).Contents (Elt Ideal) :=
  fun i => max (a i + b i + bias (bpos i)) (FloatOps.ofBits (F := Ideal) .f32 0x00000000#32)

end R4

namespace R5

/-- The bias row's position `(0, c)` under the array position `(r, c)`. -/
abbrev bpos (i : S10000x64.Idx) : S1x64.Idx := fun a => match a with
  | ⟨0, _⟩ => ⟨0, Nat.one_pos⟩
  | ⟨1, _⟩ => ⟨(i 1).val, (i 1).isLt⟩

/-- The sum of two 10000 × 64 arrays and a bias row, clamped below at zero, position by position. -/
def comb (a b : (⟨S10000x64, .f32⟩ : BufTy).Contents (Elt Ideal)) (bias : (⟨S1x64, .f32⟩ : BufTy).Contents (Elt Ideal)) :
    (⟨S10000x64, .f32⟩ : BufTy).Contents (Elt Ideal) :=
  fun i => max (a i + b i + bias (bpos i)) (FloatOps.ofBits (F := Ideal) .f32 0x00000000#32)

end R5

namespace R6

/-- Position `(r, k)` of the left operand, for the output position `i = (r, c)`. -/
abbrev lpos (i : S50000x32.Idx) (k : Fin 64) : S50000x64.Idx := fun a => match a with
  | ⟨0, _⟩ => ⟨(i 0).val, (i 0).isLt⟩
  | ⟨1, _⟩ => ⟨k.val, k.isLt⟩
/-- Position `(k, c)` of the right operand, for the output position `i = (r, c)`. -/
abbrev rpos (i : S50000x32.Idx) (k : Fin 64) : S64x32.Idx := fun a => match a with
  | ⟨0, _⟩ => ⟨k.val, k.isLt⟩
  | ⟨1, _⟩ => ⟨(i 1).val, (i 1).isLt⟩

/-- The whole matrix product (50000 × 64 by 64 × 32), position by position. -/
def prod (x : (⟨S50000x64, .f32⟩ : BufTy).Contents (Elt Ideal)) (w : (⟨S64x32, .f32⟩ : BufTy).Contents (Elt Ideal)) :
    (⟨S50000x32, .f32⟩ : BufTy).Contents (Elt Ideal) :=
  fun i => ∑ k : Fin 64, x (lpos i k) * w (rpos i k)

end R6

namespace R7

/-- Position `(r, k)` of the left operand, for the output position `i = (r, c)`. -/
abbrev lpos (i : S10000x32.Idx) (k : Fin 64) : S10000x64.Idx := fun a => match a with
  | ⟨0, _⟩ => ⟨(i 0).val, (i 0).isLt⟩
  | ⟨1, _⟩ => ⟨k.val, k.isLt⟩
/-- Position `(k, c)` of the right operand, for the output position `i = (r, c)`. -/
abbrev rpos (i : S10000x32.Idx) (k : Fin 64) : S64x32.Idx := fun a => match a with
  | ⟨0, _⟩ => ⟨k.val, k.isLt⟩
  | ⟨1, _⟩ => ⟨(i 1).val, (i 1).isLt⟩

/-- The whole matrix product (10000 × 64 by 64 × 32), position by position. -/
def prod (x : (⟨S10000x64, .f32⟩ : BufTy).Contents (Elt Ideal)) (w : (⟨S64x32, .f32⟩ : BufTy).Contents (Elt Ideal)) :
    (⟨S10000x32, .f32⟩ : BufTy).Contents (Elt Ideal) :=
  fun i => ∑ k : Fin 64, x (lpos i k) * w (rpos i k)

end R7

namespace R8

/-- Position `(r, k)` of the left operand, for the output position `i = (r, c)`. -/
abbrev lpos (i : S10000x32.Idx) (k : Fin 64) : S10000x64.Idx := fun a => match a with
  | ⟨0, _⟩ => ⟨(i 0).val, (i 0).isLt⟩
  | ⟨1, _⟩ => ⟨k.val, k.isLt⟩
/-- Position `(k, c)` of the right operand, for the output position `i = (r, c)`. -/
abbrev rpos (i : S10000x32.Idx) (k : Fin 64) : S64x32.Idx := fun a => match a with
  | ⟨0, _⟩ => ⟨k.val, k.isLt⟩
  | ⟨1, _⟩ => ⟨(i 1).val, (i 1).isLt⟩

/-- The whole matrix product (10000 × 64 by 64 × 32), position by position. -/
def prod (x : (⟨S10000x64, .f32⟩ : BufTy).Contents (Elt Ideal)) (w : (⟨S64x32, .f32⟩ : BufTy).Contents (Elt Ideal)) :
    (⟨S10000x32, .f32⟩ : BufTy).Contents (Elt Ideal) :=
  fun i => ∑ k : Fin 64, x (lpos i k) * w (rpos i k)

end R8

namespace R9

/-- Position `(r, k)` of the left operand, for the output position `i = (r, c)`. -/
abbrev lpos (i : S50000x32.Idx) (k : Fin 64) : S50000x64.Idx := fun a => match a with
  | ⟨0, _⟩ => ⟨(i 0).val, (i 0).isLt⟩
  | ⟨1, _⟩ => ⟨k.val, k.isLt⟩
/-- Position `(k, c)` of the right operand, for the output position `i = (r, c)`. -/
abbrev rpos (i : S50000x32.Idx) (k : Fin 64) : S64x32.Idx := fun a => match a with
  | ⟨0, _⟩ => ⟨k.val, k.isLt⟩
  | ⟨1, _⟩ => ⟨(i 1).val, (i 1).isLt⟩

/-- The whole matrix product (50000 × 64 by 64 × 32), position by position. -/
def prod (x : (⟨S50000x64, .f32⟩ : BufTy).Contents (Elt Ideal)) (w : (⟨S64x32, .f32⟩ : BufTy).Contents (Elt Ideal)) :
    (⟨S50000x32, .f32⟩ : BufTy).Contents (Elt Ideal) :=
  fun i => ∑ k : Fin 64, x (lpos i k) * w (rpos i k)

end R9

namespace R10

/-- The bias row's position `(0, c)` under the array position `(r, c)`. -/
abbrev bpos (i : S50000x32.Idx) : S1x32.Idx := fun a => match a with
  | ⟨0, _⟩ => ⟨0, Nat.one_pos⟩
  | ⟨1, _⟩ => ⟨(i 1).val, (i 1).isLt⟩

/-- The sum of two 50000 × 32 arrays and a bias row, clamped below at zero, position by position. -/
def comb (a b : (⟨S50000x32, .f32⟩ : BufTy).Contents (Elt Ideal)) (bias : (⟨S1x32, .f32⟩ : BufTy).Contents (Elt Ideal)) :
    (⟨S50000x32, .f32⟩ : BufTy).Contents (Elt Ideal) :=
  fun i => max (a i + b i + bias (bpos i)) (FloatOps.ofBits (F := Ideal) .f32 0x00000000#32)

end R10

namespace R11

/-- The bias row's position `(0, c)` under the array position `(r, c)`. -/
abbrev bpos (i : S10000x32.Idx) : S1x32.Idx := fun a => match a with
  | ⟨0, _⟩ => ⟨0, Nat.one_pos⟩
  | ⟨1, _⟩ => ⟨(i 1).val, (i 1).isLt⟩

/-- The sum of two 10000 × 32 arrays and a bias row, clamped below at zero, position by position. -/
def comb (a b : (⟨S10000x32, .f32⟩ : BufTy).Contents (Elt Ideal)) (bias : (⟨S1x32, .f32⟩ : BufTy).Contents (Elt Ideal)) :
    (⟨S10000x32, .f32⟩ : BufTy).Contents (Elt Ideal) :=
  fun i => max (a i + b i + bias (bpos i)) (FloatOps.ofBits (F := Ideal) .f32 0x00000000#32)

end R11

end Cert.KernelIdeal.Spec

end
-- ==== Proof.Lin0.lean ====
import proofs.«143428_j3564822855941_1_alg».proof.Proof.KernelIdealFrameP
import proofs.«143428_j3564822855941_1_alg».proof.Proof.Payloads
import proofs.«143428_j3564822855941_1_alg».proof.Proof.Spec

/-! Region 0: a row-tiled matrix product. Grid point `t` multiplies rows `2000·t … 2000·t + 1999` of the
    left operand (50000 × 64) by the whole right operand (64 × 64). The 25 row blocks tile the output, so the
    output array ends as the whole product `∑ k, x (r, k) · w (k, c)` of the two arrays the region finds. -/

set_option maxRecDepth 16384

noncomputable section

namespace Cert.KernelIdeal.Lin0

open Cert.KernelIdeal Cert.KernelIdeal.Gen Cert.KernelIdeal.GenP Idealize.ShloMosaic Idealize.ShloMosaic.TcCoe Idealize.SL.Sem
open Idealize.ShloMosaic.Pipeline (Dat)
open Cert.KernelIdeal.Pay.R0 Cert.KernelIdeal.Spec.R0

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the left operand's and the output's row block is the point's, every
    other block index is 0. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- What point `t` writes back is block `t` of the whole product of the arrays the region finds. -/
theorem flushed_eq (c : Dev nD) (t : Fin cfg0.N) :
    (dat0 V c).flushed 2 t = ((cfg0.win 2).blk t).view.read (Elt Ideal) (prod (V c main_arg0) (V c main_arg6)) := by
  show (cfg0.win 2).cut (grid0.coords t) ((dat0 V c).after 2 t) = _
  rw [after0_2]
  unfold out0_2
  rw [View.canon_unit_zero hz]
  simp only [View.ld_unit_zero (S := S2000x64) hz, View.ld_unit_zero (S := S64x64) hz]
  obtain ⟨e0, e1, e2, e3, e4, e5⟩ := idx_facts t
  funext j
  show k0_pay1 (F := Ideal) (iblk0 V c 0 t) (iblk0 V c 1 t) j = prod (V c main_arg0) (V c main_arg6) (((cfg0.win 2).blk t).view.emb j)
  rw [pay_apply]
  unfold prod
  refine Finset.sum_congr rfl fun k _ => ?_
  have h0 : ((cfg0.win 0).blk t).view.emb (blpos j k) = lpos (((cfg0.win 2).blk t).view.emb j) k := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 64 + 1 * k.val = k.val; omega
  have h1 : ((cfg0.win 1).blk t).view.emb (brpos j k) = rpos (((cfg0.win 2).blk t).view.emb j) k := by
    funext a; apply Fin.ext
    match a with
    | ⟨0, _⟩ => show win0_1.index t (0 : Fin 2) * 64 + 1 * k.val = k.val; omega
    | ⟨1, _⟩ => show win0_1.index t (1 : Fin 2) * 64 + 1 * (j 1).val = win0_2.index t (1 : Fin 2) * 64 + 1 * (j 1).val; omega
  have e0 : iblk0 V c 0 t (blpos j k) = (V c main_arg0 : S50000x64.Idx → EReal) (lpos (((cfg0.win 2).blk t).view.emb j) k) := congrArg (V c main_arg0 : S50000x64.Idx → EReal) h0
  have e1 : iblk0 V c 1 t (brpos j k) = (V c main_arg6 : S64x64.Idx → EReal) (rpos (((cfg0.win 2).blk t).view.emb j) k) := congrArg (V c main_arg6 : S64x64.Idx → EReal) h1
  rw [e0, e1]

/-- A position of the output array is in point `t`'s block iff each coordinate is in the block's range. -/
theorem mem_blk (t : Fin cfg0.N) (i : S50000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole (Pipeline.arrRef spec0 2)).slice (win0_2.rect t)).set ↔ _
  rw [View.set_slice_whole, Rect.mem_set_unit]
  exact Iff.rfl

/-- The row blocks tile the output: row `r` is in the block of point `r / 2000`. -/
theorem cover (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 25 := N_0
  refine ⟨⟨(i 0).val / 2000, by rw [hN]; omega⟩, flush0_2 _, ?_⟩
  rw [mem_blk]
  obtain ⟨e0, e1, e2, e3, e4, e5⟩ := idx_facts ⟨(i 0).val / 2000, by rw [hN]; omega⟩
  intro a
  match a with
  | ⟨0, _⟩ => show win0_2.index _ (0 : Fin 2) * 2000 ≤ (i 0).val ∧ (i 0).val < win0_2.index _ (0 : Fin 2) * 2000 + 2000; rw [e5]; show (i 0).val / 2000 * 2000 ≤ (i 0).val ∧ (i 0).val < (i 0).val / 2000 * 2000 + 2000; omega
  | ⟨1, _⟩ => show win0_2.index _ (1 : Fin 2) * 64 ≤ (i 1).val ∧ (i 1).val < win0_2.index _ (1 : Fin 2) * 64 + 64; rw [e4]; omega

/-- The output array after the region: the whole product of the two arrays the region finds. -/
theorem final (c : Dev nD) : (dat0 V c).arrAt 2 cfg0.N = prod (V c main_arg0) (V c main_arg6) :=
  (dat0 V c).arrAt_eq_of_cover 2 (prod (V c main_arg0) (V c main_arg6)) (fun t _ => flushed_eq V c t) cover

end Cert.KernelIdeal.Lin0

end
-- ==== Proof.Lin1.lean ====
import proofs.«143428_j3564822855941_1_alg».proof.Proof.KernelIdealFrameP
import proofs.«143428_j3564822855941_1_alg».proof.Proof.Payloads
import proofs.«143428_j3564822855941_1_alg».proof.Proof.Spec

/-! Region 1: a row-tiled matrix product. Grid point `t` multiplies rows `2000·t … 2000·t + 1999` of the
    left operand (10000 × 64) by the whole right operand (64 × 64). The 5 row blocks tile the output, so the
    output array ends as the whole product `∑ k, x (r, k) · w (k, c)` of the two arrays the region finds. -/

set_option maxRecDepth 16384

noncomputable section

namespace Cert.KernelIdeal.Lin1

open Cert.KernelIdeal Cert.KernelIdeal.Gen Cert.KernelIdeal.GenP Idealize.ShloMosaic Idealize.ShloMosaic.TcCoe Idealize.SL.Sem
open Idealize.ShloMosaic.Pipeline (Dat)
open Cert.KernelIdeal.Pay.R1 Cert.KernelIdeal.Spec.R1

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the left operand's and the output's row block is the point's, every
    other block index is 0. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) = t.val :=
  (by decide +kernel : ∀ t : Fin grid1.N, _)

/-- What point `t` writes back is block `t` of the whole product of the arrays the region finds. -/
theorem flushed_eq (c : Dev nD) (t : Fin cfg1.N) :
    (dat1 V c).flushed 2 t = ((cfg1.win 2).blk t).view.read (Elt Ideal) (prod (V c main_arg1) (V c main_arg12)) := by
  show (cfg1.win 2).cut (grid1.coords t) ((dat1 V c).after 2 t) = _
  rw [after1_2]
  unfold out1_2
  rw [View.canon_unit_zero hz]
  simp only [View.ld_unit_zero (S := S2000x64) hz, View.ld_unit_zero (S := S64x64) hz]
  obtain ⟨e0, e1, e2, e3, e4, e5⟩ := idx_facts t
  funext j
  show k1_pay1 (F := Ideal) (iblk1 V c 0 t) (iblk1 V c 1 t) j = prod (V c main_arg1) (V c main_arg12) (((cfg1.win 2).blk t).view.emb j)
  rw [pay_apply]
  unfold prod
  refine Finset.sum_congr rfl fun k _ => ?_
  have h0 : ((cfg1.win 0).blk t).view.emb (blpos j k) = lpos (((cfg1.win 2).blk t).view.emb j) k := by
    funext a; apply Fin.ext
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 64 + 1 * k.val = k.val; omega
  have h1 : ((cfg1.win 1).blk t).view.emb (brpos j k) = rpos (((cfg1.win 2).blk t).view.emb j) k := by
    funext a; apply Fin.ext
    match a with
    | ⟨0, _⟩ => show win1_1.index t (0 : Fin 2) * 64 + 1 * k.val = k.val; omega
    | ⟨1, _⟩ => show win1_1.index t (1 : Fin 2) * 64 + 1 * (j 1).val = win1_2.index t (1 : Fin 2) * 64 + 1 * (j 1).val; omega
  have e0 : iblk1 V c 0 t (blpos j k) = (V c main_arg1 : S10000x64.Idx → EReal) (lpos (((cfg1.win 2).blk t).view.emb j) k) := congrArg (V c main_arg1 : S10000x64.Idx → EReal) h0
  have e1 : iblk1 V c 1 t (brpos j k) = (V c main_arg12 : S64x64.Idx → EReal) (rpos (((cfg1.win 2).blk t).view.emb j) k) := congrArg (V c main_arg12 : S64x64.Idx → EReal) h1
  rw [e0, e1]

/-- A position of the output array is in point `t`'s block iff each coordinate is in the block's range. -/
theorem mem_blk (t : Fin cfg1.N) (i : S10000x64.Idx) :
    i ∈ ((cfg1.win 2).blk t).view.set ↔ ∀ a : Fin 2, win1_2.index t a * S2000x64.size a ≤ (i a).val ∧ (i a).val < win1_2.index t a * S2000x64.size a + S2000x64.size a := by
  show i ∈ ((View.whole (Pipeline.arrRef spec1 2)).slice (win1_2.rect t)).set ↔ _
  rw [View.set_slice_whole, Rect.mem_set_unit]
  exact Iff.rfl

/-- The row blocks tile the output: row `r` is in the block of point `r / 2000`. -/
theorem cover (i : S10000x64.Idx) : ∃ t : Fin cfg1.N, (cfg1.win 2).flush t = true ∧ i ∈ ((cfg1.win 2).blk t).view.set := by
  have hi0 : (i 0).val < 10000 := (i 0).isLt
  have hi1 : (i 1).val < 64 := (i 1).isLt
  have hN : cfg1.N = 5 := N_1
  refine ⟨⟨(i 0).val / 2000, by rw [hN]; omega⟩, flush1_2 _, ?_⟩
  rw [mem_blk]
  obtain ⟨e0, e1, e2, e3, e4, e5⟩ := idx_facts ⟨(i 0).val / 2000, by rw [hN]; omega⟩
  intro a
  match a with
  | ⟨0, _⟩ => show win1_2.index _ (0 : Fin 2) * 2000 ≤ (i 0).val ∧ (i 0).val < win1_2.index _ (0 : Fin 2) * 2000 + 2000; rw [e5]; show (i 0).val / 2000 * 2000 ≤ (i 0).val ∧ (i 0).val < (i 0).val / 2000 * 2000 + 2000; omega
  | ⟨1, _⟩ => show win1_2.index _ (1 : Fin 2) * 64 ≤ (i 1).val ∧ (i 1).val < win1_2.index _ (1 : Fin 2) * 64 + 64; rw [e4]; omega

/-- The output array after the region: the whole product of the two arrays the region finds. -/
theorem final (c : Dev nD) : (dat1 V c).arrAt 2 cfg1.N = prod (V c main_arg1) (V c main_arg12) :=
  (dat1 V c).arrAt_eq_of_cover 2 (prod (V c main_arg1) (V c main_arg12)) (fun t _ => flushed_eq V c t) cover

end Cert.KernelIdeal.Lin1

end
-- ==== Proof.Lin2.lean ====
import proofs.«143428_j3564822855941_1_alg».proof.Proof.KernelIdealFrameP
import proofs.«143428_j3564822855941_1_alg».proof.Proof.Payloads
import proofs.«143428_j3564822855941_1_alg».proof.Proof.Spec

/-! Region 2: a row-tiled matrix product. Grid point `t` multiplies rows `2000·t … 2000·t + 1999` of the
    left operand (10000 × 64) by the whole right operand (64 × 64). The 5 row blocks tile the output, so the
    output array ends as the whole product `∑ k, x (r, k) · w (k, c)` of the two arrays the region finds. -/

set_option maxRecDepth 16384

noncomputable section

namespace Cert.KernelIdeal.Lin2

open Cert.KernelIdeal Cert.KernelIdeal.Gen Cert.KernelIdeal.GenP Idealize.ShloMosaic Idealize.ShloMosaic.TcCoe Idealize.SL.Sem
open Idealize.ShloMosaic.Pipeline (Dat)
open Cert.KernelIdeal.Pay.R2 Cert.KernelIdeal.Spec.R2

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the left operand's and the output's row block is the point's, every
    other block index is 0. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) = t.val :=
  (by decide +kernel : ∀ t : Fin grid2.N, _)

/-- What point `t` writes back is block `t` of the whole product of the arrays the region finds. -/
theorem flushed_eq (c : Dev nD) (t : Fin cfg2.N) :
    (dat2 V c).flushed 2 t = ((cfg2.win 2).blk t).view.read (Elt Ideal) (prod (V c main_arg1) (V c main_arg8)) := by
  show (cfg2.win 2).cut (grid2.coords t) ((dat2 V c).after 2 t) = _
  rw [after2_2]
  unfold out2_2
  rw [View.canon_unit_zero hz]
  simp only [View.ld_unit_zero (S := S2000x64) hz, View.ld_unit_zero (S := S64x64) hz]
  obtain ⟨e0, e1, e2, e3, e4, e5⟩ := idx_facts t
  funext j
  show k2_pay1 (F := Ideal) (iblk2 V c 0 t) (iblk2 V c 1 t) j = prod (V c main_arg1) (V c main_arg8) (((cfg2.win 2).blk t).view.emb j)
  rw [pay_apply]
  unfold prod
  refine Finset.sum_congr rfl fun k _ => ?_
  have h0 : ((cfg2.win 0).blk t).view.emb (blpos j k) = lpos (((cfg2.win 2).blk t).view.emb j) k := by
    funext a; apply Fin.ext
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 64 + 1 * k.val = k.val; omega
  have h1 : ((cfg2.win 1).blk t).view.emb (brpos j k) = rpos (((cfg2.win 2).blk t).view.emb j) k := by
    funext a; apply Fin.ext
    match a with
    | ⟨0, _⟩ => show win2_1.index t (0 : Fin 2) * 64 + 1 * k.val = k.val; omega
    | ⟨1, _⟩ => show win2_1.index t (1 : Fin 2) * 64 + 1 * (j 1).val = win2_2.index t (1 : Fin 2) * 64 + 1 * (j 1).val; omega
  have e0 : iblk2 V c 0 t (blpos j k) = (V c main_arg1 : S10000x64.Idx → EReal) (lpos (((cfg2.win 2).blk t).view.emb j) k) := congrArg (V c main_arg1 : S10000x64.Idx → EReal) h0
  have e1 : iblk2 V c 1 t (brpos j k) = (V c main_arg8 : S64x64.Idx → EReal) (rpos (((cfg2.win 2).blk t).view.emb j) k) := congrArg (V c main_arg8 : S64x64.Idx → EReal) h1
  rw [e0, e1]

/-- A position of the output array is in point `t`'s block iff each coordinate is in the block's range. -/
theorem mem_blk (t : Fin cfg2.N) (i : S10000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole (Pipeline.arrRef spec2 2)).slice (win2_2.rect t)).set ↔ _
  rw [View.set_slice_whole, Rect.mem_set_unit]
  exact Iff.rfl

/-- The row blocks tile the output: row `r` is in the block of point `r / 2000`. -/
theorem cover (i : S10000x64.Idx) : ∃ t : Fin cfg2.N, (cfg2.win 2).flush t = true ∧ i ∈ ((cfg2.win 2).blk t).view.set := by
  have hi0 : (i 0).val < 10000 := (i 0).isLt
  have hi1 : (i 1).val < 64 := (i 1).isLt
  have hN : cfg2.N = 5 := N_2
  refine ⟨⟨(i 0).val / 2000, by rw [hN]; omega⟩, flush2_2 _, ?_⟩
  rw [mem_blk]
  obtain ⟨e0, e1, e2, e3, e4, e5⟩ := idx_facts ⟨(i 0).val / 2000, by rw [hN]; omega⟩
  intro a
  match a with
  | ⟨0, _⟩ => show win2_2.index _ (0 : Fin 2) * 2000 ≤ (i 0).val ∧ (i 0).val < win2_2.index _ (0 : Fin 2) * 2000 + 2000; rw [e5]; show (i 0).val / 2000 * 2000 ≤ (i 0).val ∧ (i 0).val < (i 0).val / 2000 * 2000 + 2000; omega
  | ⟨1, _⟩ => show win2_2.index _ (1 : Fin 2) * 64 ≤ (i 1).val ∧ (i 1).val < win2_2.index _ (1 : Fin 2) * 64 + 64; rw [e4]; omega

/-- The output array after the region: the whole product of the two arrays the region finds. -/
theorem final (c : Dev nD) : (dat2 V c).arrAt 2 cfg2.N = prod (V c main_arg1) (V c main_arg8) :=
  (dat2 V c).arrAt_eq_of_cover 2 (prod (V c main_arg1) (V c main_arg8)) (fun t _ => flushed_eq V c t) cover

end Cert.KernelIdeal.Lin2

end
-- ==== Proof.Lin3.lean ====
import proofs.«143428_j3564822855941_1_alg».proof.Proof.KernelIdealFrameP
import proofs.«143428_j3564822855941_1_alg».proof.Proof.Payloads
import proofs.«143428_j3564822855941_1_alg».proof.Proof.Spec

/-! Region 3: a row-tiled matrix product. Grid point `t` multiplies rows `2000·t … 2000·t + 1999` of the
    left operand (50000 × 64) by the whole right operand (64 × 64). The 25 row blocks tile the output, so the
    output array ends as the whole product `∑ k, x (r, k) · w (k, c)` of the two arrays the region finds. -/

set_option maxRecDepth 16384

noncomputable section

namespace Cert.KernelIdeal.Lin3

open Cert.KernelIdeal Cert.KernelIdeal.Gen Cert.KernelIdeal.GenP Idealize.ShloMosaic Idealize.ShloMosaic.TcCoe Idealize.SL.Sem
open Idealize.ShloMosaic.Pipeline (Dat)
open Cert.KernelIdeal.Pay.R3 Cert.KernelIdeal.Spec.R3

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the left operand's and the output's row block is the point's, every
    other block index is 0. -/
theorem idx_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) = t.val :=
  (by decide +kernel : ∀ t : Fin grid3.N, _)

/-- What point `t` writes back is block `t` of the whole product of the arrays the region finds. -/
theorem flushed_eq (c : Dev nD) (t : Fin cfg3.N) :
    (dat3 V c).flushed 2 t = ((cfg3.win 2).blk t).view.read (Elt Ideal) (prod (V c main_arg0) (V c main_arg10)) := by
  show (cfg3.win 2).cut (grid3.coords t) ((dat3 V c).after 2 t) = _
  rw [after3_2]
  unfold out3_2
  rw [View.canon_unit_zero hz]
  simp only [View.ld_unit_zero (S := S2000x64) hz, View.ld_unit_zero (S := S64x64) hz]
  obtain ⟨e0, e1, e2, e3, e4, e5⟩ := idx_facts t
  funext j
  show k3_pay1 (F := Ideal) (iblk3 V c 0 t) (iblk3 V c 1 t) j = prod (V c main_arg0) (V c main_arg10) (((cfg3.win 2).blk t).view.emb j)
  rw [pay_apply]
  unfold prod
  refine Finset.sum_congr rfl fun k _ => ?_
  have h0 : ((cfg3.win 0).blk t).view.emb (blpos j k) = lpos (((cfg3.win 2).blk t).view.emb j) k := by
    funext a; apply Fin.ext
    match a with
    | ⟨0, _⟩ => show win3_0.index t (0 : Fin 2) * 2000 + 1 * (j 0).val = win3_2.index t (0 : Fin 2) * 2000 + 1 * (j 0).val; omega
    | ⟨1, _⟩ => show win3_0.index t (1 : Fin 2) * 64 + 1 * k.val = k.val; omega
  have h1 : ((cfg3.win 1).blk t).view.emb (brpos j k) = rpos (((cfg3.win 2).blk t).view.emb j) k := by
    funext a; apply Fin.ext
    match a with
    | ⟨0, _⟩ => show win3_1.index t (0 : Fin 2) * 64 + 1 * k.val = k.val; omega
    | ⟨1, _⟩ => show win3_1.index t (1 : Fin 2) * 64 + 1 * (j 1).val = win3_2.index t (1 : Fin 2) * 64 + 1 * (j 1).val; omega
  have e0 : iblk3 V c 0 t (blpos j k) = (V c main_arg0 : S50000x64.Idx → EReal) (lpos (((cfg3.win 2).blk t).view.emb j) k) := congrArg (V c main_arg0 : S50000x64.Idx → EReal) h0
  have e1 : iblk3 V c 1 t (brpos j k) = (V c main_arg10 : S64x64.Idx → EReal) (rpos (((cfg3.win 2).blk t).view.emb j) k) := congrArg (V c main_arg10 : S64x64.Idx → EReal) h1
  rw [e0, e1]

/-- A position of the output array is in point `t`'s block iff each coordinate is in the block's range. -/
theorem mem_blk (t : Fin cfg3.N) (i : S50000x64.Idx) :
    i ∈ ((cfg3.win 2).blk t).view.set ↔ ∀ a : Fin 2, win3_2.index t a * S2000x64.size a ≤ (i a).val ∧ (i a).val < win3_2.index t a * S2000x64.size a + S2000x64.size a := by
  show i ∈ ((View.whole (Pipeline.arrRef spec3 2)).slice (win3_2.rect t)).set ↔ _
  rw [View.set_slice_whole, Rect.mem_set_unit]
  exact Iff.rfl

/-- The row blocks tile the output: row `r` is in the block of point `r / 2000`. -/
theorem cover (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  have hN : cfg3.N = 25 := N_3
  refine ⟨⟨(i 0).val / 2000, by rw [hN]; omega⟩, flush3_2 _, ?_⟩
  rw [mem_blk]
  obtain ⟨e0, e1, e2, e3, e4, e5⟩ := idx_facts ⟨(i 0).val / 2000, by rw [hN]; omega⟩
  intro a
  match a with
  | ⟨0, _⟩ => show win3_2.index _ (0 : Fin 2) * 2000 ≤ (i 0).val ∧ (i 0).val < win3_2.index _ (0 : Fin 2) * 2000 + 2000; rw [e5]; show (i 0).val / 2000 * 2000 ≤ (i 0).val ∧ (i 0).val < (i 0).val / 2000 * 2000 + 2000; omega
  | ⟨1, _⟩ => show win3_2.index _ (1 : Fin 2) * 64 ≤ (i 1).val ∧ (i 1).val < win3_2.index _ (1 : Fin 2) * 64 + 64; rw [e4]; omega

/-- The output array after the region: the whole product of the two arrays the region finds. -/
theorem final (c : Dev nD) : (dat3 V c).arrAt 2 cfg3.N = prod (V c main_arg0) (V c main_arg10) :=
  (dat3 V c).arrAt_eq_of_cover 2 (prod (V c main_arg0) (V c main_arg10)) (fun t _ => flushed_eq V c t) cover

end Cert.KernelIdeal.Lin3

end
-- ==== Proof.Comb4.lean ====
import proofs.«143428_j3564822855941_1_alg».proof.Proof.KernelIdealFrameP
import proofs.«143428_j3564822855941_1_alg».proof.Proof.Payloads
import proofs.«143428_j3564822855941_1_alg».proof.Proof.Spec

/-! Region 4: the sum of two message arrays (50000 × 64) and a bias row (1 × 64), clamped below at zero,
    row block by row block. The 25 row blocks tile the output: the output array ends as
    `max (a (r, c) + b (r, c) + bias (0, c)) 0` at every position `(r, c)`. -/

set_option maxRecDepth 16384

noncomputable section

namespace Cert.KernelIdeal.Comb4

open Cert.KernelIdeal Cert.KernelIdeal.Gen Cert.KernelIdeal.GenP Idealize.ShloMosaic Idealize.ShloMosaic.TcCoe Idealize.SL.Sem
open Idealize.ShloMosaic.Pipeline (Dat)
open Cert.KernelIdeal.Pay.R4 Cert.KernelIdeal.Spec.R4

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the two message arrays' and the output's row block is the point's,
    every other block index is 0. -/
theorem idx_facts : ∀ t : Fin cfg4.N, win4_0.index t (0 : Fin 2) = win4_3.index t (0 : Fin 2)
    ∧ win4_0.index t (1 : Fin 2) = 0
    ∧ win4_1.index t (0 : Fin 2) = win4_3.index t (0 : Fin 2)
    ∧ win4_1.index t (1 : Fin 2) = 0
    ∧ win4_2.index t (0 : Fin 2) = 0
    ∧ win4_2.index t (1 : Fin 2) = 0
    ∧ win4_3.index t (1 : Fin 2) = 0
    ∧ win4_3.index t (0 : Fin 2) = t.val :=
  (by decide +kernel : ∀ t : Fin grid4.N, _)

/-- What point `t` writes back is block `t` of the clamped sum of the arrays the region finds. -/
theorem flushed_eq (c : Dev nD) (t : Fin cfg4.N) :
    (dat4 V c).flushed 3 t = ((cfg4.win 3).blk t).view.read (Elt Ideal) (comb (V c main_v44) (V c main_v94) (V c main_v192)) := by
  show (cfg4.win 3).cut (grid4.coords t) ((dat4 V c).after 3 t) = _
  rw [after4_3]
  unfold out4_3
  rw [View.canon_unit_zero hz]
  simp only [View.ld_unit_zero (S := S2000x64) hz, View.ld_unit_zero (S := S1x64) hz]
  obtain ⟨e0, e1, e2, e3, e4, e5, e6, e7⟩ := idx_facts t
  funext j
  show k4_pay1 (F := Ideal) (iblk4 V c 0 t) (iblk4 V c 1 t) (iblk4 V c 2 t) j = comb (V c main_v44) (V c main_v94) (V c main_v192) (((cfg4.win 3).blk t).view.emb j)
  rw [pay_apply]
  unfold comb
  have h0 : ((cfg4.win 0).blk t).view.emb j = ((cfg4.win 3).blk t).view.emb j := by
    funext a; apply Fin.ext
    match a with
    | ⟨0, _⟩ => show win4_0.index t (0 : Fin 2) * 2000 + 1 * (j 0).val = win4_3.index t (0 : Fin 2) * 2000 + 1 * (j 0).val; omega
    | ⟨1, _⟩ => show win4_0.index t (1 : Fin 2) * 64 + 1 * (j 1).val = win4_3.index t (1 : Fin 2) * 64 + 1 * (j 1).val; omega
  have h1 : ((cfg4.win 1).blk t).view.emb j = ((cfg4.win 3).blk t).view.emb j := by
    funext a; apply Fin.ext
    match a with
    | ⟨0, _⟩ => show win4_1.index t (0 : Fin 2) * 2000 + 1 * (j 0).val = win4_3.index t (0 : Fin 2) * 2000 + 1 * (j 0).val; omega
    | ⟨1, _⟩ => show win4_1.index t (1 : Fin 2) * 64 + 1 * (j 1).val = win4_3.index t (1 : Fin 2) * 64 + 1 * (j 1).val; omega
  have h2 : ((cfg4.win 2).blk t).view.emb (bbpos j) = bpos (((cfg4.win 3).blk t).view.emb j) := by
    funext a; apply Fin.ext
    match a with
    | ⟨0, _⟩ => show win4_2.index t (0 : Fin 2) * 1 + 1 * 0 = 0; omega
    | ⟨1, _⟩ => show win4_2.index t (1 : Fin 2) * 64 + 1 * (j 1).val = win4_3.index t (1 : Fin 2) * 64 + 1 * (j 1).val; omega
  have e0 : iblk4 V c 0 t j = (V c main_v44 : S50000x64.Idx → EReal) (((cfg4.win 3).blk t).view.emb j) := congrArg (V c main_v44 : S50000x64.Idx → EReal) h0
  have e1 : iblk4 V c 1 t j = (V c main_v94 : S50000x64.Idx → EReal) (((cfg4.win 3).blk t).view.emb j) := congrArg (V c main_v94 : S50000x64.Idx → EReal) h1
  have e2 : iblk4 V c 2 t (bbpos j) = (V c main_v192 : S1x64.Idx → EReal) (bpos (((cfg4.win 3).blk t).view.emb j)) := congrArg (V c main_v192 : S1x64.Idx → EReal) h2
  rw [e0, e1, e2]

/-- A position of the output array is in point `t`'s block iff each coordinate is in the block's range. -/
theorem mem_blk (t : Fin cfg4.N) (i : S50000x64.Idx) :
    i ∈ ((cfg4.win 3).blk t).view.set ↔ ∀ a : Fin 2, win4_3.index t a * S2000x64.size a ≤ (i a).val ∧ (i a).val < win4_3.index t a * S2000x64.size a + S2000x64.size a := by
  show i ∈ ((View.whole (Pipeline.arrRef spec4 3)).slice (win4_3.rect t)).set ↔ _
  rw [View.set_slice_whole, Rect.mem_set_unit]
  exact Iff.rfl

/-- The row blocks tile the output: row `r` is in the block of point `r / 2000`. -/
theorem cover (i : S50000x64.Idx) : ∃ t : Fin cfg4.N, (cfg4.win 3).flush t = true ∧ i ∈ ((cfg4.win 3).blk t).view.set := by
  have hi0 : (i 0).val < 50000 := (i 0).isLt
  have hi1 : (i 1).val < 64 := (i 1).isLt
  have hN : cfg4.N = 25 := N_4
  refine ⟨⟨(i 0).val / 2000, by rw [hN]; omega⟩, flush4_3 _, ?_⟩
  rw [mem_blk]
  obtain ⟨e0, e1, e2, e3, e4, e5, e6, e7⟩ := idx_facts ⟨(i 0).val / 2000, by rw [hN]; omega⟩
  intro a
  match a with
  | ⟨0, _⟩ => show win4_3.index _ (0 : Fin 2) * 2000 ≤ (i 0).val ∧ (i 0).val < win4_3.index _ (0 : Fin 2) * 2000 + 2000; rw [e7]; show (i 0).val / 2000 * 2000 ≤ (i 0).val ∧ (i 0).val < (i 0).val / 2000 * 2000 + 2000; omega
  | ⟨1, _⟩ => show win4_3.index _ (1 : Fin 2) * 64 ≤ (i 1).val ∧ (i 1).val < win4_3.index _ (1 : Fin 2) * 64 + 64; rw [e6]; omega

/-- The output array after the region: the clamped sum of the three arrays the region finds. -/
theorem final (c : Dev nD) : (dat4 V c).arrAt 3 cfg4.N = comb (V c main_v44) (V c main_v94) (V c main_v192) :=
  (dat4 V c).arrAt_eq_of_cover 3 (comb (V c main_v44) (V c main_v94) (V c main_v192)) (fun t _ => flushed_eq V c t) cover

end Cert.KernelIdeal.Comb4

end
-- ==== Proof.Comb5.lean ====
import proofs.«143428_j3564822855941_1_alg».proof.Proof.KernelIdealFrameP
import proofs.«143428_j3564822855941_1_alg».proof.Proof.Payloads
import proofs.«143428_j3564822855941_1_alg».proof.Proof.Spec

/-! Region 5: the sum of two message arrays (10000 × 64) and a bias row (1 × 64), clamped below at zero,
    row block by row block. The 5 row blocks tile the output: the output array ends as
    `max (a (r, c) + b (r, c) + bias (0, c)) 0` at every position `(r, c)`. -/

set_option maxRecDepth 16384

noncomputable section

namespace Cert.KernelIdeal.Comb5

open Cert.KernelIdeal Cert.KernelIdeal.Gen Cert.KernelIdeal.GenP Idealize.ShloMosaic Idealize.ShloMosaic.TcCoe Idealize.SL.Sem
open Idealize.ShloMosaic.Pipeline (Dat)
open Cert.KernelIdeal.Pay.R5 Cert.KernelIdeal.Spec.R5

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the two message arrays' and the output's row block is the point's,
    every other block index is 0. -/
theorem idx_facts : ∀ t : Fin cfg5.N, win5_0.index t (0 : Fin 2) = win5_3.index t (0 : Fin 2)
    ∧ win5_0.index t (1 : Fin 2) = 0
    ∧ win5_1.index t (0 : Fin 2) = win5_3.index t (0 : Fin 2)
    ∧ win5_1.index t (1 : Fin 2) = 0
    ∧ win5_2.index t (0 : Fin 2) = 0
    ∧ win5_2.index t (1 : Fin 2) = 0
    ∧ win5_3.index t (1 : Fin 2) = 0
    ∧ win5_3.index t (0 : Fin 2) = t.val :=
  (by decide +kernel : ∀ t : Fin grid5.N, _)

/-- What point `t` writes back is block `t` of the clamped sum of the arrays the region finds. -/
theorem flushed_eq (c : Dev nD) (t : Fin cfg5.N) :
    (dat5 V c).flushed 3 t = ((cfg5.win 3).blk t).view.read (Elt Ideal) (comb (V c main_v139) (V c main_v189) (V c main_v194)) := by
  show (cfg5.win 3).cut (grid5.coords t) ((dat5 V c).after 3 t) = _
  rw [after5_3]
  unfold out5_3
  rw [View.canon_unit_zero hz]
  simp only [View.ld_unit_zero (S := S2000x64) hz, View.ld_unit_zero (S := S1x64) hz]
  obtain ⟨e0, e1, e2, e3, e4, e5, e6, e7⟩ := idx_facts t
  funext j
  show k5_pay1 (F := Ideal) (iblk5 V c 0 t) (iblk5 V c 1 t) (iblk5 V c 2 t) j = comb (V c main_v139) (V c main_v189) (V c main_v194) (((cfg5.win 3).blk t).view.emb j)
  rw [pay_apply]
  unfold comb
  have h0 : ((cfg5.win 0).blk t).view.emb j = ((cfg5.win 3).blk t).view.emb j := by
    funext a; apply Fin.ext
    match a with
    | ⟨0, _⟩ => show win5_0.index t (0 : Fin 2) * 2000 + 1 * (j 0).val = win5_3.index t (0 : Fin 2) * 2000 + 1 * (j 0).val; omega
    | ⟨1, _⟩ => show win5_0.index t (1 : Fin 2) * 64 + 1 * (j 1).val = win5_3.index t (1 : Fin 2) * 64 + 1 * (j 1).val; omega
  have h1 : ((cfg5.win 1).blk t).view.emb j = ((cfg5.win 3).blk t).view.emb j := by
    funext a; apply Fin.ext
    match a with
    | ⟨0, _⟩ => show win5_1.index t (0 : Fin 2) * 2000 + 1 * (j 0).val = win5_3.index t (0 : Fin 2) * 2000 + 1 * (j 0).val; omega
    | ⟨1, _⟩ => show win5_1.index t (1 : Fin 2) * 64 + 1 * (j 1).val = win5_3.index t (1 : Fin 2) * 64 + 1 * (j 1).val; omega
  have h2 : ((cfg5.win 2).blk t).view.emb (bbpos j) = bpos (((cfg5.win 3).blk t).view.emb j) := by
    funext a; apply Fin.ext
    match a with
    | ⟨0, _⟩ => show win5_2.index t (0 : Fin 2) * 1 + 1 * 0 = 0; omega
    | ⟨1, _⟩ => show win5_2.index t (1 : Fin 2) * 64 + 1 * (j 1).val = win5_3.index t (1 : Fin 2) * 64 + 1 * (j 1).val; omega
  have e0 : iblk5 V c 0 t j = (V c main_v139 : S10000x64.Idx → EReal) (((cfg5.win 3).blk t).view.emb j) := congrArg (V c main_v139 : S10000x64.Idx → EReal) h0
  have e1 : iblk5 V c 1 t j = (V c main_v189 : S10000x64.Idx → EReal) (((cfg5.win 3).blk t).view.emb j) := congrArg (V c main_v189 : S10000x64.Idx → EReal) h1
  have e2 : iblk5 V c 2 t (bbpos j) = (V c main_v194 : S1x64.Idx → EReal) (bpos (((cfg5.win 3).blk t).view.emb j)) := congrArg (V c main_v194 : S1x64.Idx → EReal) h2
  rw [e0, e1, e2]

/-- A position of the output array is in point `t`'s block iff each coordinate is in the block's range. -/
theorem mem_blk (t : Fin cfg5.N) (i : S10000x64.Idx) :
    i ∈ ((cfg5.win 3).blk t).view.set ↔ ∀ a : Fin 2, win5_3.index t a * S2000x64.size a ≤ (i a).val ∧ (i a).val < win5_3.index t a * S2000x64.size a + S2000x64.size a := by
  show i ∈ ((View.whole (Pipeline.arrRef spec5 3)).slice (win5_3.rect t)).set ↔ _
  rw [View.set_slice_whole, Rect.mem_set_unit]
  exact Iff.rfl

/-- The row blocks tile the output: row `r` is in the block of point `r / 2000`. -/
theorem cover (i : S10000x64.Idx) : ∃ t : Fin cfg5.N, (cfg5.win 3).flush t = true ∧ i ∈ ((cfg5.win 3).blk t).view.set := by
  have hi0 : (i 0).val < 10000 := (i 0).isLt
  have hi1 : (i 1).val < 64 := (i 1).isLt
  have hN : cfg5.N = 5 := N_5
  refine ⟨⟨(i 0).val / 2000, by rw [hN]; omega⟩, flush5_3 _, ?_⟩
  rw [mem_blk]
  obtain ⟨e0, e1, e2, e3, e4, e5, e6, e7⟩ := idx_facts ⟨(i 0).val / 2000, by rw [hN]; omega⟩
  intro a
  match a with
  | ⟨0, _⟩ => show win5_3.index _ (0 : Fin 2) * 2000 ≤ (i 0).val ∧ (i 0).val < win5_3.index _ (0 : Fin 2) * 2000 + 2000; rw [e7]; show (i 0).val / 2000 * 2000 ≤ (i 0).val ∧ (i 0).val < (i 0).val / 2000 * 2000 + 2000; omega
  | ⟨1, _⟩ => show win5_3.index _ (1 : Fin 2) * 64 ≤ (i 1).val ∧ (i 1).val < win5_3.index _ (1 : Fin 2) * 64 + 64; rw [e6]; omega

/-- The output array after the region: the clamped sum of the three arrays the region finds. -/
theorem final (c : Dev nD) : (dat5 V c).arrAt 3 cfg5.N = comb (V c main_v139) (V c main_v189) (V c main_v194) :=
  (dat5 V c).arrAt_eq_of_cover 3 (comb (V c main_v139) (V c main_v189) (V c main_v194)) (fun t _ => flushed_eq V c t) cover

end Cert.KernelIdeal.Comb5

end
-- ==== Proof.Lin6.lean ====
import proofs.«143428_j3564822855941_1_alg».proof.Proof.KernelIdealFrameP
import proofs.«143428_j3564822855941_1_alg».proof.Proof.Payloads
import proofs.«143428_j3564822855941_1_alg».proof.Proof.Spec

/-! Region 6: a row-tiled matrix product. Grid point `t` multiplies rows `2000·t … 2000·t + 1999` of the
    left operand (50000 × 64) by the whole right operand (64 × 32). The 25 row blocks tile the output, so the
    output array ends as the whole product `∑ k, x (r, k) · w (k, c)` of the two arrays the region finds. -/

set_option maxRecDepth 16384

noncomputable section

namespace Cert.KernelIdeal.Lin6

open Cert.KernelIdeal Cert.KernelIdeal.Gen Cert.KernelIdeal.GenP Idealize.ShloMosaic Idealize.ShloMosaic.TcCoe Idealize.SL.Sem
open Idealize.ShloMosaic.Pipeline (Dat)
open Cert.KernelIdeal.Pay.R6 Cert.KernelIdeal.Spec.R6

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the left operand's and the output's row block is the point's, every
    other block index is 0. -/
theorem idx_facts : ∀ t : Fin cfg6.N, win6_0.index t (0 : Fin 2) = win6_2.index t (0 : Fin 2)
    ∧ win6_0.index t (1 : Fin 2) = 0
    ∧ win6_1.index t (0 : Fin 2) = 0
    ∧ win6_1.index t (1 : Fin 2) = 0
    ∧ win6_2.index t (1 : Fin 2) = 0
    ∧ win6_2.index t (0 : Fin 2) = t.val :=
  (by decide +kernel : ∀ t : Fin grid6.N, _)

/-- What point `t` writes back is block `t` of the whole product of the arrays the region finds. -/
theorem flushed_eq (c : Dev nD) (t : Fin cfg6.N) :
    (dat6 V c).flushed 2 t = ((cfg6.win 2).blk t).view.read (Elt Ideal) (prod (V c main_v193) (V c main_arg14)) := by
  show (cfg6.win 2).cut (grid6.coords t) ((dat6 V c).after 2 t) = _
  rw [after6_2]
  unfold out6_2
  rw [View.canon_unit_zero hz]
  simp only [View.ld_unit_zero (S := S2000x64) hz, View.ld_unit_zero (S := S64x32) hz]
  obtain ⟨e0, e1, e2, e3, e4, e5⟩ := idx_facts t
  funext j
  show k6_pay1 (F := Ideal) (iblk6 V c 0 t) (iblk6 V c 1 t) j = prod (V c main_v193) (V c main_arg14) (((cfg6.win 2).blk t).view.emb j)
  rw [pay_apply]
  unfold prod
  refine Finset.sum_congr rfl fun k _ => ?_
  have h0 : ((cfg6.win 0).blk t).view.emb (blpos j k) = lpos (((cfg6.win 2).blk t).view.emb j) k := by
    funext a; apply Fin.ext
    match a with
    | ⟨0, _⟩ => show win6_0.index t (0 : Fin 2) * 2000 + 1 * (j 0).val = win6_2.index t (0 : Fin 2) * 2000 + 1 * (j 0).val; omega
    | ⟨1, _⟩ => show win6_0.index t (1 : Fin 2) * 64 + 1 * k.val = k.val; omega
  have h1 : ((cfg6.win 1).blk t).view.emb (brpos j k) = rpos (((cfg6.win 2).blk t).view.emb j) k := by
    funext a; apply Fin.ext
    match a with
    | ⟨0, _⟩ => show win6_1.index t (0 : Fin 2) * 64 + 1 * k.val = k.val; omega
    | ⟨1, _⟩ => show win6_1.index t (1 : Fin 2) * 32 + 1 * (j 1).val = win6_2.index t (1 : Fin 2) * 32 + 1 * (j 1).val; omega
  have e0 : iblk6 V c 0 t (blpos j k) = (V c main_v193 : S50000x64.Idx → EReal) (lpos (((cfg6.win 2).blk t).view.emb j) k) := congrArg (V c main_v193 : S50000x64.Idx → EReal) h0
  have e1 : iblk6 V c 1 t (brpos j k) = (V c main_arg14 : S64x32.Idx → EReal) (rpos (((cfg6.win 2).blk t).view.emb j) k) := congrArg (V c main_arg14 : S64x32.Idx → EReal) h1
  rw [e0, e1]

/-- A position of the output array is in point `t`'s block iff each coordinate is in the block's range. -/
theorem mem_blk (t : Fin cfg6.N) (i : S50000x32.Idx) :
    i ∈ ((cfg6.win 2).blk t).view.set ↔ ∀ a : Fin 2, win6_2.index t a * S2000x32.size a ≤ (i a).val ∧ (i a).val < win6_2.index t a * S2000x32.size a + S2000x32.size a := by
  show i ∈ ((View.whole (Pipeline.arrRef spec6 2)).slice (win6_2.rect t)).set ↔ _
  rw [View.set_slice_whole, Rect.mem_set_unit]
  exact Iff.rfl

/-- The row blocks tile the output: row `r` is in the block of point `r / 2000`. -/
theorem cover (i : S50000x32.Idx) : ∃ t : Fin cfg6.N, (cfg6.win 2).flush t = true ∧ i ∈ ((cfg6.win 2).blk t).view.set := by
  have hi0 : (i 0).val < 50000 := (i 0).isLt
  have hi1 : (i 1).val < 32 := (i 1).isLt
  have hN : cfg6.N = 25 := N_6
  refine ⟨⟨(i 0).val / 2000, by rw [hN]; omega⟩, flush6_2 _, ?_⟩
  rw [mem_blk]
  obtain ⟨e0, e1, e2, e3, e4, e5⟩ := idx_facts ⟨(i 0).val / 2000, by rw [hN]; omega⟩
  intro a
  match a with
  | ⟨0, _⟩ => show win6_2.index _ (0 : Fin 2) * 2000 ≤ (i 0).val ∧ (i 0).val < win6_2.index _ (0 : Fin 2) * 2000 + 2000; rw [e5]; show (i 0).val / 2000 * 2000 ≤ (i 0).val ∧ (i 0).val < (i 0).val / 2000 * 2000 + 2000; omega
  | ⟨1, _⟩ => show win6_2.index _ (1 : Fin 2) * 32 ≤ (i 1).val ∧ (i 1).val < win6_2.index _ (1 : Fin 2) * 32 + 32; rw [e4]; omega

/-- The output array after the region: the whole product of the two arrays the region finds. -/
theorem final (c : Dev nD) : (dat6 V c).arrAt 2 cfg6.N = prod (V c main_v193) (V c main_arg14) :=
  (dat6 V c).arrAt_eq_of_cover 2 (prod (V c main_v193) (V c main_arg14)) (fun t _ => flushed_eq V c t) cover

end Cert.KernelIdeal.Lin6

end
-- ==== Proof.Lin7.lean ====
import proofs.«143428_j3564822855941_1_alg».proof.Proof.KernelIdealFrameP
import proofs.«143428_j3564822855941_1_alg».proof.Proof.Payloads
import proofs.«143428_j3564822855941_1_alg».proof.Proof.Spec

/-! Region 7: a row-tiled matrix product. Grid point `t` multiplies rows `2000·t … 2000·t + 1999` of the
    left operand (10000 × 64) by the whole right operand (64 × 32). The 5 row blocks tile the output, so the
    output array ends as the whole product `∑ k, x (r, k) · w (k, c)` of the two arrays the region finds. -/

set_option maxRecDepth 16384

noncomputable section

namespace Cert.KernelIdeal.Lin7

open Cert.KernelIdeal Cert.KernelIdeal.Gen Cert.KernelIdeal.GenP Idealize.ShloMosaic Idealize.ShloMosaic.TcCoe Idealize.SL.Sem
open Idealize.ShloMosaic.Pipeline (Dat)
open Cert.KernelIdeal.Pay.R7 Cert.KernelIdeal.Spec.R7

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the left operand's and the output's row block is the point's, every
    other block index is 0. -/
theorem idx_facts : ∀ t : Fin cfg7.N, win7_0.index t (0 : Fin 2) = win7_2.index t (0 : Fin 2)
    ∧ win7_0.index t (1 : Fin 2) = 0
    ∧ win7_1.index t (0 : Fin 2) = 0
    ∧ win7_1.index t (1 : Fin 2) = 0
    ∧ win7_2.index t (1 : Fin 2) = 0
    ∧ win7_2.index t (0 : Fin 2) = t.val :=
  (by decide +kernel : ∀ t : Fin grid7.N, _)

/-- What point `t` writes back is block `t` of the whole product of the arrays the region finds. -/
theorem flushed_eq (c : Dev nD) (t : Fin cfg7.N) :
    (dat7 V c).flushed 2 t = ((cfg7.win 2).blk t).view.read (Elt Ideal) (prod (V c main_v195) (V c main_arg20)) := by
  show (cfg7.win 2).cut (grid7.coords t) ((dat7 V c).after 2 t) = _
  rw [after7_2]
  unfold out7_2
  rw [View.canon_unit_zero hz]
  simp only [View.ld_unit_zero (S := S2000x64) hz, View.ld_unit_zero (S := S64x32) hz]
  obtain ⟨e0, e1, e2, e3, e4, e5⟩ := idx_facts t
  funext j
  show k7_pay1 (F := Ideal) (iblk7 V c 0 t) (iblk7 V c 1 t) j = prod (V c main_v195) (V c main_arg20) (((cfg7.win 2).blk t).view.emb j)
  rw [pay_apply]
  unfold prod
  refine Finset.sum_congr rfl fun k _ => ?_
  have h0 : ((cfg7.win 0).blk t).view.emb (blpos j k) = lpos (((cfg7.win 2).blk t).view.emb j) k := by
    funext a; apply Fin.ext
    match a with
    | ⟨0, _⟩ => show win7_0.index t (0 : Fin 2) * 2000 + 1 * (j 0).val = win7_2.index t (0 : Fin 2) * 2000 + 1 * (j 0).val; omega
    | ⟨1, _⟩ => show win7_0.index t (1 : Fin 2) * 64 + 1 * k.val = k.val; omega
  have h1 : ((cfg7.win 1).blk t).view.emb (brpos j k) = rpos (((cfg7.win 2).blk t).view.emb j) k := by
    funext a; apply Fin.ext
    match a with
    | ⟨0, _⟩ => show win7_1.index t (0 : Fin 2) * 64 + 1 * k.val = k.val; omega
    | ⟨1, _⟩ => show win7_1.index t (1 : Fin 2) * 32 + 1 * (j 1).val = win7_2.index t (1 : Fin 2) * 32 + 1 * (j 1).val; omega
  have e0 : iblk7 V c 0 t (blpos j k) = (V c main_v195 : S10000x64.Idx → EReal) (lpos (((cfg7.win 2).blk t).view.emb j) k) := congrArg (V c main_v195 : S10000x64.Idx → EReal) h0
  have e1 : iblk7 V c 1 t (brpos j k) = (V c main_arg20 : S64x32.Idx → EReal) (rpos (((cfg7.win 2).blk t).view.emb j) k) := congrArg (V c main_arg20 : S64x32.Idx → EReal) h1
  rw [e0, e1]

/-- A position of the output array is in point `t`'s block iff each coordinate is in the block's range. -/
theorem mem_blk (t : Fin cfg7.N) (i : S10000x32.Idx) :
    i ∈ ((cfg7.win 2).blk t).view.set ↔ ∀ a : Fin 2, win7_2.index t a * S2000x32.size a ≤ (i a).val ∧ (i a).val < win7_2.index t a * S2000x32.size a + S2000x32.size a := by
  show i ∈ ((View.whole (Pipeline.arrRef spec7 2)).slice (win7_2.rect t)).set ↔ _
  rw [View.set_slice_whole, Rect.mem_set_unit]
  exact Iff.rfl

/-- The row blocks tile the output: row `r` is in the block of point `r / 2000`. -/
theorem cover (i : S10000x32.Idx) : ∃ t : Fin cfg7.N, (cfg7.win 2).flush t = true ∧ i ∈ ((cfg7.win 2).blk t).view.set := by
  have hi0 : (i 0).val < 10000 := (i 0).isLt
  have hi1 : (i 1).val < 32 := (i 1).isLt
  have hN : cfg7.N = 5 := N_7
  refine ⟨⟨(i 0).val / 2000, by rw [hN]; omega⟩, flush7_2 _, ?_⟩
  rw [mem_blk]
  obtain ⟨e0, e1, e2, e3, e4, e5⟩ := idx_facts ⟨(i 0).val / 2000, by rw [hN]; omega⟩
  intro a
  match a with
  | ⟨0, _⟩ => show win7_2.index _ (0 : Fin 2) * 2000 ≤ (i 0).val ∧ (i 0).val < win7_2.index _ (0 : Fin 2) * 2000 + 2000; rw [e5]; show (i 0).val / 2000 * 2000 ≤ (i 0).val ∧ (i 0).val < (i 0).val / 2000 * 2000 + 2000; omega
  | ⟨1, _⟩ => show win7_2.index _ (1 : Fin 2) * 32 ≤ (i 1).val ∧ (i 1).val < win7_2.index _ (1 : Fin 2) * 32 + 32; rw [e4]; omega

/-- The output array after the region: the whole product of the two arrays the region finds. -/
theorem final (c : Dev nD) : (dat7 V c).arrAt 2 cfg7.N = prod (V c main_v195) (V c main_arg20) :=
  (dat7 V c).arrAt_eq_of_cover 2 (prod (V c main_v195) (V c main_arg20)) (fun t _ => flushed_eq V c t) cover

end Cert.KernelIdeal.Lin7

end
-- ==== Proof.Lin8.lean ====
import proofs.«143428_j3564822855941_1_alg».proof.Proof.KernelIdealFrameP
import proofs.«143428_j3564822855941_1_alg».proof.Proof.Payloads
import proofs.«143428_j3564822855941_1_alg».proof.Proof.Spec

/-! Region 8: a row-tiled matrix product. Grid point `t` multiplies rows `2000·t … 2000·t + 1999` of the
    left operand (10000 × 64) by the whole right operand (64 × 32). The 5 row blocks tile the output, so the
    output array ends as the whole product `∑ k, x (r, k) · w (k, c)` of the two arrays the region finds. -/

set_option maxRecDepth 16384

noncomputable section

namespace Cert.KernelIdeal.Lin8

open Cert.KernelIdeal Cert.KernelIdeal.Gen Cert.KernelIdeal.GenP Idealize.ShloMosaic Idealize.ShloMosaic.TcCoe Idealize.SL.Sem
open Idealize.ShloMosaic.Pipeline (Dat)
open Cert.KernelIdeal.Pay.R8 Cert.KernelIdeal.Spec.R8

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the left operand's and the output's row block is the point's, every
    other block index is 0. -/
theorem idx_facts : ∀ t : Fin cfg8.N, win8_0.index t (0 : Fin 2) = win8_2.index t (0 : Fin 2)
    ∧ win8_0.index t (1 : Fin 2) = 0
    ∧ win8_1.index t (0 : Fin 2) = 0
    ∧ win8_1.index t (1 : Fin 2) = 0
    ∧ win8_2.index t (1 : Fin 2) = 0
    ∧ win8_2.index t (0 : Fin 2) = t.val :=
  (by decide +kernel : ∀ t : Fin grid8.N, _)

/-- What point `t` writes back is block `t` of the whole product of the arrays the region finds. -/
theorem flushed_eq (c : Dev nD) (t : Fin cfg8.N) :
    (dat8 V c).flushed 2 t = ((cfg8.win 2).blk t).view.read (Elt Ideal) (prod (V c main_v195) (V c main_arg16)) := by
  show (cfg8.win 2).cut (grid8.coords t) ((dat8 V c).after 2 t) = _
  rw [after8_2]
  unfold out8_2
  rw [View.canon_unit_zero hz]
  simp only [View.ld_unit_zero (S := S2000x64) hz, View.ld_unit_zero (S := S64x32) hz]
  obtain ⟨e0, e1, e2, e3, e4, e5⟩ := idx_facts t
  funext j
  show k8_pay1 (F := Ideal) (iblk8 V c 0 t) (iblk8 V c 1 t) j = prod (V c main_v195) (V c main_arg16) (((cfg8.win 2).blk t).view.emb j)
  rw [pay_apply]
  unfold prod
  refine Finset.sum_congr rfl fun k _ => ?_
  have h0 : ((cfg8.win 0).blk t).view.emb (blpos j k) = lpos (((cfg8.win 2).blk t).view.emb j) k := by
    funext a; apply Fin.ext
    match a with
    | ⟨0, _⟩ => show win8_0.index t (0 : Fin 2) * 2000 + 1 * (j 0).val = win8_2.index t (0 : Fin 2) * 2000 + 1 * (j 0).val; omega
    | ⟨1, _⟩ => show win8_0.index t (1 : Fin 2) * 64 + 1 * k.val = k.val; omega
  have h1 : ((cfg8.win 1).blk t).view.emb (brpos j k) = rpos (((cfg8.win 2).blk t).view.emb j) k := by
    funext a; apply Fin.ext
    match a with
    | ⟨0, _⟩ => show win8_1.index t (0 : Fin 2) * 64 + 1 * k.val = k.val; omega
    | ⟨1, _⟩ => show win8_1.index t (1 : Fin 2) * 32 + 1 * (j 1).val = win8_2.index t (1 : Fin 2) * 32 + 1 * (j 1).val; omega
  have e0 : iblk8 V c 0 t (blpos j k) = (V c main_v195 : S10000x64.Idx → EReal) (lpos (((cfg8.win 2).blk t).view.emb j) k) := congrArg (V c main_v195 : S10000x64.Idx → EReal) h0
  have e1 : iblk8 V c 1 t (brpos j k) = (V c main_arg16 : S64x32.Idx → EReal) (rpos (((cfg8.win 2).blk t).view.emb j) k) := congrArg (V c main_arg16 : S64x32.Idx → EReal) h1
  rw [e0, e1]

/-- A position of the output array is in point `t`'s block iff each coordinate is in the block's range. -/
theorem mem_blk (t : Fin cfg8.N) (i : S10000x32.Idx) :
    i ∈ ((cfg8.win 2).blk t).view.set ↔ ∀ a : Fin 2, win8_2.index t a * S2000x32.size a ≤ (i a).val ∧ (i a).val < win8_2.index t a * S2000x32.size a + S2000x32.size a := by
  show i ∈ ((View.whole (Pipeline.arrRef spec8 2)).slice (win8_2.rect t)).set ↔ _
  rw [View.set_slice_whole, Rect.mem_set_unit]
  exact Iff.rfl

/-- The row blocks tile the output: row `r` is in the block of point `r / 2000`. -/
theorem cover (i : S10000x32.Idx) : ∃ t : Fin cfg8.N, (cfg8.win 2).flush t = true ∧ i ∈ ((cfg8.win 2).blk t).view.set := by
  have hi0 : (i 0).val < 10000 := (i 0).isLt
  have hi1 : (i 1).val < 32 := (i 1).isLt
  have hN : cfg8.N = 5 := N_8
  refine ⟨⟨(i 0).val / 2000, by rw [hN]; omega⟩, flush8_2 _, ?_⟩
  rw [mem_blk]
  obtain ⟨e0, e1, e2, e3, e4, e5⟩ := idx_facts ⟨(i 0).val / 2000, by rw [hN]; omega⟩
  intro a
  match a with
  | ⟨0, _⟩ => show win8_2.index _ (0 : Fin 2) * 2000 ≤ (i 0).val ∧ (i 0).val < win8_2.index _ (0 : Fin 2) * 2000 + 2000; rw [e5]; show (i 0).val / 2000 * 2000 ≤ (i 0).val ∧ (i 0).val < (i 0).val / 2000 * 2000 + 2000; omega
  | ⟨1, _⟩ => show win8_2.index _ (1 : Fin 2) * 32 ≤ (i 1).val ∧ (i 1).val < win8_2.index _ (1 : Fin 2) * 32 + 32; rw [e4]; omega

/-- The output array after the region: the whole product of the two arrays the region finds. -/
theorem final (c : Dev nD) : (dat8 V c).arrAt 2 cfg8.N = prod (V c main_v195) (V c main_arg16) :=
  (dat8 V c).arrAt_eq_of_cover 2 (prod (V c main_v195) (V c main_arg16)) (fun t _ => flushed_eq V c t) cover

end Cert.KernelIdeal.Lin8

end
-- ==== Proof.Lin9.lean ====
import proofs.«143428_j3564822855941_1_alg».proof.Proof.KernelIdealFrameP
import proofs.«143428_j3564822855941_1_alg».proof.Proof.Payloads
import proofs.«143428_j3564822855941_1_alg».proof.Proof.Spec

/-! Region 9: a row-tiled matrix product. Grid point `t` multiplies rows `2000·t … 2000·t + 1999` of the
    left operand (50000 × 64) by the whole right operand (64 × 32). The 25 row blocks tile the output, so the
    output array ends as the whole product `∑ k, x (r, k) · w (k, c)` of the two arrays the region finds. -/

set_option maxRecDepth 16384

noncomputable section

namespace Cert.KernelIdeal.Lin9

open Cert.KernelIdeal Cert.KernelIdeal.Gen Cert.KernelIdeal.GenP Idealize.ShloMosaic Idealize.ShloMosaic.TcCoe Idealize.SL.Sem
open Idealize.ShloMosaic.Pipeline (Dat)
open Cert.KernelIdeal.Pay.R9 Cert.KernelIdeal.Spec.R9

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the left operand's and the output's row block is the point's, every
    other block index is 0. -/
theorem idx_facts : ∀ t : Fin cfg9.N, win9_0.index t (0 : Fin 2) = win9_2.index t (0 : Fin 2)
    ∧ win9_0.index t (1 : Fin 2) = 0
    ∧ win9_1.index t (0 : Fin 2) = 0
    ∧ win9_1.index t (1 : Fin 2) = 0
    ∧ win9_2.index t (1 : Fin 2) = 0
    ∧ win9_2.index t (0 : Fin 2) = t.val :=
  (by decide +kernel : ∀ t : Fin grid9.N, _)

/-- What point `t` writes back is block `t` of the whole product of the arrays the region finds. -/
theorem flushed_eq (c : Dev nD) (t : Fin cfg9.N) :
    (dat9 V c).flushed 2 t = ((cfg9.win 2).blk t).view.read (Elt Ideal) (prod (V c main_v193) (V c main_arg18)) := by
  show (cfg9.win 2).cut (grid9.coords t) ((dat9 V c).after 2 t) = _
  rw [after9_2]
  unfold out9_2
  rw [View.canon_unit_zero hz]
  simp only [View.ld_unit_zero (S := S2000x64) hz, View.ld_unit_zero (S := S64x32) hz]
  obtain ⟨e0, e1, e2, e3, e4, e5⟩ := idx_facts t
  funext j
  show k9_pay1 (F := Ideal) (iblk9 V c 0 t) (iblk9 V c 1 t) j = prod (V c main_v193) (V c main_arg18) (((cfg9.win 2).blk t).view.emb j)
  rw [pay_apply]
  unfold prod
  refine Finset.sum_congr rfl fun k _ => ?_
  have h0 : ((cfg9.win 0).blk t).view.emb (blpos j k) = lpos (((cfg9.win 2).blk t).view.emb j) k := by
    funext a; apply Fin.ext
    match a with
    | ⟨0, _⟩ => show win9_0.index t (0 : Fin 2) * 2000 + 1 * (j 0).val = win9_2.index t (0 : Fin 2) * 2000 + 1 * (j 0).val; omega
    | ⟨1, _⟩ => show win9_0.index t (1 : Fin 2) * 64 + 1 * k.val = k.val; omega
  have h1 : ((cfg9.win 1).blk t).view.emb (brpos j k) = rpos (((cfg9.win 2).blk t).view.emb j) k := by
    funext a; apply Fin.ext
    match a with
    | ⟨0, _⟩ => show win9_1.index t (0 : Fin 2) * 64 + 1 * k.val = k.val; omega
    | ⟨1, _⟩ => show win9_1.index t (1 : Fin 2) * 32 + 1 * (j 1).val = win9_2.index t (1 : Fin 2) * 32 + 1 * (j 1).val; omega
  have e0 : iblk9 V c 0 t (blpos j k) = (V c main_v193 : S50000x64.Idx → EReal) (lpos (((cfg9.win 2).blk t).view.emb j) k) := congrArg (V c main_v193 : S50000x64.Idx → EReal) h0
  have e1 : iblk9 V c 1 t (brpos j k) = (V c main_arg18 : S64x32.Idx → EReal) (rpos (((cfg9.win 2).blk t).view.emb j) k) := congrArg (V c main_arg18 : S64x32.Idx → EReal) h1
  rw [e0, e1]

/-- A position of the output array is in point `t`'s block iff each coordinate is in the block's range. -/
theorem mem_blk (t : Fin cfg9.N) (i : S50000x32.Idx) :
    i ∈ ((cfg9.win 2).blk t).view.set ↔ ∀ a : Fin 2, win9_2.index t a * S2000x32.size a ≤ (i a).val ∧ (i a).val < win9_2.index t a * S2000x32.size a + S2000x32.size a := by
  show i ∈ ((View.whole (Pipeline.arrRef spec9 2)).slice (win9_2.rect t)).set ↔ _
  rw [View.set_slice_whole, Rect.mem_set_unit]
  exact Iff.rfl

/-- The row blocks tile the output: row `r` is in the block of point `r / 2000`. -/
theorem cover (i : S50000x32.Idx) : ∃ t : Fin cfg9.N, (cfg9.win 2).flush t = true ∧ i ∈ ((cfg9.win 2).blk t).view.set := by
  have hi0 : (i 0).val < 50000 := (i 0).isLt
  have hi1 : (i 1).val < 32 := (i 1).isLt
  have hN : cfg9.N = 25 := N_9
  refine ⟨⟨(i 0).val / 2000, by rw [hN]; omega⟩, flush9_2 _, ?_⟩
  rw [mem_blk]
  obtain ⟨e0, e1, e2, e3, e4, e5⟩ := idx_facts ⟨(i 0).val / 2000, by rw [hN]; omega⟩
  intro a
  match a with
  | ⟨0, _⟩ => show win9_2.index _ (0 : Fin 2) * 2000 ≤ (i 0).val ∧ (i 0).val < win9_2.index _ (0 : Fin 2) * 2000 + 2000; rw [e5]; show (i 0).val / 2000 * 2000 ≤ (i 0).val ∧ (i 0).val < (i 0).val / 2000 * 2000 + 2000; omega
  | ⟨1, _⟩ => show win9_2.index _ (1 : Fin 2) * 32 ≤ (i 1).val ∧ (i 1).val < win9_2.index _ (1 : Fin 2) * 32 + 32; rw [e4]; omega

/-- The output array after the region: the whole product of the two arrays the region finds. -/
theorem final (c : Dev nD) : (dat9 V c).arrAt 2 cfg9.N = prod (V c main_v193) (V c main_arg18) :=
  (dat9 V c).arrAt_eq_of_cover 2 (prod (V c main_v193) (V c main_arg18)) (fun t _ => flushed_eq V c t) cover

end Cert.KernelIdeal.Lin9

end
-- ==== Proof.Comb10.lean ====
import proofs.«143428_j3564822855941_1_alg».proof.Proof.KernelIdealFrameP
import proofs.«143428_j3564822855941_1_alg».proof.Proof.Payloads
import proofs.«143428_j3564822855941_1_alg».proof.Proof.Spec

/-! Region 10: the sum of two message arrays (50000 × 32) and a bias row (1 × 32), clamped below at zero,
    row block by row block. The 25 row blocks tile the output: the output array ends as
    `max (a (r, c) + b (r, c) + bias (0, c)) 0` at every position `(r, c)`. -/

set_option maxRecDepth 16384

noncomputable section

namespace Cert.KernelIdeal.Comb10

open Cert.KernelIdeal Cert.KernelIdeal.Gen Cert.KernelIdeal.GenP Idealize.ShloMosaic Idealize.ShloMosaic.TcCoe Idealize.SL.Sem
open Idealize.ShloMosaic.Pipeline (Dat)
open Cert.KernelIdeal.Pay.R10 Cert.KernelIdeal.Spec.R10

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the two message arrays' and the output's row block is the point's,
    every other block index is 0. -/
theorem idx_facts : ∀ t : Fin cfg10.N, win10_0.index t (0 : Fin 2) = win10_3.index t (0 : Fin 2)
    ∧ win10_0.index t (1 : Fin 2) = 0
    ∧ win10_1.index t (0 : Fin 2) = win10_3.index t (0 : Fin 2)
    ∧ win10_1.index t (1 : Fin 2) = 0
    ∧ win10_2.index t (0 : Fin 2) = 0
    ∧ win10_2.index t (1 : Fin 2) = 0
    ∧ win10_3.index t (1 : Fin 2) = 0
    ∧ win10_3.index t (0 : Fin 2) = t.val :=
  (by decide +kernel : ∀ t : Fin grid10.N, _)

/-- What point `t` writes back is block `t` of the clamped sum of the arrays the region finds. -/
theorem flushed_eq (c : Dev nD) (t : Fin cfg10.N) :
    (dat10 V c).flushed 3 t = ((cfg10.win 3).blk t).view.read (Elt Ideal) (comb (V c main_v240) (V c main_v290) (V c main_v388)) := by
  show (cfg10.win 3).cut (grid10.coords t) ((dat10 V c).after 3 t) = _
  rw [after10_3]
  unfold out10_3
  rw [View.canon_unit_zero hz]
  simp only [View.ld_unit_zero (S := S2000x32) hz, View.ld_unit_zero (S := S1x32) hz]
  obtain ⟨e0, e1, e2, e3, e4, e5, e6, e7⟩ := idx_facts t
  funext j
  show k10_pay1 (F := Ideal) (iblk10 V c 0 t) (iblk10 V c 1 t) (iblk10 V c 2 t) j = comb (V c main_v240) (V c main_v290) (V c main_v388) (((cfg10.win 3).blk t).view.emb j)
  rw [pay_apply]
  unfold comb
  have h0 : ((cfg10.win 0).blk t).view.emb j = ((cfg10.win 3).blk t).view.emb j := by
    funext a; apply Fin.ext
    match a with
    | ⟨0, _⟩ => show win10_0.index t (0 : Fin 2) * 2000 + 1 * (j 0).val = win10_3.index t (0 : Fin 2) * 2000 + 1 * (j 0).val; omega
    | ⟨1, _⟩ => show win10_0.index t (1 : Fin 2) * 32 + 1 * (j 1).val = win10_3.index t (1 : Fin 2) * 32 + 1 * (j 1).val; omega
  have h1 : ((cfg10.win 1).blk t).view.emb j = ((cfg10.win 3).blk t).view.emb j := by
    funext a; apply Fin.ext
    match a with
    | ⟨0, _⟩ => show win10_1.index t (0 : Fin 2) * 2000 + 1 * (j 0).val = win10_3.index t (0 : Fin 2) * 2000 + 1 * (j 0).val; omega
    | ⟨1, _⟩ => show win10_1.index t (1 : Fin 2) * 32 + 1 * (j 1).val = win10_3.index t (1 : Fin 2) * 32 + 1 * (j 1).val; omega
  have h2 : ((cfg10.win 2).blk t).view.emb (bbpos j) = bpos (((cfg10.win 3).blk t).view.emb j) := by
    funext a; apply Fin.ext
    match a with
    | ⟨0, _⟩ => show win10_2.index t (0 : Fin 2) * 1 + 1 * 0 = 0; omega
    | ⟨1, _⟩ => show win10_2.index t (1 : Fin 2) * 32 + 1 * (j 1).val = win10_3.index t (1 : Fin 2) * 32 + 1 * (j 1).val; omega
  have e0 : iblk10 V c 0 t j = (V c main_v240 : S50000x32.Idx → EReal) (((cfg10.win 3).blk t).view.emb j) := congrArg (V c main_v240 : S50000x32.Idx → EReal) h0
  have e1 : iblk10 V c 1 t j = (V c main_v290 : S50000x32.Idx → EReal) (((cfg10.win 3).blk t).view.emb j) := congrArg (V c main_v290 : S50000x32.Idx → EReal) h1
  have e2 : iblk10 V c 2 t (bbpos j) = (V c main_v388 : S1x32.Idx → EReal) (bpos (((cfg10.win 3).blk t).view.emb j)) := congrArg (V c main_v388 : S1x32.Idx → EReal) h2
  rw [e0, e1, e2]

/-- A position of the output array is in point `t`'s block iff each coordinate is in the block's range. -/
theorem mem_blk (t : Fin cfg10.N) (i : S50000x32.Idx) :
    i ∈ ((cfg10.win 3).blk t).view.set ↔ ∀ a : Fin 2, win10_3.index t a * S2000x32.size a ≤ (i a).val ∧ (i a).val < win10_3.index t a * S2000x32.size a + S2000x32.size a := by
  show i ∈ ((View.whole (Pipeline.arrRef spec10 3)).slice (win10_3.rect t)).set ↔ _
  rw [View.set_slice_whole, Rect.mem_set_unit]
  exact Iff.rfl

/-- The row blocks tile the output: row `r` is in the block of point `r / 2000`. -/
theorem cover (i : S50000x32.Idx) : ∃ t : Fin cfg10.N, (cfg10.win 3).flush t = true ∧ i ∈ ((cfg10.win 3).blk t).view.set := by
  have hi0 : (i 0).val < 50000 := (i 0).isLt
  have hi1 : (i 1).val < 32 := (i 1).isLt
  have hN : cfg10.N = 25 := N_10
  refine ⟨⟨(i 0).val / 2000, by rw [hN]; omega⟩, flush10_3 _, ?_⟩
  rw [mem_blk]
  obtain ⟨e0, e1, e2, e3, e4, e5, e6, e7⟩ := idx_facts ⟨(i 0).val / 2000, by rw [hN]; omega⟩
  intro a
  match a with
  | ⟨0, _⟩ => show win10_3.index _ (0 : Fin 2) * 2000 ≤ (i 0).val ∧ (i 0).val < win10_3.index _ (0 : Fin 2) * 2000 + 2000; rw [e7]; show (i 0).val / 2000 * 2000 ≤ (i 0).val ∧ (i 0).val < (i 0).val / 2000 * 2000 + 2000; omega
  | ⟨1, _⟩ => show win10_3.index _ (1 : Fin 2) * 32 ≤ (i 1).val ∧ (i 1).val < win10_3.index _ (1 : Fin 2) * 32 + 32; rw [e6]; omega

/-- The output array after the region: the clamped sum of the three arrays the region finds. -/
theorem final (c : Dev nD) : (dat10 V c).arrAt 3 cfg10.N = comb (V c main_v240) (V c main_v290) (V c main_v388) :=
  (dat10 V c).arrAt_eq_of_cover 3 (comb (V c main_v240) (V c main_v290) (V c main_v388)) (fun t _ => flushed_eq V c t) cover

end Cert.KernelIdeal.Comb10

end
-- ==== Proof.Comb11.lean ====
import proofs.«143428_j3564822855941_1_alg».proof.Proof.KernelIdealFrameP
import proofs.«143428_j3564822855941_1_alg».proof.Proof.Payloads
import proofs.«143428_j3564822855941_1_alg».proof.Proof.Spec

/-! Region 11: the sum of two message arrays (10000 × 32) and a bias row (1 × 32), clamped below at zero,
    row block by row block. The 5 row blocks tile the output: the output array ends as
    `max (a (r, c) + b (r, c) + bias (0, c)) 0` at every position `(r, c)`. -/

set_option maxRecDepth 16384

noncomputable section

namespace Cert.KernelIdeal.Comb11

open Cert.KernelIdeal Cert.KernelIdeal.Gen Cert.KernelIdeal.GenP Idealize.ShloMosaic Idealize.ShloMosaic.TcCoe Idealize.SL.Sem
open Idealize.ShloMosaic.Pipeline (Dat)
open Cert.KernelIdeal.Pay.R11 Cert.KernelIdeal.Spec.R11

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the two message arrays' and the output's row block is the point's,
    every other block index is 0. -/
theorem idx_facts : ∀ t : Fin cfg11.N, win11_0.index t (0 : Fin 2) = win11_3.index t (0 : Fin 2)
    ∧ win11_0.index t (1 : Fin 2) = 0
    ∧ win11_1.index t (0 : Fin 2) = win11_3.index t (0 : Fin 2)
    ∧ win11_1.index t (1 : Fin 2) = 0
    ∧ win11_2.index t (0 : Fin 2) = 0
    ∧ win11_2.index t (1 : Fin 2) = 0
    ∧ win11_3.index t (1 : Fin 2) = 0
    ∧ win11_3.index t (0 : Fin 2) = t.val :=
  (by decide +kernel : ∀ t : Fin grid11.N, _)

/-- What point `t` writes back is block `t` of the clamped sum of the arrays the region finds. -/
theorem flushed_eq (c : Dev nD) (t : Fin cfg11.N) :
    (dat11 V c).flushed 3 t = ((cfg11.win 3).blk t).view.read (Elt Ideal) (comb (V c main_v335) (V c main_v385) (V c main_v390)) := by
  show (cfg11.win 3).cut (grid11.coords t) ((dat11 V c).after 3 t) = _
  rw [after11_3]
  unfold out11_3
  rw [View.canon_unit_zero hz]
  simp only [View.ld_unit_zero (S := S2000x32) hz, View.ld_unit_zero (S := S1x32) hz]
  obtain ⟨e0, e1, e2, e3, e4, e5, e6, e7⟩ := idx_facts t
  funext j
  show k11_pay1 (F := Ideal) (iblk11 V c 0 t) (iblk11 V c 1 t) (iblk11 V c 2 t) j = comb (V c main_v335) (V c main_v385) (V c main_v390) (((cfg11.win 3).blk t).view.emb j)
  rw [pay_apply]
  unfold comb
  have h0 : ((cfg11.win 0).blk t).view.emb j = ((cfg11.win 3).blk t).view.emb j := by
    funext a; apply Fin.ext
    match a with
    | ⟨0, _⟩ => show win11_0.index t (0 : Fin 2) * 2000 + 1 * (j 0).val = win11_3.index t (0 : Fin 2) * 2000 + 1 * (j 0).val; omega
    | ⟨1, _⟩ => show win11_0.index t (1 : Fin 2) * 32 + 1 * (j 1).val = win11_3.index t (1 : Fin 2) * 32 + 1 * (j 1).val; omega
  have h1 : ((cfg11.win 1).blk t).view.emb j = ((cfg11.win 3).blk t).view.emb j := by
    funext a; apply Fin.ext
    match a with
    | ⟨0, _⟩ => show win11_1.index t (0 : Fin 2) * 2000 + 1 * (j 0).val = win11_3.index t (0 : Fin 2) * 2000 + 1 * (j 0).val; omega
    | ⟨1, _⟩ => show win11_1.index t (1 : Fin 2) * 32 + 1 * (j 1).val = win11_3.index t (1 : Fin 2) * 32 + 1 * (j 1).val; omega
  have h2 : ((cfg11.win 2).blk t).view.emb (bbpos j) = bpos (((cfg11.win 3).blk t).view.emb j) := by
    funext a; apply Fin.ext
    match a with
    | ⟨0, _⟩ => show win11_2.index t (0 : Fin 2) * 1 + 1 * 0 = 0; omega
    | ⟨1, _⟩ => show win11_2.index t (1 : Fin 2) * 32 + 1 * (j 1).val = win11_3.index t (1 : Fin 2) * 32 + 1 * (j 1).val; omega
  have e0 : iblk11 V c 0 t j = (V c main_v335 : S10000x32.Idx → EReal) (((cfg11.win 3).blk t).view.emb j) := congrArg (V c main_v335 : S10000x32.Idx → EReal) h0
  have e1 : iblk11 V c 1 t j = (V c main_v385 : S10000x32.Idx → EReal) (((cfg11.win 3).blk t).view.emb j) := congrArg (V c main_v385 : S10000x32.Idx → EReal) h1
  have e2 : iblk11 V c 2 t (bbpos j) = (V c main_v390 : S1x32.Idx → EReal) (bpos (((cfg11.win 3).blk t).view.emb j)) := congrArg (V c main_v390 : S1x32.Idx → EReal) h2
  rw [e0, e1, e2]

/-- A position of the output array is in point `t`'s block iff each coordinate is in the block's range. -/
theorem mem_blk (t : Fin cfg11.N) (i : S10000x32.Idx) :
    i ∈ ((cfg11.win 3).blk t).view.set ↔ ∀ a : Fin 2, win11_3.index t a * S2000x32.size a ≤ (i a).val ∧ (i a).val < win11_3.index t a * S2000x32.size a + S2000x32.size a := by
  show i ∈ ((View.whole (Pipeline.arrRef spec11 3)).slice (win11_3.rect t)).set ↔ _
  rw [View.set_slice_whole, Rect.mem_set_unit]
  exact Iff.rfl

/-- The row blocks tile the output: row `r` is in the block of point `r / 2000`. -/
theorem cover (i : S10000x32.Idx) : ∃ t : Fin cfg11.N, (cfg11.win 3).flush t = true ∧ i ∈ ((cfg11.win 3).blk t).view.set := by
  have hi0 : (i 0).val < 10000 := (i 0).isLt
  have hi1 : (i 1).val < 32 := (i 1).isLt
  have hN : cfg11.N = 5 := N_11
  refine ⟨⟨(i 0).val / 2000, by rw [hN]; omega⟩, flush11_3 _, ?_⟩
  rw [mem_blk]
  obtain ⟨e0, e1, e2, e3, e4, e5, e6, e7⟩ := idx_facts ⟨(i 0).val / 2000, by rw [hN]; omega⟩
  intro a
  match a with
  | ⟨0, _⟩ => show win11_3.index _ (0 : Fin 2) * 2000 ≤ (i 0).val ∧ (i 0).val < win11_3.index _ (0 : Fin 2) * 2000 + 2000; rw [e7]; show (i 0).val / 2000 * 2000 ≤ (i 0).val ∧ (i 0).val < (i 0).val / 2000 * 2000 + 2000; omega
  | ⟨1, _⟩ => show win11_3.index _ (1 : Fin 2) * 32 ≤ (i 1).val ∧ (i 1).val < win11_3.index _ (1 : Fin 2) * 32 + 32; rw [e6]; omega

/-- The output array after the region: the clamped sum of the three arrays the region finds. -/
theorem final (c : Dev nD) : (dat11 V c).arrAt 3 cfg11.N = comb (V c main_v335) (V c main_v385) (V c main_v390) :=
  (dat11 V c).arrAt_eq_of_cover 3 (comb (V c main_v335) (V c main_v385) (V c main_v390)) (fun t _ => flushed_eq V c t) cover

end Cert.KernelIdeal.Comb11

end
-- ==== Proof.SetSelf.lean ====
import proofs.«143428_j3564822855941_1_alg».proof.Proof.Gen.KernelIdeal.Launch
import Idealize.ShloMosaic.Lib.StableHlo.Run
import Idealize.ShloMosaic.PureOps.Ideal

/-! Writing into a buffer the value it already holds changes nothing. With it, "the contents found in buffer `y` are
    `v`" becomes "the contents are what they are after `v` is written into `y`", which a reading of a stretch of
    host operations can then compute with. -/

noncomputable section

namespace Cert.KernelIdeal.Glue

open Cert.KernelIdeal Idealize.ShloMosaic Idealize.ShloMosaic.TcCoe Idealize.ShloMosaic.StableHlo

theorem set_self (y : Ref sig .tc) (v : y.ty.Contents (Elt Ideal)) (W : Valuation τ sig (Elt Ideal))
    (h : W (Proc.devRef .tc y) = v) (hy : y.space ≠ .host ∧ (y : DevRef τ sig).isScoped = false) :
    (StableHlo.nullary (τ := τ) y v hy).result W = W := by
  funext b
  by_cases hb : b ∈ (StableHlo.nullary (τ := τ) y v hy).writes
  · have hb' : b = Proc.devRef .tc y := Finset.mem_singleton.mp hb
    subst hb'
    rw [StableHlo.nullary_result]; exact h.symm
  · exact (StableHlo.nullary (τ := τ) y v hy).result_of_not_mem W hb

end Cert.KernelIdeal.Glue

end
-- ==== Proof.Glue1.lean ====
import proofs.«143428_j3564822855941_1_alg».proof.Proof.SetSelf
import proofs.«143428_j3564822855941_1_alg».proof.Proof.ReferenceIdealReadP
import Idealize.ShloMosaic.Lib.Pipeline.Value

/-! Stretches of host operations of the kernel program, one at a time: what each stretch leaves in a buffer that is
    read later, as a term of the contents the stretch finds, is the reference's stage for the same value (the degree
    counts, their inverse square roots, the edge normalisation, the gathered and scaled rows, the scattered sums): the
    two programs apply the same operations in the same order. The bias sums have no stage of the reference; they are
    stated as they are. -/

set_option maxRecDepth 16384
set_option maxHeartbeats 4000000

noncomputable section

namespace Cert.KernelIdeal.Glue

open Cert.KernelIdeal Cert.KernelIdeal.Gen Idealize.ShloMosaic Idealize.ShloMosaic.TcCoe Idealize.ShloMosaic.StableHlo

theorem seg_v6 (W : Valuation τ sig (Elt Ideal)) (x2 : (⟨S2x1600000, .i32⟩ : BufTy).Contents (Elt Ideal))
    (h_arg2 : W (Proc.devRef .tc main_arg2) = x2) :
    StableHlo.after hostOps1 W (Proc.devRef .tc main_v6) = (Cert.ReferenceIdeal.ReadP.val_main_v7 (F := Ideal) x2) := by
  have e : W = ((StableHlo.nullary main_arg2 x2).result W) := by
    rw [set_self main_arg2 x2 W h_arg2 _]
  rw [e]
  simp only [hostOps1]
  after_results_simp <;> rfl

theorem seg_v7 (W : Valuation τ sig (Elt Ideal)) (x2 : (⟨S2x1600000, .i32⟩ : BufTy).Contents (Elt Ideal))
    (h_arg2 : W (Proc.devRef .tc main_arg2) = x2) :
    StableHlo.after hostOps1 W (Proc.devRef .tc main_v7) = (Cert.ReferenceIdeal.ReadP.val_main_v8 (F := Ideal) x2) := by
  have e : W = ((StableHlo.nullary main_arg2 x2).result W) := by
    rw [set_self main_arg2 x2 W h_arg2 _]
  rw [e]
  simp only [hostOps1]
  after_results_simp <;> rfl

theorem seg_v13 (W : Valuation τ sig (Elt Ideal)) (x2 : (⟨S2x1600000, .i32⟩ : BufTy).Contents (Elt Ideal))
    (h_arg2 : W (Proc.devRef .tc main_arg2) = x2) :
    StableHlo.after hostOps1 W (Proc.devRef .tc main_v13) = (Cert.ReferenceIdeal.ReadP.val_main_v14 (F := Ideal) x2) := by
  have e : W = ((StableHlo.nullary main_arg2 x2).result W) := by
    rw [set_self main_arg2 x2 W h_arg2 _]
  rw [e]
  simp only [hostOps1]
  after_results_simp <;> rfl

theorem seg_v15 (W : Valuation τ sig (Elt Ideal)) (x2 : (⟨S2x1600000, .i32⟩ : BufTy).Contents (Elt Ideal))
    (h_arg2 : W (Proc.devRef .tc main_arg2) = x2) :
    StableHlo.after hostOps1 W (Proc.devRef .tc main_v15) = (Cert.ReferenceIdeal.ReadP.val_main_v16 (F := Ideal) x2) := by
  have e : W = ((StableHlo.nullary main_arg2 x2).result W) := by
    rw [set_self main_arg2 x2 W h_arg2 _]
  rw [e]
  simp only [hostOps1]
  after_results_simp <;> rfl

theorem seg_cst_3 (W : Valuation τ sig (Elt Ideal))  :
    StableHlo.after hostOps1 W (Proc.devRef .tc main_cst_3) = (Cert.ReferenceIdeal.ReadP.val_main_cst_1 (F := Ideal)) := by
  have e : W = W := by
    rfl
  rw [e]
  simp only [hostOps1]
  after_results_simp <;> rfl

theorem seg_v16 (W : Valuation τ sig (Elt Ideal)) (x2 : (⟨S2x1600000, .i32⟩ : BufTy).Contents (Elt Ideal))
    (h_v13 : W (Proc.devRef .tc main_v13) = (Cert.ReferenceIdeal.ReadP.val_main_v14 (F := Ideal) x2))
    (h_v15 : W (Proc.devRef .tc main_v15) = (Cert.ReferenceIdeal.ReadP.val_main_v16 (F := Ideal) x2))
    (h_cst_3 : W (Proc.devRef .tc main_cst_3) = (Cert.ReferenceIdeal.ReadP.val_main_cst_1 (F := Ideal))) :
    StableHlo.after hostOps1_1 W (Proc.devRef .tc main_v16) = (Cert.ReferenceIdeal.ReadP.val_main_v17 (F := Ideal) x2) := by
  have e : W = ((StableHlo.nullary main_cst_3 (Cert.ReferenceIdeal.ReadP.val_main_cst_1 (F := Ideal))).result ((StableHlo.nullary main_v15 (Cert.ReferenceIdeal.ReadP.val_main_v16 (F := Ideal) x2)).result ((StableHlo.nullary main_v13 (Cert.ReferenceIdeal.ReadP.val_main_v14 (F := Ideal) x2)).result W))) := by
    rw [set_self main_v13 (Cert.ReferenceIdeal.ReadP.val_main_v14 (F := Ideal) x2) W h_v13 _, set_self main_v15 (Cert.ReferenceIdeal.ReadP.val_main_v16 (F := Ideal) x2) W h_v15 _, set_self main_cst_3 (Cert.ReferenceIdeal.ReadP.val_main_cst_1 (F := Ideal)) W h_cst_3 _]
  rw [e]
  simp only [hostOps1_1]
  after_results_simp
  refine (eq_of_heq (cast_heq _ _)).trans ?_
  have c1 : (TRef.of (T := ⟨S50000, .i1⟩) main_v13).ofBuf (Cert.ReferenceIdeal.ReadP.val_main_v14 (F := Ideal) x2) = (Cert.ReferenceIdeal.ReadP.val_main_v14 (F := Ideal) x2) := eq_of_heq (cast_heq _ _)
  have c2 : (TRef.of (T := ⟨S50000, .f32⟩) main_v15).ofBuf (Cert.ReferenceIdeal.ReadP.val_main_v16 (F := Ideal) x2) = (Cert.ReferenceIdeal.ReadP.val_main_v16 (F := Ideal) x2) := eq_of_heq (cast_heq _ _)
  have c3 : (TRef.of (T := ⟨S_, .f32⟩) main_cst_3).ofBuf (Cert.ReferenceIdeal.ReadP.val_main_cst_1 (F := Ideal)) = (Cert.ReferenceIdeal.ReadP.val_main_cst_1 (F := Ideal)) := eq_of_heq (cast_heq _ _)
  have c4 : ∀ v : (⟨S_, .f32⟩ : BufTy).Contents (Elt Ideal), (TRef.of (T := ⟨S_, .f32⟩) main_call0_v0).ofBuf ((TRef.of (T := ⟨S_, .f32⟩) main_call0_v0).toBuf v) = v := fun v => (eq_of_heq (cast_heq _ _)).trans (eq_of_heq (cast_heq _ _))
  have c5 : ∀ v : (⟨S50000, .f32⟩ : BufTy).Contents (Elt Ideal), (TRef.of (T := ⟨S50000, .f32⟩) main_call0_v1).ofBuf ((TRef.of (T := ⟨S50000, .f32⟩) main_call0_v1).toBuf v) = v := fun v => (eq_of_heq (cast_heq _ _)).trans (eq_of_heq (cast_heq _ _))
  rw [c1, c2, c3, c4, c5]
  rfl

theorem seg_v44 (W : Valuation τ sig (Elt Ideal)) (x0 : (⟨S50000x64, .f32⟩ : BufTy).Contents (Elt Ideal)) (x2 : (⟨S2x1600000, .i32⟩ : BufTy).Contents (Elt Ideal)) (x6 : (⟨S64x64, .f32⟩ : BufTy).Contents (Elt Ideal))
    (h_v7 : W (Proc.devRef .tc main_v7) = (Cert.ReferenceIdeal.ReadP.val_main_v8 (F := Ideal) x2))
    (h_v0 : W (Proc.devRef .tc main_v0) = (Cert.ReferenceIdeal.ReadP.val_main_v0 (F := Ideal) x0 x6))
    (h_v6 : W (Proc.devRef .tc main_v6) = (Cert.ReferenceIdeal.ReadP.val_main_v7 (F := Ideal) x2))
    (h_v16 : W (Proc.devRef .tc main_v16) = (Cert.ReferenceIdeal.ReadP.val_main_v17 (F := Ideal) x2)) :
    StableHlo.after hostOps1_2 W (Proc.devRef .tc main_v44) = (Cert.ReferenceIdeal.ReadP.val_main_v45 (F := Ideal) x0 x2 x6) := by
  have e : W = ((StableHlo.nullary main_v16 (Cert.ReferenceIdeal.ReadP.val_main_v17 (F := Ideal) x2)).result ((StableHlo.nullary main_v6 (Cert.ReferenceIdeal.ReadP.val_main_v7 (F := Ideal) x2)).result ((StableHlo.nullary main_v0 (Cert.ReferenceIdeal.ReadP.val_main_v0 (F := Ideal) x0 x6)).result ((StableHlo.nullary main_v7 (Cert.ReferenceIdeal.ReadP.val_main_v8 (F := Ideal) x2)).result W)))) := by
    rw [set_self main_v7 (Cert.ReferenceIdeal.ReadP.val_main_v8 (F := Ideal) x2) W h_v7 _, set_self main_v0 (Cert.ReferenceIdeal.ReadP.val_main_v0 (F := Ideal) x0 x6) W h_v0 _, set_self main_v6 (Cert.ReferenceIdeal.ReadP.val_main_v7 (F := Ideal) x2) W h_v6 _, set_self main_v16 (Cert.ReferenceIdeal.ReadP.val_main_v17 (F := Ideal) x2) W h_v16 _]
  rw [e]
  simp only [hostOps1_2]
  after_results_simp <;> rfl

end Cert.KernelIdeal.Glue

end
-- ==== Proof.Glue2.lean ====
import proofs.«143428_j3564822855941_1_alg».proof.Proof.SetSelf
import proofs.«143428_j3564822855941_1_alg».proof.Proof.ReferenceIdealReadP
import Idealize.ShloMosaic.Lib.Pipeline.Value

/-! Stretches of host operations of the kernel program, one at a time: what each stretch leaves in a buffer that is
    read later, as a term of the contents the stretch finds, is the reference's stage for the same value (the degree
    counts, their inverse square roots, the edge normalisation, the gathered and scaled rows, the scattered sums): the
    two programs apply the same operations in the same order. The bias sums have no stage of the reference; they are
    stated as they are. -/

set_option maxRecDepth 16384
set_option maxHeartbeats 4000000

noncomputable section

namespace Cert.KernelIdeal.Glue

open Cert.KernelIdeal Cert.KernelIdeal.Gen Idealize.ShloMosaic Idealize.ShloMosaic.TcCoe Idealize.ShloMosaic.StableHlo

theorem seg_v47 (W : Valuation τ sig (Elt Ideal)) (x5 : (⟨S2x500000, .i32⟩ : BufTy).Contents (Elt Ideal))
    (h_arg5 : W (Proc.devRef .tc main_arg5) = x5) :
    StableHlo.after hostOps2 W (Proc.devRef .tc main_v47) = (Cert.ReferenceIdeal.ReadP.val_main_v51 (F := Ideal) x5) := by
  have e : W = ((StableHlo.nullary main_arg5 x5).result W) := by
    rw [set_self main_arg5 x5 W h_arg5 _]
  rw [e]
  simp only [hostOps2]
  after_results_simp <;> rfl

theorem seg_v49 (W : Valuation τ sig (Elt Ideal)) (x5 : (⟨S2x500000, .i32⟩ : BufTy).Contents (Elt Ideal))
    (h_arg5 : W (Proc.devRef .tc main_arg5) = x5) :
    StableHlo.after hostOps2 W (Proc.devRef .tc main_v49) = (Cert.ReferenceIdeal.ReadP.val_main_v53 (F := Ideal) x5) := by
  have e : W = ((StableHlo.nullary main_arg5 x5).result W) := by
    rw [set_self main_arg5 x5 W h_arg5 _]
  rw [e]
  simp only [hostOps2]
  after_results_simp <;> rfl

theorem seg_v56 (W : Valuation τ sig (Elt Ideal)) (x5 : (⟨S2x500000, .i32⟩ : BufTy).Contents (Elt Ideal))
    (h_arg5 : W (Proc.devRef .tc main_arg5) = x5) :
    StableHlo.after hostOps2 W (Proc.devRef .tc main_v56) = (Cert.ReferenceIdeal.ReadP.val_main_v60 (F := Ideal) x5) := by
  have e : W = ((StableHlo.nullary main_arg5 x5).result W) := by
    rw [set_self main_arg5 x5 W h_arg5 _]
  rw [e]
  simp only [hostOps2]
  after_results_simp <;> rfl

theorem seg_v58 (W : Valuation τ sig (Elt Ideal)) (x5 : (⟨S2x500000, .i32⟩ : BufTy).Contents (Elt Ideal))
    (h_arg5 : W (Proc.devRef .tc main_arg5) = x5) :
    StableHlo.after hostOps2 W (Proc.devRef .tc main_v58) = (Cert.ReferenceIdeal.ReadP.val_main_v62 (F := Ideal) x5) := by
  have e : W = ((StableHlo.nullary main_arg5 x5).result W) := by
    rw [set_self main_arg5 x5 W h_arg5 _]
  rw [e]
  simp only [hostOps2]
  after_results_simp <;> rfl

theorem seg_v60 (W : Valuation τ sig (Elt Ideal)) (x5 : (⟨S2x500000, .i32⟩ : BufTy).Contents (Elt Ideal))
    (h_arg5 : W (Proc.devRef .tc main_arg5) = x5) :
    StableHlo.after hostOps2 W (Proc.devRef .tc main_v60) = (Cert.ReferenceIdeal.ReadP.val_main_v64 (F := Ideal) x5) := by
  have e : W = ((StableHlo.nullary main_arg5 x5).result W) := by
    rw [set_self main_arg5 x5 W h_arg5 _]
  rw [e]
  simp only [hostOps2]
  after_results_simp <;> rfl

theorem seg_cst_15 (W : Valuation τ sig (Elt Ideal))  :
    StableHlo.after hostOps2 W (Proc.devRef .tc main_cst_15) = (Cert.ReferenceIdeal.ReadP.val_main_cst_1 (F := Ideal)) := by
  have e : W = W := by
    rfl
  rw [e]
  simp only [hostOps2]
  after_results_simp <;> rfl

theorem seg_v61 (W : Valuation τ sig (Elt Ideal)) (x5 : (⟨S2x500000, .i32⟩ : BufTy).Contents (Elt Ideal))
    (h_v58 : W (Proc.devRef .tc main_v58) = (Cert.ReferenceIdeal.ReadP.val_main_v62 (F := Ideal) x5))
    (h_v60 : W (Proc.devRef .tc main_v60) = (Cert.ReferenceIdeal.ReadP.val_main_v64 (F := Ideal) x5))
    (h_cst_15 : W (Proc.devRef .tc main_cst_15) = (Cert.ReferenceIdeal.ReadP.val_main_cst_1 (F := Ideal))) :
    StableHlo.after hostOps2_1 W (Proc.devRef .tc main_v61) = (Cert.ReferenceIdeal.ReadP.val_main_v65 (F := Ideal) x5) := by
  have e : W = ((StableHlo.nullary main_cst_15 (Cert.ReferenceIdeal.ReadP.val_main_cst_1 (F := Ideal))).result ((StableHlo.nullary main_v60 (Cert.ReferenceIdeal.ReadP.val_main_v64 (F := Ideal) x5)).result ((StableHlo.nullary main_v58 (Cert.ReferenceIdeal.ReadP.val_main_v62 (F := Ideal) x5)).result W))) := by
    rw [set_self main_v58 (Cert.ReferenceIdeal.ReadP.val_main_v62 (F := Ideal) x5) W h_v58 _, set_self main_v60 (Cert.ReferenceIdeal.ReadP.val_main_v64 (F := Ideal) x5) W h_v60 _, set_self main_cst_15 (Cert.ReferenceIdeal.ReadP.val_main_cst_1 (F := Ideal)) W h_cst_15 _]
  rw [e]
  simp only [hostOps2_1]
  after_results_simp
  refine (eq_of_heq (cast_heq _ _)).trans ?_
  have c1 : (TRef.of (T := ⟨S10000, .i1⟩) main_v58).ofBuf (Cert.ReferenceIdeal.ReadP.val_main_v62 (F := Ideal) x5) = (Cert.ReferenceIdeal.ReadP.val_main_v62 (F := Ideal) x5) := eq_of_heq (cast_heq _ _)
  have c2 : (TRef.of (T := ⟨S10000, .f32⟩) main_v60).ofBuf (Cert.ReferenceIdeal.ReadP.val_main_v64 (F := Ideal) x5) = (Cert.ReferenceIdeal.ReadP.val_main_v64 (F := Ideal) x5) := eq_of_heq (cast_heq _ _)
  have c3 : (TRef.of (T := ⟨S_, .f32⟩) main_cst_15).ofBuf (Cert.ReferenceIdeal.ReadP.val_main_cst_1 (F := Ideal)) = (Cert.ReferenceIdeal.ReadP.val_main_cst_1 (F := Ideal)) := eq_of_heq (cast_heq _ _)
  have c4 : ∀ v : (⟨S_, .f32⟩ : BufTy).Contents (Elt Ideal), (TRef.of (T := ⟨S_, .f32⟩) main_call1_v0).ofBuf ((TRef.of (T := ⟨S_, .f32⟩) main_call1_v0).toBuf v) = v := fun v => (eq_of_heq (cast_heq _ _)).trans (eq_of_heq (cast_heq _ _))
  have c5 : ∀ v : (⟨S10000, .f32⟩ : BufTy).Contents (Elt Ideal), (TRef.of (T := ⟨S10000, .f32⟩) main_call1_v1).ofBuf ((TRef.of (T := ⟨S10000, .f32⟩) main_call1_v1).toBuf v) = v := fun v => (eq_of_heq (cast_heq _ _)).trans (eq_of_heq (cast_heq _ _))
  rw [c1, c2, c3, c4, c5]
  rfl

theorem seg_v63 (W : Valuation τ sig (Elt Ideal)) (x5 : (⟨S2x500000, .i32⟩ : BufTy).Contents (Elt Ideal))
    (h_v56 : W (Proc.devRef .tc main_v56) = (Cert.ReferenceIdeal.ReadP.val_main_v60 (F := Ideal) x5)) :
    StableHlo.after hostOps2_2 W (Proc.devRef .tc main_v63) = (Cert.ReferenceIdeal.ReadP.val_main_v67 (F := Ideal) x5) := by
  have e : W = ((StableHlo.nullary main_v56 (Cert.ReferenceIdeal.ReadP.val_main_v60 (F := Ideal) x5)).result W) := by
    rw [set_self main_v56 (Cert.ReferenceIdeal.ReadP.val_main_v60 (F := Ideal) x5) W h_v56 _]
  rw [e]
  simp only [hostOps2_2]
  after_results_simp <;> rfl

theorem seg_v65 (W : Valuation τ sig (Elt Ideal)) (x5 : (⟨S2x500000, .i32⟩ : BufTy).Contents (Elt Ideal))
    (h_v56 : W (Proc.devRef .tc main_v56) = (Cert.ReferenceIdeal.ReadP.val_main_v60 (F := Ideal) x5)) :
    StableHlo.after hostOps2_2 W (Proc.devRef .tc main_v65) = (Cert.ReferenceIdeal.ReadP.val_main_v69 (F := Ideal) x5) := by
  have e : W = ((StableHlo.nullary main_v56 (Cert.ReferenceIdeal.ReadP.val_main_v60 (F := Ideal) x5)).result W) := by
    rw [set_self main_v56 (Cert.ReferenceIdeal.ReadP.val_main_v60 (F := Ideal) x5) W h_v56 _]
  rw [e]
  simp only [hostOps2_2]
  after_results_simp <;> rfl

theorem seg_cst_18 (W : Valuation τ sig (Elt Ideal))  :
    StableHlo.after hostOps2_2 W (Proc.devRef .tc main_cst_18) = (Cert.ReferenceIdeal.ReadP.val_main_cst_1 (F := Ideal)) := by
  have e : W = W := by
    rfl
  rw [e]
  simp only [hostOps2_2]
  after_results_simp <;> rfl

theorem seg_v66 (W : Valuation τ sig (Elt Ideal)) (x5 : (⟨S2x500000, .i32⟩ : BufTy).Contents (Elt Ideal))
    (h_v63 : W (Proc.devRef .tc main_v63) = (Cert.ReferenceIdeal.ReadP.val_main_v67 (F := Ideal) x5))
    (h_v65 : W (Proc.devRef .tc main_v65) = (Cert.ReferenceIdeal.ReadP.val_main_v69 (F := Ideal) x5))
    (h_cst_18 : W (Proc.devRef .tc main_cst_18) = (Cert.ReferenceIdeal.ReadP.val_main_cst_1 (F := Ideal))) :
    StableHlo.after hostOps2_3 W (Proc.devRef .tc main_v66) = (Cert.ReferenceIdeal.ReadP.val_main_v70 (F := Ideal) x5) := by
  have e : W = ((StableHlo.nullary main_cst_18 (Cert.ReferenceIdeal.ReadP.val_main_cst_1 (F := Ideal))).result ((StableHlo.nullary main_v65 (Cert.ReferenceIdeal.ReadP.val_main_v69 (F := Ideal) x5)).result ((StableHlo.nullary main_v63 (Cert.ReferenceIdeal.ReadP.val_main_v67 (F := Ideal) x5)).result W))) := by
    rw [set_self main_v63 (Cert.ReferenceIdeal.ReadP.val_main_v67 (F := Ideal) x5) W h_v63 _, set_self main_v65 (Cert.ReferenceIdeal.ReadP.val_main_v69 (F := Ideal) x5) W h_v65 _, set_self main_cst_18 (Cert.ReferenceIdeal.ReadP.val_main_cst_1 (F := Ideal)) W h_cst_18 _]
  rw [e]
  simp only [hostOps2_3]
  after_results_simp
  refine (eq_of_heq (cast_heq _ _)).trans ?_
  have c1 : (TRef.of (T := ⟨S50000, .i1⟩) main_v63).ofBuf (Cert.ReferenceIdeal.ReadP.val_main_v67 (F := Ideal) x5) = (Cert.ReferenceIdeal.ReadP.val_main_v67 (F := Ideal) x5) := eq_of_heq (cast_heq _ _)
  have c2 : (TRef.of (T := ⟨S50000, .f32⟩) main_v65).ofBuf (Cert.ReferenceIdeal.ReadP.val_main_v69 (F := Ideal) x5) = (Cert.ReferenceIdeal.ReadP.val_main_v69 (F := Ideal) x5) := eq_of_heq (cast_heq _ _)
  have c3 : (TRef.of (T := ⟨S_, .f32⟩) main_cst_18).ofBuf (Cert.ReferenceIdeal.ReadP.val_main_cst_1 (F := Ideal)) = (Cert.ReferenceIdeal.ReadP.val_main_cst_1 (F := Ideal)) := eq_of_heq (cast_heq _ _)
  have c4 : ∀ v : (⟨S_, .f32⟩ : BufTy).Contents (Elt Ideal), (TRef.of (T := ⟨S_, .f32⟩) main_call2_v0).ofBuf ((TRef.of (T := ⟨S_, .f32⟩) main_call2_v0).toBuf v) = v := fun v => (eq_of_heq (cast_heq _ _)).trans (eq_of_heq (cast_heq _ _))
  have c5 : ∀ v : (⟨S50000, .f32⟩ : BufTy).Contents (Elt Ideal), (TRef.of (T := ⟨S50000, .f32⟩) main_call2_v1).ofBuf ((TRef.of (T := ⟨S50000, .f32⟩) main_call2_v1).toBuf v) = v := fun v => (eq_of_heq (cast_heq _ _)).trans (eq_of_heq (cast_heq _ _))
  rw [c1, c2, c3, c4, c5]
  rfl

theorem seg_v94 (W : Valuation τ sig (Elt Ideal)) (x1 : (⟨S10000x64, .f32⟩ : BufTy).Contents (Elt Ideal)) (x5 : (⟨S2x500000, .i32⟩ : BufTy).Contents (Elt Ideal)) (x12 : (⟨S64x64, .f32⟩ : BufTy).Contents (Elt Ideal))
    (h_v49 : W (Proc.devRef .tc main_v49) = (Cert.ReferenceIdeal.ReadP.val_main_v53 (F := Ideal) x5))
    (h_v45 : W (Proc.devRef .tc main_v45) = (Cert.ReferenceIdeal.ReadP.val_main_v49 (F := Ideal) x1 x12))
    (h_v47 : W (Proc.devRef .tc main_v47) = (Cert.ReferenceIdeal.ReadP.val_main_v51 (F := Ideal) x5))
    (h_v61 : W (Proc.devRef .tc main_v61) = (Cert.ReferenceIdeal.ReadP.val_main_v65 (F := Ideal) x5))
    (h_v66 : W (Proc.devRef .tc main_v66) = (Cert.ReferenceIdeal.ReadP.val_main_v70 (F := Ideal) x5)) :
    StableHlo.after hostOps2_4 W (Proc.devRef .tc main_v94) = (Cert.ReferenceIdeal.ReadP.val_main_v98 (F := Ideal) x1 x5 x12) := by
  have e : W = ((StableHlo.nullary main_v66 (Cert.ReferenceIdeal.ReadP.val_main_v70 (F := Ideal) x5)).result ((StableHlo.nullary main_v61 (Cert.ReferenceIdeal.ReadP.val_main_v65 (F := Ideal) x5)).result ((StableHlo.nullary main_v47 (Cert.ReferenceIdeal.ReadP.val_main_v51 (F := Ideal) x5)).result ((StableHlo.nullary main_v45 (Cert.ReferenceIdeal.ReadP.val_main_v49 (F := Ideal) x1 x12)).result ((StableHlo.nullary main_v49 (Cert.ReferenceIdeal.ReadP.val_main_v53 (F := Ideal) x5)).result W))))) := by
    rw [set_self main_v49 (Cert.ReferenceIdeal.ReadP.val_main_v53 (F := Ideal) x5) W h_v49 _, set_self main_v45 (Cert.ReferenceIdeal.ReadP.val_main_v49 (F := Ideal) x1 x12) W h_v45 _, set_self main_v47 (Cert.ReferenceIdeal.ReadP.val_main_v51 (F := Ideal) x5) W h_v47 _, set_self main_v61 (Cert.ReferenceIdeal.ReadP.val_main_v65 (F := Ideal) x5) W h_v61 _, set_self main_v66 (Cert.ReferenceIdeal.ReadP.val_main_v70 (F := Ideal) x5) W h_v66 _]
  rw [e]
  simp only [hostOps2_4]
  after_results_simp <;> rfl

end Cert.KernelIdeal.Glue

end
-- ==== Proof.Glue3.lean ====
import proofs.«143428_j3564822855941_1_alg».proof.Proof.SetSelf
import proofs.«143428_j3564822855941_1_alg».proof.Proof.ReferenceIdealReadP
import Idealize.ShloMosaic.Lib.Pipeline.Value

/-! Stretches of host operations of the kernel program, one at a time: what each stretch leaves in a buffer that is
    read later, as a term of the contents the stretch finds, is the reference's stage for the same value (the degree
    counts, their inverse square roots, the edge normalisation, the gathered and scaled rows, the scattered sums): the
    two programs apply the same operations in the same order. The bias sums have no stage of the reference; they are
    stated as they are. -/

set_option maxRecDepth 16384
set_option maxHeartbeats 4000000

noncomputable section

namespace Cert.KernelIdeal.Glue

open Cert.KernelIdeal Cert.KernelIdeal.Gen Idealize.ShloMosaic Idealize.ShloMosaic.TcCoe Idealize.ShloMosaic.StableHlo

theorem seg_v101 (W : Valuation τ sig (Elt Ideal)) (x3 : (⟨S2x320000, .i32⟩ : BufTy).Contents (Elt Ideal))
    (h_arg3 : W (Proc.devRef .tc main_arg3) = x3) :
    StableHlo.after hostOps3 W (Proc.devRef .tc main_v101) = (Cert.ReferenceIdeal.ReadP.val_main_v110 (F := Ideal) x3) := by
  have e : W = ((StableHlo.nullary main_arg3 x3).result W) := by
    rw [set_self main_arg3 x3 W h_arg3 _]
  rw [e]
  simp only [hostOps3]
  after_results_simp <;> rfl

theorem seg_v102 (W : Valuation τ sig (Elt Ideal)) (x3 : (⟨S2x320000, .i32⟩ : BufTy).Contents (Elt Ideal))
    (h_arg3 : W (Proc.devRef .tc main_arg3) = x3) :
    StableHlo.after hostOps3 W (Proc.devRef .tc main_v102) = (Cert.ReferenceIdeal.ReadP.val_main_v111 (F := Ideal) x3) := by
  have e : W = ((StableHlo.nullary main_arg3 x3).result W) := by
    rw [set_self main_arg3 x3 W h_arg3 _]
  rw [e]
  simp only [hostOps3]
  after_results_simp <;> rfl

theorem seg_v108 (W : Valuation τ sig (Elt Ideal)) (x3 : (⟨S2x320000, .i32⟩ : BufTy).Contents (Elt Ideal))
    (h_arg3 : W (Proc.devRef .tc main_arg3) = x3) :
    StableHlo.after hostOps3 W (Proc.devRef .tc main_v108) = (Cert.ReferenceIdeal.ReadP.val_main_v117 (F := Ideal) x3) := by
  have e : W = ((StableHlo.nullary main_arg3 x3).result W) := by
    rw [set_self main_arg3 x3 W h_arg3 _]
  rw [e]
  simp only [hostOps3]
  after_results_simp <;> rfl

theorem seg_v110 (W : Valuation τ sig (Elt Ideal)) (x3 : (⟨S2x320000, .i32⟩ : BufTy).Contents (Elt Ideal))
    (h_arg3 : W (Proc.devRef .tc main_arg3) = x3) :
    StableHlo.after hostOps3 W (Proc.devRef .tc main_v110) = (Cert.ReferenceIdeal.ReadP.val_main_v119 (F := Ideal) x3) := by
  have e : W = ((StableHlo.nullary main_arg3 x3).result W) := by
    rw [set_self main_arg3 x3 W h_arg3 _]
  rw [e]
  simp only [hostOps3]
  after_results_simp <;> rfl

theorem seg_cst_30 (W : Valuation τ sig (Elt Ideal))  :
    StableHlo.after hostOps3 W (Proc.devRef .tc main_cst_30) = (Cert.ReferenceIdeal.ReadP.val_main_cst_1 (F := Ideal)) := by
  have e : W = W := by
    rfl
  rw [e]
  simp only [hostOps3]
  after_results_simp <;> rfl

theorem seg_v111 (W : Valuation τ sig (Elt Ideal)) (x3 : (⟨S2x320000, .i32⟩ : BufTy).Contents (Elt Ideal))
    (h_v108 : W (Proc.devRef .tc main_v108) = (Cert.ReferenceIdeal.ReadP.val_main_v117 (F := Ideal) x3))
    (h_v110 : W (Proc.devRef .tc main_v110) = (Cert.ReferenceIdeal.ReadP.val_main_v119 (F := Ideal) x3))
    (h_cst_30 : W (Proc.devRef .tc main_cst_30) = (Cert.ReferenceIdeal.ReadP.val_main_cst_1 (F := Ideal))) :
    StableHlo.after hostOps3_1 W (Proc.devRef .tc main_v111) = (Cert.ReferenceIdeal.ReadP.val_main_v120 (F := Ideal) x3) := by
  have e : W = ((StableHlo.nullary main_cst_30 (Cert.ReferenceIdeal.ReadP.val_main_cst_1 (F := Ideal))).result ((StableHlo.nullary main_v110 (Cert.ReferenceIdeal.ReadP.val_main_v119 (F := Ideal) x3)).result ((StableHlo.nullary main_v108 (Cert.ReferenceIdeal.ReadP.val_main_v117 (F := Ideal) x3)).result W))) := by
    rw [set_self main_v108 (Cert.ReferenceIdeal.ReadP.val_main_v117 (F := Ideal) x3) W h_v108 _, set_self main_v110 (Cert.ReferenceIdeal.ReadP.val_main_v119 (F := Ideal) x3) W h_v110 _, set_self main_cst_30 (Cert.ReferenceIdeal.ReadP.val_main_cst_1 (F := Ideal)) W h_cst_30 _]
  rw [e]
  simp only [hostOps3_1]
  after_results_simp
  refine (eq_of_heq (cast_heq _ _)).trans ?_
  have c1 : (TRef.of (T := ⟨S10000, .i1⟩) main_v108).ofBuf (Cert.ReferenceIdeal.ReadP.val_main_v117 (F := Ideal) x3) = (Cert.ReferenceIdeal.ReadP.val_main_v117 (F := Ideal) x3) := eq_of_heq (cast_heq _ _)
  have c2 : (TRef.of (T := ⟨S10000, .f32⟩) main_v110).ofBuf (Cert.ReferenceIdeal.ReadP.val_main_v119 (F := Ideal) x3) = (Cert.ReferenceIdeal.ReadP.val_main_v119 (F := Ideal) x3) := eq_of_heq (cast_heq _ _)
  have c3 : (TRef.of (T := ⟨S_, .f32⟩) main_cst_30).ofBuf (Cert.ReferenceIdeal.ReadP.val_main_cst_1 (F := Ideal)) = (Cert.ReferenceIdeal.ReadP.val_main_cst_1 (F := Ideal)) := eq_of_heq (cast_heq _ _)
  have c4 : ∀ v : (⟨S_, .f32⟩ : BufTy).Contents (Elt Ideal), (TRef.of (T := ⟨S_, .f32⟩) main_call3_v0).ofBuf ((TRef.of (T := ⟨S_, .f32⟩) main_call3_v0).toBuf v) = v := fun v => (eq_of_heq (cast_heq _ _)).trans (eq_of_heq (cast_heq _ _))
  have c5 : ∀ v : (⟨S10000, .f32⟩ : BufTy).Contents (Elt Ideal), (TRef.of (T := ⟨S10000, .f32⟩) main_call3_v1).ofBuf ((TRef.of (T := ⟨S10000, .f32⟩) main_call3_v1).toBuf v) = v := fun v => (eq_of_heq (cast_heq _ _)).trans (eq_of_heq (cast_heq _ _))
  rw [c1, c2, c3, c4, c5]
  rfl

theorem seg_v139 (W : Valuation τ sig (Elt Ideal)) (x1 : (⟨S10000x64, .f32⟩ : BufTy).Contents (Elt Ideal)) (x3 : (⟨S2x320000, .i32⟩ : BufTy).Contents (Elt Ideal)) (x8 : (⟨S64x64, .f32⟩ : BufTy).Contents (Elt Ideal))
    (h_v102 : W (Proc.devRef .tc main_v102) = (Cert.ReferenceIdeal.ReadP.val_main_v111 (F := Ideal) x3))
    (h_v95 : W (Proc.devRef .tc main_v95) = (Cert.ReferenceIdeal.ReadP.val_main_v103 (F := Ideal) x1 x8))
    (h_v101 : W (Proc.devRef .tc main_v101) = (Cert.ReferenceIdeal.ReadP.val_main_v110 (F := Ideal) x3))
    (h_v111 : W (Proc.devRef .tc main_v111) = (Cert.ReferenceIdeal.ReadP.val_main_v120 (F := Ideal) x3)) :
    StableHlo.after hostOps3_2 W (Proc.devRef .tc main_v139) = (Cert.ReferenceIdeal.ReadP.val_main_v148 (F := Ideal) x1 x3 x8) := by
  have e : W = ((StableHlo.nullary main_v111 (Cert.ReferenceIdeal.ReadP.val_main_v120 (F := Ideal) x3)).result ((StableHlo.nullary main_v101 (Cert.ReferenceIdeal.ReadP.val_main_v110 (F := Ideal) x3)).result ((StableHlo.nullary main_v95 (Cert.ReferenceIdeal.ReadP.val_main_v103 (F := Ideal) x1 x8)).result ((StableHlo.nullary main_v102 (Cert.ReferenceIdeal.ReadP.val_main_v111 (F := Ideal) x3)).result W)))) := by
    rw [set_self main_v102 (Cert.ReferenceIdeal.ReadP.val_main_v111 (F := Ideal) x3) W h_v102 _, set_self main_v95 (Cert.ReferenceIdeal.ReadP.val_main_v103 (F := Ideal) x1 x8) W h_v95 _, set_self main_v101 (Cert.ReferenceIdeal.ReadP.val_main_v110 (F := Ideal) x3) W h_v101 _, set_self main_v111 (Cert.ReferenceIdeal.ReadP.val_main_v120 (F := Ideal) x3) W h_v111 _]
  rw [e]
  simp only [hostOps3_2]
  after_results_simp <;> rfl

end Cert.KernelIdeal.Glue

end
-- ==== Proof.Glue4.lean ====
import proofs.«143428_j3564822855941_1_alg».proof.Proof.SetSelf
import proofs.«143428_j3564822855941_1_alg».proof.Proof.ReferenceIdealReadP
import Idealize.ShloMosaic.Lib.Pipeline.Value

/-! Stretches of host operations of the kernel program, one at a time: what each stretch leaves in a buffer that is
    read later, as a term of the contents the stretch finds, is the reference's stage for the same value (the degree
    counts, their inverse square roots, the edge normalisation, the gathered and scaled rows, the scattered sums): the
    two programs apply the same operations in the same order. The bias sums have no stage of the reference; they are
    stated as they are. -/

set_option maxRecDepth 16384
set_option maxHeartbeats 4000000

noncomputable section

namespace Cert.KernelIdeal.Glue

open Cert.KernelIdeal Cert.KernelIdeal.Gen Idealize.ShloMosaic Idealize.ShloMosaic.TcCoe Idealize.ShloMosaic.StableHlo

theorem seg_v142 (W : Valuation τ sig (Elt Ideal)) (x4 : (⟨S2x500000, .i32⟩ : BufTy).Contents (Elt Ideal))
    (h_arg4 : W (Proc.devRef .tc main_arg4) = x4) :
    StableHlo.after hostOps4 W (Proc.devRef .tc main_v142) = (Cert.ReferenceIdeal.ReadP.val_main_v154 (F := Ideal) x4) := by
  have e : W = ((StableHlo.nullary main_arg4 x4).result W) := by
    rw [set_self main_arg4 x4 W h_arg4 _]
  rw [e]
  simp only [hostOps4]
  after_results_simp <;> rfl

theorem seg_v144 (W : Valuation τ sig (Elt Ideal)) (x4 : (⟨S2x500000, .i32⟩ : BufTy).Contents (Elt Ideal))
    (h_arg4 : W (Proc.devRef .tc main_arg4) = x4) :
    StableHlo.after hostOps4 W (Proc.devRef .tc main_v144) = (Cert.ReferenceIdeal.ReadP.val_main_v156 (F := Ideal) x4) := by
  have e : W = ((StableHlo.nullary main_arg4 x4).result W) := by
    rw [set_self main_arg4 x4 W h_arg4 _]
  rw [e]
  simp only [hostOps4]
  after_results_simp <;> rfl

theorem seg_v151 (W : Valuation τ sig (Elt Ideal)) (x4 : (⟨S2x500000, .i32⟩ : BufTy).Contents (Elt Ideal))
    (h_arg4 : W (Proc.devRef .tc main_arg4) = x4) :
    StableHlo.after hostOps4 W (Proc.devRef .tc main_v151) = (Cert.ReferenceIdeal.ReadP.val_main_v163 (F := Ideal) x4) := by
  have e : W = ((StableHlo.nullary main_arg4 x4).result W) := by
    rw [set_self main_arg4 x4 W h_arg4 _]
  rw [e]
  simp only [hostOps4]
  after_results_simp <;> rfl

theorem seg_v153 (W : Valuation τ sig (Elt Ideal)) (x4 : (⟨S2x500000, .i32⟩ : BufTy).Contents (Elt Ideal))
    (h_arg4 : W (Proc.devRef .tc main_arg4) = x4) :
    StableHlo.after hostOps4 W (Proc.devRef .tc main_v153) = (Cert.ReferenceIdeal.ReadP.val_main_v165 (F := Ideal) x4) := by
  have e : W = ((StableHlo.nullary main_arg4 x4).result W) := by
    rw [set_self main_arg4 x4 W h_arg4 _]
  rw [e]
  simp only [hostOps4]
  after_results_simp <;> rfl

theorem seg_v155 (W : Valuation τ sig (Elt Ideal)) (x4 : (⟨S2x500000, .i32⟩ : BufTy).Contents (Elt Ideal))
    (h_arg4 : W (Proc.devRef .tc main_arg4) = x4) :
    StableHlo.after hostOps4 W (Proc.devRef .tc main_v155) = (Cert.ReferenceIdeal.ReadP.val_main_v167 (F := Ideal) x4) := by
  have e : W = ((StableHlo.nullary main_arg4 x4).result W) := by
    rw [set_self main_arg4 x4 W h_arg4 _]
  rw [e]
  simp only [hostOps4]
  after_results_simp <;> rfl

theorem seg_cst_43 (W : Valuation τ sig (Elt Ideal))  :
    StableHlo.after hostOps4 W (Proc.devRef .tc main_cst_43) = (Cert.ReferenceIdeal.ReadP.val_main_cst_1 (F := Ideal)) := by
  have e : W = W := by
    rfl
  rw [e]
  simp only [hostOps4]
  after_results_simp <;> rfl

theorem seg_v156 (W : Valuation τ sig (Elt Ideal)) (x4 : (⟨S2x500000, .i32⟩ : BufTy).Contents (Elt Ideal))
    (h_v153 : W (Proc.devRef .tc main_v153) = (Cert.ReferenceIdeal.ReadP.val_main_v165 (F := Ideal) x4))
    (h_v155 : W (Proc.devRef .tc main_v155) = (Cert.ReferenceIdeal.ReadP.val_main_v167 (F := Ideal) x4))
    (h_cst_43 : W (Proc.devRef .tc main_cst_43) = (Cert.ReferenceIdeal.ReadP.val_main_cst_1 (F := Ideal))) :
    StableHlo.after hostOps4_1 W (Proc.devRef .tc main_v156) = (Cert.ReferenceIdeal.ReadP.val_main_v168 (F := Ideal) x4) := by
  have e : W = ((StableHlo.nullary main_cst_43 (Cert.ReferenceIdeal.ReadP.val_main_cst_1 (F := Ideal))).result ((StableHlo.nullary main_v155 (Cert.ReferenceIdeal.ReadP.val_main_v167 (F := Ideal) x4)).result ((StableHlo.nullary main_v153 (Cert.ReferenceIdeal.ReadP.val_main_v165 (F := Ideal) x4)).result W))) := by
    rw [set_self main_v153 (Cert.ReferenceIdeal.ReadP.val_main_v165 (F := Ideal) x4) W h_v153 _, set_self main_v155 (Cert.ReferenceIdeal.ReadP.val_main_v167 (F := Ideal) x4) W h_v155 _, set_self main_cst_43 (Cert.ReferenceIdeal.ReadP.val_main_cst_1 (F := Ideal)) W h_cst_43 _]
  rw [e]
  simp only [hostOps4_1]
  after_results_simp
  refine (eq_of_heq (cast_heq _ _)).trans ?_
  have c1 : (TRef.of (T := ⟨S50000, .i1⟩) main_v153).ofBuf (Cert.ReferenceIdeal.ReadP.val_main_v165 (F := Ideal) x4) = (Cert.ReferenceIdeal.ReadP.val_main_v165 (F := Ideal) x4) := eq_of_heq (cast_heq _ _)
  have c2 : (TRef.of (T := ⟨S50000, .f32⟩) main_v155).ofBuf (Cert.ReferenceIdeal.ReadP.val_main_v167 (F := Ideal) x4) = (Cert.ReferenceIdeal.ReadP.val_main_v167 (F := Ideal) x4) := eq_of_heq (cast_heq _ _)
  have c3 : (TRef.of (T := ⟨S_, .f32⟩) main_cst_43).ofBuf (Cert.ReferenceIdeal.ReadP.val_main_cst_1 (F := Ideal)) = (Cert.ReferenceIdeal.ReadP.val_main_cst_1 (F := Ideal)) := eq_of_heq (cast_heq _ _)
  have c4 : ∀ v : (⟨S_, .f32⟩ : BufTy).Contents (Elt Ideal), (TRef.of (T := ⟨S_, .f32⟩) main_call4_v0).ofBuf ((TRef.of (T := ⟨S_, .f32⟩) main_call4_v0).toBuf v) = v := fun v => (eq_of_heq (cast_heq _ _)).trans (eq_of_heq (cast_heq _ _))
  have c5 : ∀ v : (⟨S50000, .f32⟩ : BufTy).Contents (Elt Ideal), (TRef.of (T := ⟨S50000, .f32⟩) main_call4_v1).ofBuf ((TRef.of (T := ⟨S50000, .f32⟩) main_call4_v1).toBuf v) = v := fun v => (eq_of_heq (cast_heq _ _)).trans (eq_of_heq (cast_heq _ _))
  rw [c1, c2, c3, c4, c5]
  rfl

theorem seg_v158 (W : Valuation τ sig (Elt Ideal)) (x4 : (⟨S2x500000, .i32⟩ : BufTy).Contents (Elt Ideal))
    (h_v151 : W (Proc.devRef .tc main_v151) = (Cert.ReferenceIdeal.ReadP.val_main_v163 (F := Ideal) x4)) :
    StableHlo.after hostOps4_2 W (Proc.devRef .tc main_v158) = (Cert.ReferenceIdeal.ReadP.val_main_v170 (F := Ideal) x4) := by
  have e : W = ((StableHlo.nullary main_v151 (Cert.ReferenceIdeal.ReadP.val_main_v163 (F := Ideal) x4)).result W) := by
    rw [set_self main_v151 (Cert.ReferenceIdeal.ReadP.val_main_v163 (F := Ideal) x4) W h_v151 _]
  rw [e]
  simp only [hostOps4_2]
  after_results_simp <;> rfl

theorem seg_v160 (W : Valuation τ sig (Elt Ideal)) (x4 : (⟨S2x500000, .i32⟩ : BufTy).Contents (Elt Ideal))
    (h_v151 : W (Proc.devRef .tc main_v151) = (Cert.ReferenceIdeal.ReadP.val_main_v163 (F := Ideal) x4)) :
    StableHlo.after hostOps4_2 W (Proc.devRef .tc main_v160) = (Cert.ReferenceIdeal.ReadP.val_main_v172 (F := Ideal) x4) := by
  have e : W = ((StableHlo.nullary main_v151 (Cert.ReferenceIdeal.ReadP.val_main_v163 (F := Ideal) x4)).result W) := by
    rw [set_self main_v151 (Cert.ReferenceIdeal.ReadP.val_main_v163 (F := Ideal) x4) W h_v151 _]
  rw [e]
  simp only [hostOps4_2]
  after_results_simp <;> rfl

theorem seg_cst_46 (W : Valuation τ sig (Elt Ideal))  :
    StableHlo.after hostOps4_2 W (Proc.devRef .tc main_cst_46) = (Cert.ReferenceIdeal.ReadP.val_main_cst_1 (F := Ideal)) := by
  have e : W = W := by
    rfl
  rw [e]
  simp only [hostOps4_2]
  after_results_simp <;> rfl

theorem seg_v161 (W : Valuation τ sig (Elt Ideal)) (x4 : (⟨S2x500000, .i32⟩ : BufTy).Contents (Elt Ideal))
    (h_v158 : W (Proc.devRef .tc main_v158) = (Cert.ReferenceIdeal.ReadP.val_main_v170 (F := Ideal) x4))
    (h_v160 : W (Proc.devRef .tc main_v160) = (Cert.ReferenceIdeal.ReadP.val_main_v172 (F := Ideal) x4))
    (h_cst_46 : W (Proc.devRef .tc main_cst_46) = (Cert.ReferenceIdeal.ReadP.val_main_cst_1 (F := Ideal))) :
    StableHlo.after hostOps4_3 W (Proc.devRef .tc main_v161) = (Cert.ReferenceIdeal.ReadP.val_main_v173 (F := Ideal) x4) := by
  have e : W = ((StableHlo.nullary main_cst_46 (Cert.ReferenceIdeal.ReadP.val_main_cst_1 (F := Ideal))).result ((StableHlo.nullary main_v160 (Cert.ReferenceIdeal.ReadP.val_main_v172 (F := Ideal) x4)).result ((StableHlo.nullary main_v158 (Cert.ReferenceIdeal.ReadP.val_main_v170 (F := Ideal) x4)).result W))) := by
    rw [set_self main_v158 (Cert.ReferenceIdeal.ReadP.val_main_v170 (F := Ideal) x4) W h_v158 _, set_self main_v160 (Cert.ReferenceIdeal.ReadP.val_main_v172 (F := Ideal) x4) W h_v160 _, set_self main_cst_46 (Cert.ReferenceIdeal.ReadP.val_main_cst_1 (F := Ideal)) W h_cst_46 _]
  rw [e]
  simp only [hostOps4_3]
  after_results_simp
  refine (eq_of_heq (cast_heq _ _)).trans ?_
  have c1 : (TRef.of (T := ⟨S10000, .i1⟩) main_v158).ofBuf (Cert.ReferenceIdeal.ReadP.val_main_v170 (F := Ideal) x4) = (Cert.ReferenceIdeal.ReadP.val_main_v170 (F := Ideal) x4) := eq_of_heq (cast_heq _ _)
  have c2 : (TRef.of (T := ⟨S10000, .f32⟩) main_v160).ofBuf (Cert.ReferenceIdeal.ReadP.val_main_v172 (F := Ideal) x4) = (Cert.ReferenceIdeal.ReadP.val_main_v172 (F := Ideal) x4) := eq_of_heq (cast_heq _ _)
  have c3 : (TRef.of (T := ⟨S_, .f32⟩) main_cst_46).ofBuf (Cert.ReferenceIdeal.ReadP.val_main_cst_1 (F := Ideal)) = (Cert.ReferenceIdeal.ReadP.val_main_cst_1 (F := Ideal)) := eq_of_heq (cast_heq _ _)
  have c4 : ∀ v : (⟨S_, .f32⟩ : BufTy).Contents (Elt Ideal), (TRef.of (T := ⟨S_, .f32⟩) main_call5_v0).ofBuf ((TRef.of (T := ⟨S_, .f32⟩) main_call5_v0).toBuf v) = v := fun v => (eq_of_heq (cast_heq _ _)).trans (eq_of_heq (cast_heq _ _))
  have c5 : ∀ v : (⟨S10000, .f32⟩ : BufTy).Contents (Elt Ideal), (TRef.of (T := ⟨S10000, .f32⟩) main_call5_v1).ofBuf ((TRef.of (T := ⟨S10000, .f32⟩) main_call5_v1).toBuf v) = v := fun v => (eq_of_heq (cast_heq _ _)).trans (eq_of_heq (cast_heq _ _))
  rw [c1, c2, c3, c4, c5]
  rfl

theorem seg_v189 (W : Valuation τ sig (Elt Ideal)) (x0 : (⟨S50000x64, .f32⟩ : BufTy).Contents (Elt Ideal)) (x4 : (⟨S2x500000, .i32⟩ : BufTy).Contents (Elt Ideal)) (x10 : (⟨S64x64, .f32⟩ : BufTy).Contents (Elt Ideal))
    (h_v144 : W (Proc.devRef .tc main_v144) = (Cert.ReferenceIdeal.ReadP.val_main_v156 (F := Ideal) x4))
    (h_v140 : W (Proc.devRef .tc main_v140) = (Cert.ReferenceIdeal.ReadP.val_main_v152 (F := Ideal) x0 x10))
    (h_v142 : W (Proc.devRef .tc main_v142) = (Cert.ReferenceIdeal.ReadP.val_main_v154 (F := Ideal) x4))
    (h_v156 : W (Proc.devRef .tc main_v156) = (Cert.ReferenceIdeal.ReadP.val_main_v168 (F := Ideal) x4))
    (h_v161 : W (Proc.devRef .tc main_v161) = (Cert.ReferenceIdeal.ReadP.val_main_v173 (F := Ideal) x4)) :
    StableHlo.after hostOps4_4 W (Proc.devRef .tc main_v189) = (Cert.ReferenceIdeal.ReadP.val_main_v201 (F := Ideal) x0 x4 x10) := by
  have e : W = ((StableHlo.nullary main_v161 (Cert.ReferenceIdeal.ReadP.val_main_v173 (F := Ideal) x4)).result ((StableHlo.nullary main_v156 (Cert.ReferenceIdeal.ReadP.val_main_v168 (F := Ideal) x4)).result ((StableHlo.nullary main_v142 (Cert.ReferenceIdeal.ReadP.val_main_v154 (F := Ideal) x4)).result ((StableHlo.nullary main_v140 (Cert.ReferenceIdeal.ReadP.val_main_v152 (F := Ideal) x0 x10)).result ((StableHlo.nullary main_v144 (Cert.ReferenceIdeal.ReadP.val_main_v156 (F := Ideal) x4)).result W))))) := by
    rw [set_self main_v144 (Cert.ReferenceIdeal.ReadP.val_main_v156 (F := Ideal) x4) W h_v144 _, set_self main_v140 (Cert.ReferenceIdeal.ReadP.val_main_v152 (F := Ideal) x0 x10) W h_v140 _, set_self main_v142 (Cert.ReferenceIdeal.ReadP.val_main_v154 (F := Ideal) x4) W h_v142 _, set_self main_v156 (Cert.ReferenceIdeal.ReadP.val_main_v168 (F := Ideal) x4) W h_v156 _, set_self main_v161 (Cert.ReferenceIdeal.ReadP.val_main_v173 (F := Ideal) x4) W h_v161 _]
  rw [e]
  simp only [hostOps4_4]
  after_results_simp <;> rfl

theorem seg_v191 (W : Valuation τ sig (Elt Ideal)) (x9 : (⟨S64, .f32⟩ : BufTy).Contents (Elt Ideal)) (x11 : (⟨S64, .f32⟩ : BufTy).Contents (Elt Ideal))
    (h_arg9 : W (Proc.devRef .tc main_arg9) = x9)
    (h_arg11 : W (Proc.devRef .tc main_arg11) = x11) :
    StableHlo.after hostOps4_4 W (Proc.devRef .tc main_v191) = (addf (F := Ideal) (s := S64) (φ := .f32) x9 x11) := by
  have e : W = ((StableHlo.nullary main_arg11 x11).result ((StableHlo.nullary main_arg9 x9).result W)) := by
    rw [set_self main_arg9 x9 W h_arg9 _, set_self main_arg11 x11 W h_arg11 _]
  rw [e]
  simp only [hostOps4_4]
  after_results_simp <;> rfl

theorem seg_v192 (W : Valuation τ sig (Elt Ideal)) (x7 : (⟨S64, .f32⟩ : BufTy).Contents (Elt Ideal)) (x13 : (⟨S64, .f32⟩ : BufTy).Contents (Elt Ideal))
    (h_arg7 : W (Proc.devRef .tc main_arg7) = x7)
    (h_arg13 : W (Proc.devRef .tc main_arg13) = x13) :
    StableHlo.after hostOps4_4 W (Proc.devRef .tc main_v192) = (shapeCast S1x64 (addf (F := Ideal) (s := S64) (φ := .f32) x7 x13) shapeCasts_S64_S1x64 : (⟨S1x64, .f32⟩ : BufTy).Contents (Elt Ideal)) := by
  have e : W = ((StableHlo.nullary main_arg13 x13).result ((StableHlo.nullary main_arg7 x7).result W)) := by
    rw [set_self main_arg7 x7 W h_arg7 _, set_self main_arg13 x13 W h_arg13 _]
  rw [e]
  simp only [hostOps4_4]
  after_results_simp <;> rfl

end Cert.KernelIdeal.Glue

end
-- ==== Proof.Glue5.lean ====
import proofs.«143428_j3564822855941_1_alg».proof.Proof.SetSelf
import proofs.«143428_j3564822855941_1_alg».proof.Proof.ReferenceIdealReadP
import Idealize.ShloMosaic.Lib.Pipeline.Value

/-! Stretches of host operations of the kernel program, one at a time: what each stretch leaves in a buffer that is
    read later, as a term of the contents the stretch finds, is the reference's stage for the same value (the degree
    counts, their inverse square roots, the edge normalisation, the gathered and scaled rows, the scattered sums): the
    two programs apply the same operations in the same order. The bias sums have no stage of the reference; they are
    stated as they are. -/

set_option maxRecDepth 16384
set_option maxHeartbeats 4000000

noncomputable section

namespace Cert.KernelIdeal.Glue

open Cert.KernelIdeal Cert.KernelIdeal.Gen Idealize.ShloMosaic Idealize.ShloMosaic.TcCoe Idealize.ShloMosaic.StableHlo

theorem seg_v194 (W : Valuation τ sig (Elt Ideal)) (x9 : (⟨S64, .f32⟩ : BufTy).Contents (Elt Ideal)) (x11 : (⟨S64, .f32⟩ : BufTy).Contents (Elt Ideal))
    (h_v191 : W (Proc.devRef .tc main_v191) = (addf (F := Ideal) (s := S64) (φ := .f32) x9 x11)) :
    StableHlo.after hostOps5 W (Proc.devRef .tc main_v194) = (shapeCast S1x64 (addf (F := Ideal) (s := S64) (φ := .f32) x9 x11) shapeCasts_S64_S1x64 : (⟨S1x64, .f32⟩ : BufTy).Contents (Elt Ideal)) := by
  have e : W = ((StableHlo.nullary main_v191 (addf (F := Ideal) (s := S64) (φ := .f32) x9 x11)).result W) := by
    rw [set_self main_v191 (addf (F := Ideal) (s := S64) (φ := .f32) x9 x11) W h_v191 _]
  rw [e]
  simp only [hostOps5]
  after_results_simp <;> rfl

end Cert.KernelIdeal.Glue

end
-- ==== Proof.Glue7.lean ====
import proofs.«143428_j3564822855941_1_alg».proof.Proof.SetSelf
import proofs.«143428_j3564822855941_1_alg».proof.Proof.ReferenceIdealReadP
import Idealize.ShloMosaic.Lib.Pipeline.Value

/-! Stretches of host operations of the kernel program, one at a time: what each stretch leaves in a buffer that is
    read later, as a term of the contents the stretch finds, is the reference's stage for the same value (the degree
    counts, their inverse square roots, the edge normalisation, the gathered and scaled rows, the scattered sums): the
    two programs apply the same operations in the same order. The bias sums have no stage of the reference; they are
    stated as they are. -/

set_option maxRecDepth 16384
set_option maxHeartbeats 4000000

noncomputable section

namespace Cert.KernelIdeal.Glue

open Cert.KernelIdeal Cert.KernelIdeal.Gen Idealize.ShloMosaic Idealize.ShloMosaic.TcCoe Idealize.ShloMosaic.StableHlo

theorem seg_v202 (W : Valuation τ sig (Elt Ideal)) (x2 : (⟨S2x1600000, .i32⟩ : BufTy).Contents (Elt Ideal))
    (h_arg2 : W (Proc.devRef .tc main_arg2) = x2) :
    StableHlo.after hostOps7 W (Proc.devRef .tc main_v202) = (Cert.ReferenceIdeal.ReadP.val_main_v7 (F := Ideal) x2) := by
  have e : W = ((StableHlo.nullary main_arg2 x2).result W) := by
    rw [set_self main_arg2 x2 W h_arg2 _]
  rw [e]
  simp only [hostOps7]
  after_results_simp <;> rfl

theorem seg_v203 (W : Valuation τ sig (Elt Ideal)) (x2 : (⟨S2x1600000, .i32⟩ : BufTy).Contents (Elt Ideal))
    (h_arg2 : W (Proc.devRef .tc main_arg2) = x2) :
    StableHlo.after hostOps7 W (Proc.devRef .tc main_v203) = (Cert.ReferenceIdeal.ReadP.val_main_v8 (F := Ideal) x2) := by
  have e : W = ((StableHlo.nullary main_arg2 x2).result W) := by
    rw [set_self main_arg2 x2 W h_arg2 _]
  rw [e]
  simp only [hostOps7]
  after_results_simp <;> rfl

theorem seg_v209 (W : Valuation τ sig (Elt Ideal)) (x2 : (⟨S2x1600000, .i32⟩ : BufTy).Contents (Elt Ideal))
    (h_arg2 : W (Proc.devRef .tc main_arg2) = x2) :
    StableHlo.after hostOps7 W (Proc.devRef .tc main_v209) = (Cert.ReferenceIdeal.ReadP.val_main_v14 (F := Ideal) x2) := by
  have e : W = ((StableHlo.nullary main_arg2 x2).result W) := by
    rw [set_self main_arg2 x2 W h_arg2 _]
  rw [e]
  simp only [hostOps7]
  after_results_simp <;> rfl

theorem seg_v211 (W : Valuation τ sig (Elt Ideal)) (x2 : (⟨S2x1600000, .i32⟩ : BufTy).Contents (Elt Ideal))
    (h_arg2 : W (Proc.devRef .tc main_arg2) = x2) :
    StableHlo.after hostOps7 W (Proc.devRef .tc main_v211) = (Cert.ReferenceIdeal.ReadP.val_main_v16 (F := Ideal) x2) := by
  have e : W = ((StableHlo.nullary main_arg2 x2).result W) := by
    rw [set_self main_arg2 x2 W h_arg2 _]
  rw [e]
  simp only [hostOps7]
  after_results_simp <;> rfl

theorem seg_cst_58 (W : Valuation τ sig (Elt Ideal))  :
    StableHlo.after hostOps7 W (Proc.devRef .tc main_cst_58) = (Cert.ReferenceIdeal.ReadP.val_main_cst_1 (F := Ideal)) := by
  have e : W = W := by
    rfl
  rw [e]
  simp only [hostOps7]
  after_results_simp <;> rfl

theorem seg_v212 (W : Valuation τ sig (Elt Ideal)) (x2 : (⟨S2x1600000, .i32⟩ : BufTy).Contents (Elt Ideal))
    (h_v209 : W (Proc.devRef .tc main_v209) = (Cert.ReferenceIdeal.ReadP.val_main_v14 (F := Ideal) x2))
    (h_v211 : W (Proc.devRef .tc main_v211) = (Cert.ReferenceIdeal.ReadP.val_main_v16 (F := Ideal) x2))
    (h_cst_58 : W (Proc.devRef .tc main_cst_58) = (Cert.ReferenceIdeal.ReadP.val_main_cst_1 (F := Ideal))) :
    StableHlo.after hostOps7_1 W (Proc.devRef .tc main_v212) = (Cert.ReferenceIdeal.ReadP.val_main_v17 (F := Ideal) x2) := by
  have e : W = ((StableHlo.nullary main_cst_58 (Cert.ReferenceIdeal.ReadP.val_main_cst_1 (F := Ideal))).result ((StableHlo.nullary main_v211 (Cert.ReferenceIdeal.ReadP.val_main_v16 (F := Ideal) x2)).result ((StableHlo.nullary main_v209 (Cert.ReferenceIdeal.ReadP.val_main_v14 (F := Ideal) x2)).result W))) := by
    rw [set_self main_v209 (Cert.ReferenceIdeal.ReadP.val_main_v14 (F := Ideal) x2) W h_v209 _, set_self main_v211 (Cert.ReferenceIdeal.ReadP.val_main_v16 (F := Ideal) x2) W h_v211 _, set_self main_cst_58 (Cert.ReferenceIdeal.ReadP.val_main_cst_1 (F := Ideal)) W h_cst_58 _]
  rw [e]
  simp only [hostOps7_1]
  after_results_simp
  refine (eq_of_heq (cast_heq _ _)).trans ?_
  have c1 : (TRef.of (T := ⟨S50000, .i1⟩) main_v209).ofBuf (Cert.ReferenceIdeal.ReadP.val_main_v14 (F := Ideal) x2) = (Cert.ReferenceIdeal.ReadP.val_main_v14 (F := Ideal) x2) := eq_of_heq (cast_heq _ _)
  have c2 : (TRef.of (T := ⟨S50000, .f32⟩) main_v211).ofBuf (Cert.ReferenceIdeal.ReadP.val_main_v16 (F := Ideal) x2) = (Cert.ReferenceIdeal.ReadP.val_main_v16 (F := Ideal) x2) := eq_of_heq (cast_heq _ _)
  have c3 : (TRef.of (T := ⟨S_, .f32⟩) main_cst_58).ofBuf (Cert.ReferenceIdeal.ReadP.val_main_cst_1 (F := Ideal)) = (Cert.ReferenceIdeal.ReadP.val_main_cst_1 (F := Ideal)) := eq_of_heq (cast_heq _ _)
  have c4 : ∀ v : (⟨S_, .f32⟩ : BufTy).Contents (Elt Ideal), (TRef.of (T := ⟨S_, .f32⟩) main_call6_v0).ofBuf ((TRef.of (T := ⟨S_, .f32⟩) main_call6_v0).toBuf v) = v := fun v => (eq_of_heq (cast_heq _ _)).trans (eq_of_heq (cast_heq _ _))
  have c5 : ∀ v : (⟨S50000, .f32⟩ : BufTy).Contents (Elt Ideal), (TRef.of (T := ⟨S50000, .f32⟩) main_call6_v1).ofBuf ((TRef.of (T := ⟨S50000, .f32⟩) main_call6_v1).toBuf v) = v := fun v => (eq_of_heq (cast_heq _ _)).trans (eq_of_heq (cast_heq _ _))
  rw [c1, c2, c3, c4, c5]
  rfl

theorem seg_v240 (W : Valuation τ sig (Elt Ideal)) (x0 : (⟨S50000x64, .f32⟩ : BufTy).Contents (Elt Ideal)) (x1 : (⟨S10000x64, .f32⟩ : BufTy).Contents (Elt Ideal)) (x2 : (⟨S2x1600000, .i32⟩ : BufTy).Contents (Elt Ideal)) (x5 : (⟨S2x500000, .i32⟩ : BufTy).Contents (Elt Ideal)) (x6 : (⟨S64x64, .f32⟩ : BufTy).Contents (Elt Ideal)) (x7 : (⟨S64, .f32⟩ : BufTy).Contents (Elt Ideal)) (x12 : (⟨S64x64, .f32⟩ : BufTy).Contents (Elt Ideal)) (x13 : (⟨S64, .f32⟩ : BufTy).Contents (Elt Ideal)) (x14 : (⟨S64x32, .f32⟩ : BufTy).Contents (Elt Ideal))
    (h_v203 : W (Proc.devRef .tc main_v203) = (Cert.ReferenceIdeal.ReadP.val_main_v8 (F := Ideal) x2))
    (h_v196 : W (Proc.devRef .tc main_v196) = (Cert.ReferenceIdeal.ReadP.val_main_v208 (F := Ideal) x0 x1 x2 x5 x6 x7 x12 x13 x14))
    (h_v202 : W (Proc.devRef .tc main_v202) = (Cert.ReferenceIdeal.ReadP.val_main_v7 (F := Ideal) x2))
    (h_v212 : W (Proc.devRef .tc main_v212) = (Cert.ReferenceIdeal.ReadP.val_main_v17 (F := Ideal) x2)) :
    StableHlo.after hostOps7_2 W (Proc.devRef .tc main_v240) = (Cert.ReferenceIdeal.ReadP.val_main_v253 (F := Ideal) x0 x1 x2 x5 x6 x7 x12 x13 x14) := by
  have e : W = ((StableHlo.nullary main_v212 (Cert.ReferenceIdeal.ReadP.val_main_v17 (F := Ideal) x2)).result ((StableHlo.nullary main_v202 (Cert.ReferenceIdeal.ReadP.val_main_v7 (F := Ideal) x2)).result ((StableHlo.nullary main_v196 (Cert.ReferenceIdeal.ReadP.val_main_v208 (F := Ideal) x0 x1 x2 x5 x6 x7 x12 x13 x14)).result ((StableHlo.nullary main_v203 (Cert.ReferenceIdeal.ReadP.val_main_v8 (F := Ideal) x2)).result W)))) := by
    rw [set_self main_v203 (Cert.ReferenceIdeal.ReadP.val_main_v8 (F := Ideal) x2) W h_v203 _, set_self main_v196 (Cert.ReferenceIdeal.ReadP.val_main_v208 (F := Ideal) x0 x1 x2 x5 x6 x7 x12 x13 x14) W h_v196 _, set_self main_v202 (Cert.ReferenceIdeal.ReadP.val_main_v7 (F := Ideal) x2) W h_v202 _, set_self main_v212 (Cert.ReferenceIdeal.ReadP.val_main_v17 (F := Ideal) x2) W h_v212 _]
  rw [e]
  simp only [hostOps7_2]
  after_results_simp <;> rfl

end Cert.KernelIdeal.Glue

end
-- ==== Proof.Glue8.lean ====
import proofs.«143428_j3564822855941_1_alg».proof.Proof.SetSelf
import proofs.«143428_j3564822855941_1_alg».proof.Proof.ReferenceIdealReadP
import Idealize.ShloMosaic.Lib.Pipeline.Value

/-! Stretches of host operations of the kernel program, one at a time: what each stretch leaves in a buffer that is
    read later, as a term of the contents the stretch finds, is the reference's stage for the same value (the degree
    counts, their inverse square roots, the edge normalisation, the gathered and scaled rows, the scattered sums): the
    two programs apply the same operations in the same order. The bias sums have no stage of the reference; they are
    stated as they are. -/

set_option maxRecDepth 16384
set_option maxHeartbeats 4000000

noncomputable section

namespace Cert.KernelIdeal.Glue

open Cert.KernelIdeal Cert.KernelIdeal.Gen Idealize.ShloMosaic Idealize.ShloMosaic.TcCoe Idealize.ShloMosaic.StableHlo

theorem seg_v243 (W : Valuation τ sig (Elt Ideal)) (x5 : (⟨S2x500000, .i32⟩ : BufTy).Contents (Elt Ideal))
    (h_arg5 : W (Proc.devRef .tc main_arg5) = x5) :
    StableHlo.after hostOps8 W (Proc.devRef .tc main_v243) = (Cert.ReferenceIdeal.ReadP.val_main_v51 (F := Ideal) x5) := by
  have e : W = ((StableHlo.nullary main_arg5 x5).result W) := by
    rw [set_self main_arg5 x5 W h_arg5 _]
  rw [e]
  simp only [hostOps8]
  after_results_simp <;> rfl

theorem seg_v245 (W : Valuation τ sig (Elt Ideal)) (x5 : (⟨S2x500000, .i32⟩ : BufTy).Contents (Elt Ideal))
    (h_arg5 : W (Proc.devRef .tc main_arg5) = x5) :
    StableHlo.after hostOps8 W (Proc.devRef .tc main_v245) = (Cert.ReferenceIdeal.ReadP.val_main_v53 (F := Ideal) x5) := by
  have e : W = ((StableHlo.nullary main_arg5 x5).result W) := by
    rw [set_self main_arg5 x5 W h_arg5 _]
  rw [e]
  simp only [hostOps8]
  after_results_simp <;> rfl

theorem seg_v252 (W : Valuation τ sig (Elt Ideal)) (x5 : (⟨S2x500000, .i32⟩ : BufTy).Contents (Elt Ideal))
    (h_arg5 : W (Proc.devRef .tc main_arg5) = x5) :
    StableHlo.after hostOps8 W (Proc.devRef .tc main_v252) = (Cert.ReferenceIdeal.ReadP.val_main_v60 (F := Ideal) x5) := by
  have e : W = ((StableHlo.nullary main_arg5 x5).result W) := by
    rw [set_self main_arg5 x5 W h_arg5 _]
  rw [e]
  simp only [hostOps8]
  after_results_simp <;> rfl

theorem seg_v254 (W : Valuation τ sig (Elt Ideal)) (x5 : (⟨S2x500000, .i32⟩ : BufTy).Contents (Elt Ideal))
    (h_arg5 : W (Proc.devRef .tc main_arg5) = x5) :
    StableHlo.after hostOps8 W (Proc.devRef .tc main_v254) = (Cert.ReferenceIdeal.ReadP.val_main_v62 (F := Ideal) x5) := by
  have e : W = ((StableHlo.nullary main_arg5 x5).result W) := by
    rw [set_self main_arg5 x5 W h_arg5 _]
  rw [e]
  simp only [hostOps8]
  after_results_simp <;> rfl

theorem seg_v256 (W : Valuation τ sig (Elt Ideal)) (x5 : (⟨S2x500000, .i32⟩ : BufTy).Contents (Elt Ideal))
    (h_arg5 : W (Proc.devRef .tc main_arg5) = x5) :
    StableHlo.after hostOps8 W (Proc.devRef .tc main_v256) = (Cert.ReferenceIdeal.ReadP.val_main_v64 (F := Ideal) x5) := by
  have e : W = ((StableHlo.nullary main_arg5 x5).result W) := by
    rw [set_self main_arg5 x5 W h_arg5 _]
  rw [e]
  simp only [hostOps8]
  after_results_simp <;> rfl

theorem seg_cst_71 (W : Valuation τ sig (Elt Ideal))  :
    StableHlo.after hostOps8 W (Proc.devRef .tc main_cst_71) = (Cert.ReferenceIdeal.ReadP.val_main_cst_1 (F := Ideal)) := by
  have e : W = W := by
    rfl
  rw [e]
  simp only [hostOps8]
  after_results_simp <;> rfl

theorem seg_v257 (W : Valuation τ sig (Elt Ideal)) (x5 : (⟨S2x500000, .i32⟩ : BufTy).Contents (Elt Ideal))
    (h_v254 : W (Proc.devRef .tc main_v254) = (Cert.ReferenceIdeal.ReadP.val_main_v62 (F := Ideal) x5))
    (h_v256 : W (Proc.devRef .tc main_v256) = (Cert.ReferenceIdeal.ReadP.val_main_v64 (F := Ideal) x5))
    (h_cst_71 : W (Proc.devRef .tc main_cst_71) = (Cert.ReferenceIdeal.ReadP.val_main_cst_1 (F := Ideal))) :
    StableHlo.after hostOps8_1 W (Proc.devRef .tc main_v257) = (Cert.ReferenceIdeal.ReadP.val_main_v65 (F := Ideal) x5) := by
  have e : W = ((StableHlo.nullary main_cst_71 (Cert.ReferenceIdeal.ReadP.val_main_cst_1 (F := Ideal))).result ((StableHlo.nullary main_v256 (Cert.ReferenceIdeal.ReadP.val_main_v64 (F := Ideal) x5)).result ((StableHlo.nullary main_v254 (Cert.ReferenceIdeal.ReadP.val_main_v62 (F := Ideal) x5)).result W))) := by
    rw [set_self main_v254 (Cert.ReferenceIdeal.ReadP.val_main_v62 (F := Ideal) x5) W h_v254 _, set_self main_v256 (Cert.ReferenceIdeal.ReadP.val_main_v64 (F := Ideal) x5) W h_v256 _, set_self main_cst_71 (Cert.ReferenceIdeal.ReadP.val_main_cst_1 (F := Ideal)) W h_cst_71 _]
  rw [e]
  simp only [hostOps8_1]
  after_results_simp
  refine (eq_of_heq (cast_heq _ _)).trans ?_
  have c1 : (TRef.of (T := ⟨S10000, .i1⟩) main_v254).ofBuf (Cert.ReferenceIdeal.ReadP.val_main_v62 (F := Ideal) x5) = (Cert.ReferenceIdeal.ReadP.val_main_v62 (F := Ideal) x5) := eq_of_heq (cast_heq _ _)
  have c2 : (TRef.of (T := ⟨S10000, .f32⟩) main_v256).ofBuf (Cert.ReferenceIdeal.ReadP.val_main_v64 (F := Ideal) x5) = (Cert.ReferenceIdeal.ReadP.val_main_v64 (F := Ideal) x5) := eq_of_heq (cast_heq _ _)
  have c3 : (TRef.of (T := ⟨S_, .f32⟩) main_cst_71).ofBuf (Cert.ReferenceIdeal.ReadP.val_main_cst_1 (F := Ideal)) = (Cert.ReferenceIdeal.ReadP.val_main_cst_1 (F := Ideal)) := eq_of_heq (cast_heq _ _)
  have c4 : ∀ v : (⟨S_, .f32⟩ : BufTy).Contents (Elt Ideal), (TRef.of (T := ⟨S_, .f32⟩) main_call7_v0).ofBuf ((TRef.of (T := ⟨S_, .f32⟩) main_call7_v0).toBuf v) = v := fun v => (eq_of_heq (cast_heq _ _)).trans (eq_of_heq (cast_heq _ _))
  have c5 : ∀ v : (⟨S10000, .f32⟩ : BufTy).Contents (Elt Ideal), (TRef.of (T := ⟨S10000, .f32⟩) main_call7_v1).ofBuf ((TRef.of (T := ⟨S10000, .f32⟩) main_call7_v1).toBuf v) = v := fun v => (eq_of_heq (cast_heq _ _)).trans (eq_of_heq (cast_heq _ _))
  rw [c1, c2, c3, c4, c5]
  rfl

theorem seg_v259 (W : Valuation τ sig (Elt Ideal)) (x5 : (⟨S2x500000, .i32⟩ : BufTy).Contents (Elt Ideal))
    (h_v252 : W (Proc.devRef .tc main_v252) = (Cert.ReferenceIdeal.ReadP.val_main_v60 (F := Ideal) x5)) :
    StableHlo.after hostOps8_2 W (Proc.devRef .tc main_v259) = (Cert.ReferenceIdeal.ReadP.val_main_v67 (F := Ideal) x5) := by
  have e : W = ((StableHlo.nullary main_v252 (Cert.ReferenceIdeal.ReadP.val_main_v60 (F := Ideal) x5)).result W) := by
    rw [set_self main_v252 (Cert.ReferenceIdeal.ReadP.val_main_v60 (F := Ideal) x5) W h_v252 _]
  rw [e]
  simp only [hostOps8_2]
  after_results_simp <;> rfl

theorem seg_v261 (W : Valuation τ sig (Elt Ideal)) (x5 : (⟨S2x500000, .i32⟩ : BufTy).Contents (Elt Ideal))
    (h_v252 : W (Proc.devRef .tc main_v252) = (Cert.ReferenceIdeal.ReadP.val_main_v60 (F := Ideal) x5)) :
    StableHlo.after hostOps8_2 W (Proc.devRef .tc main_v261) = (Cert.ReferenceIdeal.ReadP.val_main_v69 (F := Ideal) x5) := by
  have e : W = ((StableHlo.nullary main_v252 (Cert.ReferenceIdeal.ReadP.val_main_v60 (F := Ideal) x5)).result W) := by
    rw [set_self main_v252 (Cert.ReferenceIdeal.ReadP.val_main_v60 (F := Ideal) x5) W h_v252 _]
  rw [e]
  simp only [hostOps8_2]
  after_results_simp <;> rfl

theorem seg_cst_74 (W : Valuation τ sig (Elt Ideal))  :
    StableHlo.after hostOps8_2 W (Proc.devRef .tc main_cst_74) = (Cert.ReferenceIdeal.ReadP.val_main_cst_1 (F := Ideal)) := by
  have e : W = W := by
    rfl
  rw [e]
  simp only [hostOps8_2]
  after_results_simp <;> rfl

theorem seg_v262 (W : Valuation τ sig (Elt Ideal)) (x5 : (⟨S2x500000, .i32⟩ : BufTy).Contents (Elt Ideal))
    (h_v259 : W (Proc.devRef .tc main_v259) = (Cert.ReferenceIdeal.ReadP.val_main_v67 (F := Ideal) x5))
    (h_v261 : W (Proc.devRef .tc main_v261) = (Cert.ReferenceIdeal.ReadP.val_main_v69 (F := Ideal) x5))
    (h_cst_74 : W (Proc.devRef .tc main_cst_74) = (Cert.ReferenceIdeal.ReadP.val_main_cst_1 (F := Ideal))) :
    StableHlo.after hostOps8_3 W (Proc.devRef .tc main_v262) = (Cert.ReferenceIdeal.ReadP.val_main_v70 (F := Ideal) x5) := by
  have e : W = ((StableHlo.nullary main_cst_74 (Cert.ReferenceIdeal.ReadP.val_main_cst_1 (F := Ideal))).result ((StableHlo.nullary main_v261 (Cert.ReferenceIdeal.ReadP.val_main_v69 (F := Ideal) x5)).result ((StableHlo.nullary main_v259 (Cert.ReferenceIdeal.ReadP.val_main_v67 (F := Ideal) x5)).result W))) := by
    rw [set_self main_v259 (Cert.ReferenceIdeal.ReadP.val_main_v67 (F := Ideal) x5) W h_v259 _, set_self main_v261 (Cert.ReferenceIdeal.ReadP.val_main_v69 (F := Ideal) x5) W h_v261 _, set_self main_cst_74 (Cert.ReferenceIdeal.ReadP.val_main_cst_1 (F := Ideal)) W h_cst_74 _]
  rw [e]
  simp only [hostOps8_3]
  after_results_simp
  refine (eq_of_heq (cast_heq _ _)).trans ?_
  have c1 : (TRef.of (T := ⟨S50000, .i1⟩) main_v259).ofBuf (Cert.ReferenceIdeal.ReadP.val_main_v67 (F := Ideal) x5) = (Cert.ReferenceIdeal.ReadP.val_main_v67 (F := Ideal) x5) := eq_of_heq (cast_heq _ _)
  have c2 : (TRef.of (T := ⟨S50000, .f32⟩) main_v261).ofBuf (Cert.ReferenceIdeal.ReadP.val_main_v69 (F := Ideal) x5) = (Cert.ReferenceIdeal.ReadP.val_main_v69 (F := Ideal) x5) := eq_of_heq (cast_heq _ _)
  have c3 : (TRef.of (T := ⟨S_, .f32⟩) main_cst_74).ofBuf (Cert.ReferenceIdeal.ReadP.val_main_cst_1 (F := Ideal)) = (Cert.ReferenceIdeal.ReadP.val_main_cst_1 (F := Ideal)) := eq_of_heq (cast_heq _ _)
  have c4 : ∀ v : (⟨S_, .f32⟩ : BufTy).Contents (Elt Ideal), (TRef.of (T := ⟨S_, .f32⟩) main_call8_v0).ofBuf ((TRef.of (T := ⟨S_, .f32⟩) main_call8_v0).toBuf v) = v := fun v => (eq_of_heq (cast_heq _ _)).trans (eq_of_heq (cast_heq _ _))
  have c5 : ∀ v : (⟨S50000, .f32⟩ : BufTy).Contents (Elt Ideal), (TRef.of (T := ⟨S50000, .f32⟩) main_call8_v1).ofBuf ((TRef.of (T := ⟨S50000, .f32⟩) main_call8_v1).toBuf v) = v := fun v => (eq_of_heq (cast_heq _ _)).trans (eq_of_heq (cast_heq _ _))
  rw [c1, c2, c3, c4, c5]
  rfl

theorem seg_v290 (W : Valuation τ sig (Elt Ideal)) (x0 : (⟨S50000x64, .f32⟩ : BufTy).Contents (Elt Ideal)) (x1 : (⟨S10000x64, .f32⟩ : BufTy).Contents (Elt Ideal)) (x3 : (⟨S2x320000, .i32⟩ : BufTy).Contents (Elt Ideal)) (x4 : (⟨S2x500000, .i32⟩ : BufTy).Contents (Elt Ideal)) (x5 : (⟨S2x500000, .i32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (x20 : (⟨S64x32, .f32⟩ : BufTy).Contents (Elt Ideal))
    (h_v245 : W (Proc.devRef .tc main_v245) = (Cert.ReferenceIdeal.ReadP.val_main_v53 (F := Ideal) x5))
    (h_v241 : W (Proc.devRef .tc main_v241) = (Cert.ReferenceIdeal.ReadP.val_main_v257 (F := Ideal) x0 x1 x3 x4 x8 x9 x10 x11 x20))
    (h_v243 : W (Proc.devRef .tc main_v243) = (Cert.ReferenceIdeal.ReadP.val_main_v51 (F := Ideal) x5))
    (h_v257 : W (Proc.devRef .tc main_v257) = (Cert.ReferenceIdeal.ReadP.val_main_v65 (F := Ideal) x5))
    (h_v262 : W (Proc.devRef .tc main_v262) = (Cert.ReferenceIdeal.ReadP.val_main_v70 (F := Ideal) x5)) :
    StableHlo.after hostOps8_4 W (Proc.devRef .tc main_v290) = (Cert.ReferenceIdeal.ReadP.val_main_v306 (F := Ideal) x0 x1 x3 x4 x5 x8 x9 x10 x11 x20) := by
  have e : W = ((StableHlo.nullary main_v262 (Cert.ReferenceIdeal.ReadP.val_main_v70 (F := Ideal) x5)).result ((StableHlo.nullary main_v257 (Cert.ReferenceIdeal.ReadP.val_main_v65 (F := Ideal) x5)).result ((StableHlo.nullary main_v243 (Cert.ReferenceIdeal.ReadP.val_main_v51 (F := Ideal) x5)).result ((StableHlo.nullary main_v241 (Cert.ReferenceIdeal.ReadP.val_main_v257 (F := Ideal) x0 x1 x3 x4 x8 x9 x10 x11 x20)).result ((StableHlo.nullary main_v245 (Cert.ReferenceIdeal.ReadP.val_main_v53 (F := Ideal) x5)).result W))))) := by
    rw [set_self main_v245 (Cert.ReferenceIdeal.ReadP.val_main_v53 (F := Ideal) x5) W h_v245 _, set_self main_v241 (Cert.ReferenceIdeal.ReadP.val_main_v257 (F := Ideal) x0 x1 x3 x4 x8 x9 x10 x11 x20) W h_v241 _, set_self main_v243 (Cert.ReferenceIdeal.ReadP.val_main_v51 (F := Ideal) x5) W h_v243 _, set_self main_v257 (Cert.ReferenceIdeal.ReadP.val_main_v65 (F := Ideal) x5) W h_v257 _, set_self main_v262 (Cert.ReferenceIdeal.ReadP.val_main_v70 (F := Ideal) x5) W h_v262 _]
  rw [e]
  simp only [hostOps8_4]
  after_results_simp <;> rfl

end Cert.KernelIdeal.Glue

end
-- ==== Proof.Glue9.lean ====
import proofs.«143428_j3564822855941_1_alg».proof.Proof.SetSelf
import proofs.«143428_j3564822855941_1_alg».proof.Proof.ReferenceIdealReadP
import Idealize.ShloMosaic.Lib.Pipeline.Value

/-! Stretches of host operations of the kernel program, one at a time: what each stretch leaves in a buffer that is
    read later, as a term of the contents the stretch finds, is the reference's stage for the same value (the degree
    counts, their inverse square roots, the edge normalisation, the gathered and scaled rows, the scattered sums): the
    two programs apply the same operations in the same order. The bias sums have no stage of the reference; they are
    stated as they are. -/

set_option maxRecDepth 16384
set_option maxHeartbeats 4000000

noncomputable section

namespace Cert.KernelIdeal.Glue

open Cert.KernelIdeal Cert.KernelIdeal.Gen Idealize.ShloMosaic Idealize.ShloMosaic.TcCoe Idealize.ShloMosaic.StableHlo

theorem seg_v297 (W : Valuation τ sig (Elt Ideal)) (x3 : (⟨S2x320000, .i32⟩ : BufTy).Contents (Elt Ideal))
    (h_arg3 : W (Proc.devRef .tc main_arg3) = x3) :
    StableHlo.after hostOps9 W (Proc.devRef .tc main_v297) = (Cert.ReferenceIdeal.ReadP.val_main_v110 (F := Ideal) x3) := by
  have e : W = ((StableHlo.nullary main_arg3 x3).result W) := by
    rw [set_self main_arg3 x3 W h_arg3 _]
  rw [e]
  simp only [hostOps9]
  after_results_simp <;> rfl

theorem seg_v298 (W : Valuation τ sig (Elt Ideal)) (x3 : (⟨S2x320000, .i32⟩ : BufTy).Contents (Elt Ideal))
    (h_arg3 : W (Proc.devRef .tc main_arg3) = x3) :
    StableHlo.after hostOps9 W (Proc.devRef .tc main_v298) = (Cert.ReferenceIdeal.ReadP.val_main_v111 (F := Ideal) x3) := by
  have e : W = ((StableHlo.nullary main_arg3 x3).result W) := by
    rw [set_self main_arg3 x3 W h_arg3 _]
  rw [e]
  simp only [hostOps9]
  after_results_simp <;> rfl

theorem seg_v304 (W : Valuation τ sig (Elt Ideal)) (x3 : (⟨S2x320000, .i32⟩ : BufTy).Contents (Elt Ideal))
    (h_arg3 : W (Proc.devRef .tc main_arg3) = x3) :
    StableHlo.after hostOps9 W (Proc.devRef .tc main_v304) = (Cert.ReferenceIdeal.ReadP.val_main_v117 (F := Ideal) x3) := by
  have e : W = ((StableHlo.nullary main_arg3 x3).result W) := by
    rw [set_self main_arg3 x3 W h_arg3 _]
  rw [e]
  simp only [hostOps9]
  after_results_simp <;> rfl

theorem seg_v306 (W : Valuation τ sig (Elt Ideal)) (x3 : (⟨S2x320000, .i32⟩ : BufTy).Contents (Elt Ideal))
    (h_arg3 : W (Proc.devRef .tc main_arg3) = x3) :
    StableHlo.after hostOps9 W (Proc.devRef .tc main_v306) = (Cert.ReferenceIdeal.ReadP.val_main_v119 (F := Ideal) x3) := by
  have e : W = ((StableHlo.nullary main_arg3 x3).result W) := by
    rw [set_self main_arg3 x3 W h_arg3 _]
  rw [e]
  simp only [hostOps9]
  after_results_simp <;> rfl

theorem seg_cst_86 (W : Valuation τ sig (Elt Ideal))  :
    StableHlo.after hostOps9 W (Proc.devRef .tc main_cst_86) = (Cert.ReferenceIdeal.ReadP.val_main_cst_1 (F := Ideal)) := by
  have e : W = W := by
    rfl
  rw [e]
  simp only [hostOps9]
  after_results_simp <;> rfl

theorem seg_v307 (W : Valuation τ sig (Elt Ideal)) (x3 : (⟨S2x320000, .i32⟩ : BufTy).Contents (Elt Ideal))
    (h_v304 : W (Proc.devRef .tc main_v304) = (Cert.ReferenceIdeal.ReadP.val_main_v117 (F := Ideal) x3))
    (h_v306 : W (Proc.devRef .tc main_v306) = (Cert.ReferenceIdeal.ReadP.val_main_v119 (F := Ideal) x3))
    (h_cst_86 : W (Proc.devRef .tc main_cst_86) = (Cert.ReferenceIdeal.ReadP.val_main_cst_1 (F := Ideal))) :
    StableHlo.after hostOps9_1 W (Proc.devRef .tc main_v307) = (Cert.ReferenceIdeal.ReadP.val_main_v120 (F := Ideal) x3) := by
  have e : W = ((StableHlo.nullary main_cst_86 (Cert.ReferenceIdeal.ReadP.val_main_cst_1 (F := Ideal))).result ((StableHlo.nullary main_v306 (Cert.ReferenceIdeal.ReadP.val_main_v119 (F := Ideal) x3)).result ((StableHlo.nullary main_v304 (Cert.ReferenceIdeal.ReadP.val_main_v117 (F := Ideal) x3)).result W))) := by
    rw [set_self main_v304 (Cert.ReferenceIdeal.ReadP.val_main_v117 (F := Ideal) x3) W h_v304 _, set_self main_v306 (Cert.ReferenceIdeal.ReadP.val_main_v119 (F := Ideal) x3) W h_v306 _, set_self main_cst_86 (Cert.ReferenceIdeal.ReadP.val_main_cst_1 (F := Ideal)) W h_cst_86 _]
  rw [e]
  simp only [hostOps9_1]
  after_results_simp
  refine (eq_of_heq (cast_heq _ _)).trans ?_
  have c1 : (TRef.of (T := ⟨S10000, .i1⟩) main_v304).ofBuf (Cert.ReferenceIdeal.ReadP.val_main_v117 (F := Ideal) x3) = (Cert.ReferenceIdeal.ReadP.val_main_v117 (F := Ideal) x3) := eq_of_heq (cast_heq _ _)
  have c2 : (TRef.of (T := ⟨S10000, .f32⟩) main_v306).ofBuf (Cert.ReferenceIdeal.ReadP.val_main_v119 (F := Ideal) x3) = (Cert.ReferenceIdeal.ReadP.val_main_v119 (F := Ideal) x3) := eq_of_heq (cast_heq _ _)
  have c3 : (TRef.of (T := ⟨S_, .f32⟩) main_cst_86).ofBuf (Cert.ReferenceIdeal.ReadP.val_main_cst_1 (F := Ideal)) = (Cert.ReferenceIdeal.ReadP.val_main_cst_1 (F := Ideal)) := eq_of_heq (cast_heq _ _)
  have c4 : ∀ v : (⟨S_, .f32⟩ : BufTy).Contents (Elt Ideal), (TRef.of (T := ⟨S_, .f32⟩) main_call9_v0).ofBuf ((TRef.of (T := ⟨S_, .f32⟩) main_call9_v0).toBuf v) = v := fun v => (eq_of_heq (cast_heq _ _)).trans (eq_of_heq (cast_heq _ _))
  have c5 : ∀ v : (⟨S10000, .f32⟩ : BufTy).Contents (Elt Ideal), (TRef.of (T := ⟨S10000, .f32⟩) main_call9_v1).ofBuf ((TRef.of (T := ⟨S10000, .f32⟩) main_call9_v1).toBuf v) = v := fun v => (eq_of_heq (cast_heq _ _)).trans (eq_of_heq (cast_heq _ _))
  rw [c1, c2, c3, c4, c5]
  rfl

theorem seg_v335 (W : Valuation τ sig (Elt Ideal)) (x0 : (⟨S50000x64, .f32⟩ : BufTy).Contents (Elt Ideal)) (x1 : (⟨S10000x64, .f32⟩ : BufTy).Contents (Elt Ideal)) (x3 : (⟨S2x320000, .i32⟩ : BufTy).Contents (Elt Ideal)) (x4 : (⟨S2x500000, .i32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (x16 : (⟨S64x32, .f32⟩ : BufTy).Contents (Elt Ideal))
    (h_v298 : W (Proc.devRef .tc main_v298) = (Cert.ReferenceIdeal.ReadP.val_main_v111 (F := Ideal) x3))
    (h_v291 : W (Proc.devRef .tc main_v291) = (Cert.ReferenceIdeal.ReadP.val_main_v311 (F := Ideal) x0 x1 x3 x4 x8 x9 x10 x11 x16))
    (h_v297 : W (Proc.devRef .tc main_v297) = (Cert.ReferenceIdeal.ReadP.val_main_v110 (F := Ideal) x3))
    (h_v307 : W (Proc.devRef .tc main_v307) = (Cert.ReferenceIdeal.ReadP.val_main_v120 (F := Ideal) x3)) :
    StableHlo.after hostOps9_2 W (Proc.devRef .tc main_v335) = (Cert.ReferenceIdeal.ReadP.val_main_v356 (F := Ideal) x0 x1 x3 x4 x8 x9 x10 x11 x16) := by
  have e : W = ((StableHlo.nullary main_v307 (Cert.ReferenceIdeal.ReadP.val_main_v120 (F := Ideal) x3)).result ((StableHlo.nullary main_v297 (Cert.ReferenceIdeal.ReadP.val_main_v110 (F := Ideal) x3)).result ((StableHlo.nullary main_v291 (Cert.ReferenceIdeal.ReadP.val_main_v311 (F := Ideal) x0 x1 x3 x4 x8 x9 x10 x11 x16)).result ((StableHlo.nullary main_v298 (Cert.ReferenceIdeal.ReadP.val_main_v111 (F := Ideal) x3)).result W)))) := by
    rw [set_self main_v298 (Cert.ReferenceIdeal.ReadP.val_main_v111 (F := Ideal) x3) W h_v298 _, set_self main_v291 (Cert.ReferenceIdeal.ReadP.val_main_v311 (F := Ideal) x0 x1 x3 x4 x8 x9 x10 x11 x16) W h_v291 _, set_self main_v297 (Cert.ReferenceIdeal.ReadP.val_main_v110 (F := Ideal) x3) W h_v297 _, set_self main_v307 (Cert.ReferenceIdeal.ReadP.val_main_v120 (F := Ideal) x3) W h_v307 _]
  rw [e]
  simp only [hostOps9_2]
  after_results_simp <;> rfl

end Cert.KernelIdeal.Glue

end
-- ==== Proof.Glue10.lean ====
import proofs.«143428_j3564822855941_1_alg».proof.Proof.SetSelf
import proofs.«143428_j3564822855941_1_alg».proof.Proof.ReferenceIdealReadP
import Idealize.ShloMosaic.Lib.Pipeline.Value

/-! Stretches of host operations of the kernel program, one at a time: what each stretch leaves in a buffer that is
    read later, as a term of the contents the stretch finds, is the reference's stage for the same value (the degree
    counts, their inverse square roots, the edge normalisation, the gathered and scaled rows, the scattered sums): the
    two programs apply the same operations in the same order. The bias sums have no stage of the reference; they are
    stated as they are. -/

set_option maxRecDepth 16384
set_option maxHeartbeats 4000000

noncomputable section

namespace Cert.KernelIdeal.Glue

open Cert.KernelIdeal Cert.KernelIdeal.Gen Idealize.ShloMosaic Idealize.ShloMosaic.TcCoe Idealize.ShloMosaic.StableHlo

theorem seg_v338 (W : Valuation τ sig (Elt Ideal)) (x4 : (⟨S2x500000, .i32⟩ : BufTy).Contents (Elt Ideal))
    (h_arg4 : W (Proc.devRef .tc main_arg4) = x4) :
    StableHlo.after hostOps10 W (Proc.devRef .tc main_v338) = (Cert.ReferenceIdeal.ReadP.val_main_v154 (F := Ideal) x4) := by
  have e : W = ((StableHlo.nullary main_arg4 x4).result W) := by
    rw [set_self main_arg4 x4 W h_arg4 _]
  rw [e]
  simp only [hostOps10]
  after_results_simp <;> rfl

theorem seg_v340 (W : Valuation τ sig (Elt Ideal)) (x4 : (⟨S2x500000, .i32⟩ : BufTy).Contents (Elt Ideal))
    (h_arg4 : W (Proc.devRef .tc main_arg4) = x4) :
    StableHlo.after hostOps10 W (Proc.devRef .tc main_v340) = (Cert.ReferenceIdeal.ReadP.val_main_v156 (F := Ideal) x4) := by
  have e : W = ((StableHlo.nullary main_arg4 x4).result W) := by
    rw [set_self main_arg4 x4 W h_arg4 _]
  rw [e]
  simp only [hostOps10]
  after_results_simp <;> rfl

theorem seg_v347 (W : Valuation τ sig (Elt Ideal)) (x4 : (⟨S2x500000, .i32⟩ : BufTy).Contents (Elt Ideal))
    (h_arg4 : W (Proc.devRef .tc main_arg4) = x4) :
    StableHlo.after hostOps10 W (Proc.devRef .tc main_v347) = (Cert.ReferenceIdeal.ReadP.val_main_v163 (F := Ideal) x4) := by
  have e : W = ((StableHlo.nullary main_arg4 x4).result W) := by
    rw [set_self main_arg4 x4 W h_arg4 _]
  rw [e]
  simp only [hostOps10]
  after_results_simp <;> rfl

theorem seg_v349 (W : Valuation τ sig (Elt Ideal)) (x4 : (⟨S2x500000, .i32⟩ : BufTy).Contents (Elt Ideal))
    (h_arg4 : W (Proc.devRef .tc main_arg4) = x4) :
    StableHlo.after hostOps10 W (Proc.devRef .tc main_v349) = (Cert.ReferenceIdeal.ReadP.val_main_v165 (F := Ideal) x4) := by
  have e : W = ((StableHlo.nullary main_arg4 x4).result W) := by
    rw [set_self main_arg4 x4 W h_arg4 _]
  rw [e]
  simp only [hostOps10]
  after_results_simp <;> rfl

theorem seg_v351 (W : Valuation τ sig (Elt Ideal)) (x4 : (⟨S2x500000, .i32⟩ : BufTy).Contents (Elt Ideal))
    (h_arg4 : W (Proc.devRef .tc main_arg4) = x4) :
    StableHlo.after hostOps10 W (Proc.devRef .tc main_v351) = (Cert.ReferenceIdeal.ReadP.val_main_v167 (F := Ideal) x4) := by
  have e : W = ((StableHlo.nullary main_arg4 x4).result W) := by
    rw [set_self main_arg4 x4 W h_arg4 _]
  rw [e]
  simp only [hostOps10]
  after_results_simp <;> rfl

theorem seg_cst_99 (W : Valuation τ sig (Elt Ideal))  :
    StableHlo.after hostOps10 W (Proc.devRef .tc main_cst_99) = (Cert.ReferenceIdeal.ReadP.val_main_cst_1 (F := Ideal)) := by
  have e : W = W := by
    rfl
  rw [e]
  simp only [hostOps10]
  after_results_simp <;> rfl

theorem seg_v352 (W : Valuation τ sig (Elt Ideal)) (x4 : (⟨S2x500000, .i32⟩ : BufTy).Contents (Elt Ideal))
    (h_v349 : W (Proc.devRef .tc main_v349) = (Cert.ReferenceIdeal.ReadP.val_main_v165 (F := Ideal) x4))
    (h_v351 : W (Proc.devRef .tc main_v351) = (Cert.ReferenceIdeal.ReadP.val_main_v167 (F := Ideal) x4))
    (h_cst_99 : W (Proc.devRef .tc main_cst_99) = (Cert.ReferenceIdeal.ReadP.val_main_cst_1 (F := Ideal))) :
    StableHlo.after hostOps10_1 W (Proc.devRef .tc main_v352) = (Cert.ReferenceIdeal.ReadP.val_main_v168 (F := Ideal) x4) := by
  have e : W = ((StableHlo.nullary main_cst_99 (Cert.ReferenceIdeal.ReadP.val_main_cst_1 (F := Ideal))).result ((StableHlo.nullary main_v351 (Cert.ReferenceIdeal.ReadP.val_main_v167 (F := Ideal) x4)).result ((StableHlo.nullary main_v349 (Cert.ReferenceIdeal.ReadP.val_main_v165 (F := Ideal) x4)).result W))) := by
    rw [set_self main_v349 (Cert.ReferenceIdeal.ReadP.val_main_v165 (F := Ideal) x4) W h_v349 _, set_self main_v351 (Cert.ReferenceIdeal.ReadP.val_main_v167 (F := Ideal) x4) W h_v351 _, set_self main_cst_99 (Cert.ReferenceIdeal.ReadP.val_main_cst_1 (F := Ideal)) W h_cst_99 _]
  rw [e]
  simp only [hostOps10_1]
  after_results_simp
  refine (eq_of_heq (cast_heq _ _)).trans ?_
  have c1 : (TRef.of (T := ⟨S50000, .i1⟩) main_v349).ofBuf (Cert.ReferenceIdeal.ReadP.val_main_v165 (F := Ideal) x4) = (Cert.ReferenceIdeal.ReadP.val_main_v165 (F := Ideal) x4) := eq_of_heq (cast_heq _ _)
  have c2 : (TRef.of (T := ⟨S50000, .f32⟩) main_v351).ofBuf (Cert.ReferenceIdeal.ReadP.val_main_v167 (F := Ideal) x4) = (Cert.ReferenceIdeal.ReadP.val_main_v167 (F := Ideal) x4) := eq_of_heq (cast_heq _ _)
  have c3 : (TRef.of (T := ⟨S_, .f32⟩) main_cst_99).ofBuf (Cert.ReferenceIdeal.ReadP.val_main_cst_1 (F := Ideal)) = (Cert.ReferenceIdeal.ReadP.val_main_cst_1 (F := Ideal)) := eq_of_heq (cast_heq _ _)
  have c4 : ∀ v : (⟨S_, .f32⟩ : BufTy).Contents (Elt Ideal), (TRef.of (T := ⟨S_, .f32⟩) main_call10_v0).ofBuf ((TRef.of (T := ⟨S_, .f32⟩) main_call10_v0).toBuf v) = v := fun v => (eq_of_heq (cast_heq _ _)).trans (eq_of_heq (cast_heq _ _))
  have c5 : ∀ v : (⟨S50000, .f32⟩ : BufTy).Contents (Elt Ideal), (TRef.of (T := ⟨S50000, .f32⟩) main_call10_v1).ofBuf ((TRef.of (T := ⟨S50000, .f32⟩) main_call10_v1).toBuf v) = v := fun v => (eq_of_heq (cast_heq _ _)).trans (eq_of_heq (cast_heq _ _))
  rw [c1, c2, c3, c4, c5]
  rfl

theorem seg_v354 (W : Valuation τ sig (Elt Ideal)) (x4 : (⟨S2x500000, .i32⟩ : BufTy).Contents (Elt Ideal))
    (h_v347 : W (Proc.devRef .tc main_v347) = (Cert.ReferenceIdeal.ReadP.val_main_v163 (F := Ideal) x4)) :
    StableHlo.after hostOps10_2 W (Proc.devRef .tc main_v354) = (Cert.ReferenceIdeal.ReadP.val_main_v170 (F := Ideal) x4) := by
  have e : W = ((StableHlo.nullary main_v347 (Cert.ReferenceIdeal.ReadP.val_main_v163 (F := Ideal) x4)).result W) := by
    rw [set_self main_v347 (Cert.ReferenceIdeal.ReadP.val_main_v163 (F := Ideal) x4) W h_v347 _]
  rw [e]
  simp only [hostOps10_2]
  after_results_simp <;> rfl

theorem seg_v356 (W : Valuation τ sig (Elt Ideal)) (x4 : (⟨S2x500000, .i32⟩ : BufTy).Contents (Elt Ideal))
    (h_v347 : W (Proc.devRef .tc main_v347) = (Cert.ReferenceIdeal.ReadP.val_main_v163 (F := Ideal) x4)) :
    StableHlo.after hostOps10_2 W (Proc.devRef .tc main_v356) = (Cert.ReferenceIdeal.ReadP.val_main_v172 (F := Ideal) x4) := by
  have e : W = ((StableHlo.nullary main_v347 (Cert.ReferenceIdeal.ReadP.val_main_v163 (F := Ideal) x4)).result W) := by
    rw [set_self main_v347 (Cert.ReferenceIdeal.ReadP.val_main_v163 (F := Ideal) x4) W h_v347 _]
  rw [e]
  simp only [hostOps10_2]
  after_results_simp <;> rfl

theorem seg_cst_102 (W : Valuation τ sig (Elt Ideal))  :
    StableHlo.after hostOps10_2 W (Proc.devRef .tc main_cst_102) = (Cert.ReferenceIdeal.ReadP.val_main_cst_1 (F := Ideal)) := by
  have e : W = W := by
    rfl
  rw [e]
  simp only [hostOps10_2]
  after_results_simp <;> rfl

theorem seg_v357 (W : Valuation τ sig (Elt Ideal)) (x4 : (⟨S2x500000, .i32⟩ : BufTy).Contents (Elt Ideal))
    (h_v354 : W (Proc.devRef .tc main_v354) = (Cert.ReferenceIdeal.ReadP.val_main_v170 (F := Ideal) x4))
    (h_v356 : W (Proc.devRef .tc main_v356) = (Cert.ReferenceIdeal.ReadP.val_main_v172 (F := Ideal) x4))
    (h_cst_102 : W (Proc.devRef .tc main_cst_102) = (Cert.ReferenceIdeal.ReadP.val_main_cst_1 (F := Ideal))) :
    StableHlo.after hostOps10_3 W (Proc.devRef .tc main_v357) = (Cert.ReferenceIdeal.ReadP.val_main_v173 (F := Ideal) x4) := by
  have e : W = ((StableHlo.nullary main_cst_102 (Cert.ReferenceIdeal.ReadP.val_main_cst_1 (F := Ideal))).result ((StableHlo.nullary main_v356 (Cert.ReferenceIdeal.ReadP.val_main_v172 (F := Ideal) x4)).result ((StableHlo.nullary main_v354 (Cert.ReferenceIdeal.ReadP.val_main_v170 (F := Ideal) x4)).result W))) := by
    rw [set_self main_v354 (Cert.ReferenceIdeal.ReadP.val_main_v170 (F := Ideal) x4) W h_v354 _, set_self main_v356 (Cert.ReferenceIdeal.ReadP.val_main_v172 (F := Ideal) x4) W h_v356 _, set_self main_cst_102 (Cert.ReferenceIdeal.ReadP.val_main_cst_1 (F := Ideal)) W h_cst_102 _]
  rw [e]
  simp only [hostOps10_3]
  after_results_simp
  refine (eq_of_heq (cast_heq _ _)).trans ?_
  have c1 : (TRef.of (T := ⟨S10000, .i1⟩) main_v354).ofBuf (Cert.ReferenceIdeal.ReadP.val_main_v170 (F := Ideal) x4) = (Cert.ReferenceIdeal.ReadP.val_main_v170 (F := Ideal) x4) := eq_of_heq (cast_heq _ _)
  have c2 : (TRef.of (T := ⟨S10000, .f32⟩) main_v356).ofBuf (Cert.ReferenceIdeal.ReadP.val_main_v172 (F := Ideal) x4) = (Cert.ReferenceIdeal.ReadP.val_main_v172 (F := Ideal) x4) := eq_of_heq (cast_heq _ _)
  have c3 : (TRef.of (T := ⟨S_, .f32⟩) main_cst_102).ofBuf (Cert.ReferenceIdeal.ReadP.val_main_cst_1 (F := Ideal)) = (Cert.ReferenceIdeal.ReadP.val_main_cst_1 (F := Ideal)) := eq_of_heq (cast_heq _ _)
  have c4 : ∀ v : (⟨S_, .f32⟩ : BufTy).Contents (Elt Ideal), (TRef.of (T := ⟨S_, .f32⟩) main_call11_v0).ofBuf ((TRef.of (T := ⟨S_, .f32⟩) main_call11_v0).toBuf v) = v := fun v => (eq_of_heq (cast_heq _ _)).trans (eq_of_heq (cast_heq _ _))
  have c5 : ∀ v : (⟨S10000, .f32⟩ : BufTy).Contents (Elt Ideal), (TRef.of (T := ⟨S10000, .f32⟩) main_call11_v1).ofBuf ((TRef.of (T := ⟨S10000, .f32⟩) main_call11_v1).toBuf v) = v := fun v => (eq_of_heq (cast_heq _ _)).trans (eq_of_heq (cast_heq _ _))
  rw [c1, c2, c3, c4, c5]
  rfl

theorem seg_v385 (W : Valuation τ sig (Elt Ideal)) (x0 : (⟨S50000x64, .f32⟩ : BufTy).Contents (Elt Ideal)) (x1 : (⟨S10000x64, .f32⟩ : BufTy).Contents (Elt Ideal)) (x2 : (⟨S2x1600000, .i32⟩ : BufTy).Contents (Elt Ideal)) (x4 : (⟨S2x500000, .i32⟩ : BufTy).Contents (Elt Ideal)) (x5 : (⟨S2x500000, .i32⟩ : BufTy).Contents (Elt Ideal)) (x6 : (⟨S64x64, .f32⟩ : BufTy).Contents (Elt Ideal)) (x7 : (⟨S64, .f32⟩ : BufTy).Contents (Elt Ideal)) (x12 : (⟨S64x64, .f32⟩ : BufTy).Contents (Elt Ideal)) (x13 : (⟨S64, .f32⟩ : BufTy).Contents (Elt Ideal)) (x18 : (⟨S64x32, .f32⟩ : BufTy).Contents (Elt Ideal))
    (h_v340 : W (Proc.devRef .tc main_v340) = (Cert.ReferenceIdeal.ReadP.val_main_v156 (F := Ideal) x4))
    (h_v336 : W (Proc.devRef .tc main_v336) = (Cert.ReferenceIdeal.ReadP.val_main_v360 (F := Ideal) x0 x1 x2 x5 x6 x7 x12 x13 x18))
    (h_v338 : W (Proc.devRef .tc main_v338) = (Cert.ReferenceIdeal.ReadP.val_main_v154 (F := Ideal) x4))
    (h_v352 : W (Proc.devRef .tc main_v352) = (Cert.ReferenceIdeal.ReadP.val_main_v168 (F := Ideal) x4))
    (h_v357 : W (Proc.devRef .tc main_v357) = (Cert.ReferenceIdeal.ReadP.val_main_v173 (F := Ideal) x4)) :
    StableHlo.after hostOps10_4 W (Proc.devRef .tc main_v385) = (Cert.ReferenceIdeal.ReadP.val_main_v409 (F := Ideal) x0 x1 x2 x4 x5 x6 x7 x12 x13 x18) := by
  have e : W = ((StableHlo.nullary main_v357 (Cert.ReferenceIdeal.ReadP.val_main_v173 (F := Ideal) x4)).result ((StableHlo.nullary main_v352 (Cert.ReferenceIdeal.ReadP.val_main_v168 (F := Ideal) x4)).result ((StableHlo.nullary main_v338 (Cert.ReferenceIdeal.ReadP.val_main_v154 (F := Ideal) x4)).result ((StableHlo.nullary main_v336 (Cert.ReferenceIdeal.ReadP.val_main_v360 (F := Ideal) x0 x1 x2 x5 x6 x7 x12 x13 x18)).result ((StableHlo.nullary main_v340 (Cert.ReferenceIdeal.ReadP.val_main_v156 (F := Ideal) x4)).result W))))) := by
    rw [set_self main_v340 (Cert.ReferenceIdeal.ReadP.val_main_v156 (F := Ideal) x4) W h_v340 _, set_self main_v336 (Cert.ReferenceIdeal.ReadP.val_main_v360 (F := Ideal) x0 x1 x2 x5 x6 x7 x12 x13 x18) W h_v336 _, set_self main_v338 (Cert.ReferenceIdeal.ReadP.val_main_v154 (F := Ideal) x4) W h_v338 _, set_self main_v352 (Cert.ReferenceIdeal.ReadP.val_main_v168 (F := Ideal) x4) W h_v352 _, set_self main_v357 (Cert.ReferenceIdeal.ReadP.val_main_v173 (F := Ideal) x4) W h_v357 _]
  rw [e]
  simp only [hostOps10_4]
  after_results_simp <;> rfl

theorem seg_v387 (W : Valuation τ sig (Elt Ideal)) (x17 : (⟨S32, .f32⟩ : BufTy).Contents (Elt Ideal)) (x19 : (⟨S32, .f32⟩ : BufTy).Contents (Elt Ideal))
    (h_arg17 : W (Proc.devRef .tc main_arg17) = x17)
    (h_arg19 : W (Proc.devRef .tc main_arg19) = x19) :
    StableHlo.after hostOps10_4 W (Proc.devRef .tc main_v387) = (addf (F := Ideal) (s := S32) (φ := .f32) x17 x19) := by
  have e : W = ((StableHlo.nullary main_arg19 x19).result ((StableHlo.nullary main_arg17 x17).result W)) := by
    rw [set_self main_arg17 x17 W h_arg17 _, set_self main_arg19 x19 W h_arg19 _]
  rw [e]
  simp only [hostOps10_4]
  after_results_simp <;> rfl

theorem seg_v388 (W : Valuation τ sig (Elt Ideal)) (x15 : (⟨S32, .f32⟩ : BufTy).Contents (Elt Ideal)) (x21 : (⟨S32, .f32⟩ : BufTy).Contents (Elt Ideal))
    (h_arg15 : W (Proc.devRef .tc main_arg15) = x15)
    (h_arg21 : W (Proc.devRef .tc main_arg21) = x21) :
    StableHlo.after hostOps10_4 W (Proc.devRef .tc main_v388) = (shapeCast S1x32 (addf (F := Ideal) (s := S32) (φ := .f32) x15 x21) shapeCasts_S32_S1x32 : (⟨S1x32, .f32⟩ : BufTy).Contents (Elt Ideal)) := by
  have e : W = ((StableHlo.nullary main_arg21 x21).result ((StableHlo.nullary main_arg15 x15).result W)) := by
    rw [set_self main_arg15 x15 W h_arg15 _, set_self main_arg21 x21 W h_arg21 _]
  rw [e]
  simp only [hostOps10_4]
  after_results_simp <;> rfl

end Cert.KernelIdeal.Glue

end
-- ==== Proof.Glue11.lean ====
import proofs.«143428_j3564822855941_1_alg».proof.Proof.SetSelf
import proofs.«143428_j3564822855941_1_alg».proof.Proof.ReferenceIdealReadP
import Idealize.ShloMosaic.Lib.Pipeline.Value

/-! Stretches of host operations of the kernel program, one at a time: what each stretch leaves in a buffer that is
    read later, as a term of the contents the stretch finds, is the reference's stage for the same value (the degree
    counts, their inverse square roots, the edge normalisation, the gathered and scaled rows, the scattered sums): the
    two programs apply the same operations in the same order. The bias sums have no stage of the reference; they are
    stated as they are. -/

set_option maxRecDepth 16384
set_option maxHeartbeats 4000000

noncomputable section

namespace Cert.KernelIdeal.Glue

open Cert.KernelIdeal Cert.KernelIdeal.Gen Idealize.ShloMosaic Idealize.ShloMosaic.TcCoe Idealize.ShloMosaic.StableHlo

theorem seg_v390 (W : Valuation τ sig (Elt Ideal)) (x17 : (⟨S32, .f32⟩ : BufTy).Contents (Elt Ideal)) (x19 : (⟨S32, .f32⟩ : BufTy).Contents (Elt Ideal))
    (h_v387 : W (Proc.devRef .tc main_v387) = (addf (F := Ideal) (s := S32) (φ := .f32) x17 x19)) :
    StableHlo.after hostOps11 W (Proc.devRef .tc main_v390) = (shapeCast S1x32 (addf (F := Ideal) (s := S32) (φ := .f32) x17 x19) shapeCasts_S32_S1x32 : (⟨S1x32, .f32⟩ : BufTy).Contents (Elt Ideal)) := by
  have e : W = ((StableHlo.nullary main_v387 (addf (F := Ideal) (s := S32) (φ := .f32) x17 x19)).result W) := by
    rw [set_self main_v387 (addf (F := Ideal) (s := S32) (φ := .f32) x17 x19) W h_v387 _]
  rw [e]
  simp only [hostOps11]
  after_results_simp <;> rfl

end Cert.KernelIdeal.Glue

end
-- ==== Proof.Bridge.lean ====
import proofs.«143428_j3564822855941_1_alg».proof.Proof.Spec
import proofs.«143428_j3564822855941_1_alg».proof.Proof.Gen.KernelIdeal
import proofs.«143428_j3564822855941_1_alg».proof.Proof.ReferenceIdealReadP
import Idealize.ShloMosaic.Lib.ValueIdx
import Idealize.ShloMosaic.Lib.Pipeline.Value

/-! Where the two programs differ: the kernel adds the two relations' biases first and adds their sum once to the
    sum of the two message arrays; the reference adds each bias to its own message array and then adds the two. -/

set_option maxRecDepth 16384

noncomputable section

namespace Cert.KernelIdeal.Bridge

open Cert.KernelIdeal Cert.KernelIdeal.Gen Idealize.ShloMosaic

/-- The combining kernel's clamped sum `max (a + b + (β₁ + β₂)) 0` is the reference's `max ((a + β₁) + (b + β₂)) 0`:
    addition of extended reals is commutative and associative, so the four terms may be regrouped (no
    cancellation is used, hence no finiteness). Here `a`, `b` are the two relations' message arrays and
    `β₁`, `β₂` the two bias vectors, read at the position's column. -/
theorem comb4 (x0 : (⟨S50000x64, .f32⟩ : BufTy).Contents (Elt Ideal)) (x1 : (⟨S10000x64, .f32⟩ : BufTy).Contents (Elt Ideal)) (x2 : (⟨S2x1600000, .i32⟩ : BufTy).Contents (Elt Ideal)) (x5 : (⟨S2x500000, .i32⟩ : BufTy).Contents (Elt Ideal)) (x6 : (⟨S64x64, .f32⟩ : BufTy).Contents (Elt Ideal)) (x7 : (⟨S64, .f32⟩ : BufTy).Contents (Elt Ideal)) (x12 : (⟨S64x64, .f32⟩ : BufTy).Contents (Elt Ideal)) (x13 : (⟨S64, .f32⟩ : BufTy).Contents (Elt Ideal)) :
    Spec.R4.comb (Cert.ReferenceIdeal.ReadP.val_main_v45 (F := Ideal) x0 x2 x6) (Cert.ReferenceIdeal.ReadP.val_main_v98 (F := Ideal) x1 x5 x12) (shapeCast S1x64 (addf (F := Ideal) (s := S64) (φ := .f32) x7 x13) shapeCasts_S64_S1x64 : (⟨S1x64, .f32⟩ : BufTy).Contents (Elt Ideal)) = (Cert.ReferenceIdeal.ReadP.val_main_v206 (F := Ideal) x0 x1 x2 x5 x6 x7 x12 x13) := by
  funext i
  rw [Cert.ReferenceIdeal.ReadP.val_main_v206_apply, Cert.ReferenceIdeal.ReadP.val_main_v102_apply, Cert.ReferenceIdeal.ReadP.val_main_v48_apply, Cert.ReferenceIdeal.ReadP.val_main_v101_apply, Cert.ReferenceIdeal.ReadP.val_main_v47_apply, Cert.ReferenceIdeal.ReadP.val_main_v46_apply, Cert.ReferenceIdeal.ReadP.val_main_v100_apply, Cert.ReferenceIdeal.ReadP.val_main_v99_apply, Cert.ReferenceIdeal.ReadP.val_main_call6_v0_apply, Cert.ReferenceIdeal.ReadP.val_main_call6_cst_apply]
  have hb : (shapeCast S1x64 (addf (F := Ideal) (s := S64) (φ := .f32) x7 x13) shapeCasts_S64_S1x64 : (⟨S1x64, .f32⟩ : BufTy).Contents (Elt Ideal)) (Spec.R4.bpos i) = x7 (Cert.ReferenceIdeal.ReadP.idx_main_v46 (Cert.ReferenceIdeal.ReadP.idx_main_v47 i)) + x13 (Cert.ReferenceIdeal.ReadP.idx_main_v99 (Cert.ReferenceIdeal.ReadP.idx_main_v100 i)) :=
    shapeCast_apply (addf (F := Ideal) (s := S64) (φ := .f32) x7 x13) shapeCasts_S64_S1x64 (Spec.R4.bpos i) (Cert.ReferenceIdeal.ReadP.idx_main_v46 (Cert.ReferenceIdeal.ReadP.idx_main_v47 i)) (by
      rw [Shape.rowMajor_val_one, Shape.rowMajor_val_two]
      show (i 1).val = 0 * 64 + (i 1).val
      omega)
  show max ((Cert.ReferenceIdeal.ReadP.val_main_v45 (F := Ideal) x0 x2 x6) i + (Cert.ReferenceIdeal.ReadP.val_main_v98 (F := Ideal) x1 x5 x12) i + (shapeCast S1x64 (addf (F := Ideal) (s := S64) (φ := .f32) x7 x13) shapeCasts_S64_S1x64 : (⟨S1x64, .f32⟩ : BufTy).Contents (Elt Ideal)) (Spec.R4.bpos i)) _ = _
  rw [hb, add_add_add_comm]
  rfl

/-- The combining kernel's clamped sum `max (a + b + (β₁ + β₂)) 0` is the reference's `max ((a + β₁) + (b + β₂)) 0`:
    addition of extended reals is commutative and associative, so the four terms may be regrouped (no
    cancellation is used, hence no finiteness). Here `a`, `b` are the two relations' message arrays and
    `β₁`, `β₂` the two bias vectors, read at the position's column. -/
theorem comb5 (x0 : (⟨S50000x64, .f32⟩ : BufTy).Contents (Elt Ideal)) (x1 : (⟨S10000x64, .f32⟩ : BufTy).Contents (Elt Ideal)) (x3 : (⟨S2x320000, .i32⟩ : BufTy).Contents (Elt Ideal)) (x4 : (⟨S2x500000, .i32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) :
    Spec.R5.comb (Cert.ReferenceIdeal.ReadP.val_main_v148 (F := Ideal) x1 x3 x8) (Cert.ReferenceIdeal.ReadP.val_main_v201 (F := Ideal) x0 x4 x10) (shapeCast S1x64 (addf (F := Ideal) (s := S64) (φ := .f32) x9 x11) shapeCasts_S64_S1x64 : (⟨S1x64, .f32⟩ : BufTy).Contents (Elt Ideal)) = (Cert.ReferenceIdeal.ReadP.val_main_v207 (F := Ideal) x0 x1 x3 x4 x8 x9 x10 x11) := by
  funext i
  rw [Cert.ReferenceIdeal.ReadP.val_main_v207_apply, Cert.ReferenceIdeal.ReadP.val_main_v205_apply, Cert.ReferenceIdeal.ReadP.val_main_v151_apply, Cert.ReferenceIdeal.ReadP.val_main_v204_apply, Cert.ReferenceIdeal.ReadP.val_main_v150_apply, Cert.ReferenceIdeal.ReadP.val_main_v149_apply, Cert.ReferenceIdeal.ReadP.val_main_v203_apply, Cert.ReferenceIdeal.ReadP.val_main_v202_apply, Cert.ReferenceIdeal.ReadP.val_main_call7_v0_apply, Cert.ReferenceIdeal.ReadP.val_main_call7_cst_apply]
  have hb : (shapeCast S1x64 (addf (F := Ideal) (s := S64) (φ := .f32) x9 x11) shapeCasts_S64_S1x64 : (⟨S1x64, .f32⟩ : BufTy).Contents (Elt Ideal)) (Spec.R5.bpos i) = x9 (Cert.ReferenceIdeal.ReadP.idx_main_v149 (Cert.ReferenceIdeal.ReadP.idx_main_v150 i)) + x11 (Cert.ReferenceIdeal.ReadP.idx_main_v202 (Cert.ReferenceIdeal.ReadP.idx_main_v203 i)) :=
    shapeCast_apply (addf (F := Ideal) (s := S64) (φ := .f32) x9 x11) shapeCasts_S64_S1x64 (Spec.R5.bpos i) (Cert.ReferenceIdeal.ReadP.idx_main_v149 (Cert.ReferenceIdeal.ReadP.idx_main_v150 i)) (by
      rw [Shape.rowMajor_val_one, Shape.rowMajor_val_two]
      show (i 1).val = 0 * 64 + (i 1).val
      omega)
  show max ((Cert.ReferenceIdeal.ReadP.val_main_v148 (F := Ideal) x1 x3 x8) i + (Cert.ReferenceIdeal.ReadP.val_main_v201 (F := Ideal) x0 x4 x10) i + (shapeCast S1x64 (addf (F := Ideal) (s := S64) (φ := .f32) x9 x11) shapeCasts_S64_S1x64 : (⟨S1x64, .f32⟩ : BufTy).Contents (Elt Ideal)) (Spec.R5.bpos i)) _ = _
  rw [hb, add_add_add_comm]
  rfl

/-- The combining kernel's clamped sum `max (a + b + (β₁ + β₂)) 0` is the reference's `max ((a + β₁) + (b + β₂)) 0`:
    addition of extended reals is commutative and associative, so the four terms may be regrouped (no
    cancellation is used, hence no finiteness). Here `a`, `b` are the two relations' message arrays and
    `β₁`, `β₂` the two bias vectors, read at the position's column. -/
theorem comb10 (x0 : (⟨S50000x64, .f32⟩ : BufTy).Contents (Elt Ideal)) (x1 : (⟨S10000x64, .f32⟩ : BufTy).Contents (Elt Ideal)) (x2 : (⟨S2x1600000, .i32⟩ : BufTy).Contents (Elt Ideal)) (x3 : (⟨S2x320000, .i32⟩ : BufTy).Contents (Elt Ideal)) (x4 : (⟨S2x500000, .i32⟩ : BufTy).Contents (Elt Ideal)) (x5 : (⟨S2x500000, .i32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (x12 : (⟨S64x64, .f32⟩ : BufTy).Contents (Elt Ideal)) (x13 : (⟨S64, .f32⟩ : BufTy).Contents (Elt Ideal)) (x14 : (⟨S64x32, .f32⟩ : BufTy).Contents (Elt Ideal)) (x15 : (⟨S32, .f32⟩ : BufTy).Contents (Elt Ideal)) (x20 : (⟨S64x32, .f32⟩ : BufTy).Contents (Elt Ideal)) (x21 : (⟨S32, .f32⟩ : BufTy).Contents (Elt Ideal)) :
    Spec.R10.comb (Cert.ReferenceIdeal.ReadP.val_main_v253 (F := Ideal) x0 x1 x2 x5 x6 x7 x12 x13 x14) (Cert.ReferenceIdeal.ReadP.val_main_v306 (F := Ideal) x0 x1 x3 x4 x5 x8 x9 x10 x11 x20) (shapeCast S1x32 (addf (F := Ideal) (s := S32) (φ := .f32) x15 x21) shapeCasts_S32_S1x32 : (⟨S1x32, .f32⟩ : BufTy).Contents (Elt Ideal)) = (Cert.ReferenceIdeal.ReadP.val_main_v414 (F := Ideal) x0 x1 x2 x3 x4 x5 x6 x7 x8 x9 x10 x11 x12 x13 x14 x15 x20 x21) := by
  funext i
  rw [Cert.ReferenceIdeal.ReadP.val_main_v414_apply, Cert.ReferenceIdeal.ReadP.val_main_v310_apply, Cert.ReferenceIdeal.ReadP.val_main_v256_apply, Cert.ReferenceIdeal.ReadP.val_main_v309_apply, Cert.ReferenceIdeal.ReadP.val_main_v255_apply, Cert.ReferenceIdeal.ReadP.val_main_v254_apply, Cert.ReferenceIdeal.ReadP.val_main_v308_apply, Cert.ReferenceIdeal.ReadP.val_main_v307_apply, Cert.ReferenceIdeal.ReadP.val_main_call14_v0_apply, Cert.ReferenceIdeal.ReadP.val_main_call14_cst_apply]
  have hb : (shapeCast S1x32 (addf (F := Ideal) (s := S32) (φ := .f32) x15 x21) shapeCasts_S32_S1x32 : (⟨S1x32, .f32⟩ : BufTy).Contents (Elt Ideal)) (Spec.R10.bpos i) = x15 (Cert.ReferenceIdeal.ReadP.idx_main_v254 (Cert.ReferenceIdeal.ReadP.idx_main_v255 i)) + x21 (Cert.ReferenceIdeal.ReadP.idx_main_v307 (Cert.ReferenceIdeal.ReadP.idx_main_v308 i)) :=
    shapeCast_apply (addf (F := Ideal) (s := S32) (φ := .f32) x15 x21) shapeCasts_S32_S1x32 (Spec.R10.bpos i) (Cert.ReferenceIdeal.ReadP.idx_main_v254 (Cert.ReferenceIdeal.ReadP.idx_main_v255 i)) (by
      rw [Shape.rowMajor_val_one, Shape.rowMajor_val_two]
      show (i 1).val = 0 * 32 + (i 1).val
      omega)
  show max ((Cert.ReferenceIdeal.ReadP.val_main_v253 (F := Ideal) x0 x1 x2 x5 x6 x7 x12 x13 x14) i + (Cert.ReferenceIdeal.ReadP.val_main_v306 (F := Ideal) x0 x1 x3 x4 x5 x8 x9 x10 x11 x20) i + (shapeCast S1x32 (addf (F := Ideal) (s := S32) (φ := .f32) x15 x21) shapeCasts_S32_S1x32 : (⟨S1x32, .f32⟩ : BufTy).Contents (Elt Ideal)) (Spec.R10.bpos i)) _ = _
  rw [hb, add_add_add_comm]
  rfl

/-- The combining kernel's clamped sum `max (a + b + (β₁ + β₂)) 0` is the reference's `max ((a + β₁) + (b + β₂)) 0`:
    addition of extended reals is commutative and associative, so the four terms may be regrouped (no
    cancellation is used, hence no finiteness). Here `a`, `b` are the two relations' message arrays and
    `β₁`, `β₂` the two bias vectors, read at the position's column. -/
theorem comb11 (x0 : (⟨S50000x64, .f32⟩ : BufTy).Contents (Elt Ideal)) (x1 : (⟨S10000x64, .f32⟩ : BufTy).Contents (Elt Ideal)) (x2 : (⟨S2x1600000, .i32⟩ : BufTy).Contents (Elt Ideal)) (x3 : (⟨S2x320000, .i32⟩ : BufTy).Contents (Elt Ideal)) (x4 : (⟨S2x500000, .i32⟩ : BufTy).Contents (Elt Ideal)) (x5 : (⟨S2x500000, .i32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (x12 : (⟨S64x64, .f32⟩ : BufTy).Contents (Elt Ideal)) (x13 : (⟨S64, .f32⟩ : BufTy).Contents (Elt Ideal)) (x16 : (⟨S64x32, .f32⟩ : BufTy).Contents (Elt Ideal)) (x17 : (⟨S32, .f32⟩ : BufTy).Contents (Elt Ideal)) (x18 : (⟨S64x32, .f32⟩ : BufTy).Contents (Elt Ideal)) (x19 : (⟨S32, .f32⟩ : BufTy).Contents (Elt Ideal)) :
    Spec.R11.comb (Cert.ReferenceIdeal.ReadP.val_main_v356 (F := Ideal) x0 x1 x3 x4 x8 x9 x10 x11 x16) (Cert.ReferenceIdeal.ReadP.val_main_v409 (F := Ideal) x0 x1 x2 x4 x5 x6 x7 x12 x13 x18) (shapeCast S1x32 (addf (F := Ideal) (s := S32) (φ := .f32) x17 x19) shapeCasts_S32_S1x32 : (⟨S1x32, .f32⟩ : BufTy).Contents (Elt Ideal)) = (Cert.ReferenceIdeal.ReadP.val_main_v415 (F := Ideal) x0 x1 x2 x3 x4 x5 x6 x7 x8 x9 x10 x11 x12 x13 x16 x17 x18 x19) := by
  funext i
  rw [Cert.ReferenceIdeal.ReadP.val_main_v415_apply, Cert.ReferenceIdeal.ReadP.val_main_v413_apply, Cert.ReferenceIdeal.ReadP.val_main_v359_apply, Cert.ReferenceIdeal.ReadP.val_main_v412_apply, Cert.ReferenceIdeal.ReadP.val_main_v358_apply, Cert.ReferenceIdeal.ReadP.val_main_v357_apply, Cert.ReferenceIdeal.ReadP.val_main_v411_apply, Cert.ReferenceIdeal.ReadP.val_main_v410_apply, Cert.ReferenceIdeal.ReadP.val_main_call15_v0_apply, Cert.ReferenceIdeal.ReadP.val_main_call15_cst_apply]
  have hb : (shapeCast S1x32 (addf (F := Ideal) (s := S32) (φ := .f32) x17 x19) shapeCasts_S32_S1x32 : (⟨S1x32, .f32⟩ : BufTy).Contents (Elt Ideal)) (Spec.R11.bpos i) = x17 (Cert.ReferenceIdeal.ReadP.idx_main_v357 (Cert.ReferenceIdeal.ReadP.idx_main_v358 i)) + x19 (Cert.ReferenceIdeal.ReadP.idx_main_v410 (Cert.ReferenceIdeal.ReadP.idx_main_v411 i)) :=
    shapeCast_apply (addf (F := Ideal) (s := S32) (φ := .f32) x17 x19) shapeCasts_S32_S1x32 (Spec.R11.bpos i) (Cert.ReferenceIdeal.ReadP.idx_main_v357 (Cert.ReferenceIdeal.ReadP.idx_main_v358 i)) (by
      rw [Shape.rowMajor_val_one, Shape.rowMajor_val_two]
      show (i 1).val = 0 * 32 + (i 1).val
      omega)
  show max ((Cert.ReferenceIdeal.ReadP.val_main_v356 (F := Ideal) x0 x1 x3 x4 x8 x9 x10 x11 x16) i + (Cert.ReferenceIdeal.ReadP.val_main_v409 (F := Ideal) x0 x1 x2 x4 x5 x6 x7 x12 x13 x18) i + (shapeCast S1x32 (addf (F := Ideal) (s := S32) (φ := .f32) x17 x19) shapeCasts_S32_S1x32 : (⟨S1x32, .f32⟩ : BufTy).Contents (Elt Ideal)) (Spec.R11.bpos i)) _ = _
  rw [hb, add_add_add_comm]
  rfl

end Cert.KernelIdeal.Bridge

end
-- ==== Proof.Writes.lean ====
import proofs.«143428_j3564822855941_1_alg».proof.Proof.Gen.KernelIdeal.Launch
import Idealize.ShloMosaic.Lib.StableHlo.Run
import Idealize.ShloMosaic.PureOps.Ideal

/-! For each stretch of host operations of the kernel program: the buffers its operations write. A buffer outside
    that list keeps its contents over the stretch. -/

set_option maxRecDepth 16384

noncomputable section

namespace Cert.KernelIdeal.Writes

open Cert.KernelIdeal Cert.KernelIdeal.Gen Idealize.ShloMosaic Idealize.ShloMosaic.TcCoe Idealize.ShloMosaic.StableHlo

/-- Every operation of `hostOps1` writes one of these buffers. -/
theorem hostOps1 : (Gen.hostOps1 : List (HloOp τ sig (Elt Ideal))).Forall fun op => op.writes ⊆ (([main_v1, main_v2, main_v3, main_v4, main_v5, main_v6, main_v7, main_cst, main_v8, main_cst_0, main_v9, main_v10, main_v11, main_cst_1, main_v12, main_v13, main_cst_2, main_v14, main_v15, main_cst_3] : List (Ref sig .tc)).map (Proc.devRef (τ := τ) .tc)).toFinset := by
  simp only [Gen.hostOps1, List.Forall, StableHlo.nullary_writes, StableHlo.unary_writes, StableHlo.binary_writes, StableHlo.ternary_writes, StableHlo.reshape_writes, Finset.singleton_subset_iff, List.toFinset_cons, List.map_cons, List.map_nil, List.toFinset_nil, Finset.mem_insert, true_or, or_true, and_self]

/-- Every operation of `hostOps1_1` writes one of these buffers. -/
theorem hostOps1_1 : (Gen.hostOps1_1 : List (HloOp τ sig (Elt Ideal))).Forall fun op => op.writes ⊆ (([main_call0_v0, main_call0_v1, main_v16] : List (Ref sig .tc)).map (Proc.devRef (τ := τ) .tc)).toFinset := by
  simp only [Gen.hostOps1_1, List.Forall, StableHlo.nullary_writes, StableHlo.unary_writes, StableHlo.binary_writes, StableHlo.ternary_writes, StableHlo.reshape_writes, Finset.singleton_subset_iff, List.toFinset_cons, List.map_cons, List.map_nil, List.toFinset_nil, Finset.mem_insert, true_or, or_true, and_self]

/-- Every operation of `hostOps1_2` writes one of these buffers. -/
theorem hostOps1_2 : (Gen.hostOps1_2 : List (HloOp τ sig (Elt Ideal))).Forall fun op => op.writes ⊆ (([main_c, main_v17, main_v18, main_c_4, main_v19, main_v20, main_v21, main_v22, main_v23, main_c_5, main_v24, main_v25, main_c_6, main_v26, main_v27, main_v28, main_v29, main_v30, main_v31, main_c_7, main_v32, main_v33, main_c_8, main_v34, main_v35, main_v36, main_v37, main_v38, main_v39, main_v40, main_v41, main_cst_9, main_v42, main_v43, main_v44] : List (Ref sig .tc)).map (Proc.devRef (τ := τ) .tc)).toFinset := by
  simp only [Gen.hostOps1_2, List.Forall, StableHlo.nullary_writes, StableHlo.unary_writes, StableHlo.binary_writes, StableHlo.ternary_writes, StableHlo.reshape_writes, Finset.singleton_subset_iff, List.toFinset_cons, List.map_cons, List.map_nil, List.toFinset_nil, Finset.mem_insert, true_or, or_true, and_self]

/-- Every operation of `hostOps2` writes one of these buffers. -/
theorem hostOps2 : (Gen.hostOps2 : List (HloOp τ sig (Elt Ideal))).Forall fun op => op.writes ⊆ (([main_v46, main_v47, main_v48, main_v49, main_cst_10, main_v50, main_cst_11, main_v51, main_v52, main_v53, main_cst_12, main_v54, main_v55, main_v56, main_cst_13, main_v57, main_v58, main_cst_14, main_v59, main_v60, main_cst_15] : List (Ref sig .tc)).map (Proc.devRef (τ := τ) .tc)).toFinset := by
  simp only [Gen.hostOps2, List.Forall, StableHlo.nullary_writes, StableHlo.unary_writes, StableHlo.binary_writes, StableHlo.ternary_writes, StableHlo.reshape_writes, Finset.singleton_subset_iff, List.toFinset_cons, List.map_cons, List.map_nil, List.toFinset_nil, Finset.mem_insert, true_or, or_true, and_self]

/-- Every operation of `hostOps2_1` writes one of these buffers. -/
theorem hostOps2_1 : (Gen.hostOps2_1 : List (HloOp τ sig (Elt Ideal))).Forall fun op => op.writes ⊆ (([main_call1_v0, main_call1_v1, main_v61] : List (Ref sig .tc)).map (Proc.devRef (τ := τ) .tc)).toFinset := by
  simp only [Gen.hostOps2_1, List.Forall, StableHlo.nullary_writes, StableHlo.unary_writes, StableHlo.binary_writes, StableHlo.ternary_writes, StableHlo.reshape_writes, Finset.singleton_subset_iff, List.toFinset_cons, List.map_cons, List.map_nil, List.toFinset_nil, Finset.mem_insert, true_or, or_true, and_self]

/-- Every operation of `hostOps2_2` writes one of these buffers. -/
theorem hostOps2_2 : (Gen.hostOps2_2 : List (HloOp τ sig (Elt Ideal))).Forall fun op => op.writes ⊆ (([main_cst_16, main_v62, main_v63, main_cst_17, main_v64, main_v65, main_cst_18] : List (Ref sig .tc)).map (Proc.devRef (τ := τ) .tc)).toFinset := by
  simp only [Gen.hostOps2_2, List.Forall, StableHlo.nullary_writes, StableHlo.unary_writes, StableHlo.binary_writes, StableHlo.ternary_writes, StableHlo.reshape_writes, Finset.singleton_subset_iff, List.toFinset_cons, List.map_cons, List.map_nil, List.toFinset_nil, Finset.mem_insert, true_or, or_true, and_self]

/-- Every operation of `hostOps2_3` writes one of these buffers. -/
theorem hostOps2_3 : (Gen.hostOps2_3 : List (HloOp τ sig (Elt Ideal))).Forall fun op => op.writes ⊆ (([main_call2_v0, main_call2_v1, main_v66] : List (Ref sig .tc)).map (Proc.devRef (τ := τ) .tc)).toFinset := by
  simp only [Gen.hostOps2_3, List.Forall, StableHlo.nullary_writes, StableHlo.unary_writes, StableHlo.binary_writes, StableHlo.ternary_writes, StableHlo.reshape_writes, Finset.singleton_subset_iff, List.toFinset_cons, List.map_cons, List.map_nil, List.toFinset_nil, Finset.mem_insert, true_or, or_true, and_self]

/-- Every operation of `hostOps2_4` writes one of these buffers. -/
theorem hostOps2_4 : (Gen.hostOps2_4 : List (HloOp τ sig (Elt Ideal))).Forall fun op => op.writes ⊆ (([main_c_19, main_v67, main_v68, main_c_20, main_v69, main_v70, main_v71, main_v72, main_v73, main_c_21, main_v74, main_v75, main_c_22, main_v76, main_v77, main_v78, main_v79, main_v80, main_v81, main_c_23, main_v82, main_v83, main_c_24, main_v84, main_v85, main_v86, main_v87, main_v88, main_v89, main_v90, main_v91, main_cst_25, main_v92, main_v93, main_v94] : List (Ref sig .tc)).map (Proc.devRef (τ := τ) .tc)).toFinset := by
  simp only [Gen.hostOps2_4, List.Forall, StableHlo.nullary_writes, StableHlo.unary_writes, StableHlo.binary_writes, StableHlo.ternary_writes, StableHlo.reshape_writes, Finset.singleton_subset_iff, List.toFinset_cons, List.map_cons, List.map_nil, List.toFinset_nil, Finset.mem_insert, true_or, or_true, and_self]

/-- Every operation of `hostOps3` writes one of these buffers. -/
theorem hostOps3 : (Gen.hostOps3 : List (HloOp τ sig (Elt Ideal))).Forall fun op => op.writes ⊆ (([main_v96, main_v97, main_v98, main_v99, main_v100, main_v101, main_v102, main_cst_26, main_v103, main_cst_27, main_v104, main_v105, main_v106, main_cst_28, main_v107, main_v108, main_cst_29, main_v109, main_v110, main_cst_30] : List (Ref sig .tc)).map (Proc.devRef (τ := τ) .tc)).toFinset := by
  simp only [Gen.hostOps3, List.Forall, StableHlo.nullary_writes, StableHlo.unary_writes, StableHlo.binary_writes, StableHlo.ternary_writes, StableHlo.reshape_writes, Finset.singleton_subset_iff, List.toFinset_cons, List.map_cons, List.map_nil, List.toFinset_nil, Finset.mem_insert, true_or, or_true, and_self]

/-- Every operation of `hostOps3_1` writes one of these buffers. -/
theorem hostOps3_1 : (Gen.hostOps3_1 : List (HloOp τ sig (Elt Ideal))).Forall fun op => op.writes ⊆ (([main_call3_v0, main_call3_v1, main_v111] : List (Ref sig .tc)).map (Proc.devRef (τ := τ) .tc)).toFinset := by
  simp only [Gen.hostOps3_1, List.Forall, StableHlo.nullary_writes, StableHlo.unary_writes, StableHlo.binary_writes, StableHlo.ternary_writes, StableHlo.reshape_writes, Finset.singleton_subset_iff, List.toFinset_cons, List.map_cons, List.map_nil, List.toFinset_nil, Finset.mem_insert, true_or, or_true, and_self]

/-- Every operation of `hostOps3_2` writes one of these buffers. -/
theorem hostOps3_2 : (Gen.hostOps3_2 : List (HloOp τ sig (Elt Ideal))).Forall fun op => op.writes ⊆ (([main_c_31, main_v112, main_v113, main_c_32, main_v114, main_v115, main_v116, main_v117, main_v118, main_c_33, main_v119, main_v120, main_c_34, main_v121, main_v122, main_v123, main_v124, main_v125, main_v126, main_c_35, main_v127, main_v128, main_c_36, main_v129, main_v130, main_v131, main_v132, main_v133, main_v134, main_v135, main_v136, main_cst_37, main_v137, main_v138, main_v139] : List (Ref sig .tc)).map (Proc.devRef (τ := τ) .tc)).toFinset := by
  simp only [Gen.hostOps3_2, List.Forall, StableHlo.nullary_writes, StableHlo.unary_writes, StableHlo.binary_writes, StableHlo.ternary_writes, StableHlo.reshape_writes, Finset.singleton_subset_iff, List.toFinset_cons, List.map_cons, List.map_nil, List.toFinset_nil, Finset.mem_insert, true_or, or_true, and_self]

/-- Every operation of `hostOps4` writes one of these buffers. -/
theorem hostOps4 : (Gen.hostOps4 : List (HloOp τ sig (Elt Ideal))).Forall fun op => op.writes ⊆ (([main_v141, main_v142, main_v143, main_v144, main_cst_38, main_v145, main_cst_39, main_v146, main_v147, main_v148, main_cst_40, main_v149, main_v150, main_v151, main_cst_41, main_v152, main_v153, main_cst_42, main_v154, main_v155, main_cst_43] : List (Ref sig .tc)).map (Proc.devRef (τ := τ) .tc)).toFinset := by
  simp only [Gen.hostOps4, List.Forall, StableHlo.nullary_writes, StableHlo.unary_writes, StableHlo.binary_writes, StableHlo.ternary_writes, StableHlo.reshape_writes, Finset.singleton_subset_iff, List.toFinset_cons, List.map_cons, List.map_nil, List.toFinset_nil, Finset.mem_insert, true_or, or_true, and_self]

/-- Every operation of `hostOps4_1` writes one of these buffers. -/
theorem hostOps4_1 : (Gen.hostOps4_1 : List (HloOp τ sig (Elt Ideal))).Forall fun op => op.writes ⊆ (([main_call4_v0, main_call4_v1, main_v156] : List (Ref sig .tc)).map (Proc.devRef (τ := τ) .tc)).toFinset := by
  simp only [Gen.hostOps4_1, List.Forall, StableHlo.nullary_writes, StableHlo.unary_writes, StableHlo.binary_writes, StableHlo.ternary_writes, StableHlo.reshape_writes, Finset.singleton_subset_iff, List.toFinset_cons, List.map_cons, List.map_nil, List.toFinset_nil, Finset.mem_insert, true_or, or_true, and_self]

/-- Every operation of `hostOps4_2` writes one of these buffers. -/
theorem hostOps4_2 : (Gen.hostOps4_2 : List (HloOp τ sig (Elt Ideal))).Forall fun op => op.writes ⊆ (([main_cst_44, main_v157, main_v158, main_cst_45, main_v159, main_v160, main_cst_46] : List (Ref sig .tc)).map (Proc.devRef (τ := τ) .tc)).toFinset := by
  simp only [Gen.hostOps4_2, List.Forall, StableHlo.nullary_writes, StableHlo.unary_writes, StableHlo.binary_writes, StableHlo.ternary_writes, StableHlo.reshape_writes, Finset.singleton_subset_iff, List.toFinset_cons, List.map_cons, List.map_nil, List.toFinset_nil, Finset.mem_insert, true_or, or_true, and_self]

/-- Every operation of `hostOps4_3` writes one of these buffers. -/
theorem hostOps4_3 : (Gen.hostOps4_3 : List (HloOp τ sig (Elt Ideal))).Forall fun op => op.writes ⊆ (([main_call5_v0, main_call5_v1, main_v161] : List (Ref sig .tc)).map (Proc.devRef (τ := τ) .tc)).toFinset := by
  simp only [Gen.hostOps4_3, List.Forall, StableHlo.nullary_writes, StableHlo.unary_writes, StableHlo.binary_writes, StableHlo.ternary_writes, StableHlo.reshape_writes, Finset.singleton_subset_iff, List.toFinset_cons, List.map_cons, List.map_nil, List.toFinset_nil, Finset.mem_insert, true_or, or_true, and_self]

/-- Every operation of `hostOps4_4` writes one of these buffers. -/
theorem hostOps4_4 : (Gen.hostOps4_4 : List (HloOp τ sig (Elt Ideal))).Forall fun op => op.writes ⊆ (([main_c_47, main_v162, main_v163, main_c_48, main_v164, main_v165, main_v166, main_v167, main_v168, main_c_49, main_v169, main_v170, main_c_50, main_v171, main_v172, main_v173, main_v174, main_v175, main_v176, main_c_51, main_v177, main_v178, main_c_52, main_v179, main_v180, main_v181, main_v182, main_v183, main_v184, main_v185, main_v186, main_cst_53, main_v187, main_v188, main_v189, main_v190, main_v191, main_v192] : List (Ref sig .tc)).map (Proc.devRef (τ := τ) .tc)).toFinset := by
  simp only [Gen.hostOps4_4, List.Forall, StableHlo.nullary_writes, StableHlo.unary_writes, StableHlo.binary_writes, StableHlo.ternary_writes, StableHlo.reshape_writes, Finset.singleton_subset_iff, List.toFinset_cons, List.map_cons, List.map_nil, List.toFinset_nil, Finset.mem_insert, true_or, or_true, and_self]

/-- Every operation of `hostOps5` writes one of these buffers. -/
theorem hostOps5 : (Gen.hostOps5 : List (HloOp τ sig (Elt Ideal))).Forall fun op => op.writes ⊆ (([main_v194] : List (Ref sig .tc)).map (Proc.devRef (τ := τ) .tc)).toFinset := by
  simp only [Gen.hostOps5, List.Forall, StableHlo.nullary_writes, StableHlo.unary_writes, StableHlo.binary_writes, StableHlo.ternary_writes, StableHlo.reshape_writes, Finset.singleton_subset_iff, List.toFinset_cons, List.map_cons, List.map_nil, List.toFinset_nil, Finset.mem_insert, true_or, or_true, and_self]

/-- Every operation of `hostOps7` writes one of these buffers. -/
theorem hostOps7 : (Gen.hostOps7 : List (HloOp τ sig (Elt Ideal))).Forall fun op => op.writes ⊆ (([main_v197, main_v198, main_v199, main_v200, main_v201, main_v202, main_v203, main_cst_54, main_v204, main_cst_55, main_v205, main_v206, main_v207, main_cst_56, main_v208, main_v209, main_cst_57, main_v210, main_v211, main_cst_58] : List (Ref sig .tc)).map (Proc.devRef (τ := τ) .tc)).toFinset := by
  simp only [Gen.hostOps7, List.Forall, StableHlo.nullary_writes, StableHlo.unary_writes, StableHlo.binary_writes, StableHlo.ternary_writes, StableHlo.reshape_writes, Finset.singleton_subset_iff, List.toFinset_cons, List.map_cons, List.map_nil, List.toFinset_nil, Finset.mem_insert, true_or, or_true, and_self]

/-- Every operation of `hostOps7_1` writes one of these buffers. -/
theorem hostOps7_1 : (Gen.hostOps7_1 : List (HloOp τ sig (Elt Ideal))).Forall fun op => op.writes ⊆ (([main_call6_v0, main_call6_v1, main_v212] : List (Ref sig .tc)).map (Proc.devRef (τ := τ) .tc)).toFinset := by
  simp only [Gen.hostOps7_1, List.Forall, StableHlo.nullary_writes, StableHlo.unary_writes, StableHlo.binary_writes, StableHlo.ternary_writes, StableHlo.reshape_writes, Finset.singleton_subset_iff, List.toFinset_cons, List.map_cons, List.map_nil, List.toFinset_nil, Finset.mem_insert, true_or, or_true, and_self]

/-- Every operation of `hostOps7_2` writes one of these buffers. -/
theorem hostOps7_2 : (Gen.hostOps7_2 : List (HloOp τ sig (Elt Ideal))).Forall fun op => op.writes ⊆ (([main_c_59, main_v213, main_v214, main_c_60, main_v215, main_v216, main_v217, main_v218, main_v219, main_c_61, main_v220, main_v221, main_c_62, main_v222, main_v223, main_v224, main_v225, main_v226, main_v227, main_c_63, main_v228, main_v229, main_c_64, main_v230, main_v231, main_v232, main_v233, main_v234, main_v235, main_v236, main_v237, main_cst_65, main_v238, main_v239, main_v240] : List (Ref sig .tc)).map (Proc.devRef (τ := τ) .tc)).toFinset := by
  simp only [Gen.hostOps7_2, List.Forall, StableHlo.nullary_writes, StableHlo.unary_writes, StableHlo.binary_writes, StableHlo.ternary_writes, StableHlo.reshape_writes, Finset.singleton_subset_iff, List.toFinset_cons, List.map_cons, List.map_nil, List.toFinset_nil, Finset.mem_insert, true_or, or_true, and_self]

/-- Every operation of `hostOps8` writes one of these buffers. -/
theorem hostOps8 : (Gen.hostOps8 : List (HloOp τ sig (Elt Ideal))).Forall fun op => op.writes ⊆ (([main_v242, main_v243, main_v244, main_v245, main_cst_66, main_v246, main_cst_67, main_v247, main_v248, main_v249, main_cst_68, main_v250, main_v251, main_v252, main_cst_69, main_v253, main_v254, main_cst_70, main_v255, main_v256, main_cst_71] : List (Ref sig .tc)).map (Proc.devRef (τ := τ) .tc)).toFinset := by
  simp only [Gen.hostOps8, List.Forall, StableHlo.nullary_writes, StableHlo.unary_writes, StableHlo.binary_writes, StableHlo.ternary_writes, StableHlo.reshape_writes, Finset.singleton_subset_iff, List.toFinset_cons, List.map_cons, List.map_nil, List.toFinset_nil, Finset.mem_insert, true_or, or_true, and_self]

/-- Every operation of `hostOps8_1` writes one of these buffers. -/
theorem hostOps8_1 : (Gen.hostOps8_1 : List (HloOp τ sig (Elt Ideal))).Forall fun op => op.writes ⊆ (([main_call7_v0, main_call7_v1, main_v257] : List (Ref sig .tc)).map (Proc.devRef (τ := τ) .tc)).toFinset := by
  simp only [Gen.hostOps8_1, List.Forall, StableHlo.nullary_writes, StableHlo.unary_writes, StableHlo.binary_writes, StableHlo.ternary_writes, StableHlo.reshape_writes, Finset.singleton_subset_iff, List.toFinset_cons, List.map_cons, List.map_nil, List.toFinset_nil, Finset.mem_insert, true_or, or_true, and_self]

/-- Every operation of `hostOps8_2` writes one of these buffers. -/
theorem hostOps8_2 : (Gen.hostOps8_2 : List (HloOp τ sig (Elt Ideal))).Forall fun op => op.writes ⊆ (([main_cst_72, main_v258, main_v259, main_cst_73, main_v260, main_v261, main_cst_74] : List (Ref sig .tc)).map (Proc.devRef (τ := τ) .tc)).toFinset := by
  simp only [Gen.hostOps8_2, List.Forall, StableHlo.nullary_writes, StableHlo.unary_writes, StableHlo.binary_writes, StableHlo.ternary_writes, StableHlo.reshape_writes, Finset.singleton_subset_iff, List.toFinset_cons, List.map_cons, List.map_nil, List.toFinset_nil, Finset.mem_insert, true_or, or_true, and_self]

/-- Every operation of `hostOps8_3` writes one of these buffers. -/
theorem hostOps8_3 : (Gen.hostOps8_3 : List (HloOp τ sig (Elt Ideal))).Forall fun op => op.writes ⊆ (([main_call8_v0, main_call8_v1, main_v262] : List (Ref sig .tc)).map (Proc.devRef (τ := τ) .tc)).toFinset := by
  simp only [Gen.hostOps8_3, List.Forall, StableHlo.nullary_writes, StableHlo.unary_writes, StableHlo.binary_writes, StableHlo.ternary_writes, StableHlo.reshape_writes, Finset.singleton_subset_iff, List.toFinset_cons, List.map_cons, List.map_nil, List.toFinset_nil, Finset.mem_insert, true_or, or_true, and_self]

/-- Every operation of `hostOps8_4` writes one of these buffers. -/
theorem hostOps8_4 : (Gen.hostOps8_4 : List (HloOp τ sig (Elt Ideal))).Forall fun op => op.writes ⊆ (([main_c_75, main_v263, main_v264, main_c_76, main_v265, main_v266, main_v267, main_v268, main_v269, main_c_77, main_v270, main_v271, main_c_78, main_v272, main_v273, main_v274, main_v275, main_v276, main_v277, main_c_79, main_v278, main_v279, main_c_80, main_v280, main_v281, main_v282, main_v283, main_v284, main_v285, main_v286, main_v287, main_cst_81, main_v288, main_v289, main_v290] : List (Ref sig .tc)).map (Proc.devRef (τ := τ) .tc)).toFinset := by
  simp only [Gen.hostOps8_4, List.Forall, StableHlo.nullary_writes, StableHlo.unary_writes, StableHlo.binary_writes, StableHlo.ternary_writes, StableHlo.reshape_writes, Finset.singleton_subset_iff, List.toFinset_cons, List.map_cons, List.map_nil, List.toFinset_nil, Finset.mem_insert, true_or, or_true, and_self]

/-- Every operation of `hostOps9` writes one of these buffers. -/
theorem hostOps9 : (Gen.hostOps9 : List (HloOp τ sig (Elt Ideal))).Forall fun op => op.writes ⊆ (([main_v292, main_v293, main_v294, main_v295, main_v296, main_v297, main_v298, main_cst_82, main_v299, main_cst_83, main_v300, main_v301, main_v302, main_cst_84, main_v303, main_v304, main_cst_85, main_v305, main_v306, main_cst_86] : List (Ref sig .tc)).map (Proc.devRef (τ := τ) .tc)).toFinset := by
  simp only [Gen.hostOps9, List.Forall, StableHlo.nullary_writes, StableHlo.unary_writes, StableHlo.binary_writes, StableHlo.ternary_writes, StableHlo.reshape_writes, Finset.singleton_subset_iff, List.toFinset_cons, List.map_cons, List.map_nil, List.toFinset_nil, Finset.mem_insert, true_or, or_true, and_self]

/-- Every operation of `hostOps9_1` writes one of these buffers. -/
theorem hostOps9_1 : (Gen.hostOps9_1 : List (HloOp τ sig (Elt Ideal))).Forall fun op => op.writes ⊆ (([main_call9_v0, main_call9_v1, main_v307] : List (Ref sig .tc)).map (Proc.devRef (τ := τ) .tc)).toFinset := by
  simp only [Gen.hostOps9_1, List.Forall, StableHlo.nullary_writes, StableHlo.unary_writes, StableHlo.binary_writes, StableHlo.ternary_writes, StableHlo.reshape_writes, Finset.singleton_subset_iff, List.toFinset_cons, List.map_cons, List.map_nil, List.toFinset_nil, Finset.mem_insert, true_or, or_true, and_self]

/-- Every operation of `hostOps9_2` writes one of these buffers. -/
theorem hostOps9_2 : (Gen.hostOps9_2 : List (HloOp τ sig (Elt Ideal))).Forall fun op => op.writes ⊆ (([main_c_87, main_v308, main_v309, main_c_88, main_v310, main_v311, main_v312, main_v313, main_v314, main_c_89, main_v315, main_v316, main_c_90, main_v317, main_v318, main_v319, main_v320, main_v321, main_v322, main_c_91, main_v323, main_v324, main_c_92, main_v325, main_v326, main_v327, main_v328, main_v329, main_v330, main_v331, main_v332, main_cst_93, main_v333, main_v334, main_v335] : List (Ref sig .tc)).map (Proc.devRef (τ := τ) .tc)).toFinset := by
  simp only [Gen.hostOps9_2, List.Forall, StableHlo.nullary_writes, StableHlo.unary_writes, StableHlo.binary_writes, StableHlo.ternary_writes, StableHlo.reshape_writes, Finset.singleton_subset_iff, List.toFinset_cons, List.map_cons, List.map_nil, List.toFinset_nil, Finset.mem_insert, true_or, or_true, and_self]

/-- Every operation of `hostOps10` writes one of these buffers. -/
theorem hostOps10 : (Gen.hostOps10 : List (HloOp τ sig (Elt Ideal))).Forall fun op => op.writes ⊆ (([main_v337, main_v338, main_v339, main_v340, main_cst_94, main_v341, main_cst_95, main_v342, main_v343, main_v344, main_cst_96, main_v345, main_v346, main_v347, main_cst_97, main_v348, main_v349, main_cst_98, main_v350, main_v351, main_cst_99] : List (Ref sig .tc)).map (Proc.devRef (τ := τ) .tc)).toFinset := by
  simp only [Gen.hostOps10, List.Forall, StableHlo.nullary_writes, StableHlo.unary_writes, StableHlo.binary_writes, StableHlo.ternary_writes, StableHlo.reshape_writes, Finset.singleton_subset_iff, List.toFinset_cons, List.map_cons, List.map_nil, List.toFinset_nil, Finset.mem_insert, true_or, or_true, and_self]

/-- Every operation of `hostOps10_1` writes one of these buffers. -/
theorem hostOps10_1 : (Gen.hostOps10_1 : List (HloOp τ sig (Elt Ideal))).Forall fun op => op.writes ⊆ (([main_call10_v0, main_call10_v1, main_v352] : List (Ref sig .tc)).map (Proc.devRef (τ := τ) .tc)).toFinset := by
  simp only [Gen.hostOps10_1, List.Forall, StableHlo.nullary_writes, StableHlo.unary_writes, StableHlo.binary_writes, StableHlo.ternary_writes, StableHlo.reshape_writes, Finset.singleton_subset_iff, List.toFinset_cons, List.map_cons, List.map_nil, List.toFinset_nil, Finset.mem_insert, true_or, or_true, and_self]

/-- Every operation of `hostOps10_2` writes one of these buffers. -/
theorem hostOps10_2 : (Gen.hostOps10_2 : List (HloOp τ sig (Elt Ideal))).Forall fun op => op.writes ⊆ (([main_cst_100, main_v353, main_v354, main_cst_101, main_v355, main_v356, main_cst_102] : List (Ref sig .tc)).map (Proc.devRef (τ := τ) .tc)).toFinset := by
  simp only [Gen.hostOps10_2, List.Forall, StableHlo.nullary_writes, StableHlo.unary_writes, StableHlo.binary_writes, StableHlo.ternary_writes, StableHlo.reshape_writes, Finset.singleton_subset_iff, List.toFinset_cons, List.map_cons, List.map_nil, List.toFinset_nil, Finset.mem_insert, true_or, or_true, and_self]

/-- Every operation of `hostOps10_3` writes one of these buffers. -/
theorem hostOps10_3 : (Gen.hostOps10_3 : List (HloOp τ sig (Elt Ideal))).Forall fun op => op.writes ⊆ (([main_call11_v0, main_call11_v1, main_v357] : List (Ref sig .tc)).map (Proc.devRef (τ := τ) .tc)).toFinset := by
  simp only [Gen.hostOps10_3, List.Forall, StableHlo.nullary_writes, StableHlo.unary_writes, StableHlo.binary_writes, StableHlo.ternary_writes, StableHlo.reshape_writes, Finset.singleton_subset_iff, List.toFinset_cons, List.map_cons, List.map_nil, List.toFinset_nil, Finset.mem_insert, true_or, or_true, and_self]

/-- Every operation of `hostOps10_4` writes one of these buffers. -/
theorem hostOps10_4 : (Gen.hostOps10_4 : List (HloOp τ sig (Elt Ideal))).Forall fun op => op.writes ⊆ (([main_c_103, main_v358, main_v359, main_c_104, main_v360, main_v361, main_v362, main_v363, main_v364, main_c_105, main_v365, main_v366, main_c_106, main_v367, main_v368, main_v369, main_v370, main_v371, main_v372, main_c_107, main_v373, main_v374, main_c_108, main_v375, main_v376, main_v377, main_v378, main_v379, main_v380, main_v381, main_v382, main_cst_109, main_v383, main_v384, main_v385, main_v386, main_v387, main_v388] : List (Ref sig .tc)).map (Proc.devRef (τ := τ) .tc)).toFinset := by
  simp only [Gen.hostOps10_4, List.Forall, StableHlo.nullary_writes, StableHlo.unary_writes, StableHlo.binary_writes, StableHlo.ternary_writes, StableHlo.reshape_writes, Finset.singleton_subset_iff, List.toFinset_cons, List.map_cons, List.map_nil, List.toFinset_nil, Finset.mem_insert, true_or, or_true, and_self]

/-- Every operation of `hostOps11` writes one of these buffers. -/
theorem hostOps11 : (Gen.hostOps11 : List (HloOp τ sig (Elt Ideal))).Forall fun op => op.writes ⊆ (([main_v390] : List (Ref sig .tc)).map (Proc.devRef (τ := τ) .tc)).toFinset := by
  simp only [Gen.hostOps11, List.Forall, StableHlo.nullary_writes, StableHlo.unary_writes, StableHlo.binary_writes, StableHlo.ternary_writes, StableHlo.reshape_writes, Finset.singleton_subset_iff, List.toFinset_cons, List.map_cons, List.map_nil, List.toFinset_nil, Finset.mem_insert, true_or, or_true, and_self]

end Cert.KernelIdeal.Writes

end
-- ==== Proof.KeepA.lean ====
import proofs.«143428_j3564822855941_1_alg».proof.Proof.KernelIdealFrameP
import proofs.«143428_j3564822855941_1_alg».proof.Proof.Writes

/-! The contents of a buffer at a later boundary of the kernel program are its contents at an earlier one when no
    region and no host operation in between writes it. -/

set_option maxRecDepth 16384

noncomputable section

namespace Cert.KernelIdeal.Keep

open Cert.KernelIdeal Cert.KernelIdeal.Gen Cert.KernelIdeal.GenP Idealize.ShloMosaic Idealize.ShloMosaic.TcCoe Idealize.SL.Sem

variable (m : (ℓ : Loc nD τ sig) → Buf (Elt Ideal) ℓ) (ρ : Dev nD → PrngReg)

/-- Nothing between boundaries 0 and 42 writes `main_arg21`. -/
theorem keep_arg21_0_42 (c : Dev nD) : W42 m ρ c (Proc.devRef .tc main_arg21) = W0 m ρ c (Proc.devRef .tc main_arg21) :=
  calc W42 m ρ c (Proc.devRef .tc main_arg21)
    _ = W41 m ρ c (Proc.devRef .tc main_arg21) := StableHlo.after_of_writes_sub _ _ Writes.hostOps10_3 (by decide)
    _ = W40 m ρ c (Proc.devRef .tc main_arg21) := StableHlo.after_of_writes_sub _ _ Writes.hostOps10_2 (by decide)
    _ = W39 m ρ c (Proc.devRef .tc main_arg21) := StableHlo.after_of_writes_sub _ _ Writes.hostOps10_1 (by decide)
    _ = W38 m ρ c (Proc.devRef .tc main_arg21) := StableHlo.after_of_writes_sub _ _ Writes.hostOps10 (by decide)
    _ = W37 m ρ c (Proc.devRef .tc main_arg21) := W38_of_ne m ρ c main_arg21 (by decide)
    _ = W36 m ρ c (Proc.devRef .tc main_arg21) := StableHlo.after_of_writes_sub _ _ Writes.hostOps9_2 (by decide)
    _ = W35 m ρ c (Proc.devRef .tc main_arg21) := StableHlo.after_of_writes_sub _ _ Writes.hostOps9_1 (by decide)
    _ = W34 m ρ c (Proc.devRef .tc main_arg21) := StableHlo.after_of_writes_sub _ _ Writes.hostOps9 (by decide)
    _ = W33 m ρ c (Proc.devRef .tc main_arg21) := W34_of_ne m ρ c main_arg21 (by decide)
    _ = W32 m ρ c (Proc.devRef .tc main_arg21) := StableHlo.after_of_writes_sub _ _ Writes.hostOps8_4 (by decide)
    _ = W31 m ρ c (Proc.devRef .tc main_arg21) := StableHlo.after_of_writes_sub _ _ Writes.hostOps8_3 (by decide)
    _ = W30 m ρ c (Proc.devRef .tc main_arg21) := StableHlo.after_of_writes_sub _ _ Writes.hostOps8_2 (by decide)
    _ = W29 m ρ c (Proc.devRef .tc main_arg21) := StableHlo.after_of_writes_sub _ _ Writes.hostOps8_1 (by decide)
    _ = W28 m ρ c (Proc.devRef .tc main_arg21) := StableHlo.after_of_writes_sub _ _ Writes.hostOps8 (by decide)
    _ = W27 m ρ c (Proc.devRef .tc main_arg21) := W28_of_ne m ρ c main_arg21 (by decide)
    _ = W26 m ρ c (Proc.devRef .tc main_arg21) := StableHlo.after_of_writes_sub _ _ Writes.hostOps7_2 (by decide)
    _ = W25 m ρ c (Proc.devRef .tc main_arg21) := StableHlo.after_of_writes_sub _ _ Writes.hostOps7_1 (by decide)
    _ = W24 m ρ c (Proc.devRef .tc main_arg21) := StableHlo.after_of_writes_sub _ _ Writes.hostOps7 (by decide)
    _ = W23 m ρ c (Proc.devRef .tc main_arg21) := W24_of_ne m ρ c main_arg21 (by decide)
    _ = W22 m ρ c (Proc.devRef .tc main_arg21) := W23_of_ne m ρ c main_arg21 (by decide)
    _ = W21 m ρ c (Proc.devRef .tc main_arg21) := StableHlo.after_of_writes_sub _ _ Writes.hostOps5 (by decide)
    _ = W20 m ρ c (Proc.devRef .tc main_arg21) := W21_of_ne m ρ c main_arg21 (by decide)
    _ = W19 m ρ c (Proc.devRef .tc main_arg21) := StableHlo.after_of_writes_sub _ _ Writes.hostOps4_4 (by decide)
    _ = W18 m ρ c (Proc.devRef .tc main_arg21) := StableHlo.after_of_writes_sub _ _ Writes.hostOps4_3 (by decide)
    _ = W17 m ρ c (Proc.devRef .tc main_arg21) := StableHlo.after_of_writes_sub _ _ Writes.hostOps4_2 (by decide)
    _ = W16 m ρ c (Proc.devRef .tc main_arg21) := StableHlo.after_of_writes_sub _ _ Writes.hostOps4_1 (by decide)
    _ = W15 m ρ c (Proc.devRef .tc main_arg21) := StableHlo.after_of_writes_sub _ _ Writes.hostOps4 (by decide)
    _ = W14 m ρ c (Proc.devRef .tc main_arg21) := W15_of_ne m ρ c main_arg21 (by decide)
    _ = W13 m ρ c (Proc.devRef .tc main_arg21) := StableHlo.after_of_writes_sub _ _ Writes.hostOps3_2 (by decide)
    _ = W12 m ρ c (Proc.devRef .tc main_arg21) := StableHlo.after_of_writes_sub _ _ Writes.hostOps3_1 (by decide)
    _ = W11 m ρ c (Proc.devRef .tc main_arg21) := StableHlo.after_of_writes_sub _ _ Writes.hostOps3 (by decide)
    _ = W10 m ρ c (Proc.devRef .tc main_arg21) := W11_of_ne m ρ c main_arg21 (by decide)
    _ = W9 m ρ c (Proc.devRef .tc main_arg21) := StableHlo.after_of_writes_sub _ _ Writes.hostOps2_4 (by decide)
    _ = W8 m ρ c (Proc.devRef .tc main_arg21) := StableHlo.after_of_writes_sub _ _ Writes.hostOps2_3 (by decide)
    _ = W7 m ρ c (Proc.devRef .tc main_arg21) := StableHlo.after_of_writes_sub _ _ Writes.hostOps2_2 (by decide)
    _ = W6 m ρ c (Proc.devRef .tc main_arg21) := StableHlo.after_of_writes_sub _ _ Writes.hostOps2_1 (by decide)
    _ = W5 m ρ c (Proc.devRef .tc main_arg21) := StableHlo.after_of_writes_sub _ _ Writes.hostOps2 (by decide)
    _ = W4 m ρ c (Proc.devRef .tc main_arg21) := W5_of_ne m ρ c main_arg21 (by decide)
    _ = W3 m ρ c (Proc.devRef .tc main_arg21) := StableHlo.after_of_writes_sub _ _ Writes.hostOps1_2 (by decide)
    _ = W2 m ρ c (Proc.devRef .tc main_arg21) := StableHlo.after_of_writes_sub _ _ Writes.hostOps1_1 (by decide)
    _ = W1 m ρ c (Proc.devRef .tc main_arg21) := StableHlo.after_of_writes_sub _ _ Writes.hostOps1 (by decide)
    _ = W0 m ρ c (Proc.devRef .tc main_arg21) := W1_of_ne m ρ c main_arg21 (by decide)

/-- Nothing between boundaries 0 and 38 writes `main_arg4`. -/
theorem keep_arg4_0_38 (c : Dev nD) : W38 m ρ c (Proc.devRef .tc main_arg4) = W0 m ρ c (Proc.devRef .tc main_arg4) :=
  calc W38 m ρ c (Proc.devRef .tc main_arg4)
    _ = W37 m ρ c (Proc.devRef .tc main_arg4) := W38_of_ne m ρ c main_arg4 (by decide)
    _ = W36 m ρ c (Proc.devRef .tc main_arg4) := StableHlo.after_of_writes_sub _ _ Writes.hostOps9_2 (by decide)
    _ = W35 m ρ c (Proc.devRef .tc main_arg4) := StableHlo.after_of_writes_sub _ _ Writes.hostOps9_1 (by decide)
    _ = W34 m ρ c (Proc.devRef .tc main_arg4) := StableHlo.after_of_writes_sub _ _ Writes.hostOps9 (by decide)
    _ = W33 m ρ c (Proc.devRef .tc main_arg4) := W34_of_ne m ρ c main_arg4 (by decide)
    _ = W32 m ρ c (Proc.devRef .tc main_arg4) := StableHlo.after_of_writes_sub _ _ Writes.hostOps8_4 (by decide)
    _ = W31 m ρ c (Proc.devRef .tc main_arg4) := StableHlo.after_of_writes_sub _ _ Writes.hostOps8_3 (by decide)
    _ = W30 m ρ c (Proc.devRef .tc main_arg4) := StableHlo.after_of_writes_sub _ _ Writes.hostOps8_2 (by decide)
    _ = W29 m ρ c (Proc.devRef .tc main_arg4) := StableHlo.after_of_writes_sub _ _ Writes.hostOps8_1 (by decide)
    _ = W28 m ρ c (Proc.devRef .tc main_arg4) := StableHlo.after_of_writes_sub _ _ Writes.hostOps8 (by decide)
    _ = W27 m ρ c (Proc.devRef .tc main_arg4) := W28_of_ne m ρ c main_arg4 (by decide)
    _ = W26 m ρ c (Proc.devRef .tc main_arg4) := StableHlo.after_of_writes_sub _ _ Writes.hostOps7_2 (by decide)
    _ = W25 m ρ c (Proc.devRef .tc main_arg4) := StableHlo.after_of_writes_sub _ _ Writes.hostOps7_1 (by decide)
    _ = W24 m ρ c (Proc.devRef .tc main_arg4) := StableHlo.after_of_writes_sub _ _ Writes.hostOps7 (by decide)
    _ = W23 m ρ c (Proc.devRef .tc main_arg4) := W24_of_ne m ρ c main_arg4 (by decide)
    _ = W22 m ρ c (Proc.devRef .tc main_arg4) := W23_of_ne m ρ c main_arg4 (by decide)
    _ = W21 m ρ c (Proc.devRef .tc main_arg4) := StableHlo.after_of_writes_sub _ _ Writes.hostOps5 (by decide)
    _ = W20 m ρ c (Proc.devRef .tc main_arg4) := W21_of_ne m ρ c main_arg4 (by decide)
    _ = W19 m ρ c (Proc.devRef .tc main_arg4) := StableHlo.after_of_writes_sub _ _ Writes.hostOps4_4 (by decide)
    _ = W18 m ρ c (Proc.devRef .tc main_arg4) := StableHlo.after_of_writes_sub _ _ Writes.hostOps4_3 (by decide)
    _ = W17 m ρ c (Proc.devRef .tc main_arg4) := StableHlo.after_of_writes_sub _ _ Writes.hostOps4_2 (by decide)
    _ = W16 m ρ c (Proc.devRef .tc main_arg4) := StableHlo.after_of_writes_sub _ _ Writes.hostOps4_1 (by decide)
    _ = W15 m ρ c (Proc.devRef .tc main_arg4) := StableHlo.after_of_writes_sub _ _ Writes.hostOps4 (by decide)
    _ = W14 m ρ c (Proc.devRef .tc main_arg4) := W15_of_ne m ρ c main_arg4 (by decide)
    _ = W13 m ρ c (Proc.devRef .tc main_arg4) := StableHlo.after_of_writes_sub _ _ Writes.hostOps3_2 (by decide)
    _ = W12 m ρ c (Proc.devRef .tc main_arg4) := StableHlo.after_of_writes_sub _ _ Writes.hostOps3_1 (by decide)
    _ = W11 m ρ c (Proc.devRef .tc main_arg4) := StableHlo.after_of_writes_sub _ _ Writes.hostOps3 (by decide)
    _ = W10 m ρ c (Proc.devRef .tc main_arg4) := W11_of_ne m ρ c main_arg4 (by decide)
    _ = W9 m ρ c (Proc.devRef .tc main_arg4) := StableHlo.after_of_writes_sub _ _ Writes.hostOps2_4 (by decide)
    _ = W8 m ρ c (Proc.devRef .tc main_arg4) := StableHlo.after_of_writes_sub _ _ Writes.hostOps2_3 (by decide)
    _ = W7 m ρ c (Proc.devRef .tc main_arg4) := StableHlo.after_of_writes_sub _ _ Writes.hostOps2_2 (by decide)
    _ = W6 m ρ c (Proc.devRef .tc main_arg4) := StableHlo.after_of_writes_sub _ _ Writes.hostOps2_1 (by decide)
    _ = W5 m ρ c (Proc.devRef .tc main_arg4) := StableHlo.after_of_writes_sub _ _ Writes.hostOps2 (by decide)
    _ = W4 m ρ c (Proc.devRef .tc main_arg4) := W5_of_ne m ρ c main_arg4 (by decide)
    _ = W3 m ρ c (Proc.devRef .tc main_arg4) := StableHlo.after_of_writes_sub _ _ Writes.hostOps1_2 (by decide)
    _ = W2 m ρ c (Proc.devRef .tc main_arg4) := StableHlo.after_of_writes_sub _ _ Writes.hostOps1_1 (by decide)
    _ = W1 m ρ c (Proc.devRef .tc main_arg4) := StableHlo.after_of_writes_sub _ _ Writes.hostOps1 (by decide)
    _ = W0 m ρ c (Proc.devRef .tc main_arg4) := W1_of_ne m ρ c main_arg4 (by decide)

/-- Nothing between boundaries 0 and 23 writes `main_arg14`. -/
theorem keep_arg14_0_23 (c : Dev nD) : W23 m ρ c (Proc.devRef .tc main_arg14) = W0 m ρ c (Proc.devRef .tc main_arg14) :=
  calc W23 m ρ c (Proc.devRef .tc main_arg14)
    _ = W22 m ρ c (Proc.devRef .tc main_arg14) := W23_of_ne m ρ c main_arg14 (by decide)
    _ = W21 m ρ c (Proc.devRef .tc main_arg14) := StableHlo.after_of_writes_sub _ _ Writes.hostOps5 (by decide)
    _ = W20 m ρ c (Proc.devRef .tc main_arg14) := W21_of_ne m ρ c main_arg14 (by decide)
    _ = W19 m ρ c (Proc.devRef .tc main_arg14) := StableHlo.after_of_writes_sub _ _ Writes.hostOps4_4 (by decide)
    _ = W18 m ρ c (Proc.devRef .tc main_arg14) := StableHlo.after_of_writes_sub _ _ Writes.hostOps4_3 (by decide)
    _ = W17 m ρ c (Proc.devRef .tc main_arg14) := StableHlo.after_of_writes_sub _ _ Writes.hostOps4_2 (by decide)
    _ = W16 m ρ c (Proc.devRef .tc main_arg14) := StableHlo.after_of_writes_sub _ _ Writes.hostOps4_1 (by decide)
    _ = W15 m ρ c (Proc.devRef .tc main_arg14) := StableHlo.after_of_writes_sub _ _ Writes.hostOps4 (by decide)
    _ = W14 m ρ c (Proc.devRef .tc main_arg14) := W15_of_ne m ρ c main_arg14 (by decide)
    _ = W13 m ρ c (Proc.devRef .tc main_arg14) := StableHlo.after_of_writes_sub _ _ Writes.hostOps3_2 (by decide)
    _ = W12 m ρ c (Proc.devRef .tc main_arg14) := StableHlo.after_of_writes_sub _ _ Writes.hostOps3_1 (by decide)
    _ = W11 m ρ c (Proc.devRef .tc main_arg14) := StableHlo.after_of_writes_sub _ _ Writes.hostOps3 (by decide)
    _ = W10 m ρ c (Proc.devRef .tc main_arg14) := W11_of_ne m ρ c main_arg14 (by decide)
    _ = W9 m ρ c (Proc.devRef .tc main_arg14) := StableHlo.after_of_writes_sub _ _ Writes.hostOps2_4 (by decide)
    _ = W8 m ρ c (Proc.devRef .tc main_arg14) := StableHlo.after_of_writes_sub _ _ Writes.hostOps2_3 (by decide)
    _ = W7 m ρ c (Proc.devRef .tc main_arg14) := StableHlo.after_of_writes_sub _ _ Writes.hostOps2_2 (by decide)
    _ = W6 m ρ c (Proc.devRef .tc main_arg14) := StableHlo.after_of_writes_sub _ _ Writes.hostOps2_1 (by decide)
    _ = W5 m ρ c (Proc.devRef .tc main_arg14) := StableHlo.after_of_writes_sub _ _ Writes.hostOps2 (by decide)
    _ = W4 m ρ c (Proc.devRef .tc main_arg14) := W5_of_ne m ρ c main_arg14 (by decide)
    _ = W3 m ρ c (Proc.devRef .tc main_arg14) := StableHlo.after_of_writes_sub _ _ Writes.hostOps1_2 (by decide)
    _ = W2 m ρ c (Proc.devRef .tc main_arg14) := StableHlo.after_of_writes_sub _ _ Writes.hostOps1_1 (by decide)
    _ = W1 m ρ c (Proc.devRef .tc main_arg14) := StableHlo.after_of_writes_sub _ _ Writes.hostOps1 (by decide)
    _ = W0 m ρ c (Proc.devRef .tc main_arg14) := W1_of_ne m ρ c main_arg14 (by decide)

/-- Nothing between boundaries 0 and 19 writes `main_arg13`. -/
theorem keep_arg13_0_19 (c : Dev nD) : W19 m ρ c (Proc.devRef .tc main_arg13) = W0 m ρ c (Proc.devRef .tc main_arg13) :=
  calc W19 m ρ c (Proc.devRef .tc main_arg13)
    _ = W18 m ρ c (Proc.devRef .tc main_arg13) := StableHlo.after_of_writes_sub _ _ Writes.hostOps4_3 (by decide)
    _ = W17 m ρ c (Proc.devRef .tc main_arg13) := StableHlo.after_of_writes_sub _ _ Writes.hostOps4_2 (by decide)
    _ = W16 m ρ c (Proc.devRef .tc main_arg13) := StableHlo.after_of_writes_sub _ _ Writes.hostOps4_1 (by decide)
    _ = W15 m ρ c (Proc.devRef .tc main_arg13) := StableHlo.after_of_writes_sub _ _ Writes.hostOps4 (by decide)
    _ = W14 m ρ c (Proc.devRef .tc main_arg13) := W15_of_ne m ρ c main_arg13 (by decide)
    _ = W13 m ρ c (Proc.devRef .tc main_arg13) := StableHlo.after_of_writes_sub _ _ Writes.hostOps3_2 (by decide)
    _ = W12 m ρ c (Proc.devRef .tc main_arg13) := StableHlo.after_of_writes_sub _ _ Writes.hostOps3_1 (by decide)
    _ = W11 m ρ c (Proc.devRef .tc main_arg13) := StableHlo.after_of_writes_sub _ _ Writes.hostOps3 (by decide)
    _ = W10 m ρ c (Proc.devRef .tc main_arg13) := W11_of_ne m ρ c main_arg13 (by decide)
    _ = W9 m ρ c (Proc.devRef .tc main_arg13) := StableHlo.after_of_writes_sub _ _ Writes.hostOps2_4 (by decide)
    _ = W8 m ρ c (Proc.devRef .tc main_arg13) := StableHlo.after_of_writes_sub _ _ Writes.hostOps2_3 (by decide)
    _ = W7 m ρ c (Proc.devRef .tc main_arg13) := StableHlo.after_of_writes_sub _ _ Writes.hostOps2_2 (by decide)
    _ = W6 m ρ c (Proc.devRef .tc main_arg13) := StableHlo.after_of_writes_sub _ _ Writes.hostOps2_1 (by decide)
    _ = W5 m ρ c (Proc.devRef .tc main_arg13) := StableHlo.after_of_writes_sub _ _ Writes.hostOps2 (by decide)
    _ = W4 m ρ c (Proc.devRef .tc main_arg13) := W5_of_ne m ρ c main_arg13 (by decide)
    _ = W3 m ρ c (Proc.devRef .tc main_arg13) := StableHlo.after_of_writes_sub _ _ Writes.hostOps1_2 (by decide)
    _ = W2 m ρ c (Proc.devRef .tc main_arg13) := StableHlo.after_of_writes_sub _ _ Writes.hostOps1_1 (by decide)
    _ = W1 m ρ c (Proc.devRef .tc main_arg13) := StableHlo.after_of_writes_sub _ _ Writes.hostOps1 (by decide)
    _ = W0 m ρ c (Proc.devRef .tc main_arg13) := W1_of_ne m ρ c main_arg13 (by decide)

/-- Nothing between boundaries 27 and 43 writes `main_v240`. -/
theorem keep_v240_27_43 (c : Dev nD) : W43 m ρ c (Proc.devRef .tc main_v240) = W27 m ρ c (Proc.devRef .tc main_v240) :=
  calc W43 m ρ c (Proc.devRef .tc main_v240)
    _ = W42 m ρ c (Proc.devRef .tc main_v240) := StableHlo.after_of_writes_sub _ _ Writes.hostOps10_4 (by decide)
    _ = W41 m ρ c (Proc.devRef .tc main_v240) := StableHlo.after_of_writes_sub _ _ Writes.hostOps10_3 (by decide)
    _ = W40 m ρ c (Proc.devRef .tc main_v240) := StableHlo.after_of_writes_sub _ _ Writes.hostOps10_2 (by decide)
    _ = W39 m ρ c (Proc.devRef .tc main_v240) := StableHlo.after_of_writes_sub _ _ Writes.hostOps10_1 (by decide)
    _ = W38 m ρ c (Proc.devRef .tc main_v240) := StableHlo.after_of_writes_sub _ _ Writes.hostOps10 (by decide)
    _ = W37 m ρ c (Proc.devRef .tc main_v240) := W38_of_ne m ρ c main_v240 (by decide)
    _ = W36 m ρ c (Proc.devRef .tc main_v240) := StableHlo.after_of_writes_sub _ _ Writes.hostOps9_2 (by decide)
    _ = W35 m ρ c (Proc.devRef .tc main_v240) := StableHlo.after_of_writes_sub _ _ Writes.hostOps9_1 (by decide)
    _ = W34 m ρ c (Proc.devRef .tc main_v240) := StableHlo.after_of_writes_sub _ _ Writes.hostOps9 (by decide)
    _ = W33 m ρ c (Proc.devRef .tc main_v240) := W34_of_ne m ρ c main_v240 (by decide)
    _ = W32 m ρ c (Proc.devRef .tc main_v240) := StableHlo.after_of_writes_sub _ _ Writes.hostOps8_4 (by decide)
    _ = W31 m ρ c (Proc.devRef .tc main_v240) := StableHlo.after_of_writes_sub _ _ Writes.hostOps8_3 (by decide)
    _ = W30 m ρ c (Proc.devRef .tc main_v240) := StableHlo.after_of_writes_sub _ _ Writes.hostOps8_2 (by decide)
    _ = W29 m ρ c (Proc.devRef .tc main_v240) := StableHlo.after_of_writes_sub _ _ Writes.hostOps8_1 (by decide)
    _ = W28 m ρ c (Proc.devRef .tc main_v240) := StableHlo.after_of_writes_sub _ _ Writes.hostOps8 (by decide)
    _ = W27 m ρ c (Proc.devRef .tc main_v240) := W28_of_ne m ρ c main_v240 (by decide)

/-- Nothing between boundaries 0 and 14 writes `main_arg0`. -/
theorem keep_arg0_0_14 (c : Dev nD) : W14 m ρ c (Proc.devRef .tc main_arg0) = W0 m ρ c (Proc.devRef .tc main_arg0) :=
  calc W14 m ρ c (Proc.devRef .tc main_arg0)
    _ = W13 m ρ c (Proc.devRef .tc main_arg0) := StableHlo.after_of_writes_sub _ _ Writes.hostOps3_2 (by decide)
    _ = W12 m ρ c (Proc.devRef .tc main_arg0) := StableHlo.after_of_writes_sub _ _ Writes.hostOps3_1 (by decide)
    _ = W11 m ρ c (Proc.devRef .tc main_arg0) := StableHlo.after_of_writes_sub _ _ Writes.hostOps3 (by decide)
    _ = W10 m ρ c (Proc.devRef .tc main_arg0) := W11_of_ne m ρ c main_arg0 (by decide)
    _ = W9 m ρ c (Proc.devRef .tc main_arg0) := StableHlo.after_of_writes_sub _ _ Writes.hostOps2_4 (by decide)
    _ = W8 m ρ c (Proc.devRef .tc main_arg0) := StableHlo.after_of_writes_sub _ _ Writes.hostOps2_3 (by decide)
    _ = W7 m ρ c (Proc.devRef .tc main_arg0) := StableHlo.after_of_writes_sub _ _ Writes.hostOps2_2 (by decide)
    _ = W6 m ρ c (Proc.devRef .tc main_arg0) := StableHlo.after_of_writes_sub _ _ Writes.hostOps2_1 (by decide)
    _ = W5 m ρ c (Proc.devRef .tc main_arg0) := StableHlo.after_of_writes_sub _ _ Writes.hostOps2 (by decide)
    _ = W4 m ρ c (Proc.devRef .tc main_arg0) := W5_of_ne m ρ c main_arg0 (by decide)
    _ = W3 m ρ c (Proc.devRef .tc main_arg0) := StableHlo.after_of_writes_sub _ _ Writes.hostOps1_2 (by decide)
    _ = W2 m ρ c (Proc.devRef .tc main_arg0) := StableHlo.after_of_writes_sub _ _ Writes.hostOps1_1 (by decide)
    _ = W1 m ρ c (Proc.devRef .tc main_arg0) := StableHlo.after_of_writes_sub _ _ Writes.hostOps1 (by decide)
    _ = W0 m ρ c (Proc.devRef .tc main_arg0) := (W1_arr m ρ c 0).trans (((dat0 (V0 m ρ) c).arrAt_in 0 rfl _).trans (A_eq0 (V0 m ρ) c 0))

/-- Nothing between boundaries 0 and 10 writes `main_arg1`. -/
theorem keep_arg1_0_10 (c : Dev nD) : W10 m ρ c (Proc.devRef .tc main_arg1) = W0 m ρ c (Proc.devRef .tc main_arg1) :=
  calc W10 m ρ c (Proc.devRef .tc main_arg1)
    _ = W9 m ρ c (Proc.devRef .tc main_arg1) := StableHlo.after_of_writes_sub _ _ Writes.hostOps2_4 (by decide)
    _ = W8 m ρ c (Proc.devRef .tc main_arg1) := StableHlo.after_of_writes_sub _ _ Writes.hostOps2_3 (by decide)
    _ = W7 m ρ c (Proc.devRef .tc main_arg1) := StableHlo.after_of_writes_sub _ _ Writes.hostOps2_2 (by decide)
    _ = W6 m ρ c (Proc.devRef .tc main_arg1) := StableHlo.after_of_writes_sub _ _ Writes.hostOps2_1 (by decide)
    _ = W5 m ρ c (Proc.devRef .tc main_arg1) := StableHlo.after_of_writes_sub _ _ Writes.hostOps2 (by decide)
    _ = W4 m ρ c (Proc.devRef .tc main_arg1) := (W5_arr m ρ c 0).trans (((dat1 (V4 m ρ) c).arrAt_in 0 rfl _).trans (A_eq1 (V4 m ρ) c 0))
    _ = W3 m ρ c (Proc.devRef .tc main_arg1) := StableHlo.after_of_writes_sub _ _ Writes.hostOps1_2 (by decide)
    _ = W2 m ρ c (Proc.devRef .tc main_arg1) := StableHlo.after_of_writes_sub _ _ Writes.hostOps1_1 (by decide)
    _ = W1 m ρ c (Proc.devRef .tc main_arg1) := StableHlo.after_of_writes_sub _ _ Writes.hostOps1 (by decide)
    _ = W0 m ρ c (Proc.devRef .tc main_arg1) := W1_of_ne m ρ c main_arg1 (by decide)

/-- Nothing between boundaries 38 and 42 writes `main_v336`. -/
theorem keep_v336_38_42 (c : Dev nD) : W42 m ρ c (Proc.devRef .tc main_v336) = W38 m ρ c (Proc.devRef .tc main_v336) :=
  calc W42 m ρ c (Proc.devRef .tc main_v336)
    _ = W41 m ρ c (Proc.devRef .tc main_v336) := StableHlo.after_of_writes_sub _ _ Writes.hostOps10_3 (by decide)
    _ = W40 m ρ c (Proc.devRef .tc main_v336) := StableHlo.after_of_writes_sub _ _ Writes.hostOps10_2 (by decide)
    _ = W39 m ρ c (Proc.devRef .tc main_v336) := StableHlo.after_of_writes_sub _ _ Writes.hostOps10_1 (by decide)
    _ = W38 m ρ c (Proc.devRef .tc main_v336) := StableHlo.after_of_writes_sub _ _ Writes.hostOps10 (by decide)

/-- Nothing between boundaries 28 and 32 writes `main_v241`. -/
theorem keep_v241_28_32 (c : Dev nD) : W32 m ρ c (Proc.devRef .tc main_v241) = W28 m ρ c (Proc.devRef .tc main_v241) :=
  calc W32 m ρ c (Proc.devRef .tc main_v241)
    _ = W31 m ρ c (Proc.devRef .tc main_v241) := StableHlo.after_of_writes_sub _ _ Writes.hostOps8_3 (by decide)
    _ = W30 m ρ c (Proc.devRef .tc main_v241) := StableHlo.after_of_writes_sub _ _ Writes.hostOps8_2 (by decide)
    _ = W29 m ρ c (Proc.devRef .tc main_v241) := StableHlo.after_of_writes_sub _ _ Writes.hostOps8_1 (by decide)
    _ = W28 m ρ c (Proc.devRef .tc main_v241) := StableHlo.after_of_writes_sub _ _ Writes.hostOps8 (by decide)

/-- Nothing between boundaries 0 and 4 writes `main_arg12`. -/
theorem keep_arg12_0_4 (c : Dev nD) : W4 m ρ c (Proc.devRef .tc main_arg12) = W0 m ρ c (Proc.devRef .tc main_arg12) :=
  calc W4 m ρ c (Proc.devRef .tc main_arg12)
    _ = W3 m ρ c (Proc.devRef .tc main_arg12) := StableHlo.after_of_writes_sub _ _ Writes.hostOps1_2 (by decide)
    _ = W2 m ρ c (Proc.devRef .tc main_arg12) := StableHlo.after_of_writes_sub _ _ Writes.hostOps1_1 (by decide)
    _ = W1 m ρ c (Proc.devRef .tc main_arg12) := StableHlo.after_of_writes_sub _ _ Writes.hostOps1 (by decide)
    _ = W0 m ρ c (Proc.devRef .tc main_arg12) := W1_of_ne m ρ c main_arg12 (by decide)

/-- Nothing between boundaries 29 and 32 writes `main_v245`. -/
theorem keep_v245_29_32 (c : Dev nD) : W32 m ρ c (Proc.devRef .tc main_v245) = W29 m ρ c (Proc.devRef .tc main_v245) :=
  calc W32 m ρ c (Proc.devRef .tc main_v245)
    _ = W31 m ρ c (Proc.devRef .tc main_v245) := StableHlo.after_of_writes_sub _ _ Writes.hostOps8_3 (by decide)
    _ = W30 m ρ c (Proc.devRef .tc main_v245) := StableHlo.after_of_writes_sub _ _ Writes.hostOps8_2 (by decide)
    _ = W29 m ρ c (Proc.devRef .tc main_v245) := StableHlo.after_of_writes_sub _ _ Writes.hostOps8_1 (by decide)

/-- Nothing between boundaries 6 and 9 writes `main_v49`. -/
theorem keep_v49_6_9 (c : Dev nD) : W9 m ρ c (Proc.devRef .tc main_v49) = W6 m ρ c (Proc.devRef .tc main_v49) :=
  calc W9 m ρ c (Proc.devRef .tc main_v49)
    _ = W8 m ρ c (Proc.devRef .tc main_v49) := StableHlo.after_of_writes_sub _ _ Writes.hostOps2_3 (by decide)
    _ = W7 m ρ c (Proc.devRef .tc main_v49) := StableHlo.after_of_writes_sub _ _ Writes.hostOps2_2 (by decide)
    _ = W6 m ρ c (Proc.devRef .tc main_v49) := StableHlo.after_of_writes_sub _ _ Writes.hostOps2_1 (by decide)

/-- Nothing between boundaries 24 and 26 writes `main_v196`. -/
theorem keep_v196_24_26 (c : Dev nD) : W26 m ρ c (Proc.devRef .tc main_v196) = W24 m ρ c (Proc.devRef .tc main_v196) :=
  calc W26 m ρ c (Proc.devRef .tc main_v196)
    _ = W25 m ρ c (Proc.devRef .tc main_v196) := StableHlo.after_of_writes_sub _ _ Writes.hostOps7_1 (by decide)
    _ = W24 m ρ c (Proc.devRef .tc main_v196) := StableHlo.after_of_writes_sub _ _ Writes.hostOps7 (by decide)

/-- Nothing between boundaries 11 and 13 writes `main_v95`. -/
theorem keep_v95_11_13 (c : Dev nD) : W13 m ρ c (Proc.devRef .tc main_v95) = W11 m ρ c (Proc.devRef .tc main_v95) :=
  calc W13 m ρ c (Proc.devRef .tc main_v95)
    _ = W12 m ρ c (Proc.devRef .tc main_v95) := StableHlo.after_of_writes_sub _ _ Writes.hostOps3_1 (by decide)
    _ = W11 m ρ c (Proc.devRef .tc main_v95) := StableHlo.after_of_writes_sub _ _ Writes.hostOps3 (by decide)

/-- Nothing between boundaries 39 and 40 writes `main_v347`. -/
theorem keep_v347_39_40 (c : Dev nD) : W40 m ρ c (Proc.devRef .tc main_v347) = W39 m ρ c (Proc.devRef .tc main_v347) :=
  calc W40 m ρ c (Proc.devRef .tc main_v347)
    _ = W39 m ρ c (Proc.devRef .tc main_v347) := StableHlo.after_of_writes_sub _ _ Writes.hostOps10_1 (by decide)

/-- Nothing between boundaries 35 and 36 writes `main_v298`. -/
theorem keep_v298_35_36 (c : Dev nD) : W36 m ρ c (Proc.devRef .tc main_v298) = W35 m ρ c (Proc.devRef .tc main_v298) :=
  calc W36 m ρ c (Proc.devRef .tc main_v298)
    _ = W35 m ρ c (Proc.devRef .tc main_v298) := StableHlo.after_of_writes_sub _ _ Writes.hostOps9_1 (by decide)

/-- Nothing between boundaries 20 and 21 writes `main_v191`. -/
theorem keep_v191_20_21 (c : Dev nD) : W21 m ρ c (Proc.devRef .tc main_v191) = W20 m ρ c (Proc.devRef .tc main_v191) :=
  calc W21 m ρ c (Proc.devRef .tc main_v191)
    _ = W20 m ρ c (Proc.devRef .tc main_v191) := W21_of_ne m ρ c main_v191 (by decide)

/-- Nothing between boundaries 6 and 7 writes `main_v56`. -/
theorem keep_v56_6_7 (c : Dev nD) : W7 m ρ c (Proc.devRef .tc main_v56) = W6 m ρ c (Proc.devRef .tc main_v56) :=
  calc W7 m ρ c (Proc.devRef .tc main_v56)
    _ = W6 m ρ c (Proc.devRef .tc main_v56) := StableHlo.after_of_writes_sub _ _ Writes.hostOps2_1 (by decide)

end Cert.KernelIdeal.Keep

end
-- ==== Proof.KeepB.lean ====
import proofs.«143428_j3564822855941_1_alg».proof.Proof.KernelIdealFrameP
import proofs.«143428_j3564822855941_1_alg».proof.Proof.Writes

/-! The contents of a buffer at a later boundary of the kernel program are its contents at an earlier one when no
    region and no host operation in between writes it. -/

set_option maxRecDepth 16384

noncomputable section

namespace Cert.KernelIdeal.Keep

open Cert.KernelIdeal Cert.KernelIdeal.Gen Cert.KernelIdeal.GenP Idealize.ShloMosaic Idealize.ShloMosaic.TcCoe Idealize.SL.Sem

variable (m : (ℓ : Loc nD τ sig) → Buf (Elt Ideal) ℓ) (ρ : Dev nD → PrngReg)

/-- Nothing between boundaries 0 and 42 writes `main_arg15`. -/
theorem keep_arg15_0_42 (c : Dev nD) : W42 m ρ c (Proc.devRef .tc main_arg15) = W0 m ρ c (Proc.devRef .tc main_arg15) :=
  calc W42 m ρ c (Proc.devRef .tc main_arg15)
    _ = W41 m ρ c (Proc.devRef .tc main_arg15) := StableHlo.after_of_writes_sub _ _ Writes.hostOps10_3 (by decide)
    _ = W40 m ρ c (Proc.devRef .tc main_arg15) := StableHlo.after_of_writes_sub _ _ Writes.hostOps10_2 (by decide)
    _ = W39 m ρ c (Proc.devRef .tc main_arg15) := StableHlo.after_of_writes_sub _ _ Writes.hostOps10_1 (by decide)
    _ = W38 m ρ c (Proc.devRef .tc main_arg15) := StableHlo.after_of_writes_sub _ _ Writes.hostOps10 (by decide)
    _ = W37 m ρ c (Proc.devRef .tc main_arg15) := W38_of_ne m ρ c main_arg15 (by decide)
    _ = W36 m ρ c (Proc.devRef .tc main_arg15) := StableHlo.after_of_writes_sub _ _ Writes.hostOps9_2 (by decide)
    _ = W35 m ρ c (Proc.devRef .tc main_arg15) := StableHlo.after_of_writes_sub _ _ Writes.hostOps9_1 (by decide)
    _ = W34 m ρ c (Proc.devRef .tc main_arg15) := StableHlo.after_of_writes_sub _ _ Writes.hostOps9 (by decide)
    _ = W33 m ρ c (Proc.devRef .tc main_arg15) := W34_of_ne m ρ c main_arg15 (by decide)
    _ = W32 m ρ c (Proc.devRef .tc main_arg15) := StableHlo.after_of_writes_sub _ _ Writes.hostOps8_4 (by decide)
    _ = W31 m ρ c (Proc.devRef .tc main_arg15) := StableHlo.after_of_writes_sub _ _ Writes.hostOps8_3 (by decide)
    _ = W30 m ρ c (Proc.devRef .tc main_arg15) := StableHlo.after_of_writes_sub _ _ Writes.hostOps8_2 (by decide)
    _ = W29 m ρ c (Proc.devRef .tc main_arg15) := StableHlo.after_of_writes_sub _ _ Writes.hostOps8_1 (by decide)
    _ = W28 m ρ c (Proc.devRef .tc main_arg15) := StableHlo.after_of_writes_sub _ _ Writes.hostOps8 (by decide)
    _ = W27 m ρ c (Proc.devRef .tc main_arg15) := W28_of_ne m ρ c main_arg15 (by decide)
    _ = W26 m ρ c (Proc.devRef .tc main_arg15) := StableHlo.after_of_writes_sub _ _ Writes.hostOps7_2 (by decide)
    _ = W25 m ρ c (Proc.devRef .tc main_arg15) := StableHlo.after_of_writes_sub _ _ Writes.hostOps7_1 (by decide)
    _ = W24 m ρ c (Proc.devRef .tc main_arg15) := StableHlo.after_of_writes_sub _ _ Writes.hostOps7 (by decide)
    _ = W23 m ρ c (Proc.devRef .tc main_arg15) := W24_of_ne m ρ c main_arg15 (by decide)
    _ = W22 m ρ c (Proc.devRef .tc main_arg15) := W23_of_ne m ρ c main_arg15 (by decide)
    _ = W21 m ρ c (Proc.devRef .tc main_arg15) := StableHlo.after_of_writes_sub _ _ Writes.hostOps5 (by decide)
    _ = W20 m ρ c (Proc.devRef .tc main_arg15) := W21_of_ne m ρ c main_arg15 (by decide)
    _ = W19 m ρ c (Proc.devRef .tc main_arg15) := StableHlo.after_of_writes_sub _ _ Writes.hostOps4_4 (by decide)
    _ = W18 m ρ c (Proc.devRef .tc main_arg15) := StableHlo.after_of_writes_sub _ _ Writes.hostOps4_3 (by decide)
    _ = W17 m ρ c (Proc.devRef .tc main_arg15) := StableHlo.after_of_writes_sub _ _ Writes.hostOps4_2 (by decide)
    _ = W16 m ρ c (Proc.devRef .tc main_arg15) := StableHlo.after_of_writes_sub _ _ Writes.hostOps4_1 (by decide)
    _ = W15 m ρ c (Proc.devRef .tc main_arg15) := StableHlo.after_of_writes_sub _ _ Writes.hostOps4 (by decide)
    _ = W14 m ρ c (Proc.devRef .tc main_arg15) := W15_of_ne m ρ c main_arg15 (by decide)
    _ = W13 m ρ c (Proc.devRef .tc main_arg15) := StableHlo.after_of_writes_sub _ _ Writes.hostOps3_2 (by decide)
    _ = W12 m ρ c (Proc.devRef .tc main_arg15) := StableHlo.after_of_writes_sub _ _ Writes.hostOps3_1 (by decide)
    _ = W11 m ρ c (Proc.devRef .tc main_arg15) := StableHlo.after_of_writes_sub _ _ Writes.hostOps3 (by decide)
    _ = W10 m ρ c (Proc.devRef .tc main_arg15) := W11_of_ne m ρ c main_arg15 (by decide)
    _ = W9 m ρ c (Proc.devRef .tc main_arg15) := StableHlo.after_of_writes_sub _ _ Writes.hostOps2_4 (by decide)
    _ = W8 m ρ c (Proc.devRef .tc main_arg15) := StableHlo.after_of_writes_sub _ _ Writes.hostOps2_3 (by decide)
    _ = W7 m ρ c (Proc.devRef .tc main_arg15) := StableHlo.after_of_writes_sub _ _ Writes.hostOps2_2 (by decide)
    _ = W6 m ρ c (Proc.devRef .tc main_arg15) := StableHlo.after_of_writes_sub _ _ Writes.hostOps2_1 (by decide)
    _ = W5 m ρ c (Proc.devRef .tc main_arg15) := StableHlo.after_of_writes_sub _ _ Writes.hostOps2 (by decide)
    _ = W4 m ρ c (Proc.devRef .tc main_arg15) := W5_of_ne m ρ c main_arg15 (by decide)
    _ = W3 m ρ c (Proc.devRef .tc main_arg15) := StableHlo.after_of_writes_sub _ _ Writes.hostOps1_2 (by decide)
    _ = W2 m ρ c (Proc.devRef .tc main_arg15) := StableHlo.after_of_writes_sub _ _ Writes.hostOps1_1 (by decide)
    _ = W1 m ρ c (Proc.devRef .tc main_arg15) := StableHlo.after_of_writes_sub _ _ Writes.hostOps1 (by decide)
    _ = W0 m ρ c (Proc.devRef .tc main_arg15) := W1_of_ne m ρ c main_arg15 (by decide)

/-- Nothing between boundaries 0 and 37 writes `main_arg18`. -/
theorem keep_arg18_0_37 (c : Dev nD) : W37 m ρ c (Proc.devRef .tc main_arg18) = W0 m ρ c (Proc.devRef .tc main_arg18) :=
  calc W37 m ρ c (Proc.devRef .tc main_arg18)
    _ = W36 m ρ c (Proc.devRef .tc main_arg18) := StableHlo.after_of_writes_sub _ _ Writes.hostOps9_2 (by decide)
    _ = W35 m ρ c (Proc.devRef .tc main_arg18) := StableHlo.after_of_writes_sub _ _ Writes.hostOps9_1 (by decide)
    _ = W34 m ρ c (Proc.devRef .tc main_arg18) := StableHlo.after_of_writes_sub _ _ Writes.hostOps9 (by decide)
    _ = W33 m ρ c (Proc.devRef .tc main_arg18) := W34_of_ne m ρ c main_arg18 (by decide)
    _ = W32 m ρ c (Proc.devRef .tc main_arg18) := StableHlo.after_of_writes_sub _ _ Writes.hostOps8_4 (by decide)
    _ = W31 m ρ c (Proc.devRef .tc main_arg18) := StableHlo.after_of_writes_sub _ _ Writes.hostOps8_3 (by decide)
    _ = W30 m ρ c (Proc.devRef .tc main_arg18) := StableHlo.after_of_writes_sub _ _ Writes.hostOps8_2 (by decide)
    _ = W29 m ρ c (Proc.devRef .tc main_arg18) := StableHlo.after_of_writes_sub _ _ Writes.hostOps8_1 (by decide)
    _ = W28 m ρ c (Proc.devRef .tc main_arg18) := StableHlo.after_of_writes_sub _ _ Writes.hostOps8 (by decide)
    _ = W27 m ρ c (Proc.devRef .tc main_arg18) := W28_of_ne m ρ c main_arg18 (by decide)
    _ = W26 m ρ c (Proc.devRef .tc main_arg18) := StableHlo.after_of_writes_sub _ _ Writes.hostOps7_2 (by decide)
    _ = W25 m ρ c (Proc.devRef .tc main_arg18) := StableHlo.after_of_writes_sub _ _ Writes.hostOps7_1 (by decide)
    _ = W24 m ρ c (Proc.devRef .tc main_arg18) := StableHlo.after_of_writes_sub _ _ Writes.hostOps7 (by decide)
    _ = W23 m ρ c (Proc.devRef .tc main_arg18) := W24_of_ne m ρ c main_arg18 (by decide)
    _ = W22 m ρ c (Proc.devRef .tc main_arg18) := W23_of_ne m ρ c main_arg18 (by decide)
    _ = W21 m ρ c (Proc.devRef .tc main_arg18) := StableHlo.after_of_writes_sub _ _ Writes.hostOps5 (by decide)
    _ = W20 m ρ c (Proc.devRef .tc main_arg18) := W21_of_ne m ρ c main_arg18 (by decide)
    _ = W19 m ρ c (Proc.devRef .tc main_arg18) := StableHlo.after_of_writes_sub _ _ Writes.hostOps4_4 (by decide)
    _ = W18 m ρ c (Proc.devRef .tc main_arg18) := StableHlo.after_of_writes_sub _ _ Writes.hostOps4_3 (by decide)
    _ = W17 m ρ c (Proc.devRef .tc main_arg18) := StableHlo.after_of_writes_sub _ _ Writes.hostOps4_2 (by decide)
    _ = W16 m ρ c (Proc.devRef .tc main_arg18) := StableHlo.after_of_writes_sub _ _ Writes.hostOps4_1 (by decide)
    _ = W15 m ρ c (Proc.devRef .tc main_arg18) := StableHlo.after_of_writes_sub _ _ Writes.hostOps4 (by decide)
    _ = W14 m ρ c (Proc.devRef .tc main_arg18) := W15_of_ne m ρ c main_arg18 (by decide)
    _ = W13 m ρ c (Proc.devRef .tc main_arg18) := StableHlo.after_of_writes_sub _ _ Writes.hostOps3_2 (by decide)
    _ = W12 m ρ c (Proc.devRef .tc main_arg18) := StableHlo.after_of_writes_sub _ _ Writes.hostOps3_1 (by decide)
    _ = W11 m ρ c (Proc.devRef .tc main_arg18) := StableHlo.after_of_writes_sub _ _ Writes.hostOps3 (by decide)
    _ = W10 m ρ c (Proc.devRef .tc main_arg18) := W11_of_ne m ρ c main_arg18 (by decide)
    _ = W9 m ρ c (Proc.devRef .tc main_arg18) := StableHlo.after_of_writes_sub _ _ Writes.hostOps2_4 (by decide)
    _ = W8 m ρ c (Proc.devRef .tc main_arg18) := StableHlo.after_of_writes_sub _ _ Writes.hostOps2_3 (by decide)
    _ = W7 m ρ c (Proc.devRef .tc main_arg18) := StableHlo.after_of_writes_sub _ _ Writes.hostOps2_2 (by decide)
    _ = W6 m ρ c (Proc.devRef .tc main_arg18) := StableHlo.after_of_writes_sub _ _ Writes.hostOps2_1 (by decide)
    _ = W5 m ρ c (Proc.devRef .tc main_arg18) := StableHlo.after_of_writes_sub _ _ Writes.hostOps2 (by decide)
    _ = W4 m ρ c (Proc.devRef .tc main_arg18) := W5_of_ne m ρ c main_arg18 (by decide)
    _ = W3 m ρ c (Proc.devRef .tc main_arg18) := StableHlo.after_of_writes_sub _ _ Writes.hostOps1_2 (by decide)
    _ = W2 m ρ c (Proc.devRef .tc main_arg18) := StableHlo.after_of_writes_sub _ _ Writes.hostOps1_1 (by decide)
    _ = W1 m ρ c (Proc.devRef .tc main_arg18) := StableHlo.after_of_writes_sub _ _ Writes.hostOps1 (by decide)
    _ = W0 m ρ c (Proc.devRef .tc main_arg18) := W1_of_ne m ρ c main_arg18 (by decide)

/-- Nothing between boundaries 0 and 24 writes `main_arg2`. -/
theorem keep_arg2_0_24 (c : Dev nD) : W24 m ρ c (Proc.devRef .tc main_arg2) = W0 m ρ c (Proc.devRef .tc main_arg2) :=
  calc W24 m ρ c (Proc.devRef .tc main_arg2)
    _ = W23 m ρ c (Proc.devRef .tc main_arg2) := W24_of_ne m ρ c main_arg2 (by decide)
    _ = W22 m ρ c (Proc.devRef .tc main_arg2) := W23_of_ne m ρ c main_arg2 (by decide)
    _ = W21 m ρ c (Proc.devRef .tc main_arg2) := StableHlo.after_of_writes_sub _ _ Writes.hostOps5 (by decide)
    _ = W20 m ρ c (Proc.devRef .tc main_arg2) := W21_of_ne m ρ c main_arg2 (by decide)
    _ = W19 m ρ c (Proc.devRef .tc main_arg2) := StableHlo.after_of_writes_sub _ _ Writes.hostOps4_4 (by decide)
    _ = W18 m ρ c (Proc.devRef .tc main_arg2) := StableHlo.after_of_writes_sub _ _ Writes.hostOps4_3 (by decide)
    _ = W17 m ρ c (Proc.devRef .tc main_arg2) := StableHlo.after_of_writes_sub _ _ Writes.hostOps4_2 (by decide)
    _ = W16 m ρ c (Proc.devRef .tc main_arg2) := StableHlo.after_of_writes_sub _ _ Writes.hostOps4_1 (by decide)
    _ = W15 m ρ c (Proc.devRef .tc main_arg2) := StableHlo.after_of_writes_sub _ _ Writes.hostOps4 (by decide)
    _ = W14 m ρ c (Proc.devRef .tc main_arg2) := W15_of_ne m ρ c main_arg2 (by decide)
    _ = W13 m ρ c (Proc.devRef .tc main_arg2) := StableHlo.after_of_writes_sub _ _ Writes.hostOps3_2 (by decide)
    _ = W12 m ρ c (Proc.devRef .tc main_arg2) := StableHlo.after_of_writes_sub _ _ Writes.hostOps3_1 (by decide)
    _ = W11 m ρ c (Proc.devRef .tc main_arg2) := StableHlo.after_of_writes_sub _ _ Writes.hostOps3 (by decide)
    _ = W10 m ρ c (Proc.devRef .tc main_arg2) := W11_of_ne m ρ c main_arg2 (by decide)
    _ = W9 m ρ c (Proc.devRef .tc main_arg2) := StableHlo.after_of_writes_sub _ _ Writes.hostOps2_4 (by decide)
    _ = W8 m ρ c (Proc.devRef .tc main_arg2) := StableHlo.after_of_writes_sub _ _ Writes.hostOps2_3 (by decide)
    _ = W7 m ρ c (Proc.devRef .tc main_arg2) := StableHlo.after_of_writes_sub _ _ Writes.hostOps2_2 (by decide)
    _ = W6 m ρ c (Proc.devRef .tc main_arg2) := StableHlo.after_of_writes_sub _ _ Writes.hostOps2_1 (by decide)
    _ = W5 m ρ c (Proc.devRef .tc main_arg2) := StableHlo.after_of_writes_sub _ _ Writes.hostOps2 (by decide)
    _ = W4 m ρ c (Proc.devRef .tc main_arg2) := W5_of_ne m ρ c main_arg2 (by decide)
    _ = W3 m ρ c (Proc.devRef .tc main_arg2) := StableHlo.after_of_writes_sub _ _ Writes.hostOps1_2 (by decide)
    _ = W2 m ρ c (Proc.devRef .tc main_arg2) := StableHlo.after_of_writes_sub _ _ Writes.hostOps1_1 (by decide)
    _ = W1 m ρ c (Proc.devRef .tc main_arg2) := StableHlo.after_of_writes_sub _ _ Writes.hostOps1 (by decide)
    _ = W0 m ρ c (Proc.devRef .tc main_arg2) := W1_of_ne m ρ c main_arg2 (by decide)

/-- Nothing between boundaries 0 and 19 writes `main_arg7`. -/
theorem keep_arg7_0_19 (c : Dev nD) : W19 m ρ c (Proc.devRef .tc main_arg7) = W0 m ρ c (Proc.devRef .tc main_arg7) :=
  calc W19 m ρ c (Proc.devRef .tc main_arg7)
    _ = W18 m ρ c (Proc.devRef .tc main_arg7) := StableHlo.after_of_writes_sub _ _ Writes.hostOps4_3 (by decide)
    _ = W17 m ρ c (Proc.devRef .tc main_arg7) := StableHlo.after_of_writes_sub _ _ Writes.hostOps4_2 (by decide)
    _ = W16 m ρ c (Proc.devRef .tc main_arg7) := StableHlo.after_of_writes_sub _ _ Writes.hostOps4_1 (by decide)
    _ = W15 m ρ c (Proc.devRef .tc main_arg7) := StableHlo.after_of_writes_sub _ _ Writes.hostOps4 (by decide)
    _ = W14 m ρ c (Proc.devRef .tc main_arg7) := W15_of_ne m ρ c main_arg7 (by decide)
    _ = W13 m ρ c (Proc.devRef .tc main_arg7) := StableHlo.after_of_writes_sub _ _ Writes.hostOps3_2 (by decide)
    _ = W12 m ρ c (Proc.devRef .tc main_arg7) := StableHlo.after_of_writes_sub _ _ Writes.hostOps3_1 (by decide)
    _ = W11 m ρ c (Proc.devRef .tc main_arg7) := StableHlo.after_of_writes_sub _ _ Writes.hostOps3 (by decide)
    _ = W10 m ρ c (Proc.devRef .tc main_arg7) := W11_of_ne m ρ c main_arg7 (by decide)
    _ = W9 m ρ c (Proc.devRef .tc main_arg7) := StableHlo.after_of_writes_sub _ _ Writes.hostOps2_4 (by decide)
    _ = W8 m ρ c (Proc.devRef .tc main_arg7) := StableHlo.after_of_writes_sub _ _ Writes.hostOps2_3 (by decide)
    _ = W7 m ρ c (Proc.devRef .tc main_arg7) := StableHlo.after_of_writes_sub _ _ Writes.hostOps2_2 (by decide)
    _ = W6 m ρ c (Proc.devRef .tc main_arg7) := StableHlo.after_of_writes_sub _ _ Writes.hostOps2_1 (by decide)
    _ = W5 m ρ c (Proc.devRef .tc main_arg7) := StableHlo.after_of_writes_sub _ _ Writes.hostOps2 (by decide)
    _ = W4 m ρ c (Proc.devRef .tc main_arg7) := W5_of_ne m ρ c main_arg7 (by decide)
    _ = W3 m ρ c (Proc.devRef .tc main_arg7) := StableHlo.after_of_writes_sub _ _ Writes.hostOps1_2 (by decide)
    _ = W2 m ρ c (Proc.devRef .tc main_arg7) := StableHlo.after_of_writes_sub _ _ Writes.hostOps1_1 (by decide)
    _ = W1 m ρ c (Proc.devRef .tc main_arg7) := StableHlo.after_of_writes_sub _ _ Writes.hostOps1 (by decide)
    _ = W0 m ρ c (Proc.devRef .tc main_arg7) := W1_of_ne m ρ c main_arg7 (by decide)

/-- Nothing between boundaries 21 and 37 writes `main_v193`. -/
theorem keep_v193_21_37 (c : Dev nD) : W37 m ρ c (Proc.devRef .tc main_v193) = W21 m ρ c (Proc.devRef .tc main_v193) :=
  calc W37 m ρ c (Proc.devRef .tc main_v193)
    _ = W36 m ρ c (Proc.devRef .tc main_v193) := StableHlo.after_of_writes_sub _ _ Writes.hostOps9_2 (by decide)
    _ = W35 m ρ c (Proc.devRef .tc main_v193) := StableHlo.after_of_writes_sub _ _ Writes.hostOps9_1 (by decide)
    _ = W34 m ρ c (Proc.devRef .tc main_v193) := StableHlo.after_of_writes_sub _ _ Writes.hostOps9 (by decide)
    _ = W33 m ρ c (Proc.devRef .tc main_v193) := W34_of_ne m ρ c main_v193 (by decide)
    _ = W32 m ρ c (Proc.devRef .tc main_v193) := StableHlo.after_of_writes_sub _ _ Writes.hostOps8_4 (by decide)
    _ = W31 m ρ c (Proc.devRef .tc main_v193) := StableHlo.after_of_writes_sub _ _ Writes.hostOps8_3 (by decide)
    _ = W30 m ρ c (Proc.devRef .tc main_v193) := StableHlo.after_of_writes_sub _ _ Writes.hostOps8_2 (by decide)
    _ = W29 m ρ c (Proc.devRef .tc main_v193) := StableHlo.after_of_writes_sub _ _ Writes.hostOps8_1 (by decide)
    _ = W28 m ρ c (Proc.devRef .tc main_v193) := StableHlo.after_of_writes_sub _ _ Writes.hostOps8 (by decide)
    _ = W27 m ρ c (Proc.devRef .tc main_v193) := W28_of_ne m ρ c main_v193 (by decide)
    _ = W26 m ρ c (Proc.devRef .tc main_v193) := StableHlo.after_of_writes_sub _ _ Writes.hostOps7_2 (by decide)
    _ = W25 m ρ c (Proc.devRef .tc main_v193) := StableHlo.after_of_writes_sub _ _ Writes.hostOps7_1 (by decide)
    _ = W24 m ρ c (Proc.devRef .tc main_v193) := StableHlo.after_of_writes_sub _ _ Writes.hostOps7 (by decide)
    _ = W23 m ρ c (Proc.devRef .tc main_v193) := (W24_arr m ρ c 0).trans (((dat6 (V23 m ρ) c).arrAt_in 0 rfl _).trans (A_eq6 (V23 m ρ) c 0))
    _ = W22 m ρ c (Proc.devRef .tc main_v193) := W23_of_ne m ρ c main_v193 (by decide)
    _ = W21 m ρ c (Proc.devRef .tc main_v193) := StableHlo.after_of_writes_sub _ _ Writes.hostOps5 (by decide)

/-- Nothing between boundaries 0 and 11 writes `main_arg3`. -/
theorem keep_arg3_0_11 (c : Dev nD) : W11 m ρ c (Proc.devRef .tc main_arg3) = W0 m ρ c (Proc.devRef .tc main_arg3) :=
  calc W11 m ρ c (Proc.devRef .tc main_arg3)
    _ = W10 m ρ c (Proc.devRef .tc main_arg3) := W11_of_ne m ρ c main_arg3 (by decide)
    _ = W9 m ρ c (Proc.devRef .tc main_arg3) := StableHlo.after_of_writes_sub _ _ Writes.hostOps2_4 (by decide)
    _ = W8 m ρ c (Proc.devRef .tc main_arg3) := StableHlo.after_of_writes_sub _ _ Writes.hostOps2_3 (by decide)
    _ = W7 m ρ c (Proc.devRef .tc main_arg3) := StableHlo.after_of_writes_sub _ _ Writes.hostOps2_2 (by decide)
    _ = W6 m ρ c (Proc.devRef .tc main_arg3) := StableHlo.after_of_writes_sub _ _ Writes.hostOps2_1 (by decide)
    _ = W5 m ρ c (Proc.devRef .tc main_arg3) := StableHlo.after_of_writes_sub _ _ Writes.hostOps2 (by decide)
    _ = W4 m ρ c (Proc.devRef .tc main_arg3) := W5_of_ne m ρ c main_arg3 (by decide)
    _ = W3 m ρ c (Proc.devRef .tc main_arg3) := StableHlo.after_of_writes_sub _ _ Writes.hostOps1_2 (by decide)
    _ = W2 m ρ c (Proc.devRef .tc main_arg3) := StableHlo.after_of_writes_sub _ _ Writes.hostOps1_1 (by decide)
    _ = W1 m ρ c (Proc.devRef .tc main_arg3) := StableHlo.after_of_writes_sub _ _ Writes.hostOps1 (by decide)
    _ = W0 m ρ c (Proc.devRef .tc main_arg3) := W1_of_ne m ρ c main_arg3 (by decide)

/-- Nothing between boundaries 10 and 20 writes `main_v94`. -/
theorem keep_v94_10_20 (c : Dev nD) : W20 m ρ c (Proc.devRef .tc main_v94) = W10 m ρ c (Proc.devRef .tc main_v94) :=
  calc W20 m ρ c (Proc.devRef .tc main_v94)
    _ = W19 m ρ c (Proc.devRef .tc main_v94) := StableHlo.after_of_writes_sub _ _ Writes.hostOps4_4 (by decide)
    _ = W18 m ρ c (Proc.devRef .tc main_v94) := StableHlo.after_of_writes_sub _ _ Writes.hostOps4_3 (by decide)
    _ = W17 m ρ c (Proc.devRef .tc main_v94) := StableHlo.after_of_writes_sub _ _ Writes.hostOps4_2 (by decide)
    _ = W16 m ρ c (Proc.devRef .tc main_v94) := StableHlo.after_of_writes_sub _ _ Writes.hostOps4_1 (by decide)
    _ = W15 m ρ c (Proc.devRef .tc main_v94) := StableHlo.after_of_writes_sub _ _ Writes.hostOps4 (by decide)
    _ = W14 m ρ c (Proc.devRef .tc main_v94) := W15_of_ne m ρ c main_v94 (by decide)
    _ = W13 m ρ c (Proc.devRef .tc main_v94) := StableHlo.after_of_writes_sub _ _ Writes.hostOps3_2 (by decide)
    _ = W12 m ρ c (Proc.devRef .tc main_v94) := StableHlo.after_of_writes_sub _ _ Writes.hostOps3_1 (by decide)
    _ = W11 m ρ c (Proc.devRef .tc main_v94) := StableHlo.after_of_writes_sub _ _ Writes.hostOps3 (by decide)
    _ = W10 m ρ c (Proc.devRef .tc main_v94) := W11_of_ne m ρ c main_v94 (by decide)

/-- Nothing between boundaries 14 and 22 writes `main_v139`. -/
theorem keep_v139_14_22 (c : Dev nD) : W22 m ρ c (Proc.devRef .tc main_v139) = W14 m ρ c (Proc.devRef .tc main_v139) :=
  calc W22 m ρ c (Proc.devRef .tc main_v139)
    _ = W21 m ρ c (Proc.devRef .tc main_v139) := StableHlo.after_of_writes_sub _ _ Writes.hostOps5 (by decide)
    _ = W20 m ρ c (Proc.devRef .tc main_v139) := W21_of_ne m ρ c main_v139 (by decide)
    _ = W19 m ρ c (Proc.devRef .tc main_v139) := StableHlo.after_of_writes_sub _ _ Writes.hostOps4_4 (by decide)
    _ = W18 m ρ c (Proc.devRef .tc main_v139) := StableHlo.after_of_writes_sub _ _ Writes.hostOps4_3 (by decide)
    _ = W17 m ρ c (Proc.devRef .tc main_v139) := StableHlo.after_of_writes_sub _ _ Writes.hostOps4_2 (by decide)
    _ = W16 m ρ c (Proc.devRef .tc main_v139) := StableHlo.after_of_writes_sub _ _ Writes.hostOps4_1 (by decide)
    _ = W15 m ρ c (Proc.devRef .tc main_v139) := StableHlo.after_of_writes_sub _ _ Writes.hostOps4 (by decide)
    _ = W14 m ρ c (Proc.devRef .tc main_v139) := W15_of_ne m ρ c main_v139 (by decide)

/-- Nothing between boundaries 5 and 9 writes `main_v45`. -/
theorem keep_v45_5_9 (c : Dev nD) : W9 m ρ c (Proc.devRef .tc main_v45) = W5 m ρ c (Proc.devRef .tc main_v45) :=
  calc W9 m ρ c (Proc.devRef .tc main_v45)
    _ = W8 m ρ c (Proc.devRef .tc main_v45) := StableHlo.after_of_writes_sub _ _ Writes.hostOps2_3 (by decide)
    _ = W7 m ρ c (Proc.devRef .tc main_v45) := StableHlo.after_of_writes_sub _ _ Writes.hostOps2_2 (by decide)
    _ = W6 m ρ c (Proc.devRef .tc main_v45) := StableHlo.after_of_writes_sub _ _ Writes.hostOps2_1 (by decide)
    _ = W5 m ρ c (Proc.devRef .tc main_v45) := StableHlo.after_of_writes_sub _ _ Writes.hostOps2 (by decide)

/-- Nothing between boundaries 39 and 42 writes `main_v340`. -/
theorem keep_v340_39_42 (c : Dev nD) : W42 m ρ c (Proc.devRef .tc main_v340) = W39 m ρ c (Proc.devRef .tc main_v340) :=
  calc W42 m ρ c (Proc.devRef .tc main_v340)
    _ = W41 m ρ c (Proc.devRef .tc main_v340) := StableHlo.after_of_writes_sub _ _ Writes.hostOps10_3 (by decide)
    _ = W40 m ρ c (Proc.devRef .tc main_v340) := StableHlo.after_of_writes_sub _ _ Writes.hostOps10_2 (by decide)
    _ = W39 m ρ c (Proc.devRef .tc main_v340) := StableHlo.after_of_writes_sub _ _ Writes.hostOps10_1 (by decide)

/-- Nothing between boundaries 16 and 19 writes `main_v142`. -/
theorem keep_v142_16_19 (c : Dev nD) : W19 m ρ c (Proc.devRef .tc main_v142) = W16 m ρ c (Proc.devRef .tc main_v142) :=
  calc W19 m ρ c (Proc.devRef .tc main_v142)
    _ = W18 m ρ c (Proc.devRef .tc main_v142) := StableHlo.after_of_writes_sub _ _ Writes.hostOps4_3 (by decide)
    _ = W17 m ρ c (Proc.devRef .tc main_v142) := StableHlo.after_of_writes_sub _ _ Writes.hostOps4_2 (by decide)
    _ = W16 m ρ c (Proc.devRef .tc main_v142) := StableHlo.after_of_writes_sub _ _ Writes.hostOps4_1 (by decide)

/-- Nothing between boundaries 44 and 46 writes `main_v389`. -/
theorem keep_v389_44_46 (c : Dev nD) : W46 m ρ c (Proc.devRef .tc main_v389) = W44 m ρ c (Proc.devRef .tc main_v389) :=
  calc W46 m ρ c (Proc.devRef .tc main_v389)
    _ = W45 m ρ c (Proc.devRef .tc main_v389) := W46_of_ne m ρ c main_v389 (by decide)
    _ = W44 m ρ c (Proc.devRef .tc main_v389) := StableHlo.after_of_writes_sub _ _ Writes.hostOps11 (by decide)

/-- Nothing between boundaries 40 and 42 writes `main_v352`. -/
theorem keep_v352_40_42 (c : Dev nD) : W42 m ρ c (Proc.devRef .tc main_v352) = W40 m ρ c (Proc.devRef .tc main_v352) :=
  calc W42 m ρ c (Proc.devRef .tc main_v352)
    _ = W41 m ρ c (Proc.devRef .tc main_v352) := StableHlo.after_of_writes_sub _ _ Writes.hostOps10_3 (by decide)
    _ = W40 m ρ c (Proc.devRef .tc main_v352) := StableHlo.after_of_writes_sub _ _ Writes.hostOps10_2 (by decide)

/-- Nothing between boundaries 21 and 23 writes `main_v193`. -/
theorem keep_v193_21_23 (c : Dev nD) : W23 m ρ c (Proc.devRef .tc main_v193) = W21 m ρ c (Proc.devRef .tc main_v193) :=
  calc W23 m ρ c (Proc.devRef .tc main_v193)
    _ = W22 m ρ c (Proc.devRef .tc main_v193) := W23_of_ne m ρ c main_v193 (by decide)
    _ = W21 m ρ c (Proc.devRef .tc main_v193) := StableHlo.after_of_writes_sub _ _ Writes.hostOps5 (by decide)

/-- Nothing between boundaries 7 and 9 writes `main_v61`. -/
theorem keep_v61_7_9 (c : Dev nD) : W9 m ρ c (Proc.devRef .tc main_v61) = W7 m ρ c (Proc.devRef .tc main_v61) :=
  calc W9 m ρ c (Proc.devRef .tc main_v61)
    _ = W8 m ρ c (Proc.devRef .tc main_v61) := StableHlo.after_of_writes_sub _ _ Writes.hostOps2_3 (by decide)
    _ = W7 m ρ c (Proc.devRef .tc main_v61) := StableHlo.after_of_writes_sub _ _ Writes.hostOps2_2 (by decide)

/-- Nothing between boundaries 29 and 30 writes `main_v252`. -/
theorem keep_v252_29_30 (c : Dev nD) : W30 m ρ c (Proc.devRef .tc main_v252) = W29 m ρ c (Proc.devRef .tc main_v252) :=
  calc W30 m ρ c (Proc.devRef .tc main_v252)
    _ = W29 m ρ c (Proc.devRef .tc main_v252) := StableHlo.after_of_writes_sub _ _ Writes.hostOps8_1 (by decide)

/-- Nothing between boundaries 16 and 17 writes `main_v151`. -/
theorem keep_v151_16_17 (c : Dev nD) : W17 m ρ c (Proc.devRef .tc main_v151) = W16 m ρ c (Proc.devRef .tc main_v151) :=
  calc W17 m ρ c (Proc.devRef .tc main_v151)
    _ = W16 m ρ c (Proc.devRef .tc main_v151) := StableHlo.after_of_writes_sub _ _ Writes.hostOps4_1 (by decide)

/-- Nothing between boundaries 2 and 3 writes `main_v6`. -/
theorem keep_v6_2_3 (c : Dev nD) : W3 m ρ c (Proc.devRef .tc main_v6) = W2 m ρ c (Proc.devRef .tc main_v6) :=
  calc W3 m ρ c (Proc.devRef .tc main_v6)
    _ = W2 m ρ c (Proc.devRef .tc main_v6) := StableHlo.after_of_writes_sub _ _ Writes.hostOps1_1 (by decide)

end Cert.KernelIdeal.Keep

end
-- ==== Proof.KeepC.lean ====
import proofs.«143428_j3564822855941_1_alg».proof.Proof.KernelIdealFrameP
import proofs.«143428_j3564822855941_1_alg».proof.Proof.Writes

/-! The contents of a buffer at a later boundary of the kernel program are its contents at an earlier one when no
    region and no host operation in between writes it. -/

set_option maxRecDepth 16384

noncomputable section

namespace Cert.KernelIdeal.Keep

open Cert.KernelIdeal Cert.KernelIdeal.Gen Cert.KernelIdeal.GenP Idealize.ShloMosaic Idealize.ShloMosaic.TcCoe Idealize.SL.Sem

variable (m : (ℓ : Loc nD τ sig) → Buf (Elt Ideal) ℓ) (ρ : Dev nD → PrngReg)

/-- Nothing between boundaries 0 and 42 writes `main_arg19`. -/
theorem keep_arg19_0_42 (c : Dev nD) : W42 m ρ c (Proc.devRef .tc main_arg19) = W0 m ρ c (Proc.devRef .tc main_arg19) :=
  calc W42 m ρ c (Proc.devRef .tc main_arg19)
    _ = W41 m ρ c (Proc.devRef .tc main_arg19) := StableHlo.after_of_writes_sub _ _ Writes.hostOps10_3 (by decide)
    _ = W40 m ρ c (Proc.devRef .tc main_arg19) := StableHlo.after_of_writes_sub _ _ Writes.hostOps10_2 (by decide)
    _ = W39 m ρ c (Proc.devRef .tc main_arg19) := StableHlo.after_of_writes_sub _ _ Writes.hostOps10_1 (by decide)
    _ = W38 m ρ c (Proc.devRef .tc main_arg19) := StableHlo.after_of_writes_sub _ _ Writes.hostOps10 (by decide)
    _ = W37 m ρ c (Proc.devRef .tc main_arg19) := W38_of_ne m ρ c main_arg19 (by decide)
    _ = W36 m ρ c (Proc.devRef .tc main_arg19) := StableHlo.after_of_writes_sub _ _ Writes.hostOps9_2 (by decide)
    _ = W35 m ρ c (Proc.devRef .tc main_arg19) := StableHlo.after_of_writes_sub _ _ Writes.hostOps9_1 (by decide)
    _ = W34 m ρ c (Proc.devRef .tc main_arg19) := StableHlo.after_of_writes_sub _ _ Writes.hostOps9 (by decide)
    _ = W33 m ρ c (Proc.devRef .tc main_arg19) := W34_of_ne m ρ c main_arg19 (by decide)
    _ = W32 m ρ c (Proc.devRef .tc main_arg19) := StableHlo.after_of_writes_sub _ _ Writes.hostOps8_4 (by decide)
    _ = W31 m ρ c (Proc.devRef .tc main_arg19) := StableHlo.after_of_writes_sub _ _ Writes.hostOps8_3 (by decide)
    _ = W30 m ρ c (Proc.devRef .tc main_arg19) := StableHlo.after_of_writes_sub _ _ Writes.hostOps8_2 (by decide)
    _ = W29 m ρ c (Proc.devRef .tc main_arg19) := StableHlo.after_of_writes_sub _ _ Writes.hostOps8_1 (by decide)
    _ = W28 m ρ c (Proc.devRef .tc main_arg19) := StableHlo.after_of_writes_sub _ _ Writes.hostOps8 (by decide)
    _ = W27 m ρ c (Proc.devRef .tc main_arg19) := W28_of_ne m ρ c main_arg19 (by decide)
    _ = W26 m ρ c (Proc.devRef .tc main_arg19) := StableHlo.after_of_writes_sub _ _ Writes.hostOps7_2 (by decide)
    _ = W25 m ρ c (Proc.devRef .tc main_arg19) := StableHlo.after_of_writes_sub _ _ Writes.hostOps7_1 (by decide)
    _ = W24 m ρ c (Proc.devRef .tc main_arg19) := StableHlo.after_of_writes_sub _ _ Writes.hostOps7 (by decide)
    _ = W23 m ρ c (Proc.devRef .tc main_arg19) := W24_of_ne m ρ c main_arg19 (by decide)
    _ = W22 m ρ c (Proc.devRef .tc main_arg19) := W23_of_ne m ρ c main_arg19 (by decide)
    _ = W21 m ρ c (Proc.devRef .tc main_arg19) := StableHlo.after_of_writes_sub _ _ Writes.hostOps5 (by decide)
    _ = W20 m ρ c (Proc.devRef .tc main_arg19) := W21_of_ne m ρ c main_arg19 (by decide)
    _ = W19 m ρ c (Proc.devRef .tc main_arg19) := StableHlo.after_of_writes_sub _ _ Writes.hostOps4_4 (by decide)
    _ = W18 m ρ c (Proc.devRef .tc main_arg19) := StableHlo.after_of_writes_sub _ _ Writes.hostOps4_3 (by decide)
    _ = W17 m ρ c (Proc.devRef .tc main_arg19) := StableHlo.after_of_writes_sub _ _ Writes.hostOps4_2 (by decide)
    _ = W16 m ρ c (Proc.devRef .tc main_arg19) := StableHlo.after_of_writes_sub _ _ Writes.hostOps4_1 (by decide)
    _ = W15 m ρ c (Proc.devRef .tc main_arg19) := StableHlo.after_of_writes_sub _ _ Writes.hostOps4 (by decide)
    _ = W14 m ρ c (Proc.devRef .tc main_arg19) := W15_of_ne m ρ c main_arg19 (by decide)
    _ = W13 m ρ c (Proc.devRef .tc main_arg19) := StableHlo.after_of_writes_sub _ _ Writes.hostOps3_2 (by decide)
    _ = W12 m ρ c (Proc.devRef .tc main_arg19) := StableHlo.after_of_writes_sub _ _ Writes.hostOps3_1 (by decide)
    _ = W11 m ρ c (Proc.devRef .tc main_arg19) := StableHlo.after_of_writes_sub _ _ Writes.hostOps3 (by decide)
    _ = W10 m ρ c (Proc.devRef .tc main_arg19) := W11_of_ne m ρ c main_arg19 (by decide)
    _ = W9 m ρ c (Proc.devRef .tc main_arg19) := StableHlo.after_of_writes_sub _ _ Writes.hostOps2_4 (by decide)
    _ = W8 m ρ c (Proc.devRef .tc main_arg19) := StableHlo.after_of_writes_sub _ _ Writes.hostOps2_3 (by decide)
    _ = W7 m ρ c (Proc.devRef .tc main_arg19) := StableHlo.after_of_writes_sub _ _ Writes.hostOps2_2 (by decide)
    _ = W6 m ρ c (Proc.devRef .tc main_arg19) := StableHlo.after_of_writes_sub _ _ Writes.hostOps2_1 (by decide)
    _ = W5 m ρ c (Proc.devRef .tc main_arg19) := StableHlo.after_of_writes_sub _ _ Writes.hostOps2 (by decide)
    _ = W4 m ρ c (Proc.devRef .tc main_arg19) := W5_of_ne m ρ c main_arg19 (by decide)
    _ = W3 m ρ c (Proc.devRef .tc main_arg19) := StableHlo.after_of_writes_sub _ _ Writes.hostOps1_2 (by decide)
    _ = W2 m ρ c (Proc.devRef .tc main_arg19) := StableHlo.after_of_writes_sub _ _ Writes.hostOps1_1 (by decide)
    _ = W1 m ρ c (Proc.devRef .tc main_arg19) := StableHlo.after_of_writes_sub _ _ Writes.hostOps1 (by decide)
    _ = W0 m ρ c (Proc.devRef .tc main_arg19) := W1_of_ne m ρ c main_arg19 (by decide)

/-- Nothing between boundaries 0 and 34 writes `main_arg3`. -/
theorem keep_arg3_0_34 (c : Dev nD) : W34 m ρ c (Proc.devRef .tc main_arg3) = W0 m ρ c (Proc.devRef .tc main_arg3) :=
  calc W34 m ρ c (Proc.devRef .tc main_arg3)
    _ = W33 m ρ c (Proc.devRef .tc main_arg3) := W34_of_ne m ρ c main_arg3 (by decide)
    _ = W32 m ρ c (Proc.devRef .tc main_arg3) := StableHlo.after_of_writes_sub _ _ Writes.hostOps8_4 (by decide)
    _ = W31 m ρ c (Proc.devRef .tc main_arg3) := StableHlo.after_of_writes_sub _ _ Writes.hostOps8_3 (by decide)
    _ = W30 m ρ c (Proc.devRef .tc main_arg3) := StableHlo.after_of_writes_sub _ _ Writes.hostOps8_2 (by decide)
    _ = W29 m ρ c (Proc.devRef .tc main_arg3) := StableHlo.after_of_writes_sub _ _ Writes.hostOps8_1 (by decide)
    _ = W28 m ρ c (Proc.devRef .tc main_arg3) := StableHlo.after_of_writes_sub _ _ Writes.hostOps8 (by decide)
    _ = W27 m ρ c (Proc.devRef .tc main_arg3) := W28_of_ne m ρ c main_arg3 (by decide)
    _ = W26 m ρ c (Proc.devRef .tc main_arg3) := StableHlo.after_of_writes_sub _ _ Writes.hostOps7_2 (by decide)
    _ = W25 m ρ c (Proc.devRef .tc main_arg3) := StableHlo.after_of_writes_sub _ _ Writes.hostOps7_1 (by decide)
    _ = W24 m ρ c (Proc.devRef .tc main_arg3) := StableHlo.after_of_writes_sub _ _ Writes.hostOps7 (by decide)
    _ = W23 m ρ c (Proc.devRef .tc main_arg3) := W24_of_ne m ρ c main_arg3 (by decide)
    _ = W22 m ρ c (Proc.devRef .tc main_arg3) := W23_of_ne m ρ c main_arg3 (by decide)
    _ = W21 m ρ c (Proc.devRef .tc main_arg3) := StableHlo.after_of_writes_sub _ _ Writes.hostOps5 (by decide)
    _ = W20 m ρ c (Proc.devRef .tc main_arg3) := W21_of_ne m ρ c main_arg3 (by decide)
    _ = W19 m ρ c (Proc.devRef .tc main_arg3) := StableHlo.after_of_writes_sub _ _ Writes.hostOps4_4 (by decide)
    _ = W18 m ρ c (Proc.devRef .tc main_arg3) := StableHlo.after_of_writes_sub _ _ Writes.hostOps4_3 (by decide)
    _ = W17 m ρ c (Proc.devRef .tc main_arg3) := StableHlo.after_of_writes_sub _ _ Writes.hostOps4_2 (by decide)
    _ = W16 m ρ c (Proc.devRef .tc main_arg3) := StableHlo.after_of_writes_sub _ _ Writes.hostOps4_1 (by decide)
    _ = W15 m ρ c (Proc.devRef .tc main_arg3) := StableHlo.after_of_writes_sub _ _ Writes.hostOps4 (by decide)
    _ = W14 m ρ c (Proc.devRef .tc main_arg3) := W15_of_ne m ρ c main_arg3 (by decide)
    _ = W13 m ρ c (Proc.devRef .tc main_arg3) := StableHlo.after_of_writes_sub _ _ Writes.hostOps3_2 (by decide)
    _ = W12 m ρ c (Proc.devRef .tc main_arg3) := StableHlo.after_of_writes_sub _ _ Writes.hostOps3_1 (by decide)
    _ = W11 m ρ c (Proc.devRef .tc main_arg3) := StableHlo.after_of_writes_sub _ _ Writes.hostOps3 (by decide)
    _ = W10 m ρ c (Proc.devRef .tc main_arg3) := W11_of_ne m ρ c main_arg3 (by decide)
    _ = W9 m ρ c (Proc.devRef .tc main_arg3) := StableHlo.after_of_writes_sub _ _ Writes.hostOps2_4 (by decide)
    _ = W8 m ρ c (Proc.devRef .tc main_arg3) := StableHlo.after_of_writes_sub _ _ Writes.hostOps2_3 (by decide)
    _ = W7 m ρ c (Proc.devRef .tc main_arg3) := StableHlo.after_of_writes_sub _ _ Writes.hostOps2_2 (by decide)
    _ = W6 m ρ c (Proc.devRef .tc main_arg3) := StableHlo.after_of_writes_sub _ _ Writes.hostOps2_1 (by decide)
    _ = W5 m ρ c (Proc.devRef .tc main_arg3) := StableHlo.after_of_writes_sub _ _ Writes.hostOps2 (by decide)
    _ = W4 m ρ c (Proc.devRef .tc main_arg3) := W5_of_ne m ρ c main_arg3 (by decide)
    _ = W3 m ρ c (Proc.devRef .tc main_arg3) := StableHlo.after_of_writes_sub _ _ Writes.hostOps1_2 (by decide)
    _ = W2 m ρ c (Proc.devRef .tc main_arg3) := StableHlo.after_of_writes_sub _ _ Writes.hostOps1_1 (by decide)
    _ = W1 m ρ c (Proc.devRef .tc main_arg3) := StableHlo.after_of_writes_sub _ _ Writes.hostOps1 (by decide)
    _ = W0 m ρ c (Proc.devRef .tc main_arg3) := W1_of_ne m ρ c main_arg3 (by decide)

/-- Nothing between boundaries 0 and 27 writes `main_arg20`. -/
theorem keep_arg20_0_27 (c : Dev nD) : W27 m ρ c (Proc.devRef .tc main_arg20) = W0 m ρ c (Proc.devRef .tc main_arg20) :=
  calc W27 m ρ c (Proc.devRef .tc main_arg20)
    _ = W26 m ρ c (Proc.devRef .tc main_arg20) := StableHlo.after_of_writes_sub _ _ Writes.hostOps7_2 (by decide)
    _ = W25 m ρ c (Proc.devRef .tc main_arg20) := StableHlo.after_of_writes_sub _ _ Writes.hostOps7_1 (by decide)
    _ = W24 m ρ c (Proc.devRef .tc main_arg20) := StableHlo.after_of_writes_sub _ _ Writes.hostOps7 (by decide)
    _ = W23 m ρ c (Proc.devRef .tc main_arg20) := W24_of_ne m ρ c main_arg20 (by decide)
    _ = W22 m ρ c (Proc.devRef .tc main_arg20) := W23_of_ne m ρ c main_arg20 (by decide)
    _ = W21 m ρ c (Proc.devRef .tc main_arg20) := StableHlo.after_of_writes_sub _ _ Writes.hostOps5 (by decide)
    _ = W20 m ρ c (Proc.devRef .tc main_arg20) := W21_of_ne m ρ c main_arg20 (by decide)
    _ = W19 m ρ c (Proc.devRef .tc main_arg20) := StableHlo.after_of_writes_sub _ _ Writes.hostOps4_4 (by decide)
    _ = W18 m ρ c (Proc.devRef .tc main_arg20) := StableHlo.after_of_writes_sub _ _ Writes.hostOps4_3 (by decide)
    _ = W17 m ρ c (Proc.devRef .tc main_arg20) := StableHlo.after_of_writes_sub _ _ Writes.hostOps4_2 (by decide)
    _ = W16 m ρ c (Proc.devRef .tc main_arg20) := StableHlo.after_of_writes_sub _ _ Writes.hostOps4_1 (by decide)
    _ = W15 m ρ c (Proc.devRef .tc main_arg20) := StableHlo.after_of_writes_sub _ _ Writes.hostOps4 (by decide)
    _ = W14 m ρ c (Proc.devRef .tc main_arg20) := W15_of_ne m ρ c main_arg20 (by decide)
    _ = W13 m ρ c (Proc.devRef .tc main_arg20) := StableHlo.after_of_writes_sub _ _ Writes.hostOps3_2 (by decide)
    _ = W12 m ρ c (Proc.devRef .tc main_arg20) := StableHlo.after_of_writes_sub _ _ Writes.hostOps3_1 (by decide)
    _ = W11 m ρ c (Proc.devRef .tc main_arg20) := StableHlo.after_of_writes_sub _ _ Writes.hostOps3 (by decide)
    _ = W10 m ρ c (Proc.devRef .tc main_arg20) := W11_of_ne m ρ c main_arg20 (by decide)
    _ = W9 m ρ c (Proc.devRef .tc main_arg20) := StableHlo.after_of_writes_sub _ _ Writes.hostOps2_4 (by decide)
    _ = W8 m ρ c (Proc.devRef .tc main_arg20) := StableHlo.after_of_writes_sub _ _ Writes.hostOps2_3 (by decide)
    _ = W7 m ρ c (Proc.devRef .tc main_arg20) := StableHlo.after_of_writes_sub _ _ Writes.hostOps2_2 (by decide)
    _ = W6 m ρ c (Proc.devRef .tc main_arg20) := StableHlo.after_of_writes_sub _ _ Writes.hostOps2_1 (by decide)
    _ = W5 m ρ c (Proc.devRef .tc main_arg20) := StableHlo.after_of_writes_sub _ _ Writes.hostOps2 (by decide)
    _ = W4 m ρ c (Proc.devRef .tc main_arg20) := W5_of_ne m ρ c main_arg20 (by decide)
    _ = W3 m ρ c (Proc.devRef .tc main_arg20) := StableHlo.after_of_writes_sub _ _ Writes.hostOps1_2 (by decide)
    _ = W2 m ρ c (Proc.devRef .tc main_arg20) := StableHlo.after_of_writes_sub _ _ Writes.hostOps1_1 (by decide)
    _ = W1 m ρ c (Proc.devRef .tc main_arg20) := StableHlo.after_of_writes_sub _ _ Writes.hostOps1 (by decide)
    _ = W0 m ρ c (Proc.devRef .tc main_arg20) := W1_of_ne m ρ c main_arg20 (by decide)

/-- Nothing between boundaries 0 and 19 writes `main_arg11`. -/
theorem keep_arg11_0_19 (c : Dev nD) : W19 m ρ c (Proc.devRef .tc main_arg11) = W0 m ρ c (Proc.devRef .tc main_arg11) :=
  calc W19 m ρ c (Proc.devRef .tc main_arg11)
    _ = W18 m ρ c (Proc.devRef .tc main_arg11) := StableHlo.after_of_writes_sub _ _ Writes.hostOps4_3 (by decide)
    _ = W17 m ρ c (Proc.devRef .tc main_arg11) := StableHlo.after_of_writes_sub _ _ Writes.hostOps4_2 (by decide)
    _ = W16 m ρ c (Proc.devRef .tc main_arg11) := StableHlo.after_of_writes_sub _ _ Writes.hostOps4_1 (by decide)
    _ = W15 m ρ c (Proc.devRef .tc main_arg11) := StableHlo.after_of_writes_sub _ _ Writes.hostOps4 (by decide)
    _ = W14 m ρ c (Proc.devRef .tc main_arg11) := W15_of_ne m ρ c main_arg11 (by decide)
    _ = W13 m ρ c (Proc.devRef .tc main_arg11) := StableHlo.after_of_writes_sub _ _ Writes.hostOps3_2 (by decide)
    _ = W12 m ρ c (Proc.devRef .tc main_arg11) := StableHlo.after_of_writes_sub _ _ Writes.hostOps3_1 (by decide)
    _ = W11 m ρ c (Proc.devRef .tc main_arg11) := StableHlo.after_of_writes_sub _ _ Writes.hostOps3 (by decide)
    _ = W10 m ρ c (Proc.devRef .tc main_arg11) := W11_of_ne m ρ c main_arg11 (by decide)
    _ = W9 m ρ c (Proc.devRef .tc main_arg11) := StableHlo.after_of_writes_sub _ _ Writes.hostOps2_4 (by decide)
    _ = W8 m ρ c (Proc.devRef .tc main_arg11) := StableHlo.after_of_writes_sub _ _ Writes.hostOps2_3 (by decide)
    _ = W7 m ρ c (Proc.devRef .tc main_arg11) := StableHlo.after_of_writes_sub _ _ Writes.hostOps2_2 (by decide)
    _ = W6 m ρ c (Proc.devRef .tc main_arg11) := StableHlo.after_of_writes_sub _ _ Writes.hostOps2_1 (by decide)
    _ = W5 m ρ c (Proc.devRef .tc main_arg11) := StableHlo.after_of_writes_sub _ _ Writes.hostOps2 (by decide)
    _ = W4 m ρ c (Proc.devRef .tc main_arg11) := W5_of_ne m ρ c main_arg11 (by decide)
    _ = W3 m ρ c (Proc.devRef .tc main_arg11) := StableHlo.after_of_writes_sub _ _ Writes.hostOps1_2 (by decide)
    _ = W2 m ρ c (Proc.devRef .tc main_arg11) := StableHlo.after_of_writes_sub _ _ Writes.hostOps1_1 (by decide)
    _ = W1 m ρ c (Proc.devRef .tc main_arg11) := StableHlo.after_of_writes_sub _ _ Writes.hostOps1 (by decide)
    _ = W0 m ρ c (Proc.devRef .tc main_arg11) := W1_of_ne m ρ c main_arg11 (by decide)

/-- Nothing between boundaries 4 and 20 writes `main_v44`. -/
theorem keep_v44_4_20 (c : Dev nD) : W20 m ρ c (Proc.devRef .tc main_v44) = W4 m ρ c (Proc.devRef .tc main_v44) :=
  calc W20 m ρ c (Proc.devRef .tc main_v44)
    _ = W19 m ρ c (Proc.devRef .tc main_v44) := StableHlo.after_of_writes_sub _ _ Writes.hostOps4_4 (by decide)
    _ = W18 m ρ c (Proc.devRef .tc main_v44) := StableHlo.after_of_writes_sub _ _ Writes.hostOps4_3 (by decide)
    _ = W17 m ρ c (Proc.devRef .tc main_v44) := StableHlo.after_of_writes_sub _ _ Writes.hostOps4_2 (by decide)
    _ = W16 m ρ c (Proc.devRef .tc main_v44) := StableHlo.after_of_writes_sub _ _ Writes.hostOps4_1 (by decide)
    _ = W15 m ρ c (Proc.devRef .tc main_v44) := StableHlo.after_of_writes_sub _ _ Writes.hostOps4 (by decide)
    _ = W14 m ρ c (Proc.devRef .tc main_v44) := W15_of_ne m ρ c main_v44 (by decide)
    _ = W13 m ρ c (Proc.devRef .tc main_v44) := StableHlo.after_of_writes_sub _ _ Writes.hostOps3_2 (by decide)
    _ = W12 m ρ c (Proc.devRef .tc main_v44) := StableHlo.after_of_writes_sub _ _ Writes.hostOps3_1 (by decide)
    _ = W11 m ρ c (Proc.devRef .tc main_v44) := StableHlo.after_of_writes_sub _ _ Writes.hostOps3 (by decide)
    _ = W10 m ρ c (Proc.devRef .tc main_v44) := W11_of_ne m ρ c main_v44 (by decide)
    _ = W9 m ρ c (Proc.devRef .tc main_v44) := StableHlo.after_of_writes_sub _ _ Writes.hostOps2_4 (by decide)
    _ = W8 m ρ c (Proc.devRef .tc main_v44) := StableHlo.after_of_writes_sub _ _ Writes.hostOps2_3 (by decide)
    _ = W7 m ρ c (Proc.devRef .tc main_v44) := StableHlo.after_of_writes_sub _ _ Writes.hostOps2_2 (by decide)
    _ = W6 m ρ c (Proc.devRef .tc main_v44) := StableHlo.after_of_writes_sub _ _ Writes.hostOps2_1 (by decide)
    _ = W5 m ρ c (Proc.devRef .tc main_v44) := StableHlo.after_of_writes_sub _ _ Writes.hostOps2 (by decide)
    _ = W4 m ρ c (Proc.devRef .tc main_v44) := W5_of_ne m ρ c main_v44 (by decide)

/-- Nothing between boundaries 33 and 43 writes `main_v290`. -/
theorem keep_v290_33_43 (c : Dev nD) : W43 m ρ c (Proc.devRef .tc main_v290) = W33 m ρ c (Proc.devRef .tc main_v290) :=
  calc W43 m ρ c (Proc.devRef .tc main_v290)
    _ = W42 m ρ c (Proc.devRef .tc main_v290) := StableHlo.after_of_writes_sub _ _ Writes.hostOps10_4 (by decide)
    _ = W41 m ρ c (Proc.devRef .tc main_v290) := StableHlo.after_of_writes_sub _ _ Writes.hostOps10_3 (by decide)
    _ = W40 m ρ c (Proc.devRef .tc main_v290) := StableHlo.after_of_writes_sub _ _ Writes.hostOps10_2 (by decide)
    _ = W39 m ρ c (Proc.devRef .tc main_v290) := StableHlo.after_of_writes_sub _ _ Writes.hostOps10_1 (by decide)
    _ = W38 m ρ c (Proc.devRef .tc main_v290) := StableHlo.after_of_writes_sub _ _ Writes.hostOps10 (by decide)
    _ = W37 m ρ c (Proc.devRef .tc main_v290) := W38_of_ne m ρ c main_v290 (by decide)
    _ = W36 m ρ c (Proc.devRef .tc main_v290) := StableHlo.after_of_writes_sub _ _ Writes.hostOps9_2 (by decide)
    _ = W35 m ρ c (Proc.devRef .tc main_v290) := StableHlo.after_of_writes_sub _ _ Writes.hostOps9_1 (by decide)
    _ = W34 m ρ c (Proc.devRef .tc main_v290) := StableHlo.after_of_writes_sub _ _ Writes.hostOps9 (by decide)
    _ = W33 m ρ c (Proc.devRef .tc main_v290) := W34_of_ne m ρ c main_v290 (by decide)

/-- Nothing between boundaries 23 and 33 writes `main_v195`. -/
theorem keep_v195_23_33 (c : Dev nD) : W33 m ρ c (Proc.devRef .tc main_v195) = W23 m ρ c (Proc.devRef .tc main_v195) :=
  calc W33 m ρ c (Proc.devRef .tc main_v195)
    _ = W32 m ρ c (Proc.devRef .tc main_v195) := StableHlo.after_of_writes_sub _ _ Writes.hostOps8_4 (by decide)
    _ = W31 m ρ c (Proc.devRef .tc main_v195) := StableHlo.after_of_writes_sub _ _ Writes.hostOps8_3 (by decide)
    _ = W30 m ρ c (Proc.devRef .tc main_v195) := StableHlo.after_of_writes_sub _ _ Writes.hostOps8_2 (by decide)
    _ = W29 m ρ c (Proc.devRef .tc main_v195) := StableHlo.after_of_writes_sub _ _ Writes.hostOps8_1 (by decide)
    _ = W28 m ρ c (Proc.devRef .tc main_v195) := StableHlo.after_of_writes_sub _ _ Writes.hostOps8 (by decide)
    _ = W27 m ρ c (Proc.devRef .tc main_v195) := (W28_arr m ρ c 0).trans (((dat7 (V27 m ρ) c).arrAt_in 0 rfl _).trans (A_eq7 (V27 m ρ) c 0))
    _ = W26 m ρ c (Proc.devRef .tc main_v195) := StableHlo.after_of_writes_sub _ _ Writes.hostOps7_2 (by decide)
    _ = W25 m ρ c (Proc.devRef .tc main_v195) := StableHlo.after_of_writes_sub _ _ Writes.hostOps7_1 (by decide)
    _ = W24 m ρ c (Proc.devRef .tc main_v195) := StableHlo.after_of_writes_sub _ _ Writes.hostOps7 (by decide)
    _ = W23 m ρ c (Proc.devRef .tc main_v195) := W24_of_ne m ρ c main_v195 (by decide)

/-- Nothing between boundaries 37 and 45 writes `main_v335`. -/
theorem keep_v335_37_45 (c : Dev nD) : W45 m ρ c (Proc.devRef .tc main_v335) = W37 m ρ c (Proc.devRef .tc main_v335) :=
  calc W45 m ρ c (Proc.devRef .tc main_v335)
    _ = W44 m ρ c (Proc.devRef .tc main_v335) := StableHlo.after_of_writes_sub _ _ Writes.hostOps11 (by decide)
    _ = W43 m ρ c (Proc.devRef .tc main_v335) := W44_of_ne m ρ c main_v335 (by decide)
    _ = W42 m ρ c (Proc.devRef .tc main_v335) := StableHlo.after_of_writes_sub _ _ Writes.hostOps10_4 (by decide)
    _ = W41 m ρ c (Proc.devRef .tc main_v335) := StableHlo.after_of_writes_sub _ _ Writes.hostOps10_3 (by decide)
    _ = W40 m ρ c (Proc.devRef .tc main_v335) := StableHlo.after_of_writes_sub _ _ Writes.hostOps10_2 (by decide)
    _ = W39 m ρ c (Proc.devRef .tc main_v335) := StableHlo.after_of_writes_sub _ _ Writes.hostOps10_1 (by decide)
    _ = W38 m ρ c (Proc.devRef .tc main_v335) := StableHlo.after_of_writes_sub _ _ Writes.hostOps10 (by decide)
    _ = W37 m ρ c (Proc.devRef .tc main_v335) := W38_of_ne m ρ c main_v335 (by decide)

/-- Nothing between boundaries 23 and 27 writes `main_v195`. -/
theorem keep_v195_23_27 (c : Dev nD) : W27 m ρ c (Proc.devRef .tc main_v195) = W23 m ρ c (Proc.devRef .tc main_v195) :=
  calc W27 m ρ c (Proc.devRef .tc main_v195)
    _ = W26 m ρ c (Proc.devRef .tc main_v195) := StableHlo.after_of_writes_sub _ _ Writes.hostOps7_2 (by decide)
    _ = W25 m ρ c (Proc.devRef .tc main_v195) := StableHlo.after_of_writes_sub _ _ Writes.hostOps7_1 (by decide)
    _ = W24 m ρ c (Proc.devRef .tc main_v195) := StableHlo.after_of_writes_sub _ _ Writes.hostOps7 (by decide)
    _ = W23 m ρ c (Proc.devRef .tc main_v195) := W24_of_ne m ρ c main_v195 (by decide)

/-- Nothing between boundaries 0 and 4 writes `main_arg1`. -/
theorem keep_arg1_0_4 (c : Dev nD) : W4 m ρ c (Proc.devRef .tc main_arg1) = W0 m ρ c (Proc.devRef .tc main_arg1) :=
  calc W4 m ρ c (Proc.devRef .tc main_arg1)
    _ = W3 m ρ c (Proc.devRef .tc main_arg1) := StableHlo.after_of_writes_sub _ _ Writes.hostOps1_2 (by decide)
    _ = W2 m ρ c (Proc.devRef .tc main_arg1) := StableHlo.after_of_writes_sub _ _ Writes.hostOps1_1 (by decide)
    _ = W1 m ρ c (Proc.devRef .tc main_arg1) := StableHlo.after_of_writes_sub _ _ Writes.hostOps1 (by decide)
    _ = W0 m ρ c (Proc.devRef .tc main_arg1) := W1_of_ne m ρ c main_arg1 (by decide)

/-- Nothing between boundaries 16 and 19 writes `main_v144`. -/
theorem keep_v144_16_19 (c : Dev nD) : W19 m ρ c (Proc.devRef .tc main_v144) = W16 m ρ c (Proc.devRef .tc main_v144) :=
  calc W19 m ρ c (Proc.devRef .tc main_v144)
    _ = W18 m ρ c (Proc.devRef .tc main_v144) := StableHlo.after_of_writes_sub _ _ Writes.hostOps4_3 (by decide)
    _ = W17 m ρ c (Proc.devRef .tc main_v144) := StableHlo.after_of_writes_sub _ _ Writes.hostOps4_2 (by decide)
    _ = W16 m ρ c (Proc.devRef .tc main_v144) := StableHlo.after_of_writes_sub _ _ Writes.hostOps4_1 (by decide)

/-- Nothing between boundaries 43 and 45 writes `main_v385`. -/
theorem keep_v385_43_45 (c : Dev nD) : W45 m ρ c (Proc.devRef .tc main_v385) = W43 m ρ c (Proc.devRef .tc main_v385) :=
  calc W45 m ρ c (Proc.devRef .tc main_v385)
    _ = W44 m ρ c (Proc.devRef .tc main_v385) := StableHlo.after_of_writes_sub _ _ Writes.hostOps11 (by decide)
    _ = W43 m ρ c (Proc.devRef .tc main_v385) := W44_of_ne m ρ c main_v385 (by decide)

/-- Nothing between boundaries 34 and 36 writes `main_v291`. -/
theorem keep_v291_34_36 (c : Dev nD) : W36 m ρ c (Proc.devRef .tc main_v291) = W34 m ρ c (Proc.devRef .tc main_v291) :=
  calc W36 m ρ c (Proc.devRef .tc main_v291)
    _ = W35 m ρ c (Proc.devRef .tc main_v291) := StableHlo.after_of_writes_sub _ _ Writes.hostOps9_1 (by decide)
    _ = W34 m ρ c (Proc.devRef .tc main_v291) := StableHlo.after_of_writes_sub _ _ Writes.hostOps9 (by decide)

/-- Nothing between boundaries 20 and 22 writes `main_v189`. -/
theorem keep_v189_20_22 (c : Dev nD) : W22 m ρ c (Proc.devRef .tc main_v189) = W20 m ρ c (Proc.devRef .tc main_v189) :=
  calc W22 m ρ c (Proc.devRef .tc main_v189)
    _ = W21 m ρ c (Proc.devRef .tc main_v189) := StableHlo.after_of_writes_sub _ _ Writes.hostOps5 (by decide)
    _ = W20 m ρ c (Proc.devRef .tc main_v189) := W21_of_ne m ρ c main_v189 (by decide)

/-- Nothing between boundaries 1 and 3 writes `main_v0`. -/
theorem keep_v0_1_3 (c : Dev nD) : W3 m ρ c (Proc.devRef .tc main_v0) = W1 m ρ c (Proc.devRef .tc main_v0) :=
  calc W3 m ρ c (Proc.devRef .tc main_v0)
    _ = W2 m ρ c (Proc.devRef .tc main_v0) := StableHlo.after_of_writes_sub _ _ Writes.hostOps1_1 (by decide)
    _ = W1 m ρ c (Proc.devRef .tc main_v0) := StableHlo.after_of_writes_sub _ _ Writes.hostOps1 (by decide)

/-- Nothing between boundaries 25 and 26 writes `main_v202`. -/
theorem keep_v202_25_26 (c : Dev nD) : W26 m ρ c (Proc.devRef .tc main_v202) = W25 m ρ c (Proc.devRef .tc main_v202) :=
  calc W26 m ρ c (Proc.devRef .tc main_v202)
    _ = W25 m ρ c (Proc.devRef .tc main_v202) := StableHlo.after_of_writes_sub _ _ Writes.hostOps7_1 (by decide)

/-- Nothing between boundaries 12 and 13 writes `main_v101`. -/
theorem keep_v101_12_13 (c : Dev nD) : W13 m ρ c (Proc.devRef .tc main_v101) = W12 m ρ c (Proc.devRef .tc main_v101) :=
  calc W13 m ρ c (Proc.devRef .tc main_v101)
    _ = W12 m ρ c (Proc.devRef .tc main_v101) := StableHlo.after_of_writes_sub _ _ Writes.hostOps3_1 (by decide)

/-- Nothing between boundaries 2 and 3 writes `main_v7`. -/
theorem keep_v7_2_3 (c : Dev nD) : W3 m ρ c (Proc.devRef .tc main_v7) = W2 m ρ c (Proc.devRef .tc main_v7) :=
  calc W3 m ρ c (Proc.devRef .tc main_v7)
    _ = W2 m ρ c (Proc.devRef .tc main_v7) := StableHlo.after_of_writes_sub _ _ Writes.hostOps1_1 (by decide)

end Cert.KernelIdeal.Keep

end
-- ==== Proof.KeepD.lean ====
import proofs.«143428_j3564822855941_1_alg».proof.Proof.KernelIdealFrameP
import proofs.«143428_j3564822855941_1_alg».proof.Proof.Writes

/-! The contents of a buffer at a later boundary of the kernel program are its contents at an earlier one when no
    region and no host operation in between writes it. -/

set_option maxRecDepth 16384

noncomputable section

namespace Cert.KernelIdeal.Keep

open Cert.KernelIdeal Cert.KernelIdeal.Gen Cert.KernelIdeal.GenP Idealize.ShloMosaic Idealize.ShloMosaic.TcCoe Idealize.SL.Sem

variable (m : (ℓ : Loc nD τ sig) → Buf (Elt Ideal) ℓ) (ρ : Dev nD → PrngReg)

/-- Nothing between boundaries 0 and 42 writes `main_arg17`. -/
theorem keep_arg17_0_42 (c : Dev nD) : W42 m ρ c (Proc.devRef .tc main_arg17) = W0 m ρ c (Proc.devRef .tc main_arg17) :=
  calc W42 m ρ c (Proc.devRef .tc main_arg17)
    _ = W41 m ρ c (Proc.devRef .tc main_arg17) := StableHlo.after_of_writes_sub _ _ Writes.hostOps10_3 (by decide)
    _ = W40 m ρ c (Proc.devRef .tc main_arg17) := StableHlo.after_of_writes_sub _ _ Writes.hostOps10_2 (by decide)
    _ = W39 m ρ c (Proc.devRef .tc main_arg17) := StableHlo.after_of_writes_sub _ _ Writes.hostOps10_1 (by decide)
    _ = W38 m ρ c (Proc.devRef .tc main_arg17) := StableHlo.after_of_writes_sub _ _ Writes.hostOps10 (by decide)
    _ = W37 m ρ c (Proc.devRef .tc main_arg17) := W38_of_ne m ρ c main_arg17 (by decide)
    _ = W36 m ρ c (Proc.devRef .tc main_arg17) := StableHlo.after_of_writes_sub _ _ Writes.hostOps9_2 (by decide)
    _ = W35 m ρ c (Proc.devRef .tc main_arg17) := StableHlo.after_of_writes_sub _ _ Writes.hostOps9_1 (by decide)
    _ = W34 m ρ c (Proc.devRef .tc main_arg17) := StableHlo.after_of_writes_sub _ _ Writes.hostOps9 (by decide)
    _ = W33 m ρ c (Proc.devRef .tc main_arg17) := W34_of_ne m ρ c main_arg17 (by decide)
    _ = W32 m ρ c (Proc.devRef .tc main_arg17) := StableHlo.after_of_writes_sub _ _ Writes.hostOps8_4 (by decide)
    _ = W31 m ρ c (Proc.devRef .tc main_arg17) := StableHlo.after_of_writes_sub _ _ Writes.hostOps8_3 (by decide)
    _ = W30 m ρ c (Proc.devRef .tc main_arg17) := StableHlo.after_of_writes_sub _ _ Writes.hostOps8_2 (by decide)
    _ = W29 m ρ c (Proc.devRef .tc main_arg17) := StableHlo.after_of_writes_sub _ _ Writes.hostOps8_1 (by decide)
    _ = W28 m ρ c (Proc.devRef .tc main_arg17) := StableHlo.after_of_writes_sub _ _ Writes.hostOps8 (by decide)
    _ = W27 m ρ c (Proc.devRef .tc main_arg17) := W28_of_ne m ρ c main_arg17 (by decide)
    _ = W26 m ρ c (Proc.devRef .tc main_arg17) := StableHlo.after_of_writes_sub _ _ Writes.hostOps7_2 (by decide)
    _ = W25 m ρ c (Proc.devRef .tc main_arg17) := StableHlo.after_of_writes_sub _ _ Writes.hostOps7_1 (by decide)
    _ = W24 m ρ c (Proc.devRef .tc main_arg17) := StableHlo.after_of_writes_sub _ _ Writes.hostOps7 (by decide)
    _ = W23 m ρ c (Proc.devRef .tc main_arg17) := W24_of_ne m ρ c main_arg17 (by decide)
    _ = W22 m ρ c (Proc.devRef .tc main_arg17) := W23_of_ne m ρ c main_arg17 (by decide)
    _ = W21 m ρ c (Proc.devRef .tc main_arg17) := StableHlo.after_of_writes_sub _ _ Writes.hostOps5 (by decide)
    _ = W20 m ρ c (Proc.devRef .tc main_arg17) := W21_of_ne m ρ c main_arg17 (by decide)
    _ = W19 m ρ c (Proc.devRef .tc main_arg17) := StableHlo.after_of_writes_sub _ _ Writes.hostOps4_4 (by decide)
    _ = W18 m ρ c (Proc.devRef .tc main_arg17) := StableHlo.after_of_writes_sub _ _ Writes.hostOps4_3 (by decide)
    _ = W17 m ρ c (Proc.devRef .tc main_arg17) := StableHlo.after_of_writes_sub _ _ Writes.hostOps4_2 (by decide)
    _ = W16 m ρ c (Proc.devRef .tc main_arg17) := StableHlo.after_of_writes_sub _ _ Writes.hostOps4_1 (by decide)
    _ = W15 m ρ c (Proc.devRef .tc main_arg17) := StableHlo.after_of_writes_sub _ _ Writes.hostOps4 (by decide)
    _ = W14 m ρ c (Proc.devRef .tc main_arg17) := W15_of_ne m ρ c main_arg17 (by decide)
    _ = W13 m ρ c (Proc.devRef .tc main_arg17) := StableHlo.after_of_writes_sub _ _ Writes.hostOps3_2 (by decide)
    _ = W12 m ρ c (Proc.devRef .tc main_arg17) := StableHlo.after_of_writes_sub _ _ Writes.hostOps3_1 (by decide)
    _ = W11 m ρ c (Proc.devRef .tc main_arg17) := StableHlo.after_of_writes_sub _ _ Writes.hostOps3 (by decide)
    _ = W10 m ρ c (Proc.devRef .tc main_arg17) := W11_of_ne m ρ c main_arg17 (by decide)
    _ = W9 m ρ c (Proc.devRef .tc main_arg17) := StableHlo.after_of_writes_sub _ _ Writes.hostOps2_4 (by decide)
    _ = W8 m ρ c (Proc.devRef .tc main_arg17) := StableHlo.after_of_writes_sub _ _ Writes.hostOps2_3 (by decide)
    _ = W7 m ρ c (Proc.devRef .tc main_arg17) := StableHlo.after_of_writes_sub _ _ Writes.hostOps2_2 (by decide)
    _ = W6 m ρ c (Proc.devRef .tc main_arg17) := StableHlo.after_of_writes_sub _ _ Writes.hostOps2_1 (by decide)
    _ = W5 m ρ c (Proc.devRef .tc main_arg17) := StableHlo.after_of_writes_sub _ _ Writes.hostOps2 (by decide)
    _ = W4 m ρ c (Proc.devRef .tc main_arg17) := W5_of_ne m ρ c main_arg17 (by decide)
    _ = W3 m ρ c (Proc.devRef .tc main_arg17) := StableHlo.after_of_writes_sub _ _ Writes.hostOps1_2 (by decide)
    _ = W2 m ρ c (Proc.devRef .tc main_arg17) := StableHlo.after_of_writes_sub _ _ Writes.hostOps1_1 (by decide)
    _ = W1 m ρ c (Proc.devRef .tc main_arg17) := StableHlo.after_of_writes_sub _ _ Writes.hostOps1 (by decide)
    _ = W0 m ρ c (Proc.devRef .tc main_arg17) := W1_of_ne m ρ c main_arg17 (by decide)

/-- Nothing between boundaries 0 and 33 writes `main_arg16`. -/
theorem keep_arg16_0_33 (c : Dev nD) : W33 m ρ c (Proc.devRef .tc main_arg16) = W0 m ρ c (Proc.devRef .tc main_arg16) :=
  calc W33 m ρ c (Proc.devRef .tc main_arg16)
    _ = W32 m ρ c (Proc.devRef .tc main_arg16) := StableHlo.after_of_writes_sub _ _ Writes.hostOps8_4 (by decide)
    _ = W31 m ρ c (Proc.devRef .tc main_arg16) := StableHlo.after_of_writes_sub _ _ Writes.hostOps8_3 (by decide)
    _ = W30 m ρ c (Proc.devRef .tc main_arg16) := StableHlo.after_of_writes_sub _ _ Writes.hostOps8_2 (by decide)
    _ = W29 m ρ c (Proc.devRef .tc main_arg16) := StableHlo.after_of_writes_sub _ _ Writes.hostOps8_1 (by decide)
    _ = W28 m ρ c (Proc.devRef .tc main_arg16) := StableHlo.after_of_writes_sub _ _ Writes.hostOps8 (by decide)
    _ = W27 m ρ c (Proc.devRef .tc main_arg16) := W28_of_ne m ρ c main_arg16 (by decide)
    _ = W26 m ρ c (Proc.devRef .tc main_arg16) := StableHlo.after_of_writes_sub _ _ Writes.hostOps7_2 (by decide)
    _ = W25 m ρ c (Proc.devRef .tc main_arg16) := StableHlo.after_of_writes_sub _ _ Writes.hostOps7_1 (by decide)
    _ = W24 m ρ c (Proc.devRef .tc main_arg16) := StableHlo.after_of_writes_sub _ _ Writes.hostOps7 (by decide)
    _ = W23 m ρ c (Proc.devRef .tc main_arg16) := W24_of_ne m ρ c main_arg16 (by decide)
    _ = W22 m ρ c (Proc.devRef .tc main_arg16) := W23_of_ne m ρ c main_arg16 (by decide)
    _ = W21 m ρ c (Proc.devRef .tc main_arg16) := StableHlo.after_of_writes_sub _ _ Writes.hostOps5 (by decide)
    _ = W20 m ρ c (Proc.devRef .tc main_arg16) := W21_of_ne m ρ c main_arg16 (by decide)
    _ = W19 m ρ c (Proc.devRef .tc main_arg16) := StableHlo.after_of_writes_sub _ _ Writes.hostOps4_4 (by decide)
    _ = W18 m ρ c (Proc.devRef .tc main_arg16) := StableHlo.after_of_writes_sub _ _ Writes.hostOps4_3 (by decide)
    _ = W17 m ρ c (Proc.devRef .tc main_arg16) := StableHlo.after_of_writes_sub _ _ Writes.hostOps4_2 (by decide)
    _ = W16 m ρ c (Proc.devRef .tc main_arg16) := StableHlo.after_of_writes_sub _ _ Writes.hostOps4_1 (by decide)
    _ = W15 m ρ c (Proc.devRef .tc main_arg16) := StableHlo.after_of_writes_sub _ _ Writes.hostOps4 (by decide)
    _ = W14 m ρ c (Proc.devRef .tc main_arg16) := W15_of_ne m ρ c main_arg16 (by decide)
    _ = W13 m ρ c (Proc.devRef .tc main_arg16) := StableHlo.after_of_writes_sub _ _ Writes.hostOps3_2 (by decide)
    _ = W12 m ρ c (Proc.devRef .tc main_arg16) := StableHlo.after_of_writes_sub _ _ Writes.hostOps3_1 (by decide)
    _ = W11 m ρ c (Proc.devRef .tc main_arg16) := StableHlo.after_of_writes_sub _ _ Writes.hostOps3 (by decide)
    _ = W10 m ρ c (Proc.devRef .tc main_arg16) := W11_of_ne m ρ c main_arg16 (by decide)
    _ = W9 m ρ c (Proc.devRef .tc main_arg16) := StableHlo.after_of_writes_sub _ _ Writes.hostOps2_4 (by decide)
    _ = W8 m ρ c (Proc.devRef .tc main_arg16) := StableHlo.after_of_writes_sub _ _ Writes.hostOps2_3 (by decide)
    _ = W7 m ρ c (Proc.devRef .tc main_arg16) := StableHlo.after_of_writes_sub _ _ Writes.hostOps2_2 (by decide)
    _ = W6 m ρ c (Proc.devRef .tc main_arg16) := StableHlo.after_of_writes_sub _ _ Writes.hostOps2_1 (by decide)
    _ = W5 m ρ c (Proc.devRef .tc main_arg16) := StableHlo.after_of_writes_sub _ _ Writes.hostOps2 (by decide)
    _ = W4 m ρ c (Proc.devRef .tc main_arg16) := W5_of_ne m ρ c main_arg16 (by decide)
    _ = W3 m ρ c (Proc.devRef .tc main_arg16) := StableHlo.after_of_writes_sub _ _ Writes.hostOps1_2 (by decide)
    _ = W2 m ρ c (Proc.devRef .tc main_arg16) := StableHlo.after_of_writes_sub _ _ Writes.hostOps1_1 (by decide)
    _ = W1 m ρ c (Proc.devRef .tc main_arg16) := StableHlo.after_of_writes_sub _ _ Writes.hostOps1 (by decide)
    _ = W0 m ρ c (Proc.devRef .tc main_arg16) := W1_of_ne m ρ c main_arg16 (by decide)

/-- Nothing between boundaries 0 and 28 writes `main_arg5`. -/
theorem keep_arg5_0_28 (c : Dev nD) : W28 m ρ c (Proc.devRef .tc main_arg5) = W0 m ρ c (Proc.devRef .tc main_arg5) :=
  calc W28 m ρ c (Proc.devRef .tc main_arg5)
    _ = W27 m ρ c (Proc.devRef .tc main_arg5) := W28_of_ne m ρ c main_arg5 (by decide)
    _ = W26 m ρ c (Proc.devRef .tc main_arg5) := StableHlo.after_of_writes_sub _ _ Writes.hostOps7_2 (by decide)
    _ = W25 m ρ c (Proc.devRef .tc main_arg5) := StableHlo.after_of_writes_sub _ _ Writes.hostOps7_1 (by decide)
    _ = W24 m ρ c (Proc.devRef .tc main_arg5) := StableHlo.after_of_writes_sub _ _ Writes.hostOps7 (by decide)
    _ = W23 m ρ c (Proc.devRef .tc main_arg5) := W24_of_ne m ρ c main_arg5 (by decide)
    _ = W22 m ρ c (Proc.devRef .tc main_arg5) := W23_of_ne m ρ c main_arg5 (by decide)
    _ = W21 m ρ c (Proc.devRef .tc main_arg5) := StableHlo.after_of_writes_sub _ _ Writes.hostOps5 (by decide)
    _ = W20 m ρ c (Proc.devRef .tc main_arg5) := W21_of_ne m ρ c main_arg5 (by decide)
    _ = W19 m ρ c (Proc.devRef .tc main_arg5) := StableHlo.after_of_writes_sub _ _ Writes.hostOps4_4 (by decide)
    _ = W18 m ρ c (Proc.devRef .tc main_arg5) := StableHlo.after_of_writes_sub _ _ Writes.hostOps4_3 (by decide)
    _ = W17 m ρ c (Proc.devRef .tc main_arg5) := StableHlo.after_of_writes_sub _ _ Writes.hostOps4_2 (by decide)
    _ = W16 m ρ c (Proc.devRef .tc main_arg5) := StableHlo.after_of_writes_sub _ _ Writes.hostOps4_1 (by decide)
    _ = W15 m ρ c (Proc.devRef .tc main_arg5) := StableHlo.after_of_writes_sub _ _ Writes.hostOps4 (by decide)
    _ = W14 m ρ c (Proc.devRef .tc main_arg5) := W15_of_ne m ρ c main_arg5 (by decide)
    _ = W13 m ρ c (Proc.devRef .tc main_arg5) := StableHlo.after_of_writes_sub _ _ Writes.hostOps3_2 (by decide)
    _ = W12 m ρ c (Proc.devRef .tc main_arg5) := StableHlo.after_of_writes_sub _ _ Writes.hostOps3_1 (by decide)
    _ = W11 m ρ c (Proc.devRef .tc main_arg5) := StableHlo.after_of_writes_sub _ _ Writes.hostOps3 (by decide)
    _ = W10 m ρ c (Proc.devRef .tc main_arg5) := W11_of_ne m ρ c main_arg5 (by decide)
    _ = W9 m ρ c (Proc.devRef .tc main_arg5) := StableHlo.after_of_writes_sub _ _ Writes.hostOps2_4 (by decide)
    _ = W8 m ρ c (Proc.devRef .tc main_arg5) := StableHlo.after_of_writes_sub _ _ Writes.hostOps2_3 (by decide)
    _ = W7 m ρ c (Proc.devRef .tc main_arg5) := StableHlo.after_of_writes_sub _ _ Writes.hostOps2_2 (by decide)
    _ = W6 m ρ c (Proc.devRef .tc main_arg5) := StableHlo.after_of_writes_sub _ _ Writes.hostOps2_1 (by decide)
    _ = W5 m ρ c (Proc.devRef .tc main_arg5) := StableHlo.after_of_writes_sub _ _ Writes.hostOps2 (by decide)
    _ = W4 m ρ c (Proc.devRef .tc main_arg5) := W5_of_ne m ρ c main_arg5 (by decide)
    _ = W3 m ρ c (Proc.devRef .tc main_arg5) := StableHlo.after_of_writes_sub _ _ Writes.hostOps1_2 (by decide)
    _ = W2 m ρ c (Proc.devRef .tc main_arg5) := StableHlo.after_of_writes_sub _ _ Writes.hostOps1_1 (by decide)
    _ = W1 m ρ c (Proc.devRef .tc main_arg5) := StableHlo.after_of_writes_sub _ _ Writes.hostOps1 (by decide)
    _ = W0 m ρ c (Proc.devRef .tc main_arg5) := W1_of_ne m ρ c main_arg5 (by decide)

/-- Nothing between boundaries 0 and 19 writes `main_arg9`. -/
theorem keep_arg9_0_19 (c : Dev nD) : W19 m ρ c (Proc.devRef .tc main_arg9) = W0 m ρ c (Proc.devRef .tc main_arg9) :=
  calc W19 m ρ c (Proc.devRef .tc main_arg9)
    _ = W18 m ρ c (Proc.devRef .tc main_arg9) := StableHlo.after_of_writes_sub _ _ Writes.hostOps4_3 (by decide)
    _ = W17 m ρ c (Proc.devRef .tc main_arg9) := StableHlo.after_of_writes_sub _ _ Writes.hostOps4_2 (by decide)
    _ = W16 m ρ c (Proc.devRef .tc main_arg9) := StableHlo.after_of_writes_sub _ _ Writes.hostOps4_1 (by decide)
    _ = W15 m ρ c (Proc.devRef .tc main_arg9) := StableHlo.after_of_writes_sub _ _ Writes.hostOps4 (by decide)
    _ = W14 m ρ c (Proc.devRef .tc main_arg9) := W15_of_ne m ρ c main_arg9 (by decide)
    _ = W13 m ρ c (Proc.devRef .tc main_arg9) := StableHlo.after_of_writes_sub _ _ Writes.hostOps3_2 (by decide)
    _ = W12 m ρ c (Proc.devRef .tc main_arg9) := StableHlo.after_of_writes_sub _ _ Writes.hostOps3_1 (by decide)
    _ = W11 m ρ c (Proc.devRef .tc main_arg9) := StableHlo.after_of_writes_sub _ _ Writes.hostOps3 (by decide)
    _ = W10 m ρ c (Proc.devRef .tc main_arg9) := W11_of_ne m ρ c main_arg9 (by decide)
    _ = W9 m ρ c (Proc.devRef .tc main_arg9) := StableHlo.after_of_writes_sub _ _ Writes.hostOps2_4 (by decide)
    _ = W8 m ρ c (Proc.devRef .tc main_arg9) := StableHlo.after_of_writes_sub _ _ Writes.hostOps2_3 (by decide)
    _ = W7 m ρ c (Proc.devRef .tc main_arg9) := StableHlo.after_of_writes_sub _ _ Writes.hostOps2_2 (by decide)
    _ = W6 m ρ c (Proc.devRef .tc main_arg9) := StableHlo.after_of_writes_sub _ _ Writes.hostOps2_1 (by decide)
    _ = W5 m ρ c (Proc.devRef .tc main_arg9) := StableHlo.after_of_writes_sub _ _ Writes.hostOps2 (by decide)
    _ = W4 m ρ c (Proc.devRef .tc main_arg9) := W5_of_ne m ρ c main_arg9 (by decide)
    _ = W3 m ρ c (Proc.devRef .tc main_arg9) := StableHlo.after_of_writes_sub _ _ Writes.hostOps1_2 (by decide)
    _ = W2 m ρ c (Proc.devRef .tc main_arg9) := StableHlo.after_of_writes_sub _ _ Writes.hostOps1_1 (by decide)
    _ = W1 m ρ c (Proc.devRef .tc main_arg9) := StableHlo.after_of_writes_sub _ _ Writes.hostOps1 (by decide)
    _ = W0 m ρ c (Proc.devRef .tc main_arg9) := W1_of_ne m ρ c main_arg9 (by decide)

/-- Nothing between boundaries 0 and 15 writes `main_arg4`. -/
theorem keep_arg4_0_15 (c : Dev nD) : W15 m ρ c (Proc.devRef .tc main_arg4) = W0 m ρ c (Proc.devRef .tc main_arg4) :=
  calc W15 m ρ c (Proc.devRef .tc main_arg4)
    _ = W14 m ρ c (Proc.devRef .tc main_arg4) := W15_of_ne m ρ c main_arg4 (by decide)
    _ = W13 m ρ c (Proc.devRef .tc main_arg4) := StableHlo.after_of_writes_sub _ _ Writes.hostOps3_2 (by decide)
    _ = W12 m ρ c (Proc.devRef .tc main_arg4) := StableHlo.after_of_writes_sub _ _ Writes.hostOps3_1 (by decide)
    _ = W11 m ρ c (Proc.devRef .tc main_arg4) := StableHlo.after_of_writes_sub _ _ Writes.hostOps3 (by decide)
    _ = W10 m ρ c (Proc.devRef .tc main_arg4) := W11_of_ne m ρ c main_arg4 (by decide)
    _ = W9 m ρ c (Proc.devRef .tc main_arg4) := StableHlo.after_of_writes_sub _ _ Writes.hostOps2_4 (by decide)
    _ = W8 m ρ c (Proc.devRef .tc main_arg4) := StableHlo.after_of_writes_sub _ _ Writes.hostOps2_3 (by decide)
    _ = W7 m ρ c (Proc.devRef .tc main_arg4) := StableHlo.after_of_writes_sub _ _ Writes.hostOps2_2 (by decide)
    _ = W6 m ρ c (Proc.devRef .tc main_arg4) := StableHlo.after_of_writes_sub _ _ Writes.hostOps2_1 (by decide)
    _ = W5 m ρ c (Proc.devRef .tc main_arg4) := StableHlo.after_of_writes_sub _ _ Writes.hostOps2 (by decide)
    _ = W4 m ρ c (Proc.devRef .tc main_arg4) := W5_of_ne m ρ c main_arg4 (by decide)
    _ = W3 m ρ c (Proc.devRef .tc main_arg4) := StableHlo.after_of_writes_sub _ _ Writes.hostOps1_2 (by decide)
    _ = W2 m ρ c (Proc.devRef .tc main_arg4) := StableHlo.after_of_writes_sub _ _ Writes.hostOps1_1 (by decide)
    _ = W1 m ρ c (Proc.devRef .tc main_arg4) := StableHlo.after_of_writes_sub _ _ Writes.hostOps1 (by decide)
    _ = W0 m ρ c (Proc.devRef .tc main_arg4) := W1_of_ne m ρ c main_arg4 (by decide)

/-- Nothing between boundaries 0 and 14 writes `main_arg10`. -/
theorem keep_arg10_0_14 (c : Dev nD) : W14 m ρ c (Proc.devRef .tc main_arg10) = W0 m ρ c (Proc.devRef .tc main_arg10) :=
  calc W14 m ρ c (Proc.devRef .tc main_arg10)
    _ = W13 m ρ c (Proc.devRef .tc main_arg10) := StableHlo.after_of_writes_sub _ _ Writes.hostOps3_2 (by decide)
    _ = W12 m ρ c (Proc.devRef .tc main_arg10) := StableHlo.after_of_writes_sub _ _ Writes.hostOps3_1 (by decide)
    _ = W11 m ρ c (Proc.devRef .tc main_arg10) := StableHlo.after_of_writes_sub _ _ Writes.hostOps3 (by decide)
    _ = W10 m ρ c (Proc.devRef .tc main_arg10) := W11_of_ne m ρ c main_arg10 (by decide)
    _ = W9 m ρ c (Proc.devRef .tc main_arg10) := StableHlo.after_of_writes_sub _ _ Writes.hostOps2_4 (by decide)
    _ = W8 m ρ c (Proc.devRef .tc main_arg10) := StableHlo.after_of_writes_sub _ _ Writes.hostOps2_3 (by decide)
    _ = W7 m ρ c (Proc.devRef .tc main_arg10) := StableHlo.after_of_writes_sub _ _ Writes.hostOps2_2 (by decide)
    _ = W6 m ρ c (Proc.devRef .tc main_arg10) := StableHlo.after_of_writes_sub _ _ Writes.hostOps2_1 (by decide)
    _ = W5 m ρ c (Proc.devRef .tc main_arg10) := StableHlo.after_of_writes_sub _ _ Writes.hostOps2 (by decide)
    _ = W4 m ρ c (Proc.devRef .tc main_arg10) := W5_of_ne m ρ c main_arg10 (by decide)
    _ = W3 m ρ c (Proc.devRef .tc main_arg10) := StableHlo.after_of_writes_sub _ _ Writes.hostOps1_2 (by decide)
    _ = W2 m ρ c (Proc.devRef .tc main_arg10) := StableHlo.after_of_writes_sub _ _ Writes.hostOps1_1 (by decide)
    _ = W1 m ρ c (Proc.devRef .tc main_arg10) := StableHlo.after_of_writes_sub _ _ Writes.hostOps1 (by decide)
    _ = W0 m ρ c (Proc.devRef .tc main_arg10) := W1_of_ne m ρ c main_arg10 (by decide)

/-- Nothing between boundaries 0 and 10 writes `main_arg8`. -/
theorem keep_arg8_0_10 (c : Dev nD) : W10 m ρ c (Proc.devRef .tc main_arg8) = W0 m ρ c (Proc.devRef .tc main_arg8) :=
  calc W10 m ρ c (Proc.devRef .tc main_arg8)
    _ = W9 m ρ c (Proc.devRef .tc main_arg8) := StableHlo.after_of_writes_sub _ _ Writes.hostOps2_4 (by decide)
    _ = W8 m ρ c (Proc.devRef .tc main_arg8) := StableHlo.after_of_writes_sub _ _ Writes.hostOps2_3 (by decide)
    _ = W7 m ρ c (Proc.devRef .tc main_arg8) := StableHlo.after_of_writes_sub _ _ Writes.hostOps2_2 (by decide)
    _ = W6 m ρ c (Proc.devRef .tc main_arg8) := StableHlo.after_of_writes_sub _ _ Writes.hostOps2_1 (by decide)
    _ = W5 m ρ c (Proc.devRef .tc main_arg8) := StableHlo.after_of_writes_sub _ _ Writes.hostOps2 (by decide)
    _ = W4 m ρ c (Proc.devRef .tc main_arg8) := W5_of_ne m ρ c main_arg8 (by decide)
    _ = W3 m ρ c (Proc.devRef .tc main_arg8) := StableHlo.after_of_writes_sub _ _ Writes.hostOps1_2 (by decide)
    _ = W2 m ρ c (Proc.devRef .tc main_arg8) := StableHlo.after_of_writes_sub _ _ Writes.hostOps1_1 (by decide)
    _ = W1 m ρ c (Proc.devRef .tc main_arg8) := StableHlo.after_of_writes_sub _ _ Writes.hostOps1 (by decide)
    _ = W0 m ρ c (Proc.devRef .tc main_arg8) := W1_of_ne m ρ c main_arg8 (by decide)

/-- Nothing between boundaries 0 and 5 writes `main_arg5`. -/
theorem keep_arg5_0_5 (c : Dev nD) : W5 m ρ c (Proc.devRef .tc main_arg5) = W0 m ρ c (Proc.devRef .tc main_arg5) :=
  calc W5 m ρ c (Proc.devRef .tc main_arg5)
    _ = W4 m ρ c (Proc.devRef .tc main_arg5) := W5_of_ne m ρ c main_arg5 (by decide)
    _ = W3 m ρ c (Proc.devRef .tc main_arg5) := StableHlo.after_of_writes_sub _ _ Writes.hostOps1_2 (by decide)
    _ = W2 m ρ c (Proc.devRef .tc main_arg5) := StableHlo.after_of_writes_sub _ _ Writes.hostOps1_1 (by decide)
    _ = W1 m ρ c (Proc.devRef .tc main_arg5) := StableHlo.after_of_writes_sub _ _ Writes.hostOps1 (by decide)
    _ = W0 m ρ c (Proc.devRef .tc main_arg5) := W1_of_ne m ρ c main_arg5 (by decide)

/-- Nothing between boundaries 15 and 19 writes `main_v140`. -/
theorem keep_v140_15_19 (c : Dev nD) : W19 m ρ c (Proc.devRef .tc main_v140) = W15 m ρ c (Proc.devRef .tc main_v140) :=
  calc W19 m ρ c (Proc.devRef .tc main_v140)
    _ = W18 m ρ c (Proc.devRef .tc main_v140) := StableHlo.after_of_writes_sub _ _ Writes.hostOps4_3 (by decide)
    _ = W17 m ρ c (Proc.devRef .tc main_v140) := StableHlo.after_of_writes_sub _ _ Writes.hostOps4_2 (by decide)
    _ = W16 m ρ c (Proc.devRef .tc main_v140) := StableHlo.after_of_writes_sub _ _ Writes.hostOps4_1 (by decide)
    _ = W15 m ρ c (Proc.devRef .tc main_v140) := StableHlo.after_of_writes_sub _ _ Writes.hostOps4 (by decide)

/-- Nothing between boundaries 39 and 42 writes `main_v338`. -/
theorem keep_v338_39_42 (c : Dev nD) : W42 m ρ c (Proc.devRef .tc main_v338) = W39 m ρ c (Proc.devRef .tc main_v338) :=
  calc W42 m ρ c (Proc.devRef .tc main_v338)
    _ = W41 m ρ c (Proc.devRef .tc main_v338) := StableHlo.after_of_writes_sub _ _ Writes.hostOps10_3 (by decide)
    _ = W40 m ρ c (Proc.devRef .tc main_v338) := StableHlo.after_of_writes_sub _ _ Writes.hostOps10_2 (by decide)
    _ = W39 m ρ c (Proc.devRef .tc main_v338) := StableHlo.after_of_writes_sub _ _ Writes.hostOps10_1 (by decide)

/-- Nothing between boundaries 29 and 32 writes `main_v243`. -/
theorem keep_v243_29_32 (c : Dev nD) : W32 m ρ c (Proc.devRef .tc main_v243) = W29 m ρ c (Proc.devRef .tc main_v243) :=
  calc W32 m ρ c (Proc.devRef .tc main_v243)
    _ = W31 m ρ c (Proc.devRef .tc main_v243) := StableHlo.after_of_writes_sub _ _ Writes.hostOps8_3 (by decide)
    _ = W30 m ρ c (Proc.devRef .tc main_v243) := StableHlo.after_of_writes_sub _ _ Writes.hostOps8_2 (by decide)
    _ = W29 m ρ c (Proc.devRef .tc main_v243) := StableHlo.after_of_writes_sub _ _ Writes.hostOps8_1 (by decide)

/-- Nothing between boundaries 6 and 9 writes `main_v47`. -/
theorem keep_v47_6_9 (c : Dev nD) : W9 m ρ c (Proc.devRef .tc main_v47) = W6 m ρ c (Proc.devRef .tc main_v47) :=
  calc W9 m ρ c (Proc.devRef .tc main_v47)
    _ = W8 m ρ c (Proc.devRef .tc main_v47) := StableHlo.after_of_writes_sub _ _ Writes.hostOps2_3 (by decide)
    _ = W7 m ρ c (Proc.devRef .tc main_v47) := StableHlo.after_of_writes_sub _ _ Writes.hostOps2_2 (by decide)
    _ = W6 m ρ c (Proc.devRef .tc main_v47) := StableHlo.after_of_writes_sub _ _ Writes.hostOps2_1 (by decide)

/-- Nothing between boundaries 30 and 32 writes `main_v257`. -/
theorem keep_v257_30_32 (c : Dev nD) : W32 m ρ c (Proc.devRef .tc main_v257) = W30 m ρ c (Proc.devRef .tc main_v257) :=
  calc W32 m ρ c (Proc.devRef .tc main_v257)
    _ = W31 m ρ c (Proc.devRef .tc main_v257) := StableHlo.after_of_writes_sub _ _ Writes.hostOps8_3 (by decide)
    _ = W30 m ρ c (Proc.devRef .tc main_v257) := StableHlo.after_of_writes_sub _ _ Writes.hostOps8_2 (by decide)

/-- Nothing between boundaries 17 and 19 writes `main_v156`. -/
theorem keep_v156_17_19 (c : Dev nD) : W19 m ρ c (Proc.devRef .tc main_v156) = W17 m ρ c (Proc.devRef .tc main_v156) :=
  calc W19 m ρ c (Proc.devRef .tc main_v156)
    _ = W18 m ρ c (Proc.devRef .tc main_v156) := StableHlo.after_of_writes_sub _ _ Writes.hostOps4_3 (by decide)
    _ = W17 m ρ c (Proc.devRef .tc main_v156) := StableHlo.after_of_writes_sub _ _ Writes.hostOps4_2 (by decide)

/-- Nothing between boundaries 43 and 44 writes `main_v387`. -/
theorem keep_v387_43_44 (c : Dev nD) : W44 m ρ c (Proc.devRef .tc main_v387) = W43 m ρ c (Proc.devRef .tc main_v387) :=
  calc W44 m ρ c (Proc.devRef .tc main_v387)
    _ = W43 m ρ c (Proc.devRef .tc main_v387) := W44_of_ne m ρ c main_v387 (by decide)

/-- Nothing between boundaries 35 and 36 writes `main_v297`. -/
theorem keep_v297_35_36 (c : Dev nD) : W36 m ρ c (Proc.devRef .tc main_v297) = W35 m ρ c (Proc.devRef .tc main_v297) :=
  calc W36 m ρ c (Proc.devRef .tc main_v297)
    _ = W35 m ρ c (Proc.devRef .tc main_v297) := StableHlo.after_of_writes_sub _ _ Writes.hostOps9_1 (by decide)

/-- Nothing between boundaries 25 and 26 writes `main_v203`. -/
theorem keep_v203_25_26 (c : Dev nD) : W26 m ρ c (Proc.devRef .tc main_v203) = W25 m ρ c (Proc.devRef .tc main_v203) :=
  calc W26 m ρ c (Proc.devRef .tc main_v203)
    _ = W25 m ρ c (Proc.devRef .tc main_v203) := StableHlo.after_of_writes_sub _ _ Writes.hostOps7_1 (by decide)

/-- Nothing between boundaries 12 and 13 writes `main_v102`. -/
theorem keep_v102_12_13 (c : Dev nD) : W13 m ρ c (Proc.devRef .tc main_v102) = W12 m ρ c (Proc.devRef .tc main_v102) :=
  calc W13 m ρ c (Proc.devRef .tc main_v102)
    _ = W12 m ρ c (Proc.devRef .tc main_v102) := StableHlo.after_of_writes_sub _ _ Writes.hostOps3_1 (by decide)

/-- Nothing between boundaries 0 and 1 writes `main_arg2`. -/
theorem keep_arg2_0_1 (c : Dev nD) : W1 m ρ c (Proc.devRef .tc main_arg2) = W0 m ρ c (Proc.devRef .tc main_arg2) :=
  calc W1 m ρ c (Proc.devRef .tc main_arg2)
    _ = W0 m ρ c (Proc.devRef .tc main_arg2) := W1_of_ne m ρ c main_arg2 (by decide)

end Cert.KernelIdeal.Keep

end
-- ==== Proof.Chain.lean ====
import proofs.«143428_j3564822855941_1_alg».proof.Proof.KernelIdealFrameP
import proofs.«143428_j3564822855941_1_alg».proof.Proof.ReferenceIdealReadP
import proofs.«143428_j3564822855941_1_alg».proof.Proof.Lin0
import proofs.«143428_j3564822855941_1_alg».proof.Proof.Lin1
import proofs.«143428_j3564822855941_1_alg».proof.Proof.Lin2
import proofs.«143428_j3564822855941_1_alg».proof.Proof.Lin3
import proofs.«143428_j3564822855941_1_alg».proof.Proof.Comb4
import proofs.«143428_j3564822855941_1_alg».proof.Proof.Comb5
import proofs.«143428_j3564822855941_1_alg».proof.Proof.Lin6
import proofs.«143428_j3564822855941_1_alg».proof.Proof.Lin7
import proofs.«143428_j3564822855941_1_alg».proof.Proof.Lin8
import proofs.«143428_j3564822855941_1_alg».proof.Proof.Lin9
import proofs.«143428_j3564822855941_1_alg».proof.Proof.Comb10
import proofs.«143428_j3564822855941_1_alg».proof.Proof.Comb11
import proofs.«143428_j3564822855941_1_alg».proof.Proof.Glue1
import proofs.«143428_j3564822855941_1_alg».proof.Proof.Glue2
import proofs.«143428_j3564822855941_1_alg».proof.Proof.Glue3
import proofs.«143428_j3564822855941_1_alg».proof.Proof.Glue4
import proofs.«143428_j3564822855941_1_alg».proof.Proof.Glue5
import proofs.«143428_j3564822855941_1_alg».proof.Proof.Glue7
import proofs.«143428_j3564822855941_1_alg».proof.Proof.Glue8
import proofs.«143428_j3564822855941_1_alg».proof.Proof.Glue9
import proofs.«143428_j3564822855941_1_alg».proof.Proof.Glue10
import proofs.«143428_j3564822855941_1_alg».proof.Proof.Glue11
import proofs.«143428_j3564822855941_1_alg».proof.Proof.Bridge
import proofs.«143428_j3564822855941_1_alg».proof.Proof.KeepA
import proofs.«143428_j3564822855941_1_alg».proof.Proof.KeepB
import proofs.«143428_j3564822855941_1_alg».proof.Proof.KeepC
import proofs.«143428_j3564822855941_1_alg».proof.Proof.KeepD

/-! The kernel program's buffers, boundary by boundary, against the reference's stages. Each region's output is the
    whole-array function of the arrays it finds (a matrix product, or a clamped sum); each stretch of host operations is
    the same sequence of operations the reference applies; so each buffer that a later region or stretch reads holds the
    reference's value for it, as a function of the argument arrays. The two programs differ only where the biases enter
    (the regrouping of a four-term sum), and the last lines are the two results. -/

set_option maxRecDepth 16384
set_option maxHeartbeats 2000000

noncomputable section

namespace Cert.KernelIdeal.Chain

open Cert.KernelIdeal Cert.KernelIdeal.Gen Cert.KernelIdeal.GenP Idealize.ShloMosaic Idealize.ShloMosaic.TcCoe Idealize.SL.Sem Idealize.ShloMosaic.StableHlo

variable (m : (ℓ : Loc nD τ sig) → Buf (Elt Ideal) ℓ) (ρ : Dev nD → PrngReg)

/-- Region 0's output array is the reference's matrix product stage. -/
theorem at1_v0 (c : Dev nD) : W1 m ρ c (Proc.devRef .tc main_v0) = (Cert.ReferenceIdeal.ReadP.val_main_v0 (F := Ideal) (m ((c : Thread nD τ).loc main_arg0)) (m ((c : Thread nD τ).loc main_arg6))) := by
  have hx : V0 m ρ c main_arg0 = (m ((c : Thread nD τ).loc main_arg0)) := rfl
  have hw : V0 m ρ c main_arg6 = (m ((c : Thread nD τ).loc main_arg6)) := rfl
  refine (W1_arr m ρ c 2).trans ((Lin0.final (V0 m ρ) c).trans ?_)
  rw [hx, hw]
  funext i
  rw [Cert.ReferenceIdeal.ReadP.val_main_v0_apply]
  rfl

theorem at2_v6 (c : Dev nD) : W2 m ρ c (Proc.devRef .tc main_v6) = (Cert.ReferenceIdeal.ReadP.val_main_v7 (F := Ideal) (m ((c : Thread nD τ).loc main_arg2))) :=
  Glue.seg_v6 (W1 m ρ c) (m ((c : Thread nD τ).loc main_arg2)) ((Keep.keep_arg2_0_1 m ρ c).trans rfl)

theorem at2_v7 (c : Dev nD) : W2 m ρ c (Proc.devRef .tc main_v7) = (Cert.ReferenceIdeal.ReadP.val_main_v8 (F := Ideal) (m ((c : Thread nD τ).loc main_arg2))) :=
  Glue.seg_v7 (W1 m ρ c) (m ((c : Thread nD τ).loc main_arg2)) ((Keep.keep_arg2_0_1 m ρ c).trans rfl)

theorem at2_v13 (c : Dev nD) : W2 m ρ c (Proc.devRef .tc main_v13) = (Cert.ReferenceIdeal.ReadP.val_main_v14 (F := Ideal) (m ((c : Thread nD τ).loc main_arg2))) :=
  Glue.seg_v13 (W1 m ρ c) (m ((c : Thread nD τ).loc main_arg2)) ((Keep.keep_arg2_0_1 m ρ c).trans rfl)

theorem at2_v15 (c : Dev nD) : W2 m ρ c (Proc.devRef .tc main_v15) = (Cert.ReferenceIdeal.ReadP.val_main_v16 (F := Ideal) (m ((c : Thread nD τ).loc main_arg2))) :=
  Glue.seg_v15 (W1 m ρ c) (m ((c : Thread nD τ).loc main_arg2)) ((Keep.keep_arg2_0_1 m ρ c).trans rfl)

theorem at2_cst_3 (c : Dev nD) : W2 m ρ c (Proc.devRef .tc main_cst_3) = (Cert.ReferenceIdeal.ReadP.val_main_cst_1 (F := Ideal)) :=
  Glue.seg_cst_3 (W1 m ρ c)

theorem at3_v16 (c : Dev nD) : W3 m ρ c (Proc.devRef .tc main_v16) = (Cert.ReferenceIdeal.ReadP.val_main_v17 (F := Ideal) (m ((c : Thread nD τ).loc main_arg2))) :=
  Glue.seg_v16 (W2 m ρ c) (m ((c : Thread nD τ).loc main_arg2)) (at2_v13 m ρ c) (at2_v15 m ρ c) (at2_cst_3 m ρ c)

theorem at4_v44 (c : Dev nD) : W4 m ρ c (Proc.devRef .tc main_v44) = (Cert.ReferenceIdeal.ReadP.val_main_v45 (F := Ideal) (m ((c : Thread nD τ).loc main_arg0)) (m ((c : Thread nD τ).loc main_arg2)) (m ((c : Thread nD τ).loc main_arg6))) :=
  Glue.seg_v44 (W3 m ρ c) (m ((c : Thread nD τ).loc main_arg0)) (m ((c : Thread nD τ).loc main_arg2)) (m ((c : Thread nD τ).loc main_arg6)) ((Keep.keep_v7_2_3 m ρ c).trans (at2_v7 m ρ c)) ((Keep.keep_v0_1_3 m ρ c).trans (at1_v0 m ρ c)) ((Keep.keep_v6_2_3 m ρ c).trans (at2_v6 m ρ c)) (at3_v16 m ρ c)

/-- Region 1's output array is the reference's matrix product stage. -/
theorem at5_v45 (c : Dev nD) : W5 m ρ c (Proc.devRef .tc main_v45) = (Cert.ReferenceIdeal.ReadP.val_main_v49 (F := Ideal) (m ((c : Thread nD τ).loc main_arg1)) (m ((c : Thread nD τ).loc main_arg12))) := by
  have hx : V4 m ρ c main_arg1 = (m ((c : Thread nD τ).loc main_arg1)) := ((Keep.keep_arg1_0_4 m ρ c).trans rfl)
  have hw : V4 m ρ c main_arg12 = (m ((c : Thread nD τ).loc main_arg12)) := ((Keep.keep_arg12_0_4 m ρ c).trans rfl)
  refine (W5_arr m ρ c 2).trans ((Lin1.final (V4 m ρ) c).trans ?_)
  rw [hx, hw]
  funext i
  rw [Cert.ReferenceIdeal.ReadP.val_main_v49_apply]
  rfl

theorem at6_v47 (c : Dev nD) : W6 m ρ c (Proc.devRef .tc main_v47) = (Cert.ReferenceIdeal.ReadP.val_main_v51 (F := Ideal) (m ((c : Thread nD τ).loc main_arg5))) :=
  Glue.seg_v47 (W5 m ρ c) (m ((c : Thread nD τ).loc main_arg5)) ((Keep.keep_arg5_0_5 m ρ c).trans rfl)

theorem at6_v49 (c : Dev nD) : W6 m ρ c (Proc.devRef .tc main_v49) = (Cert.ReferenceIdeal.ReadP.val_main_v53 (F := Ideal) (m ((c : Thread nD τ).loc main_arg5))) :=
  Glue.seg_v49 (W5 m ρ c) (m ((c : Thread nD τ).loc main_arg5)) ((Keep.keep_arg5_0_5 m ρ c).trans rfl)

theorem at6_v56 (c : Dev nD) : W6 m ρ c (Proc.devRef .tc main_v56) = (Cert.ReferenceIdeal.ReadP.val_main_v60 (F := Ideal) (m ((c : Thread nD τ).loc main_arg5))) :=
  Glue.seg_v56 (W5 m ρ c) (m ((c : Thread nD τ).loc main_arg5)) ((Keep.keep_arg5_0_5 m ρ c).trans rfl)

theorem at6_v58 (c : Dev nD) : W6 m ρ c (Proc.devRef .tc main_v58) = (Cert.ReferenceIdeal.ReadP.val_main_v62 (F := Ideal) (m ((c : Thread nD τ).loc main_arg5))) :=
  Glue.seg_v58 (W5 m ρ c) (m ((c : Thread nD τ).loc main_arg5)) ((Keep.keep_arg5_0_5 m ρ c).trans rfl)

theorem at6_v60 (c : Dev nD) : W6 m ρ c (Proc.devRef .tc main_v60) = (Cert.ReferenceIdeal.ReadP.val_main_v64 (F := Ideal) (m ((c : Thread nD τ).loc main_arg5))) :=
  Glue.seg_v60 (W5 m ρ c) (m ((c : Thread nD τ).loc main_arg5)) ((Keep.keep_arg5_0_5 m ρ c).trans rfl)

theorem at6_cst_15 (c : Dev nD) : W6 m ρ c (Proc.devRef .tc main_cst_15) = (Cert.ReferenceIdeal.ReadP.val_main_cst_1 (F := Ideal)) :=
  Glue.seg_cst_15 (W5 m ρ c)

theorem at7_v61 (c : Dev nD) : W7 m ρ c (Proc.devRef .tc main_v61) = (Cert.ReferenceIdeal.ReadP.val_main_v65 (F := Ideal) (m ((c : Thread nD τ).loc main_arg5))) :=
  Glue.seg_v61 (W6 m ρ c) (m ((c : Thread nD τ).loc main_arg5)) (at6_v58 m ρ c) (at6_v60 m ρ c) (at6_cst_15 m ρ c)

theorem at8_v63 (c : Dev nD) : W8 m ρ c (Proc.devRef .tc main_v63) = (Cert.ReferenceIdeal.ReadP.val_main_v67 (F := Ideal) (m ((c : Thread nD τ).loc main_arg5))) :=
  Glue.seg_v63 (W7 m ρ c) (m ((c : Thread nD τ).loc main_arg5)) ((Keep.keep_v56_6_7 m ρ c).trans (at6_v56 m ρ c))

theorem at8_v65 (c : Dev nD) : W8 m ρ c (Proc.devRef .tc main_v65) = (Cert.ReferenceIdeal.ReadP.val_main_v69 (F := Ideal) (m ((c : Thread nD τ).loc main_arg5))) :=
  Glue.seg_v65 (W7 m ρ c) (m ((c : Thread nD τ).loc main_arg5)) ((Keep.keep_v56_6_7 m ρ c).trans (at6_v56 m ρ c))

theorem at8_cst_18 (c : Dev nD) : W8 m ρ c (Proc.devRef .tc main_cst_18) = (Cert.ReferenceIdeal.ReadP.val_main_cst_1 (F := Ideal)) :=
  Glue.seg_cst_18 (W7 m ρ c)

theorem at9_v66 (c : Dev nD) : W9 m ρ c (Proc.devRef .tc main_v66) = (Cert.ReferenceIdeal.ReadP.val_main_v70 (F := Ideal) (m ((c : Thread nD τ).loc main_arg5))) :=
  Glue.seg_v66 (W8 m ρ c) (m ((c : Thread nD τ).loc main_arg5)) (at8_v63 m ρ c) (at8_v65 m ρ c) (at8_cst_18 m ρ c)

theorem at10_v94 (c : Dev nD) : W10 m ρ c (Proc.devRef .tc main_v94) = (Cert.ReferenceIdeal.ReadP.val_main_v98 (F := Ideal) (m ((c : Thread nD τ).loc main_arg1)) (m ((c : Thread nD τ).loc main_arg5)) (m ((c : Thread nD τ).loc main_arg12))) :=
  Glue.seg_v94 (W9 m ρ c) (m ((c : Thread nD τ).loc main_arg1)) (m ((c : Thread nD τ).loc main_arg5)) (m ((c : Thread nD τ).loc main_arg12)) ((Keep.keep_v49_6_9 m ρ c).trans (at6_v49 m ρ c)) ((Keep.keep_v45_5_9 m ρ c).trans (at5_v45 m ρ c)) ((Keep.keep_v47_6_9 m ρ c).trans (at6_v47 m ρ c)) ((Keep.keep_v61_7_9 m ρ c).trans (at7_v61 m ρ c)) (at9_v66 m ρ c)

/-- Region 2's output array is the reference's matrix product stage. -/
theorem at11_v95 (c : Dev nD) : W11 m ρ c (Proc.devRef .tc main_v95) = (Cert.ReferenceIdeal.ReadP.val_main_v103 (F := Ideal) (m ((c : Thread nD τ).loc main_arg1)) (m ((c : Thread nD τ).loc main_arg8))) := by
  have hx : V10 m ρ c main_arg1 = (m ((c : Thread nD τ).loc main_arg1)) := ((Keep.keep_arg1_0_10 m ρ c).trans rfl)
  have hw : V10 m ρ c main_arg8 = (m ((c : Thread nD τ).loc main_arg8)) := ((Keep.keep_arg8_0_10 m ρ c).trans rfl)
  refine (W11_arr m ρ c 2).trans ((Lin2.final (V10 m ρ) c).trans ?_)
  rw [hx, hw]
  funext i
  rw [Cert.ReferenceIdeal.ReadP.val_main_v103_apply]
  rfl

theorem at12_v101 (c : Dev nD) : W12 m ρ c (Proc.devRef .tc main_v101) = (Cert.ReferenceIdeal.ReadP.val_main_v110 (F := Ideal) (m ((c : Thread nD τ).loc main_arg3))) :=
  Glue.seg_v101 (W11 m ρ c) (m ((c : Thread nD τ).loc main_arg3)) ((Keep.keep_arg3_0_11 m ρ c).trans rfl)

theorem at12_v102 (c : Dev nD) : W12 m ρ c (Proc.devRef .tc main_v102) = (Cert.ReferenceIdeal.ReadP.val_main_v111 (F := Ideal) (m ((c : Thread nD τ).loc main_arg3))) :=
  Glue.seg_v102 (W11 m ρ c) (m ((c : Thread nD τ).loc main_arg3)) ((Keep.keep_arg3_0_11 m ρ c).trans rfl)

theorem at12_v108 (c : Dev nD) : W12 m ρ c (Proc.devRef .tc main_v108) = (Cert.ReferenceIdeal.ReadP.val_main_v117 (F := Ideal) (m ((c : Thread nD τ).loc main_arg3))) :=
  Glue.seg_v108 (W11 m ρ c) (m ((c : Thread nD τ).loc main_arg3)) ((Keep.keep_arg3_0_11 m ρ c).trans rfl)

theorem at12_v110 (c : Dev nD) : W12 m ρ c (Proc.devRef .tc main_v110) = (Cert.ReferenceIdeal.ReadP.val_main_v119 (F := Ideal) (m ((c : Thread nD τ).loc main_arg3))) :=
  Glue.seg_v110 (W11 m ρ c) (m ((c : Thread nD τ).loc main_arg3)) ((Keep.keep_arg3_0_11 m ρ c).trans rfl)

theorem at12_cst_30 (c : Dev nD) : W12 m ρ c (Proc.devRef .tc main_cst_30) = (Cert.ReferenceIdeal.ReadP.val_main_cst_1 (F := Ideal)) :=
  Glue.seg_cst_30 (W11 m ρ c)

theorem at13_v111 (c : Dev nD) : W13 m ρ c (Proc.devRef .tc main_v111) = (Cert.ReferenceIdeal.ReadP.val_main_v120 (F := Ideal) (m ((c : Thread nD τ).loc main_arg3))) :=
  Glue.seg_v111 (W12 m ρ c) (m ((c : Thread nD τ).loc main_arg3)) (at12_v108 m ρ c) (at12_v110 m ρ c) (at12_cst_30 m ρ c)

theorem at14_v139 (c : Dev nD) : W14 m ρ c (Proc.devRef .tc main_v139) = (Cert.ReferenceIdeal.ReadP.val_main_v148 (F := Ideal) (m ((c : Thread nD τ).loc main_arg1)) (m ((c : Thread nD τ).loc main_arg3)) (m ((c : Thread nD τ).loc main_arg8))) :=
  Glue.seg_v139 (W13 m ρ c) (m ((c : Thread nD τ).loc main_arg1)) (m ((c : Thread nD τ).loc main_arg3)) (m ((c : Thread nD τ).loc main_arg8)) ((Keep.keep_v102_12_13 m ρ c).trans (at12_v102 m ρ c)) ((Keep.keep_v95_11_13 m ρ c).trans (at11_v95 m ρ c)) ((Keep.keep_v101_12_13 m ρ c).trans (at12_v101 m ρ c)) (at13_v111 m ρ c)

/-- Region 3's output array is the reference's matrix product stage. -/
theorem at15_v140 (c : Dev nD) : W15 m ρ c (Proc.devRef .tc main_v140) = (Cert.ReferenceIdeal.ReadP.val_main_v152 (F := Ideal) (m ((c : Thread nD τ).loc main_arg0)) (m ((c : Thread nD τ).loc main_arg10))) := by
  have hx : V14 m ρ c main_arg0 = (m ((c : Thread nD τ).loc main_arg0)) := ((Keep.keep_arg0_0_14 m ρ c).trans rfl)
  have hw : V14 m ρ c main_arg10 = (m ((c : Thread nD τ).loc main_arg10)) := ((Keep.keep_arg10_0_14 m ρ c).trans rfl)
  refine (W15_arr m ρ c 2).trans ((Lin3.final (V14 m ρ) c).trans ?_)
  rw [hx, hw]
  funext i
  rw [Cert.ReferenceIdeal.ReadP.val_main_v152_apply]
  rfl

theorem at16_v142 (c : Dev nD) : W16 m ρ c (Proc.devRef .tc main_v142) = (Cert.ReferenceIdeal.ReadP.val_main_v154 (F := Ideal) (m ((c : Thread nD τ).loc main_arg4))) :=
  Glue.seg_v142 (W15 m ρ c) (m ((c : Thread nD τ).loc main_arg4)) ((Keep.keep_arg4_0_15 m ρ c).trans rfl)

theorem at16_v144 (c : Dev nD) : W16 m ρ c (Proc.devRef .tc main_v144) = (Cert.ReferenceIdeal.ReadP.val_main_v156 (F := Ideal) (m ((c : Thread nD τ).loc main_arg4))) :=
  Glue.seg_v144 (W15 m ρ c) (m ((c : Thread nD τ).loc main_arg4)) ((Keep.keep_arg4_0_15 m ρ c).trans rfl)

theorem at16_v151 (c : Dev nD) : W16 m ρ c (Proc.devRef .tc main_v151) = (Cert.ReferenceIdeal.ReadP.val_main_v163 (F := Ideal) (m ((c : Thread nD τ).loc main_arg4))) :=
  Glue.seg_v151 (W15 m ρ c) (m ((c : Thread nD τ).loc main_arg4)) ((Keep.keep_arg4_0_15 m ρ c).trans rfl)

theorem at16_v153 (c : Dev nD) : W16 m ρ c (Proc.devRef .tc main_v153) = (Cert.ReferenceIdeal.ReadP.val_main_v165 (F := Ideal) (m ((c : Thread nD τ).loc main_arg4))) :=
  Glue.seg_v153 (W15 m ρ c) (m ((c : Thread nD τ).loc main_arg4)) ((Keep.keep_arg4_0_15 m ρ c).trans rfl)

theorem at16_v155 (c : Dev nD) : W16 m ρ c (Proc.devRef .tc main_v155) = (Cert.ReferenceIdeal.ReadP.val_main_v167 (F := Ideal) (m ((c : Thread nD τ).loc main_arg4))) :=
  Glue.seg_v155 (W15 m ρ c) (m ((c : Thread nD τ).loc main_arg4)) ((Keep.keep_arg4_0_15 m ρ c).trans rfl)

theorem at16_cst_43 (c : Dev nD) : W16 m ρ c (Proc.devRef .tc main_cst_43) = (Cert.ReferenceIdeal.ReadP.val_main_cst_1 (F := Ideal)) :=
  Glue.seg_cst_43 (W15 m ρ c)

theorem at17_v156 (c : Dev nD) : W17 m ρ c (Proc.devRef .tc main_v156) = (Cert.ReferenceIdeal.ReadP.val_main_v168 (F := Ideal) (m ((c : Thread nD τ).loc main_arg4))) :=
  Glue.seg_v156 (W16 m ρ c) (m ((c : Thread nD τ).loc main_arg4)) (at16_v153 m ρ c) (at16_v155 m ρ c) (at16_cst_43 m ρ c)

theorem at18_v158 (c : Dev nD) : W18 m ρ c (Proc.devRef .tc main_v158) = (Cert.ReferenceIdeal.ReadP.val_main_v170 (F := Ideal) (m ((c : Thread nD τ).loc main_arg4))) :=
  Glue.seg_v158 (W17 m ρ c) (m ((c : Thread nD τ).loc main_arg4)) ((Keep.keep_v151_16_17 m ρ c).trans (at16_v151 m ρ c))

theorem at18_v160 (c : Dev nD) : W18 m ρ c (Proc.devRef .tc main_v160) = (Cert.ReferenceIdeal.ReadP.val_main_v172 (F := Ideal) (m ((c : Thread nD τ).loc main_arg4))) :=
  Glue.seg_v160 (W17 m ρ c) (m ((c : Thread nD τ).loc main_arg4)) ((Keep.keep_v151_16_17 m ρ c).trans (at16_v151 m ρ c))

theorem at18_cst_46 (c : Dev nD) : W18 m ρ c (Proc.devRef .tc main_cst_46) = (Cert.ReferenceIdeal.ReadP.val_main_cst_1 (F := Ideal)) :=
  Glue.seg_cst_46 (W17 m ρ c)

theorem at19_v161 (c : Dev nD) : W19 m ρ c (Proc.devRef .tc main_v161) = (Cert.ReferenceIdeal.ReadP.val_main_v173 (F := Ideal) (m ((c : Thread nD τ).loc main_arg4))) :=
  Glue.seg_v161 (W18 m ρ c) (m ((c : Thread nD τ).loc main_arg4)) (at18_v158 m ρ c) (at18_v160 m ρ c) (at18_cst_46 m ρ c)

theorem at20_v189 (c : Dev nD) : W20 m ρ c (Proc.devRef .tc main_v189) = (Cert.ReferenceIdeal.ReadP.val_main_v201 (F := Ideal) (m ((c : Thread nD τ).loc main_arg0)) (m ((c : Thread nD τ).loc main_arg4)) (m ((c : Thread nD τ).loc main_arg10))) :=
  Glue.seg_v189 (W19 m ρ c) (m ((c : Thread nD τ).loc main_arg0)) (m ((c : Thread nD τ).loc main_arg4)) (m ((c : Thread nD τ).loc main_arg10)) ((Keep.keep_v144_16_19 m ρ c).trans (at16_v144 m ρ c)) ((Keep.keep_v140_15_19 m ρ c).trans (at15_v140 m ρ c)) ((Keep.keep_v142_16_19 m ρ c).trans (at16_v142 m ρ c)) ((Keep.keep_v156_17_19 m ρ c).trans (at17_v156 m ρ c)) (at19_v161 m ρ c)

theorem at20_v191 (c : Dev nD) : W20 m ρ c (Proc.devRef .tc main_v191) = (addf (F := Ideal) (s := S64) (φ := .f32) (m ((c : Thread nD τ).loc main_arg9)) (m ((c : Thread nD τ).loc main_arg11))) :=
  Glue.seg_v191 (W19 m ρ c) (m ((c : Thread nD τ).loc main_arg9)) (m ((c : Thread nD τ).loc main_arg11)) ((Keep.keep_arg9_0_19 m ρ c).trans rfl) ((Keep.keep_arg11_0_19 m ρ c).trans rfl)

theorem at20_v192 (c : Dev nD) : W20 m ρ c (Proc.devRef .tc main_v192) = (shapeCast S1x64 (addf (F := Ideal) (s := S64) (φ := .f32) (m ((c : Thread nD τ).loc main_arg7)) (m ((c : Thread nD τ).loc main_arg13))) shapeCasts_S64_S1x64 : (⟨S1x64, .f32⟩ : BufTy).Contents (Elt Ideal)) :=
  Glue.seg_v192 (W19 m ρ c) (m ((c : Thread nD τ).loc main_arg7)) (m ((c : Thread nD τ).loc main_arg13)) ((Keep.keep_arg7_0_19 m ρ c).trans rfl) ((Keep.keep_arg13_0_19 m ρ c).trans rfl)

/-- Region 4's output array is the reference's clamped sum stage. -/
theorem at21_v193 (c : Dev nD) : W21 m ρ c (Proc.devRef .tc main_v193) = (Cert.ReferenceIdeal.ReadP.val_main_v206 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg12)) (m ((c : Thread nD τ).loc main_arg13))) := by
  have ha : V20 m ρ c main_v44 = (Cert.ReferenceIdeal.ReadP.val_main_v45 (F := Ideal) (m ((c : Thread nD τ).loc main_arg0)) (m ((c : Thread nD τ).loc main_arg2)) (m ((c : Thread nD τ).loc main_arg6))) := ((Keep.keep_v44_4_20 m ρ c).trans (at4_v44 m ρ c))
  have hb : V20 m ρ c main_v94 = (Cert.ReferenceIdeal.ReadP.val_main_v98 (F := Ideal) (m ((c : Thread nD τ).loc main_arg1)) (m ((c : Thread nD τ).loc main_arg5)) (m ((c : Thread nD τ).loc main_arg12))) := ((Keep.keep_v94_10_20 m ρ c).trans (at10_v94 m ρ c))
  have hbias : V20 m ρ c main_v192 = (shapeCast S1x64 (addf (F := Ideal) (s := S64) (φ := .f32) (m ((c : Thread nD τ).loc main_arg7)) (m ((c : Thread nD τ).loc main_arg13))) shapeCasts_S64_S1x64 : (⟨S1x64, .f32⟩ : BufTy).Contents (Elt Ideal)) := (at20_v192 m ρ c)
  refine (W21_arr m ρ c 3).trans ((Comb4.final (V20 m ρ) c).trans ?_)
  rw [ha, hb, hbias]
  exact Bridge.comb4 (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg12)) (m ((c : Thread nD τ).loc main_arg13))

theorem at22_v194 (c : Dev nD) : W22 m ρ c (Proc.devRef .tc main_v194) = (shapeCast S1x64 (addf (F := Ideal) (s := S64) (φ := .f32) (m ((c : Thread nD τ).loc main_arg9)) (m ((c : Thread nD τ).loc main_arg11))) shapeCasts_S64_S1x64 : (⟨S1x64, .f32⟩ : BufTy).Contents (Elt Ideal)) :=
  Glue.seg_v194 (W21 m ρ c) (m ((c : Thread nD τ).loc main_arg9)) (m ((c : Thread nD τ).loc main_arg11)) ((Keep.keep_v191_20_21 m ρ c).trans (at20_v191 m ρ c))

/-- Region 5's output array is the reference's clamped sum stage. -/
theorem at23_v195 (c : Dev nD) : W23 m ρ c (Proc.devRef .tc main_v195) = (Cert.ReferenceIdeal.ReadP.val_main_v207 (F := Ideal) (m ((c : Thread nD τ).loc main_arg0)) (m ((c : Thread nD τ).loc main_arg1)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11))) := by
  have ha : V22 m ρ c main_v139 = (Cert.ReferenceIdeal.ReadP.val_main_v148 (F := Ideal) (m ((c : Thread nD τ).loc main_arg1)) (m ((c : Thread nD τ).loc main_arg3)) (m ((c : Thread nD τ).loc main_arg8))) := ((Keep.keep_v139_14_22 m ρ c).trans (at14_v139 m ρ c))
  have hb : V22 m ρ c main_v189 = (Cert.ReferenceIdeal.ReadP.val_main_v201 (F := Ideal) (m ((c : Thread nD τ).loc main_arg0)) (m ((c : Thread nD τ).loc main_arg4)) (m ((c : Thread nD τ).loc main_arg10))) := ((Keep.keep_v189_20_22 m ρ c).trans (at20_v189 m ρ c))
  have hbias : V22 m ρ c main_v194 = (shapeCast S1x64 (addf (F := Ideal) (s := S64) (φ := .f32) (m ((c : Thread nD τ).loc main_arg9)) (m ((c : Thread nD τ).loc main_arg11))) shapeCasts_S64_S1x64 : (⟨S1x64, .f32⟩ : BufTy).Contents (Elt Ideal)) := (at22_v194 m ρ c)
  refine (W23_arr m ρ c 3).trans ((Comb5.final (V22 m ρ) c).trans ?_)
  rw [ha, hb, hbias]
  exact Bridge.comb5 (m ((c : Thread nD τ).loc main_arg0)) (m ((c : Thread nD τ).loc main_arg1)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11))

/-- Region 6's output array is the reference's matrix product stage. -/
theorem at24_v196 (c : Dev nD) : W24 m ρ c (Proc.devRef .tc main_v196) = (Cert.ReferenceIdeal.ReadP.val_main_v208 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg12)) (m ((c : Thread nD τ).loc main_arg13)) (m ((c : Thread nD τ).loc main_arg14))) := by
  have hx : V23 m ρ c main_v193 = (Cert.ReferenceIdeal.ReadP.val_main_v206 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg12)) (m ((c : Thread nD τ).loc main_arg13))) := ((Keep.keep_v193_21_23 m ρ c).trans (at21_v193 m ρ c))
  have hw : V23 m ρ c main_arg14 = (m ((c : Thread nD τ).loc main_arg14)) := ((Keep.keep_arg14_0_23 m ρ c).trans rfl)
  refine (W24_arr m ρ c 2).trans ((Lin6.final (V23 m ρ) c).trans ?_)
  rw [hx, hw]
  funext i
  rw [Cert.ReferenceIdeal.ReadP.val_main_v208_apply]
  rfl

theorem at25_v202 (c : Dev nD) : W25 m ρ c (Proc.devRef .tc main_v202) = (Cert.ReferenceIdeal.ReadP.val_main_v7 (F := Ideal) (m ((c : Thread nD τ).loc main_arg2))) :=
  Glue.seg_v202 (W24 m ρ c) (m ((c : Thread nD τ).loc main_arg2)) ((Keep.keep_arg2_0_24 m ρ c).trans rfl)

theorem at25_v203 (c : Dev nD) : W25 m ρ c (Proc.devRef .tc main_v203) = (Cert.ReferenceIdeal.ReadP.val_main_v8 (F := Ideal) (m ((c : Thread nD τ).loc main_arg2))) :=
  Glue.seg_v203 (W24 m ρ c) (m ((c : Thread nD τ).loc main_arg2)) ((Keep.keep_arg2_0_24 m ρ c).trans rfl)

theorem at25_v209 (c : Dev nD) : W25 m ρ c (Proc.devRef .tc main_v209) = (Cert.ReferenceIdeal.ReadP.val_main_v14 (F := Ideal) (m ((c : Thread nD τ).loc main_arg2))) :=
  Glue.seg_v209 (W24 m ρ c) (m ((c : Thread nD τ).loc main_arg2)) ((Keep.keep_arg2_0_24 m ρ c).trans rfl)

theorem at25_v211 (c : Dev nD) : W25 m ρ c (Proc.devRef .tc main_v211) = (Cert.ReferenceIdeal.ReadP.val_main_v16 (F := Ideal) (m ((c : Thread nD τ).loc main_arg2))) :=
  Glue.seg_v211 (W24 m ρ c) (m ((c : Thread nD τ).loc main_arg2)) ((Keep.keep_arg2_0_24 m ρ c).trans rfl)

theorem at25_cst_58 (c : Dev nD) : W25 m ρ c (Proc.devRef .tc main_cst_58) = (Cert.ReferenceIdeal.ReadP.val_main_cst_1 (F := Ideal)) :=
  Glue.seg_cst_58 (W24 m ρ c)

theorem at26_v212 (c : Dev nD) : W26 m ρ c (Proc.devRef .tc main_v212) = (Cert.ReferenceIdeal.ReadP.val_main_v17 (F := Ideal) (m ((c : Thread nD τ).loc main_arg2))) :=
  Glue.seg_v212 (W25 m ρ c) (m ((c : Thread nD τ).loc main_arg2)) (at25_v209 m ρ c) (at25_v211 m ρ c) (at25_cst_58 m ρ c)

theorem at27_v240 (c : Dev nD) : W27 m ρ c (Proc.devRef .tc main_v240) = (Cert.ReferenceIdeal.ReadP.val_main_v253 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg12)) (m ((c : Thread nD τ).loc main_arg13)) (m ((c : Thread nD τ).loc main_arg14))) :=
  Glue.seg_v240 (W26 m ρ c) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg12)) (m ((c : Thread nD τ).loc main_arg13)) (m ((c : Thread nD τ).loc main_arg14)) ((Keep.keep_v203_25_26 m ρ c).trans (at25_v203 m ρ c)) ((Keep.keep_v196_24_26 m ρ c).trans (at24_v196 m ρ c)) ((Keep.keep_v202_25_26 m ρ c).trans (at25_v202 m ρ c)) (at26_v212 m ρ c)

/-- Region 7's output array is the reference's matrix product stage. -/
theorem at28_v241 (c : Dev nD) : W28 m ρ c (Proc.devRef .tc main_v241) = (Cert.ReferenceIdeal.ReadP.val_main_v257 (F := Ideal) (m ((c : Thread nD τ).loc main_arg0)) (m ((c : Thread nD τ).loc main_arg1)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11)) (m ((c : Thread nD τ).loc main_arg20))) := by
  have hx : V27 m ρ c main_v195 = (Cert.ReferenceIdeal.ReadP.val_main_v207 (F := Ideal) (m ((c : Thread nD τ).loc main_arg0)) (m ((c : Thread nD τ).loc main_arg1)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11))) := ((Keep.keep_v195_23_27 m ρ c).trans (at23_v195 m ρ c))
  have hw : V27 m ρ c main_arg20 = (m ((c : Thread nD τ).loc main_arg20)) := ((Keep.keep_arg20_0_27 m ρ c).trans rfl)
  refine (W28_arr m ρ c 2).trans ((Lin7.final (V27 m ρ) c).trans ?_)
  rw [hx, hw]
  funext i
  rw [Cert.ReferenceIdeal.ReadP.val_main_v257_apply]
  rfl

theorem at29_v243 (c : Dev nD) : W29 m ρ c (Proc.devRef .tc main_v243) = (Cert.ReferenceIdeal.ReadP.val_main_v51 (F := Ideal) (m ((c : Thread nD τ).loc main_arg5))) :=
  Glue.seg_v243 (W28 m ρ c) (m ((c : Thread nD τ).loc main_arg5)) ((Keep.keep_arg5_0_28 m ρ c).trans rfl)

theorem at29_v245 (c : Dev nD) : W29 m ρ c (Proc.devRef .tc main_v245) = (Cert.ReferenceIdeal.ReadP.val_main_v53 (F := Ideal) (m ((c : Thread nD τ).loc main_arg5))) :=
  Glue.seg_v245 (W28 m ρ c) (m ((c : Thread nD τ).loc main_arg5)) ((Keep.keep_arg5_0_28 m ρ c).trans rfl)

theorem at29_v252 (c : Dev nD) : W29 m ρ c (Proc.devRef .tc main_v252) = (Cert.ReferenceIdeal.ReadP.val_main_v60 (F := Ideal) (m ((c : Thread nD τ).loc main_arg5))) :=
  Glue.seg_v252 (W28 m ρ c) (m ((c : Thread nD τ).loc main_arg5)) ((Keep.keep_arg5_0_28 m ρ c).trans rfl)

theorem at29_v254 (c : Dev nD) : W29 m ρ c (Proc.devRef .tc main_v254) = (Cert.ReferenceIdeal.ReadP.val_main_v62 (F := Ideal) (m ((c : Thread nD τ).loc main_arg5))) :=
  Glue.seg_v254 (W28 m ρ c) (m ((c : Thread nD τ).loc main_arg5)) ((Keep.keep_arg5_0_28 m ρ c).trans rfl)

theorem at29_v256 (c : Dev nD) : W29 m ρ c (Proc.devRef .tc main_v256) = (Cert.ReferenceIdeal.ReadP.val_main_v64 (F := Ideal) (m ((c : Thread nD τ).loc main_arg5))) :=
  Glue.seg_v256 (W28 m ρ c) (m ((c : Thread nD τ).loc main_arg5)) ((Keep.keep_arg5_0_28 m ρ c).trans rfl)

theorem at29_cst_71 (c : Dev nD) : W29 m ρ c (Proc.devRef .tc main_cst_71) = (Cert.ReferenceIdeal.ReadP.val_main_cst_1 (F := Ideal)) :=
  Glue.seg_cst_71 (W28 m ρ c)

theorem at30_v257 (c : Dev nD) : W30 m ρ c (Proc.devRef .tc main_v257) = (Cert.ReferenceIdeal.ReadP.val_main_v65 (F := Ideal) (m ((c : Thread nD τ).loc main_arg5))) :=
  Glue.seg_v257 (W29 m ρ c) (m ((c : Thread nD τ).loc main_arg5)) (at29_v254 m ρ c) (at29_v256 m ρ c) (at29_cst_71 m ρ c)

theorem at31_v259 (c : Dev nD) : W31 m ρ c (Proc.devRef .tc main_v259) = (Cert.ReferenceIdeal.ReadP.val_main_v67 (F := Ideal) (m ((c : Thread nD τ).loc main_arg5))) :=
  Glue.seg_v259 (W30 m ρ c) (m ((c : Thread nD τ).loc main_arg5)) ((Keep.keep_v252_29_30 m ρ c).trans (at29_v252 m ρ c))

theorem at31_v261 (c : Dev nD) : W31 m ρ c (Proc.devRef .tc main_v261) = (Cert.ReferenceIdeal.ReadP.val_main_v69 (F := Ideal) (m ((c : Thread nD τ).loc main_arg5))) :=
  Glue.seg_v261 (W30 m ρ c) (m ((c : Thread nD τ).loc main_arg5)) ((Keep.keep_v252_29_30 m ρ c).trans (at29_v252 m ρ c))

theorem at31_cst_74 (c : Dev nD) : W31 m ρ c (Proc.devRef .tc main_cst_74) = (Cert.ReferenceIdeal.ReadP.val_main_cst_1 (F := Ideal)) :=
  Glue.seg_cst_74 (W30 m ρ c)

theorem at32_v262 (c : Dev nD) : W32 m ρ c (Proc.devRef .tc main_v262) = (Cert.ReferenceIdeal.ReadP.val_main_v70 (F := Ideal) (m ((c : Thread nD τ).loc main_arg5))) :=
  Glue.seg_v262 (W31 m ρ c) (m ((c : Thread nD τ).loc main_arg5)) (at31_v259 m ρ c) (at31_v261 m ρ c) (at31_cst_74 m ρ c)

theorem at33_v290 (c : Dev nD) : W33 m ρ c (Proc.devRef .tc main_v290) = (Cert.ReferenceIdeal.ReadP.val_main_v306 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg20))) :=
  Glue.seg_v290 (W32 m ρ c) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg20)) ((Keep.keep_v245_29_32 m ρ c).trans (at29_v245 m ρ c)) ((Keep.keep_v241_28_32 m ρ c).trans (at28_v241 m ρ c)) ((Keep.keep_v243_29_32 m ρ c).trans (at29_v243 m ρ c)) ((Keep.keep_v257_30_32 m ρ c).trans (at30_v257 m ρ c)) (at32_v262 m ρ c)

/-- Region 8's output array is the reference's matrix product stage. -/
theorem at34_v291 (c : Dev nD) : W34 m ρ c (Proc.devRef .tc main_v291) = (Cert.ReferenceIdeal.ReadP.val_main_v311 (F := Ideal) (m ((c : Thread nD τ).loc main_arg0)) (m ((c : Thread nD τ).loc main_arg1)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11)) (m ((c : Thread nD τ).loc main_arg16))) := by
  have hx : V33 m ρ c main_v195 = (Cert.ReferenceIdeal.ReadP.val_main_v207 (F := Ideal) (m ((c : Thread nD τ).loc main_arg0)) (m ((c : Thread nD τ).loc main_arg1)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11))) := ((Keep.keep_v195_23_33 m ρ c).trans (at23_v195 m ρ c))
  have hw : V33 m ρ c main_arg16 = (m ((c : Thread nD τ).loc main_arg16)) := ((Keep.keep_arg16_0_33 m ρ c).trans rfl)
  refine (W34_arr m ρ c 2).trans ((Lin8.final (V33 m ρ) c).trans ?_)
  rw [hx, hw]
  funext i
  rw [Cert.ReferenceIdeal.ReadP.val_main_v311_apply]
  rfl

theorem at35_v297 (c : Dev nD) : W35 m ρ c (Proc.devRef .tc main_v297) = (Cert.ReferenceIdeal.ReadP.val_main_v110 (F := Ideal) (m ((c : Thread nD τ).loc main_arg3))) :=
  Glue.seg_v297 (W34 m ρ c) (m ((c : Thread nD τ).loc main_arg3)) ((Keep.keep_arg3_0_34 m ρ c).trans rfl)

theorem at35_v298 (c : Dev nD) : W35 m ρ c (Proc.devRef .tc main_v298) = (Cert.ReferenceIdeal.ReadP.val_main_v111 (F := Ideal) (m ((c : Thread nD τ).loc main_arg3))) :=
  Glue.seg_v298 (W34 m ρ c) (m ((c : Thread nD τ).loc main_arg3)) ((Keep.keep_arg3_0_34 m ρ c).trans rfl)

theorem at35_v304 (c : Dev nD) : W35 m ρ c (Proc.devRef .tc main_v304) = (Cert.ReferenceIdeal.ReadP.val_main_v117 (F := Ideal) (m ((c : Thread nD τ).loc main_arg3))) :=
  Glue.seg_v304 (W34 m ρ c) (m ((c : Thread nD τ).loc main_arg3)) ((Keep.keep_arg3_0_34 m ρ c).trans rfl)

theorem at35_v306 (c : Dev nD) : W35 m ρ c (Proc.devRef .tc main_v306) = (Cert.ReferenceIdeal.ReadP.val_main_v119 (F := Ideal) (m ((c : Thread nD τ).loc main_arg3))) :=
  Glue.seg_v306 (W34 m ρ c) (m ((c : Thread nD τ).loc main_arg3)) ((Keep.keep_arg3_0_34 m ρ c).trans rfl)

theorem at35_cst_86 (c : Dev nD) : W35 m ρ c (Proc.devRef .tc main_cst_86) = (Cert.ReferenceIdeal.ReadP.val_main_cst_1 (F := Ideal)) :=
  Glue.seg_cst_86 (W34 m ρ c)

theorem at36_v307 (c : Dev nD) : W36 m ρ c (Proc.devRef .tc main_v307) = (Cert.ReferenceIdeal.ReadP.val_main_v120 (F := Ideal) (m ((c : Thread nD τ).loc main_arg3))) :=
  Glue.seg_v307 (W35 m ρ c) (m ((c : Thread nD τ).loc main_arg3)) (at35_v304 m ρ c) (at35_v306 m ρ c) (at35_cst_86 m ρ c)

theorem at37_v335 (c : Dev nD) : W37 m ρ c (Proc.devRef .tc main_v335) = (Cert.ReferenceIdeal.ReadP.val_main_v356 (F := Ideal) (m ((c : Thread nD τ).loc main_arg0)) (m ((c : Thread nD τ).loc main_arg1)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11)) (m ((c : Thread nD τ).loc main_arg16))) :=
  Glue.seg_v335 (W36 m ρ c) (m ((c : Thread nD τ).loc main_arg0)) (m ((c : Thread nD τ).loc main_arg1)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11)) (m ((c : Thread nD τ).loc main_arg16)) ((Keep.keep_v298_35_36 m ρ c).trans (at35_v298 m ρ c)) ((Keep.keep_v291_34_36 m ρ c).trans (at34_v291 m ρ c)) ((Keep.keep_v297_35_36 m ρ c).trans (at35_v297 m ρ c)) (at36_v307 m ρ c)

/-- Region 9's output array is the reference's matrix product stage. -/
theorem at38_v336 (c : Dev nD) : W38 m ρ c (Proc.devRef .tc main_v336) = (Cert.ReferenceIdeal.ReadP.val_main_v360 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg12)) (m ((c : Thread nD τ).loc main_arg13)) (m ((c : Thread nD τ).loc main_arg18))) := by
  have hx : V37 m ρ c main_v193 = (Cert.ReferenceIdeal.ReadP.val_main_v206 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg12)) (m ((c : Thread nD τ).loc main_arg13))) := ((Keep.keep_v193_21_37 m ρ c).trans (at21_v193 m ρ c))
  have hw : V37 m ρ c main_arg18 = (m ((c : Thread nD τ).loc main_arg18)) := ((Keep.keep_arg18_0_37 m ρ c).trans rfl)
  refine (W38_arr m ρ c 2).trans ((Lin9.final (V37 m ρ) c).trans ?_)
  rw [hx, hw]
  funext i
  rw [Cert.ReferenceIdeal.ReadP.val_main_v360_apply]
  rfl

theorem at39_v338 (c : Dev nD) : W39 m ρ c (Proc.devRef .tc main_v338) = (Cert.ReferenceIdeal.ReadP.val_main_v154 (F := Ideal) (m ((c : Thread nD τ).loc main_arg4))) :=
  Glue.seg_v338 (W38 m ρ c) (m ((c : Thread nD τ).loc main_arg4)) ((Keep.keep_arg4_0_38 m ρ c).trans rfl)

theorem at39_v340 (c : Dev nD) : W39 m ρ c (Proc.devRef .tc main_v340) = (Cert.ReferenceIdeal.ReadP.val_main_v156 (F := Ideal) (m ((c : Thread nD τ).loc main_arg4))) :=
  Glue.seg_v340 (W38 m ρ c) (m ((c : Thread nD τ).loc main_arg4)) ((Keep.keep_arg4_0_38 m ρ c).trans rfl)

theorem at39_v347 (c : Dev nD) : W39 m ρ c (Proc.devRef .tc main_v347) = (Cert.ReferenceIdeal.ReadP.val_main_v163 (F := Ideal) (m ((c : Thread nD τ).loc main_arg4))) :=
  Glue.seg_v347 (W38 m ρ c) (m ((c : Thread nD τ).loc main_arg4)) ((Keep.keep_arg4_0_38 m ρ c).trans rfl)

theorem at39_v349 (c : Dev nD) : W39 m ρ c (Proc.devRef .tc main_v349) = (Cert.ReferenceIdeal.ReadP.val_main_v165 (F := Ideal) (m ((c : Thread nD τ).loc main_arg4))) :=
  Glue.seg_v349 (W38 m ρ c) (m ((c : Thread nD τ).loc main_arg4)) ((Keep.keep_arg4_0_38 m ρ c).trans rfl)

theorem at39_v351 (c : Dev nD) : W39 m ρ c (Proc.devRef .tc main_v351) = (Cert.ReferenceIdeal.ReadP.val_main_v167 (F := Ideal) (m ((c : Thread nD τ).loc main_arg4))) :=
  Glue.seg_v351 (W38 m ρ c) (m ((c : Thread nD τ).loc main_arg4)) ((Keep.keep_arg4_0_38 m ρ c).trans rfl)

theorem at39_cst_99 (c : Dev nD) : W39 m ρ c (Proc.devRef .tc main_cst_99) = (Cert.ReferenceIdeal.ReadP.val_main_cst_1 (F := Ideal)) :=
  Glue.seg_cst_99 (W38 m ρ c)

theorem at40_v352 (c : Dev nD) : W40 m ρ c (Proc.devRef .tc main_v352) = (Cert.ReferenceIdeal.ReadP.val_main_v168 (F := Ideal) (m ((c : Thread nD τ).loc main_arg4))) :=
  Glue.seg_v352 (W39 m ρ c) (m ((c : Thread nD τ).loc main_arg4)) (at39_v349 m ρ c) (at39_v351 m ρ c) (at39_cst_99 m ρ c)

theorem at41_v354 (c : Dev nD) : W41 m ρ c (Proc.devRef .tc main_v354) = (Cert.ReferenceIdeal.ReadP.val_main_v170 (F := Ideal) (m ((c : Thread nD τ).loc main_arg4))) :=
  Glue.seg_v354 (W40 m ρ c) (m ((c : Thread nD τ).loc main_arg4)) ((Keep.keep_v347_39_40 m ρ c).trans (at39_v347 m ρ c))

theorem at41_v356 (c : Dev nD) : W41 m ρ c (Proc.devRef .tc main_v356) = (Cert.ReferenceIdeal.ReadP.val_main_v172 (F := Ideal) (m ((c : Thread nD τ).loc main_arg4))) :=
  Glue.seg_v356 (W40 m ρ c) (m ((c : Thread nD τ).loc main_arg4)) ((Keep.keep_v347_39_40 m ρ c).trans (at39_v347 m ρ c))

theorem at41_cst_102 (c : Dev nD) : W41 m ρ c (Proc.devRef .tc main_cst_102) = (Cert.ReferenceIdeal.ReadP.val_main_cst_1 (F := Ideal)) :=
  Glue.seg_cst_102 (W40 m ρ c)

theorem at42_v357 (c : Dev nD) : W42 m ρ c (Proc.devRef .tc main_v357) = (Cert.ReferenceIdeal.ReadP.val_main_v173 (F := Ideal) (m ((c : Thread nD τ).loc main_arg4))) :=
  Glue.seg_v357 (W41 m ρ c) (m ((c : Thread nD τ).loc main_arg4)) (at41_v354 m ρ c) (at41_v356 m ρ c) (at41_cst_102 m ρ c)

theorem at43_v385 (c : Dev nD) : W43 m ρ c (Proc.devRef .tc main_v385) = (Cert.ReferenceIdeal.ReadP.val_main_v409 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg12)) (m ((c : Thread nD τ).loc main_arg13)) (m ((c : Thread nD τ).loc main_arg18))) :=
  Glue.seg_v385 (W42 m ρ c) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg12)) (m ((c : Thread nD τ).loc main_arg13)) (m ((c : Thread nD τ).loc main_arg18)) ((Keep.keep_v340_39_42 m ρ c).trans (at39_v340 m ρ c)) ((Keep.keep_v336_38_42 m ρ c).trans (at38_v336 m ρ c)) ((Keep.keep_v338_39_42 m ρ c).trans (at39_v338 m ρ c)) ((Keep.keep_v352_40_42 m ρ c).trans (at40_v352 m ρ c)) (at42_v357 m ρ c)

theorem at43_v387 (c : Dev nD) : W43 m ρ c (Proc.devRef .tc main_v387) = (addf (F := Ideal) (s := S32) (φ := .f32) (m ((c : Thread nD τ).loc main_arg17)) (m ((c : Thread nD τ).loc main_arg19))) :=
  Glue.seg_v387 (W42 m ρ c) (m ((c : Thread nD τ).loc main_arg17)) (m ((c : Thread nD τ).loc main_arg19)) ((Keep.keep_arg17_0_42 m ρ c).trans rfl) ((Keep.keep_arg19_0_42 m ρ c).trans rfl)

theorem at43_v388 (c : Dev nD) : W43 m ρ c (Proc.devRef .tc main_v388) = (shapeCast S1x32 (addf (F := Ideal) (s := S32) (φ := .f32) (m ((c : Thread nD τ).loc main_arg15)) (m ((c : Thread nD τ).loc main_arg21))) shapeCasts_S32_S1x32 : (⟨S1x32, .f32⟩ : BufTy).Contents (Elt Ideal)) :=
  Glue.seg_v388 (W42 m ρ c) (m ((c : Thread nD τ).loc main_arg15)) (m ((c : Thread nD τ).loc main_arg21)) ((Keep.keep_arg15_0_42 m ρ c).trans rfl) ((Keep.keep_arg21_0_42 m ρ c).trans rfl)

/-- Region 10's output array is the reference's clamped sum stage. -/
theorem at44_v389 (c : Dev nD) : W44 m ρ c (Proc.devRef .tc main_v389) = (Cert.ReferenceIdeal.ReadP.val_main_v414 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg20)) (m ((c : Thread nD τ).loc main_arg21))) := by
  have ha : V43 m ρ c main_v240 = (Cert.ReferenceIdeal.ReadP.val_main_v253 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg12)) (m ((c : Thread nD τ).loc main_arg13)) (m ((c : Thread nD τ).loc main_arg14))) := ((Keep.keep_v240_27_43 m ρ c).trans (at27_v240 m ρ c))
  have hb : V43 m ρ c main_v290 = (Cert.ReferenceIdeal.ReadP.val_main_v306 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg20))) := ((Keep.keep_v290_33_43 m ρ c).trans (at33_v290 m ρ c))
  have hbias : V43 m ρ c main_v388 = (shapeCast S1x32 (addf (F := Ideal) (s := S32) (φ := .f32) (m ((c : Thread nD τ).loc main_arg15)) (m ((c : Thread nD τ).loc main_arg21))) shapeCasts_S32_S1x32 : (⟨S1x32, .f32⟩ : BufTy).Contents (Elt Ideal)) := (at43_v388 m ρ c)
  refine (W44_arr m ρ c 3).trans ((Comb10.final (V43 m ρ) c).trans ?_)
  rw [ha, hb, hbias]
  exact Bridge.comb10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg20)) (m ((c : Thread nD τ).loc main_arg21))

theorem at45_v390 (c : Dev nD) : W45 m ρ c (Proc.devRef .tc main_v390) = (shapeCast S1x32 (addf (F := Ideal) (s := S32) (φ := .f32) (m ((c : Thread nD τ).loc main_arg17)) (m ((c : Thread nD τ).loc main_arg19))) shapeCasts_S32_S1x32 : (⟨S1x32, .f32⟩ : BufTy).Contents (Elt Ideal)) :=
  Glue.seg_v390 (W44 m ρ c) (m ((c : Thread nD τ).loc main_arg17)) (m ((c : Thread nD τ).loc main_arg19)) ((Keep.keep_v387_43_44 m ρ c).trans (at43_v387 m ρ c))

/-- Region 11's output array is the reference's clamped sum stage. -/
theorem at46_v391 (c : Dev nD) : W46 m ρ c (Proc.devRef .tc main_v391) = (Cert.ReferenceIdeal.ReadP.val_main_v415 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg16)) (m ((c : Thread nD τ).loc main_arg17)) (m ((c : Thread nD τ).loc main_arg18)) (m ((c : Thread nD τ).loc main_arg19))) := by
  have ha : V45 m ρ c main_v335 = (Cert.ReferenceIdeal.ReadP.val_main_v356 (F := Ideal) (m ((c : Thread nD τ).loc main_arg0)) (m ((c : Thread nD τ).loc main_arg1)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11)) (m ((c : Thread nD τ).loc main_arg16))) := ((Keep.keep_v335_37_45 m ρ c).trans (at37_v335 m ρ c))
  have hb : V45 m ρ c main_v385 = (Cert.ReferenceIdeal.ReadP.val_main_v409 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg12)) (m ((c : Thread nD τ).loc main_arg13)) (m ((c : Thread nD τ).loc main_arg18))) := ((Keep.keep_v385_43_45 m ρ c).trans (at43_v385 m ρ c))
  have hbias : V45 m ρ c main_v390 = (shapeCast S1x32 (addf (F := Ideal) (s := S32) (φ := .f32) (m ((c : Thread nD τ).loc main_arg17)) (m ((c : Thread nD τ).loc main_arg19))) shapeCasts_S32_S1x32 : (⟨S1x32, .f32⟩ : BufTy).Contents (Elt Ideal)) := (at45_v390 m ρ c)
  refine (W46_arr m ρ c 3).trans ((Comb11.final (V45 m ρ) c).trans ?_)
  rw [ha, hb, hbias]
  exact Bridge.comb11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg16)) (m ((c : Thread nD τ).loc main_arg17)) (m ((c : Thread nD τ).loc main_arg18)) (m ((c : Thread nD τ).loc main_arg19))

/-- The first result buffer at the end of the program. -/
theorem result0 (c : Dev nD) : W46 m ρ c (Proc.devRef .tc main_v389) = (Cert.ReferenceIdeal.ReadP.val_main_v414 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg20)) (m ((c : Thread nD τ).loc main_arg21))) := ((Keep.keep_v389_44_46 m ρ c).trans (at44_v389 m ρ c))

/-- The second result buffer at the end of the program. -/
theorem result1 (c : Dev nD) : W46 m ρ c (Proc.devRef .tc main_v391) = (Cert.ReferenceIdeal.ReadP.val_main_v415 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg16)) (m ((c : Thread nD τ).loc main_arg17)) (m ((c : Thread nD τ).loc main_arg18)) (m ((c : Thread nD τ).loc main_arg19))) := (at46_v391 m ρ c)

end Cert.KernelIdeal.Chain

end
-- ==== Proof.Claims.lean ====
import proofs.«143428_j3564822855941_1_alg».proof.Defs
import proofs.«143428_j3564822855941_1_alg».proof.Proof.Gen.Kernel
import proofs.«143428_j3564822855941_1_alg».proof.Proof.Gen.KernelIdeal
import proofs.«143428_j3564822855941_1_alg».proof.Proof.Gen.ReferenceIdeal
import proofs.«143428_j3564822855941_1_alg».proof.Proof.Gen.Pre_finite_inputs
import proofs.«143428_j3564822855941_1_alg».proof.Proof.KernelFrameP
import proofs.«143428_j3564822855941_1_alg».proof.Proof.KernelIdealFrameP
import proofs.«143428_j3564822855941_1_alg».proof.Proof.ReferenceIdealReadP
import proofs.«143428_j3564822855941_1_alg».proof.Proof.RunResults
import proofs.«143428_j3564822855941_1_alg».proof.Proof.Chain

/-! The five claims. The three frames are the programs' runs with the results dropped. The idealization rewrote
    nothing, so `preserves` is trivial. For `algebraic`: the kernel program's two result buffers end at the
    reference's last two stages, as functions of the kernel's argument arrays (the chain of boundaries); the
    reference program's end at the same stages of its own argument arrays; and the two memories agree on the
    arguments. No step uses finiteness of the inputs: the only law between the two programs is the regrouping of
    a sum of four extended reals. -/

set_option maxRecDepth 16384

noncomputable section

namespace Cert.Proof.Claims

open Idealize.ShloMosaic Idealize.ShloMosaic.TcCoe Idealize.SL.Sem

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2.2) (Cert.ReferenceIdeal.ValueP.run (F := Ideal) m ρ)

theorem preserves : Cert.preserves_Kernel_KernelIdeal := trivial

theorem algebraic : Cert.algebraic_KernelIdeal_ReferenceIdeal := by
  intro m ρ m' ρ' _ hagree
  refine ⟨fun c => (Cert.ReferenceIdeal.ReadP.val_main_v414 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))),
    fun c => (Cert.ReferenceIdeal.ReadP.val_main_v415 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))), ?_, ?_⟩
  · exact (θ_run Cert.KernelIdeal.defs _ _).mono
      (fun r h c => ⟨(h c).1.trans (Cert.KernelIdeal.Chain.result0 m ρ c), (h c).2.1.trans (Cert.KernelIdeal.Chain.result1 m ρ c), (h c).2.2⟩)
      (Cert.KernelIdeal.Results.run_results m ρ)
  · refine (θ_run Cert.ReferenceIdeal.defs _ _).mono (fun r h c => ?_) (Cert.ReferenceIdeal.ValueP.run (F := Ideal) m' ρ')
    obtain ⟨e0, e1, e2, e3, e4, e5, e6, e7, e8, e9, e10, e11, e12, e13, e14, e15, e16, e17, e18, e19, e20, e21⟩ := hagree c
    refine ⟨?_, ?_, (h c).2.2⟩
    · rw [(h c).1, Cert.ReferenceIdeal.ReadP.val_main_v414_eq]
      simp only [e0, e1, e2, e3, e4, e5, e6, e7, e8, e9, e10, e11, e12, e13, e14, e15, e16, e17, e18, e19, e20, e21]
    · rw [(h c).2.1, Cert.ReferenceIdeal.ReadP.val_main_v415_eq]
      simp only [e0, e1, e2, e3, e4, e5, e6, e7, e8, e9, e10, e11, e12, e13, e14, e15, e16, e17, e18, e19, e20, e21]

end Cert.Proof.Claims

end
-- ==== Proof.lean ====
import proofs.«143428_j3564822855941_1_alg».proof.Defs
import proofs.«143428_j3564822855941_1_alg».proof.Proof.Claims

/-! The certificate: a two-layer heterogeneous graph convolution (gene and disease nodes, four relations). The kernel
    program computes the eight dense transforms `x · W` and the four "sum of two relations + bias, clamped at zero"
    steps in twelve row-tiled regions and leaves the degree normalisation, the gather along the edges and the
    scatter-add to the host; the reference does everything on the host. Over the extended reals the tiled products are
    the whole products, the host operations are the same on both sides, and the biases enter by a regrouped sum. -/

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
